-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v446)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v446) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v486) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x3 : Shape := ⟨2, ![2000000, 3]⟩
abbrev S3x16x300x300 : Shape := ⟨4, ![3, 16, 300, 300]⟩
abbrev S3x16x300 : Shape := ⟨3, ![3, 16, 300]⟩
abbrev S_ : Shape := ⟨0, ![]⟩

class Facts : Prop where
  bcast_S_S2000000x3 : S_.BroadcastsInDim S2000000x3 (![] : Fin 0 → Fin S2000000x3.rank)
  reducesTo_S2000000x3_S_d0_1 : S2000000x3.ReducesTo [0, 1] S_
  h_S_ : 0 < S_.numel
  bcast_S_S3x16x300x300 : S_.BroadcastsInDim S3x16x300x300 (![] : Fin 0 → Fin S3x16x300x300.rank)
  reducesTo_S3x16x300x300_S_d0_1_2_3 : S3x16x300x300.ReducesTo [0, 1, 2, 3] S_
  bcast_S_S3x16x300 : S_.BroadcastsInDim S3x16x300 (![] : Fin 0 → Fin S3x16x300.rank)
  reducesTo_S3x16x300_S_d0_1_2 : S3x16x300.ReducesTo [0, 1, 2] S_

variable [Facts]

def fn {F : FTy → Type} [FloatOps F] (main_arg0 : FVec F S2000000x3 .f32) (main_arg1 : FVec F S3x16x300x300 .f32) (main_arg2 : FVec F S3x16x300 .f32) : IVec S_ 1 :=
  let main_v0 : FVec F S2000000x3 .f32 := Host.absf main_arg0
  let main_cst : FVec F S_ .f32 := constant S_ .f32 0x7F800000#32
  let main_v1 : FVec F S2000000x3 .f32 := broadcastInDim S2000000x3 ![] bcast_S_S2000000x3 main_cst
  let main_v2 : IVec S2000000x3 1 := cmpf .olt main_v0 main_v1
  let main_c : IVec S_ 1 := constantI S_ 1 1#1
  let main_v3 : IVec S_ 1 := (fun x v => Host.reduce IntOp.andi x v reducesTo_S2000000x3_S_d0_1 h_S_) main_v2 main_c
  let main_v4 : FVec F S3x16x300x300 .f32 := Host.absf main_arg1
  let main_cst_0 : FVec F S_ .f32 := constant S_ .f32 0x7F800000#32
  let main_v5 : FVec F S3x16x300x300 .f32 := broadcastInDim S3x16x300x300 ![] bcast_S_S3x16x300x300 main_cst_0
  let main_v6 : IVec S3x16x300x300 1 := cmpf .olt main_v4 main_v5
  let main_c_1 : IVec S_ 1 := constantI S_ 1 1#1
  let main_v7 : IVec S_ 1 := (fun x v => Host.reduce IntOp.andi x v reducesTo_S3x16x300x300_S_d0_1_2_3 h_S_) main_v6 main_c_1
  let main_v8 : IVec S_ 1 := andi main_v3 main_v7
  let main_v9 : FVec F S3x16x300 .f32 := Host.absf main_arg2
  let main_cst_2 : FVec F S_ .f32 := constant S_ .f32 0x7F800000#32
  let main_v10 : FVec F S3x16x300 .f32 := broadcastInDim S3x16x300 ![] bcast_S_S3x16x300 main_cst_2
  let main_v11 : IVec S3x16x300 1 := cmpf .olt main_v9 main_v10
  let main_c_3 : IVec S_ 1 := constantI S_ 1 1#1
  let main_v12 : IVec S_ 1 := (fun x v => Host.reduce IntOp.andi x v reducesTo_S3x16x300_S_d0_1_2 h_S_) main_v11 main_c_3
  let main_v13 : IVec S_ 1 := andi main_v8 main_v12
  main_v13
-- ==== Kernel.lean ====
abbrev S2000000x3 : Shape := ⟨2, ![2000000, 3]⟩
abbrev S3x16x300x300 : Shape := ⟨4, ![3, 16, 300, 300]⟩
abbrev S3x16x300 : Shape := ⟨3, ![3, 16, 300]⟩
abbrev S3x300x300x16 : Shape := ⟨4, ![3, 300, 300, 16]⟩
abbrev S3x300x16 : Shape := ⟨3, ![3, 300, 16]⟩
abbrev S1x300x300x16 : Shape := ⟨4, ![1, 300, 300, 16]⟩
abbrev S300x300x16 : Shape := ⟨3, ![300, 300, 16]⟩
abbrev S2000000x1 : Shape := ⟨2, ![2000000, 1]⟩
abbrev S2000000 : Shape := ⟨1, ![2000000]⟩
abbrev S_ : Shape := ⟨0, ![]⟩
abbrev S2000000x2 : Shape := ⟨2, ![2000000, 2]⟩
abbrev S2000000x16 : Shape := ⟨2, ![2000000, 16]⟩
abbrev S1x300x16 : Shape := ⟨3, ![1, 300, 16]⟩
abbrev S300x16 : Shape := ⟨2, ![300, 16]⟩
abbrev S1x2000000x16 : Shape := ⟨3, ![1, 2000000, 16]⟩
abbrev S3x2000000x16 : Shape := ⟨3, ![3, 2000000, 16]⟩
abbrev S1x2000000 : Shape := ⟨2, ![1, 2000000]⟩
abbrev S3x2000000 : Shape := ⟨2, ![3, 2000000]⟩
abbrev S48x2000000 : Shape := ⟨2, ![48, 2000000]⟩
abbrev S3x6400x16 : Shape := ⟨3, ![3, 6400, 16]⟩
abbrev S3x6400 : Shape := ⟨2, ![3, 6400]⟩
abbrev S48x6400 : Shape := ⟨2, ![48, 6400]⟩
abbrev S1x6400x16 : Shape := ⟨3, ![1, 6400, 16]⟩
abbrev S6400x16 : Shape := ⟨2, ![6400, 16]⟩
abbrev S16x6400 : Shape := ⟨2, ![16, 6400]⟩
abbrev S1x6400 : Shape := ⟨2, ![1, 6400]⟩

abbrev nBuf : Space → Nat
  | .hbm => 624
  | .vmem => 14
  | .smem => 0
  | _ => 0

abbrev hbmTy0_0 (i : Nat) : BufTy := match i % 128 with
  | 0 => ⟨S2000000x3, .f32⟩
  | 1 => ⟨S3x16x300x300, .f32⟩
  | 2 => ⟨S3x16x300, .f32⟩
  | 3 => ⟨S3x300x300x16, .f32⟩
  | 4 => ⟨S3x300x16, .f32⟩
  | 5 => ⟨S1x300x300x16, .f32⟩
  | 6 => ⟨S300x300x16, .f32⟩
  | 7 => ⟨S2000000x1, .f32⟩
  | 8 => ⟨S2000000, .f32⟩
  | 9 => ⟨S2000000x1, .f32⟩
  | 10 => ⟨S2000000, .f32⟩
  | 11 => ⟨S_, .f32⟩
  | 12 => ⟨S2000000, .f32⟩
  | 13 => ⟨S2000000, .f32⟩
  | 14 => ⟨S_, .f32⟩
  | 15 => ⟨S2000000, .f32⟩
  | 16 => ⟨S2000000, .f32⟩
  | 17 => ⟨S_, .f32⟩
  | 18 => ⟨S2000000, .f32⟩
  | 19 => ⟨S2000000, .f32⟩
  | 20 => ⟨S2000000, .f32⟩
  | 21 => ⟨S_, .i32⟩
  | 22 => ⟨S_, .i32⟩
  | 23 => ⟨S_, .f32⟩
  | 24 => ⟨S2000000, .f32⟩
  | 25 => ⟨S2000000, .f32⟩
  | 26 => ⟨S_, .f32⟩
  | 27 => ⟨S2000000, .f32⟩
  | 28 => ⟨S2000000, .f32⟩
  | 29 => ⟨S2000000, .i32⟩
  | 30 => ⟨S_, .i32⟩
  | 31 => ⟨S2000000, .i32⟩
  | 32 => ⟨S2000000, .i32⟩
  | 33 => ⟨S_, .i32⟩
  | 34 => ⟨S2000000, .i32⟩
  | 35 => ⟨S2000000, .i32⟩
  | 36 => ⟨S2000000, .f32⟩
  | 37 => ⟨S2000000, .f32⟩
  | 38 => ⟨S_, .f32⟩
  | 39 => ⟨S2000000, .f32⟩
  | 40 => ⟨S2000000, .f32⟩
  | 41 => ⟨S_, .f32⟩
  | 42 => ⟨S2000000, .f32⟩
  | 43 => ⟨S2000000, .f32⟩
  | 44 => ⟨S_, .f32⟩
  | 45 => ⟨S2000000, .f32⟩
  | 46 => ⟨S2000000, .f32⟩
  | 47 => ⟨S2000000, .f32⟩
  | 48 => ⟨S_, .i32⟩
  | 49 => ⟨S_, .i32⟩
  | 50 => ⟨S_, .f32⟩
  | 51 => ⟨S2000000, .f32⟩
  | 52 => ⟨S2000000, .f32⟩
  | 53 => ⟨S_, .f32⟩
  | 54 => ⟨S2000000, .f32⟩
  | 55 => ⟨S2000000, .f32⟩
  | 56 => ⟨S2000000, .i32⟩
  | 57 => ⟨S_, .i32⟩
  | 58 => ⟨S2000000, .i32⟩
  | 59 => ⟨S2000000, .i32⟩
  | 60 => ⟨S_, .i32⟩
  | 61 => ⟨S2000000, .i32⟩
  | 62 => ⟨S2000000, .i32⟩
  | 63 => ⟨S2000000, .f32⟩
  | 64 => ⟨S2000000, .f32⟩
  | 65 => ⟨S_, .i32⟩
  | 66 => ⟨S2000000, .i32⟩
  | 67 => ⟨S2000000, .i1⟩
  | 68 => ⟨S_, .i32⟩
  | 69 => ⟨S2000000, .i32⟩
  | 70 => ⟨S2000000, .i32⟩
  | 71 => ⟨S2000000, .i32⟩
  | 72 => ⟨S_, .i32⟩
  | 73 => ⟨S2000000, .i32⟩
  | 74 => ⟨S2000000, .i1⟩
  | 75 => ⟨S_, .i32⟩
  | 76 => ⟨S2000000, .i32⟩
  | 77 => ⟨S2000000, .i32⟩
  | 78 => ⟨S2000000, .i32⟩
  | 79 => ⟨S2000000x1, .i32⟩
  | 80 => ⟨S2000000x1, .i32⟩
  | 81 => ⟨S2000000x2, .i32⟩
  | 82 => ⟨S2000000x16, .f32⟩
  | 83 => ⟨S_, .i32⟩
  | 84 => ⟨S2000000, .i32⟩
  | 85 => ⟨S2000000, .i1⟩
  | 86 => ⟨S_, .i32⟩
  | 87 => ⟨S2000000, .i32⟩
  | 88 => ⟨S2000000, .i32⟩
  | 89 => ⟨S2000000, .i32⟩
  | 90 => ⟨S_, .i32⟩
  | 91 => ⟨S2000000, .i32⟩
  | 92 => ⟨S2000000, .i1⟩
  | 93 => ⟨S_, .i32⟩
  | 94 => ⟨S2000000, .i32⟩
  | 95 => ⟨S2000000, .i32⟩
  | 96 => ⟨S2000000, .i32⟩
  | 97 => ⟨S2000000x1, .i32⟩
  | 98 => ⟨S2000000x1, .i32⟩
  | 99 => ⟨S2000000x2, .i32⟩
  | 100 => ⟨S2000000x16, .f32⟩
  | 101 => ⟨S_, .i32⟩
  | 102 => ⟨S2000000, .i32⟩
  | 103 => ⟨S2000000, .i1⟩
  | 104 => ⟨S_, .i32⟩
  | 105 => ⟨S2000000, .i32⟩
  | 106 => ⟨S2000000, .i32⟩
  | 107 => ⟨S2000000, .i32⟩
  | 108 => ⟨S_, .i32⟩
  | 109 => ⟨S2000000, .i32⟩
  | 110 => ⟨S2000000, .i1⟩
  | 111 => ⟨S_, .i32⟩
  | 112 => ⟨S2000000, .i32⟩
  | 113 => ⟨S2000000, .i32⟩
  | 114 => ⟨S2000000, .i32⟩
  | 115 => ⟨S2000000x1, .i32⟩
  | 116 => ⟨S2000000x1, .i32⟩
  | 117 => ⟨S2000000x2, .i32⟩
  | 118 => ⟨S2000000x16, .f32⟩
  | 119 => ⟨S_, .i32⟩
  | 120 => ⟨S2000000, .i32⟩
  | 121 => ⟨S2000000, .i1⟩
  | 122 => ⟨S_, .i32⟩
  | 123 => ⟨S2000000, .i32⟩
  | 124 => ⟨S2000000, .i32⟩
  | 125 => ⟨S2000000, .i32⟩
  | 126 => ⟨S_, .i32⟩
  | 127 => ⟨S2000000, .i32⟩
  | _ => ⟨S2000000x3, .f32⟩

abbrev hbmTy0_1 (i : Nat) : BufTy := match i % 128 with
  | 0 => ⟨S2000000, .i1⟩
  | 1 => ⟨S_, .i32⟩
  | 2 => ⟨S2000000, .i32⟩
  | 3 => ⟨S2000000, .i32⟩
  | 4 => ⟨S2000000, .i32⟩
  | 5 => ⟨S2000000x1, .i32⟩
  | 6 => ⟨S2000000x1, .i32⟩
  | 7 => ⟨S2000000x2, .i32⟩
  | 8 => ⟨S2000000x16, .f32⟩
  | 9 => ⟨S2000000x1, .f32⟩
  | 10 => ⟨S_, .f32⟩
  | 11 => ⟨S2000000x1, .f32⟩
  | 12 => ⟨S2000000x1, .f32⟩
  | 13 => ⟨S2000000x16, .f32⟩
  | 14 => ⟨S2000000x16, .f32⟩
  | 15 => ⟨S2000000x16, .f32⟩
  | 16 => ⟨S2000000x16, .f32⟩
  | 17 => ⟨S2000000x16, .f32⟩
  | 18 => ⟨S_, .f32⟩
  | 19 => ⟨S2000000x1, .f32⟩
  | 20 => ⟨S2000000x1, .f32⟩
  | 21 => ⟨S2000000x16, .f32⟩
  | 22 => ⟨S2000000x16, .f32⟩
  | 23 => ⟨S2000000x16, .f32⟩
  | 24 => ⟨S2000000x16, .f32⟩
  | 25 => ⟨S2000000x16, .f32⟩
  | 26 => ⟨S1x300x16, .f32⟩
  | 27 => ⟨S300x16, .f32⟩
  | 28 => ⟨S2000000x1, .f32⟩
  | 29 => ⟨S2000000, .f32⟩
  | 30 => ⟨S_, .f32⟩
  | 31 => ⟨S2000000, .f32⟩
  | 32 => ⟨S2000000, .f32⟩
  | 33 => ⟨S_, .f32⟩
  | 34 => ⟨S2000000, .f32⟩
  | 35 => ⟨S2000000, .f32⟩
  | 36 => ⟨S_, .f32⟩
  | 37 => ⟨S2000000, .f32⟩
  | 38 => ⟨S2000000, .f32⟩
  | 39 => ⟨S2000000, .f32⟩
  | 40 => ⟨S_, .i32⟩
  | 41 => ⟨S_, .i32⟩
  | 42 => ⟨S_, .f32⟩
  | 43 => ⟨S2000000, .f32⟩
  | 44 => ⟨S2000000, .f32⟩
  | 45 => ⟨S_, .f32⟩
  | 46 => ⟨S2000000, .f32⟩
  | 47 => ⟨S2000000, .f32⟩
  | 48 => ⟨S2000000, .i32⟩
  | 49 => ⟨S_, .i32⟩
  | 50 => ⟨S2000000, .i32⟩
  | 51 => ⟨S2000000, .i32⟩
  | 52 => ⟨S_, .i32⟩
  | 53 => ⟨S2000000, .i32⟩
  | 54 => ⟨S2000000, .i32⟩
  | 55 => ⟨S2000000, .f32⟩
  | 56 => ⟨S2000000, .f32⟩
  | 57 => ⟨S_, .i32⟩
  | 58 => ⟨S2000000, .i32⟩
  | 59 => ⟨S2000000, .i1⟩
  | 60 => ⟨S_, .i32⟩
  | 61 => ⟨S2000000, .i32⟩
  | 62 => ⟨S2000000, .i32⟩
  | 63 => ⟨S2000000, .i32⟩
  | 64 => ⟨S2000000x1, .i32⟩
  | 65 => ⟨S2000000x16, .f32⟩
  | 66 => ⟨S_, .i32⟩
  | 67 => ⟨S2000000, .i32⟩
  | 68 => ⟨S2000000, .i1⟩
  | 69 => ⟨S_, .i32⟩
  | 70 => ⟨S2000000, .i32⟩
  | 71 => ⟨S2000000, .i32⟩
  | 72 => ⟨S2000000, .i32⟩
  | 73 => ⟨S2000000x1, .i32⟩
  | 74 => ⟨S2000000x16, .f32⟩
  | 75 => ⟨S1x300x300x16, .f32⟩
  | 76 => ⟨S300x300x16, .f32⟩
  | 77 => ⟨S2000000x1, .f32⟩
  | 78 => ⟨S2000000, .f32⟩
  | 79 => ⟨S2000000x1, .f32⟩
  | 80 => ⟨S2000000, .f32⟩
  | 81 => ⟨S_, .f32⟩
  | 82 => ⟨S2000000, .f32⟩
  | 83 => ⟨S2000000, .f32⟩
  | 84 => ⟨S_, .f32⟩
  | 85 => ⟨S2000000, .f32⟩
  | 86 => ⟨S2000000, .f32⟩
  | 87 => ⟨S_, .f32⟩
  | 88 => ⟨S2000000, .f32⟩
  | 89 => ⟨S2000000, .f32⟩
  | 90 => ⟨S2000000, .f32⟩
  | 91 => ⟨S_, .i32⟩
  | 92 => ⟨S_, .i32⟩
  | 93 => ⟨S_, .f32⟩
  | 94 => ⟨S2000000, .f32⟩
  | 95 => ⟨S2000000, .f32⟩
  | 96 => ⟨S_, .f32⟩
  | 97 => ⟨S2000000, .f32⟩
  | 98 => ⟨S2000000, .f32⟩
  | 99 => ⟨S2000000, .i32⟩
  | 100 => ⟨S_, .i32⟩
  | 101 => ⟨S2000000, .i32⟩
  | 102 => ⟨S2000000, .i32⟩
  | 103 => ⟨S_, .i32⟩
  | 104 => ⟨S2000000, .i32⟩
  | 105 => ⟨S2000000, .i32⟩
  | 106 => ⟨S2000000, .f32⟩
  | 107 => ⟨S2000000, .f32⟩
  | 108 => ⟨S_, .f32⟩
  | 109 => ⟨S2000000, .f32⟩
  | 110 => ⟨S2000000, .f32⟩
  | 111 => ⟨S_, .f32⟩
  | 112 => ⟨S2000000, .f32⟩
  | 113 => ⟨S2000000, .f32⟩
  | 114 => ⟨S_, .f32⟩
  | 115 => ⟨S2000000, .f32⟩
  | 116 => ⟨S2000000, .f32⟩
  | 117 => ⟨S2000000, .f32⟩
  | 118 => ⟨S_, .i32⟩
  | 119 => ⟨S_, .i32⟩
  | 120 => ⟨S_, .f32⟩
  | 121 => ⟨S2000000, .f32⟩
  | 122 => ⟨S2000000, .f32⟩
  | 123 => ⟨S_, .f32⟩
  | 124 => ⟨S2000000, .f32⟩
  | 125 => ⟨S2000000, .f32⟩
  | 126 => ⟨S2000000, .i32⟩
  | 127 => ⟨S_, .i32⟩
  | _ => ⟨S2000000x3, .f32⟩

abbrev hbmTy0_2 (i : Nat) : BufTy := match i % 128 with
  | 0 => ⟨S2000000, .i32⟩
  | 1 => ⟨S2000000, .i32⟩
  | 2 => ⟨S_, .i32⟩
  | 3 => ⟨S2000000, .i32⟩
  | 4 => ⟨S2000000, .i32⟩
  | 5 => ⟨S2000000, .f32⟩
  | 6 => ⟨S2000000, .f32⟩
  | 7 => ⟨S_, .i32⟩
  | 8 => ⟨S2000000, .i32⟩
  | 9 => ⟨S2000000, .i1⟩
  | 10 => ⟨S_, .i32⟩
  | 11 => ⟨S2000000, .i32⟩
  | 12 => ⟨S2000000, .i32⟩
  | 13 => ⟨S2000000, .i32⟩
  | 14 => ⟨S_, .i32⟩
  | 15 => ⟨S2000000, .i32⟩
  | 16 => ⟨S2000000, .i1⟩
  | 17 => ⟨S_, .i32⟩
  | 18 => ⟨S2000000, .i32⟩
  | 19 => ⟨S2000000, .i32⟩
  | 20 => ⟨S2000000, .i32⟩
  | 21 => ⟨S2000000x1, .i32⟩
  | 22 => ⟨S2000000x1, .i32⟩
  | 23 => ⟨S2000000x2, .i32⟩
  | 24 => ⟨S2000000x16, .f32⟩
  | 25 => ⟨S_, .i32⟩
  | 26 => ⟨S2000000, .i32⟩
  | 27 => ⟨S2000000, .i1⟩
  | 28 => ⟨S_, .i32⟩
  | 29 => ⟨S2000000, .i32⟩
  | 30 => ⟨S2000000, .i32⟩
  | 31 => ⟨S2000000, .i32⟩
  | 32 => ⟨S_, .i32⟩
  | 33 => ⟨S2000000, .i32⟩
  | 34 => ⟨S2000000, .i1⟩
  | 35 => ⟨S_, .i32⟩
  | 36 => ⟨S2000000, .i32⟩
  | 37 => ⟨S2000000, .i32⟩
  | 38 => ⟨S2000000, .i32⟩
  | 39 => ⟨S2000000x1, .i32⟩
  | 40 => ⟨S2000000x1, .i32⟩
  | 41 => ⟨S2000000x2, .i32⟩
  | 42 => ⟨S2000000x16, .f32⟩
  | 43 => ⟨S_, .i32⟩
  | 44 => ⟨S2000000, .i32⟩
  | 45 => ⟨S2000000, .i1⟩
  | 46 => ⟨S_, .i32⟩
  | 47 => ⟨S2000000, .i32⟩
  | 48 => ⟨S2000000, .i32⟩
  | 49 => ⟨S2000000, .i32⟩
  | 50 => ⟨S_, .i32⟩
  | 51 => ⟨S2000000, .i32⟩
  | 52 => ⟨S2000000, .i1⟩
  | 53 => ⟨S_, .i32⟩
  | 54 => ⟨S2000000, .i32⟩
  | 55 => ⟨S2000000, .i32⟩
  | 56 => ⟨S2000000, .i32⟩
  | 57 => ⟨S2000000x1, .i32⟩
  | 58 => ⟨S2000000x1, .i32⟩
  | 59 => ⟨S2000000x2, .i32⟩
  | 60 => ⟨S2000000x16, .f32⟩
  | 61 => ⟨S_, .i32⟩
  | 62 => ⟨S2000000, .i32⟩
  | 63 => ⟨S2000000, .i1⟩
  | 64 => ⟨S_, .i32⟩
  | 65 => ⟨S2000000, .i32⟩
  | 66 => ⟨S2000000, .i32⟩
  | 67 => ⟨S2000000, .i32⟩
  | 68 => ⟨S_, .i32⟩
  | 69 => ⟨S2000000, .i32⟩
  | 70 => ⟨S2000000, .i1⟩
  | 71 => ⟨S_, .i32⟩
  | 72 => ⟨S2000000, .i32⟩
  | 73 => ⟨S2000000, .i32⟩
  | 74 => ⟨S2000000, .i32⟩
  | 75 => ⟨S2000000x1, .i32⟩
  | 76 => ⟨S2000000x1, .i32⟩
  | 77 => ⟨S2000000x2, .i32⟩
  | 78 => ⟨S2000000x16, .f32⟩
  | 79 => ⟨S2000000x1, .f32⟩
  | 80 => ⟨S_, .f32⟩
  | 81 => ⟨S2000000x1, .f32⟩
  | 82 => ⟨S2000000x1, .f32⟩
  | 83 => ⟨S2000000x16, .f32⟩
  | 84 => ⟨S2000000x16, .f32⟩
  | 85 => ⟨S2000000x16, .f32⟩
  | 86 => ⟨S2000000x16, .f32⟩
  | 87 => ⟨S2000000x16, .f32⟩
  | 88 => ⟨S_, .f32⟩
  | 89 => ⟨S2000000x1, .f32⟩
  | 90 => ⟨S2000000x1, .f32⟩
  | 91 => ⟨S2000000x16, .f32⟩
  | 92 => ⟨S2000000x16, .f32⟩
  | 93 => ⟨S2000000x16, .f32⟩
  | 94 => ⟨S2000000x16, .f32⟩
  | 95 => ⟨S2000000x16, .f32⟩
  | 96 => ⟨S1x300x16, .f32⟩
  | 97 => ⟨S300x16, .f32⟩
  | 98 => ⟨S2000000x1, .f32⟩
  | 99 => ⟨S2000000, .f32⟩
  | 100 => ⟨S_, .f32⟩
  | 101 => ⟨S2000000, .f32⟩
  | 102 => ⟨S2000000, .f32⟩
  | 103 => ⟨S_, .f32⟩
  | 104 => ⟨S2000000, .f32⟩
  | 105 => ⟨S2000000, .f32⟩
  | 106 => ⟨S_, .f32⟩
  | 107 => ⟨S2000000, .f32⟩
  | 108 => ⟨S2000000, .f32⟩
  | 109 => ⟨S2000000, .f32⟩
  | 110 => ⟨S_, .i32⟩
  | 111 => ⟨S_, .i32⟩
  | 112 => ⟨S_, .f32⟩
  | 113 => ⟨S2000000, .f32⟩
  | 114 => ⟨S2000000, .f32⟩
  | 115 => ⟨S_, .f32⟩
  | 116 => ⟨S2000000, .f32⟩
  | 117 => ⟨S2000000, .f32⟩
  | 118 => ⟨S2000000, .i32⟩
  | 119 => ⟨S_, .i32⟩
  | 120 => ⟨S2000000, .i32⟩
  | 121 => ⟨S2000000, .i32⟩
  | 122 => ⟨S_, .i32⟩
  | 123 => ⟨S2000000, .i32⟩
  | 124 => ⟨S2000000, .i32⟩
  | 125 => ⟨S2000000, .f32⟩
  | 126 => ⟨S2000000, .f32⟩
  | 127 => ⟨S_, .i32⟩
  | _ => ⟨S2000000x3, .f32⟩

abbrev hbmTy0_3 (i : Nat) : BufTy := match i % 128 with
  | 0 => ⟨S2000000, .i32⟩
  | 1 => ⟨S2000000, .i1⟩
  | 2 => ⟨S_, .i32⟩
  | 3 => ⟨S2000000, .i32⟩
  | 4 => ⟨S2000000, .i32⟩
  | 5 => ⟨S2000000, .i32⟩
  | 6 => ⟨S2000000x1, .i32⟩
  | 7 => ⟨S2000000x16, .f32⟩
  | 8 => ⟨S_, .i32⟩
  | 9 => ⟨S2000000, .i32⟩
  | 10 => ⟨S2000000, .i1⟩
  | 11 => ⟨S_, .i32⟩
  | 12 => ⟨S2000000, .i32⟩
  | 13 => ⟨S2000000, .i32⟩
  | 14 => ⟨S2000000, .i32⟩
  | 15 => ⟨S2000000x1, .i32⟩
  | 16 => ⟨S2000000x16, .f32⟩
  | 17 => ⟨S1x300x300x16, .f32⟩
  | 18 => ⟨S300x300x16, .f32⟩
  | 19 => ⟨S2000000x1, .f32⟩
  | 20 => ⟨S2000000, .f32⟩
  | 21 => ⟨S2000000x1, .f32⟩
  | 22 => ⟨S2000000, .f32⟩
  | 23 => ⟨S_, .f32⟩
  | 24 => ⟨S2000000, .f32⟩
  | 25 => ⟨S2000000, .f32⟩
  | 26 => ⟨S_, .f32⟩
  | 27 => ⟨S2000000, .f32⟩
  | 28 => ⟨S2000000, .f32⟩
  | 29 => ⟨S_, .f32⟩
  | 30 => ⟨S2000000, .f32⟩
  | 31 => ⟨S2000000, .f32⟩
  | 32 => ⟨S2000000, .f32⟩
  | 33 => ⟨S_, .i32⟩
  | 34 => ⟨S_, .i32⟩
  | 35 => ⟨S_, .f32⟩
  | 36 => ⟨S2000000, .f32⟩
  | 37 => ⟨S2000000, .f32⟩
  | 38 => ⟨S_, .f32⟩
  | 39 => ⟨S2000000, .f32⟩
  | 40 => ⟨S2000000, .f32⟩
  | 41 => ⟨S2000000, .i32⟩
  | 42 => ⟨S_, .i32⟩
  | 43 => ⟨S2000000, .i32⟩
  | 44 => ⟨S2000000, .i32⟩
  | 45 => ⟨S_, .i32⟩
  | 46 => ⟨S2000000, .i32⟩
  | 47 => ⟨S2000000, .i32⟩
  | 48 => ⟨S2000000, .f32⟩
  | 49 => ⟨S2000000, .f32⟩
  | 50 => ⟨S_, .f32⟩
  | 51 => ⟨S2000000, .f32⟩
  | 52 => ⟨S2000000, .f32⟩
  | 53 => ⟨S_, .f32⟩
  | 54 => ⟨S2000000, .f32⟩
  | 55 => ⟨S2000000, .f32⟩
  | 56 => ⟨S_, .f32⟩
  | 57 => ⟨S2000000, .f32⟩
  | 58 => ⟨S2000000, .f32⟩
  | 59 => ⟨S2000000, .f32⟩
  | 60 => ⟨S_, .i32⟩
  | 61 => ⟨S_, .i32⟩
  | 62 => ⟨S_, .f32⟩
  | 63 => ⟨S2000000, .f32⟩
  | 64 => ⟨S2000000, .f32⟩
  | 65 => ⟨S_, .f32⟩
  | 66 => ⟨S2000000, .f32⟩
  | 67 => ⟨S2000000, .f32⟩
  | 68 => ⟨S2000000, .i32⟩
  | 69 => ⟨S_, .i32⟩
  | 70 => ⟨S2000000, .i32⟩
  | 71 => ⟨S2000000, .i32⟩
  | 72 => ⟨S_, .i32⟩
  | 73 => ⟨S2000000, .i32⟩
  | 74 => ⟨S2000000, .i32⟩
  | 75 => ⟨S2000000, .f32⟩
  | 76 => ⟨S2000000, .f32⟩
  | 77 => ⟨S_, .i32⟩
  | 78 => ⟨S2000000, .i32⟩
  | 79 => ⟨S2000000, .i1⟩
  | 80 => ⟨S_, .i32⟩
  | 81 => ⟨S2000000, .i32⟩
  | 82 => ⟨S2000000, .i32⟩
  | 83 => ⟨S2000000, .i32⟩
  | 84 => ⟨S_, .i32⟩
  | 85 => ⟨S2000000, .i32⟩
  | 86 => ⟨S2000000, .i1⟩
  | 87 => ⟨S_, .i32⟩
  | 88 => ⟨S2000000, .i32⟩
  | 89 => ⟨S2000000, .i32⟩
  | 90 => ⟨S2000000, .i32⟩
  | 91 => ⟨S2000000x1, .i32⟩
  | 92 => ⟨S2000000x1, .i32⟩
  | 93 => ⟨S2000000x2, .i32⟩
  | 94 => ⟨S2000000x16, .f32⟩
  | 95 => ⟨S_, .i32⟩
  | 96 => ⟨S2000000, .i32⟩
  | 97 => ⟨S2000000, .i1⟩
  | 98 => ⟨S_, .i32⟩
  | 99 => ⟨S2000000, .i32⟩
  | 100 => ⟨S2000000, .i32⟩
  | 101 => ⟨S2000000, .i32⟩
  | 102 => ⟨S_, .i32⟩
  | 103 => ⟨S2000000, .i32⟩
  | 104 => ⟨S2000000, .i1⟩
  | 105 => ⟨S_, .i32⟩
  | 106 => ⟨S2000000, .i32⟩
  | 107 => ⟨S2000000, .i32⟩
  | 108 => ⟨S2000000, .i32⟩
  | 109 => ⟨S2000000x1, .i32⟩
  | 110 => ⟨S2000000x1, .i32⟩
  | 111 => ⟨S2000000x2, .i32⟩
  | 112 => ⟨S2000000x16, .f32⟩
  | 113 => ⟨S_, .i32⟩
  | 114 => ⟨S2000000, .i32⟩
  | 115 => ⟨S2000000, .i1⟩
  | 116 => ⟨S_, .i32⟩
  | 117 => ⟨S2000000, .i32⟩
  | 118 => ⟨S2000000, .i32⟩
  | 119 => ⟨S2000000, .i32⟩
  | 120 => ⟨S_, .i32⟩
  | 121 => ⟨S2000000, .i32⟩
  | 122 => ⟨S2000000, .i1⟩
  | 123 => ⟨S_, .i32⟩
  | 124 => ⟨S2000000, .i32⟩
  | 125 => ⟨S2000000, .i32⟩
  | 126 => ⟨S2000000, .i32⟩
  | 127 => ⟨S2000000x1, .i32⟩
  | _ => ⟨S2000000x3, .f32⟩

abbrev hbmTy0_4 (i : Nat) : BufTy := match i % 128 with
  | 0 => ⟨S2000000x1, .i32⟩
  | 1 => ⟨S2000000x2, .i32⟩
  | 2 => ⟨S2000000x16, .f32⟩
  | 3 => ⟨S_, .i32⟩
  | 4 => ⟨S2000000, .i32⟩
  | 5 => ⟨S2000000, .i1⟩
  | 6 => ⟨S_, .i32⟩
  | 7 => ⟨S2000000, .i32⟩
  | 8 => ⟨S2000000, .i32⟩
  | 9 => ⟨S2000000, .i32⟩
  | 10 => ⟨S_, .i32⟩
  | 11 => ⟨S2000000, .i32⟩
  | 12 => ⟨S2000000, .i1⟩
  | 13 => ⟨S_, .i32⟩
  | 14 => ⟨S2000000, .i32⟩
  | 15 => ⟨S2000000, .i32⟩
  | 16 => ⟨S2000000, .i32⟩
  | 17 => ⟨S2000000x1, .i32⟩
  | 18 => ⟨S2000000x1, .i32⟩
  | 19 => ⟨S2000000x2, .i32⟩
  | 20 => ⟨S2000000x16, .f32⟩
  | 21 => ⟨S2000000x1, .f32⟩
  | 22 => ⟨S_, .f32⟩
  | 23 => ⟨S2000000x1, .f32⟩
  | 24 => ⟨S2000000x1, .f32⟩
  | 25 => ⟨S2000000x16, .f32⟩
  | 26 => ⟨S2000000x16, .f32⟩
  | 27 => ⟨S2000000x16, .f32⟩
  | 28 => ⟨S2000000x16, .f32⟩
  | 29 => ⟨S2000000x16, .f32⟩
  | 30 => ⟨S_, .f32⟩
  | 31 => ⟨S2000000x1, .f32⟩
  | 32 => ⟨S2000000x1, .f32⟩
  | 33 => ⟨S2000000x16, .f32⟩
  | 34 => ⟨S2000000x16, .f32⟩
  | 35 => ⟨S2000000x16, .f32⟩
  | 36 => ⟨S2000000x16, .f32⟩
  | 37 => ⟨S2000000x16, .f32⟩
  | 38 => ⟨S1x300x16, .f32⟩
  | 39 => ⟨S300x16, .f32⟩
  | 40 => ⟨S2000000x1, .f32⟩
  | 41 => ⟨S2000000, .f32⟩
  | 42 => ⟨S_, .f32⟩
  | 43 => ⟨S2000000, .f32⟩
  | 44 => ⟨S2000000, .f32⟩
  | 45 => ⟨S_, .f32⟩
  | 46 => ⟨S2000000, .f32⟩
  | 47 => ⟨S2000000, .f32⟩
  | 48 => ⟨S_, .f32⟩
  | 49 => ⟨S2000000, .f32⟩
  | 50 => ⟨S2000000, .f32⟩
  | 51 => ⟨S2000000, .f32⟩
  | 52 => ⟨S_, .i32⟩
  | 53 => ⟨S_, .i32⟩
  | 54 => ⟨S_, .f32⟩
  | 55 => ⟨S2000000, .f32⟩
  | 56 => ⟨S2000000, .f32⟩
  | 57 => ⟨S_, .f32⟩
  | 58 => ⟨S2000000, .f32⟩
  | 59 => ⟨S2000000, .f32⟩
  | 60 => ⟨S2000000, .i32⟩
  | 61 => ⟨S_, .i32⟩
  | 62 => ⟨S2000000, .i32⟩
  | 63 => ⟨S2000000, .i32⟩
  | 64 => ⟨S_, .i32⟩
  | 65 => ⟨S2000000, .i32⟩
  | 66 => ⟨S2000000, .i32⟩
  | 67 => ⟨S2000000, .f32⟩
  | 68 => ⟨S2000000, .f32⟩
  | 69 => ⟨S_, .i32⟩
  | 70 => ⟨S2000000, .i32⟩
  | 71 => ⟨S2000000, .i1⟩
  | 72 => ⟨S_, .i32⟩
  | 73 => ⟨S2000000, .i32⟩
  | 74 => ⟨S2000000, .i32⟩
  | 75 => ⟨S2000000, .i32⟩
  | 76 => ⟨S2000000x1, .i32⟩
  | 77 => ⟨S2000000x16, .f32⟩
  | 78 => ⟨S_, .i32⟩
  | 79 => ⟨S2000000, .i32⟩
  | 80 => ⟨S2000000, .i1⟩
  | 81 => ⟨S_, .i32⟩
  | 82 => ⟨S2000000, .i32⟩
  | 83 => ⟨S2000000, .i32⟩
  | 84 => ⟨S2000000, .i32⟩
  | 85 => ⟨S2000000x1, .i32⟩
  | 86 => ⟨S2000000x16, .f32⟩
  | 87 => ⟨S1x2000000x16, .f32⟩
  | 88 => ⟨S1x2000000x16, .f32⟩
  | 89 => ⟨S1x2000000x16, .f32⟩
  | 90 => ⟨S3x2000000x16, .f32⟩
  | 91 => ⟨S1x2000000x16, .f32⟩
  | 92 => ⟨S1x2000000x16, .f32⟩
  | 93 => ⟨S1x2000000x16, .f32⟩
  | 94 => ⟨S3x2000000x16, .f32⟩
  | 95 => ⟨S1x2000000, .f32⟩
  | 96 => ⟨S1x2000000, .f32⟩
  | 97 => ⟨S1x2000000, .f32⟩
  | 98 => ⟨S3x2000000, .f32⟩
  | 99 => ⟨S1x2000000x16, .f32⟩
  | 100 => ⟨S1x2000000x16, .f32⟩
  | 101 => ⟨S1x2000000x16, .f32⟩
  | 102 => ⟨S3x2000000x16, .f32⟩
  | 103 => ⟨S1x2000000x16, .f32⟩
  | 104 => ⟨S1x2000000x16, .f32⟩
  | 105 => ⟨S1x2000000x16, .f32⟩
  | 106 => ⟨S3x2000000x16, .f32⟩
  | 107 => ⟨S1x2000000, .f32⟩
  | 108 => ⟨S1x2000000, .f32⟩
  | 109 => ⟨S1x2000000, .f32⟩
  | 110 => ⟨S3x2000000, .f32⟩
  | 111 => ⟨S48x2000000, .f32⟩
  | _ => ⟨S2000000x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2000000x3, .f32⟩

abbrev bufTy : (tb : Table) → Fin (tcTables nBuf tb) → BufTy
  | .hbm, ⟨i, _⟩ => hbmTy i
  | .local _ .vmem, ⟨0, _⟩ => ⟨S3x6400x16, .f32⟩
  | .local _ .vmem, ⟨1, _⟩ => ⟨S3x6400x16, .f32⟩
  | .local _ .vmem, ⟨2, _⟩ => ⟨S3x6400x16, .f32⟩
  | .local _ .vmem, ⟨3, _⟩ => ⟨S3x6400x16, .f32⟩
  | .local _ .vmem, ⟨4, _⟩ => ⟨S3x6400, .f32⟩
  | .local _ .vmem, ⟨5, _⟩ => ⟨S3x6400, .f32⟩
  | .local _ .vmem, ⟨6, _⟩ => ⟨S3x6400x16, .f32⟩
  | .local _ .vmem, ⟨7, _⟩ => ⟨S3x6400x16, .f32⟩
  | .local _ .vmem, ⟨8, _⟩ => ⟨S3x6400x16, .f32⟩
  | .local _ .vmem, ⟨9, _⟩ => ⟨S3x6400x16, .f32⟩
  | .local _ .vmem, ⟨10, _⟩ => ⟨S3x6400, .f32⟩
  | .local _ .vmem, ⟨11, _⟩ => ⟨S3x6400, .f32⟩
  | .local _ .vmem, ⟨12, _⟩ => ⟨S48x6400, .f32⟩
  | .local _ .vmem, ⟨13, _⟩ => ⟨S48x6400, .f32⟩
  | _, _ => ⟨S2000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_c_2 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_8 : Ref sig .tc := ⟨.hbm, 48, rfl⟩
abbrev main_c_9 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_v30 : Ref sig .tc := ⟨.hbm, 55, rfl⟩
abbrev main_v31 : Ref sig .tc := ⟨.hbm, 56, rfl⟩
abbrev main_c_10 : Ref sig .tc := ⟨.hbm, 57, rfl⟩
abbrev main_v32 : Ref sig .tc := ⟨.hbm, 58, rfl⟩
abbrev main_v33 : Ref sig .tc := ⟨.hbm, 59, rfl⟩
abbrev main_c_11 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_c_12 : Ref sig .tc := ⟨.hbm, 65, rfl⟩
abbrev main_v38 : Ref sig .tc := ⟨.hbm, 66, rfl⟩
abbrev main_v39 : Ref sig .tc := ⟨.hbm, 67, rfl⟩
abbrev main_c_13 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_c_14 : Ref sig .tc := ⟨.hbm, 72, rfl⟩
abbrev main_v43 : Ref sig .tc := ⟨.hbm, 73, rfl⟩
abbrev main_v44 : Ref sig .tc := ⟨.hbm, 74, rfl⟩
abbrev main_c_15 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_c_16 : Ref sig .tc := ⟨.hbm, 83, rfl⟩
abbrev main_v52 : Ref sig .tc := ⟨.hbm, 84, rfl⟩
abbrev main_v53 : Ref sig .tc := ⟨.hbm, 85, rfl⟩
abbrev main_c_17 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_c_18 : Ref sig .tc := ⟨.hbm, 90, rfl⟩
abbrev main_v57 : Ref sig .tc := ⟨.hbm, 91, rfl⟩
abbrev main_v58 : Ref sig .tc := ⟨.hbm, 92, rfl⟩
abbrev main_c_19 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_c_20 : Ref sig .tc := ⟨.hbm, 101, rfl⟩
abbrev main_v66 : Ref sig .tc := ⟨.hbm, 102, rfl⟩
abbrev main_v67 : Ref sig .tc := ⟨.hbm, 103, rfl⟩
abbrev main_c_21 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_c_22 : Ref sig .tc := ⟨.hbm, 108, rfl⟩
abbrev main_v71 : Ref sig .tc := ⟨.hbm, 109, rfl⟩
abbrev main_v72 : Ref sig .tc := ⟨.hbm, 110, rfl⟩
abbrev main_c_23 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_c_24 : Ref sig .tc := ⟨.hbm, 119, rfl⟩
abbrev main_v80 : Ref sig .tc := ⟨.hbm, 120, rfl⟩
abbrev main_v81 : Ref sig .tc := ⟨.hbm, 121, rfl⟩
abbrev main_c_25 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_c_26 : Ref sig .tc := ⟨.hbm, 126, rfl⟩
abbrev main_v85 : Ref sig .tc := ⟨.hbm, 127, rfl⟩
abbrev main_v86 : Ref sig .tc := ⟨.hbm, 128, rfl⟩
abbrev main_c_27 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_cst_28 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_cst_29 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_cst_30 : Ref sig .tc := ⟨.hbm, 158, rfl⟩
abbrev main_v113 : Ref sig .tc := ⟨.hbm, 159, rfl⟩
abbrev main_v114 : Ref sig .tc := ⟨.hbm, 160, rfl⟩
abbrev main_cst_31 : Ref sig .tc := ⟨.hbm, 161, rfl⟩
abbrev main_v115 : Ref sig .tc := ⟨.hbm, 162, rfl⟩
abbrev main_v116 : Ref sig .tc := ⟨.hbm, 163, rfl⟩
abbrev main_cst_32 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_c_33 : Ref sig .tc := ⟨.hbm, 168, rfl⟩
abbrev main_c_34 : Ref sig .tc := ⟨.hbm, 169, rfl⟩
abbrev main_call2_v0 : Ref sig .tc := ⟨.hbm, 170, rfl⟩
abbrev main_call2_v1 : Ref sig .tc := ⟨.hbm, 171, rfl⟩
abbrev main_call2_v2 : Ref sig .tc := ⟨.hbm, 172, rfl⟩
abbrev main_call2_v3 : Ref sig .tc := ⟨.hbm, 173, rfl⟩
abbrev main_call2_v4 : Ref sig .tc := ⟨.hbm, 174, rfl⟩
abbrev main_v120 : Ref sig .tc := ⟨.hbm, 175, rfl⟩
abbrev main_v121 : Ref sig .tc := ⟨.hbm, 176, rfl⟩
abbrev main_c_35 : Ref sig .tc := ⟨.hbm, 177, rfl⟩
abbrev main_v122 : Ref sig .tc := ⟨.hbm, 178, rfl⟩
abbrev main_v123 : Ref sig .tc := ⟨.hbm, 179, rfl⟩
abbrev main_c_36 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_c_37 : Ref sig .tc := ⟨.hbm, 185, rfl⟩
abbrev main_v128 : Ref sig .tc := ⟨.hbm, 186, rfl⟩
abbrev main_v129 : Ref sig .tc := ⟨.hbm, 187, rfl⟩
abbrev main_c_38 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_c_39 : Ref sig .tc := ⟨.hbm, 194, rfl⟩
abbrev main_v135 : Ref sig .tc := ⟨.hbm, 195, rfl⟩
abbrev main_v136 : Ref sig .tc := ⟨.hbm, 196, rfl⟩
abbrev main_c_40 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_cst_41 : Ref sig .tc := ⟨.hbm, 209, rfl⟩
abbrev main_v148 : Ref sig .tc := ⟨.hbm, 210, rfl⟩
abbrev main_v149 : Ref sig .tc := ⟨.hbm, 211, rfl⟩
abbrev main_cst_42 : Ref sig .tc := ⟨.hbm, 212, rfl⟩
abbrev main_v150 : Ref sig .tc := ⟨.hbm, 213, rfl⟩
abbrev main_v151 : Ref sig .tc := ⟨.hbm, 214, rfl⟩
abbrev main_cst_43 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩
abbrev main_c_44 : Ref sig .tc := ⟨.hbm, 219, rfl⟩
abbrev main_c_45 : Ref sig .tc := ⟨.hbm, 220, rfl⟩
abbrev main_call3_v0 : Ref sig .tc := ⟨.hbm, 221, rfl⟩
abbrev main_call3_v1 : Ref sig .tc := ⟨.hbm, 222, rfl⟩
abbrev main_call3_v2 : Ref sig .tc := ⟨.hbm, 223, rfl⟩
abbrev main_call3_v3 : Ref sig .tc := ⟨.hbm, 224, rfl⟩
abbrev main_call3_v4 : Ref sig .tc := ⟨.hbm, 225, rfl⟩
abbrev main_v155 : Ref sig .tc := ⟨.hbm, 226, rfl⟩
abbrev main_v156 : Ref sig .tc := ⟨.hbm, 227, rfl⟩
abbrev main_c_46 : Ref sig .tc := ⟨.hbm, 228, rfl⟩
abbrev main_v157 : Ref sig .tc := ⟨.hbm, 229, rfl⟩
abbrev main_v158 : Ref sig .tc := ⟨.hbm, 230, rfl⟩
abbrev main_c_47 : Ref sig .tc := ⟨.hbm, 231, rfl⟩
abbrev main_v159 : Ref sig .tc := ⟨.hbm, 232, rfl⟩
abbrev main_v160 : Ref sig .tc := ⟨.hbm, 233, rfl⟩
abbrev main_v161 : Ref sig .tc := ⟨.hbm, 234, rfl⟩
abbrev main_v162 : Ref sig .tc := ⟨.hbm, 235, rfl⟩
abbrev main_cst_48 : Ref sig .tc := ⟨.hbm, 236, rfl⟩
abbrev main_v163 : Ref sig .tc := ⟨.hbm, 237, rfl⟩
abbrev main_v164 : Ref sig .tc := ⟨.hbm, 238, rfl⟩
abbrev main_cst_49 : Ref sig .tc := ⟨.hbm, 239, rfl⟩
abbrev main_v165 : Ref sig .tc := ⟨.hbm, 240, rfl⟩
abbrev main_v166 : Ref sig .tc := ⟨.hbm, 241, rfl⟩
abbrev main_cst_50 : Ref sig .tc := ⟨.hbm, 242, rfl⟩
abbrev main_v167 : Ref sig .tc := ⟨.hbm, 243, rfl⟩
abbrev main_v168 : Ref sig .tc := ⟨.hbm, 244, rfl⟩
abbrev main_v169 : Ref sig .tc := ⟨.hbm, 245, rfl⟩
abbrev main_c_51 : Ref sig .tc := ⟨.hbm, 246, rfl⟩
abbrev main_c_52 : Ref sig .tc := ⟨.hbm, 247, rfl⟩
abbrev main_call4_v0 : Ref sig .tc := ⟨.hbm, 248, rfl⟩
abbrev main_call4_v1 : Ref sig .tc := ⟨.hbm, 249, rfl⟩
abbrev main_call4_v2 : Ref sig .tc := ⟨.hbm, 250, rfl⟩
abbrev main_call4_v3 : Ref sig .tc := ⟨.hbm, 251, rfl⟩
abbrev main_call4_v4 : Ref sig .tc := ⟨.hbm, 252, rfl⟩
abbrev main_v170 : Ref sig .tc := ⟨.hbm, 253, rfl⟩
abbrev main_v171 : Ref sig .tc := ⟨.hbm, 254, rfl⟩
abbrev main_c_53 : Ref sig .tc := ⟨.hbm, 255, rfl⟩
abbrev main_v172 : Ref sig .tc := ⟨.hbm, 256, rfl⟩
abbrev main_v173 : Ref sig .tc := ⟨.hbm, 257, rfl⟩
abbrev main_c_54 : Ref sig .tc := ⟨.hbm, 258, rfl⟩
abbrev main_v174 : Ref sig .tc := ⟨.hbm, 259, rfl⟩
abbrev main_v175 : Ref sig .tc := ⟨.hbm, 260, rfl⟩
abbrev main_v176 : Ref sig .tc := ⟨.hbm, 261, rfl⟩
abbrev main_v177 : Ref sig .tc := ⟨.hbm, 262, rfl⟩
abbrev main_c_55 : Ref sig .tc := ⟨.hbm, 263, rfl⟩
abbrev main_v178 : Ref sig .tc := ⟨.hbm, 264, rfl⟩
abbrev main_v179 : Ref sig .tc := ⟨.hbm, 265, rfl⟩
abbrev main_c_56 : Ref sig .tc := ⟨.hbm, 266, rfl⟩
abbrev main_v180 : Ref sig .tc := ⟨.hbm, 267, rfl⟩
abbrev main_v181 : Ref sig .tc := ⟨.hbm, 268, rfl⟩
abbrev main_v182 : Ref sig .tc := ⟨.hbm, 269, rfl⟩
abbrev main_c_57 : Ref sig .tc := ⟨.hbm, 270, rfl⟩
abbrev main_v183 : Ref sig .tc := ⟨.hbm, 271, rfl⟩
abbrev main_v184 : Ref sig .tc := ⟨.hbm, 272, rfl⟩
abbrev main_c_58 : Ref sig .tc := ⟨.hbm, 273, rfl⟩
abbrev main_v185 : Ref sig .tc := ⟨.hbm, 274, rfl⟩
abbrev main_v186 : Ref sig .tc := ⟨.hbm, 275, rfl⟩
abbrev main_v187 : Ref sig .tc := ⟨.hbm, 276, rfl⟩
abbrev main_v188 : Ref sig .tc := ⟨.hbm, 277, rfl⟩
abbrev main_v189 : Ref sig .tc := ⟨.hbm, 278, rfl⟩
abbrev main_v190 : Ref sig .tc := ⟨.hbm, 279, rfl⟩
abbrev main_v191 : Ref sig .tc := ⟨.hbm, 280, rfl⟩
abbrev main_c_59 : Ref sig .tc := ⟨.hbm, 281, rfl⟩
abbrev main_v192 : Ref sig .tc := ⟨.hbm, 282, rfl⟩
abbrev main_v193 : Ref sig .tc := ⟨.hbm, 283, rfl⟩
abbrev main_c_60 : Ref sig .tc := ⟨.hbm, 284, rfl⟩
abbrev main_v194 : Ref sig .tc := ⟨.hbm, 285, rfl⟩
abbrev main_v195 : Ref sig .tc := ⟨.hbm, 286, rfl⟩
abbrev main_v196 : Ref sig .tc := ⟨.hbm, 287, rfl⟩
abbrev main_c_61 : Ref sig .tc := ⟨.hbm, 288, rfl⟩
abbrev main_v197 : Ref sig .tc := ⟨.hbm, 289, rfl⟩
abbrev main_v198 : Ref sig .tc := ⟨.hbm, 290, rfl⟩
abbrev main_c_62 : Ref sig .tc := ⟨.hbm, 291, rfl⟩
abbrev main_v199 : Ref sig .tc := ⟨.hbm, 292, rfl⟩
abbrev main_v200 : Ref sig .tc := ⟨.hbm, 293, rfl⟩
abbrev main_v201 : Ref sig .tc := ⟨.hbm, 294, rfl⟩
abbrev main_v202 : Ref sig .tc := ⟨.hbm, 295, rfl⟩
abbrev main_v203 : Ref sig .tc := ⟨.hbm, 296, rfl⟩
abbrev main_v204 : Ref sig .tc := ⟨.hbm, 297, rfl⟩
abbrev main_v205 : Ref sig .tc := ⟨.hbm, 298, rfl⟩
abbrev main_c_63 : Ref sig .tc := ⟨.hbm, 299, rfl⟩
abbrev main_v206 : Ref sig .tc := ⟨.hbm, 300, rfl⟩
abbrev main_v207 : Ref sig .tc := ⟨.hbm, 301, rfl⟩
abbrev main_c_64 : Ref sig .tc := ⟨.hbm, 302, rfl⟩
abbrev main_v208 : Ref sig .tc := ⟨.hbm, 303, rfl⟩
abbrev main_v209 : Ref sig .tc := ⟨.hbm, 304, rfl⟩
abbrev main_v210 : Ref sig .tc := ⟨.hbm, 305, rfl⟩
abbrev main_c_65 : Ref sig .tc := ⟨.hbm, 306, rfl⟩
abbrev main_v211 : Ref sig .tc := ⟨.hbm, 307, rfl⟩
abbrev main_v212 : Ref sig .tc := ⟨.hbm, 308, rfl⟩
abbrev main_c_66 : Ref sig .tc := ⟨.hbm, 309, rfl⟩
abbrev main_v213 : Ref sig .tc := ⟨.hbm, 310, rfl⟩
abbrev main_v214 : Ref sig .tc := ⟨.hbm, 311, rfl⟩
abbrev main_v215 : Ref sig .tc := ⟨.hbm, 312, rfl⟩
abbrev main_v216 : Ref sig .tc := ⟨.hbm, 313, rfl⟩
abbrev main_v217 : Ref sig .tc := ⟨.hbm, 314, rfl⟩
abbrev main_v218 : Ref sig .tc := ⟨.hbm, 315, rfl⟩
abbrev main_v219 : Ref sig .tc := ⟨.hbm, 316, rfl⟩
abbrev main_c_67 : Ref sig .tc := ⟨.hbm, 317, rfl⟩
abbrev main_v220 : Ref sig .tc := ⟨.hbm, 318, rfl⟩
abbrev main_v221 : Ref sig .tc := ⟨.hbm, 319, rfl⟩
abbrev main_c_68 : Ref sig .tc := ⟨.hbm, 320, rfl⟩
abbrev main_v222 : Ref sig .tc := ⟨.hbm, 321, rfl⟩
abbrev main_v223 : Ref sig .tc := ⟨.hbm, 322, rfl⟩
abbrev main_v224 : Ref sig .tc := ⟨.hbm, 323, rfl⟩
abbrev main_c_69 : Ref sig .tc := ⟨.hbm, 324, rfl⟩
abbrev main_v225 : Ref sig .tc := ⟨.hbm, 325, rfl⟩
abbrev main_v226 : Ref sig .tc := ⟨.hbm, 326, rfl⟩
abbrev main_c_70 : Ref sig .tc := ⟨.hbm, 327, rfl⟩
abbrev main_v227 : Ref sig .tc := ⟨.hbm, 328, rfl⟩
abbrev main_v228 : Ref sig .tc := ⟨.hbm, 329, rfl⟩
abbrev main_v229 : Ref sig .tc := ⟨.hbm, 330, rfl⟩
abbrev main_v230 : Ref sig .tc := ⟨.hbm, 331, rfl⟩
abbrev main_v231 : Ref sig .tc := ⟨.hbm, 332, rfl⟩
abbrev main_v232 : Ref sig .tc := ⟨.hbm, 333, rfl⟩
abbrev main_v233 : Ref sig .tc := ⟨.hbm, 334, rfl⟩
abbrev main_v234 : Ref sig .tc := ⟨.hbm, 335, rfl⟩
abbrev main_cst_71 : Ref sig .tc := ⟨.hbm, 336, rfl⟩
abbrev main_v235 : Ref sig .tc := ⟨.hbm, 337, rfl⟩
abbrev main_v236 : Ref sig .tc := ⟨.hbm, 338, rfl⟩
abbrev main_v237 : Ref sig .tc := ⟨.hbm, 339, rfl⟩
abbrev main_v238 : Ref sig .tc := ⟨.hbm, 340, rfl⟩
abbrev main_v239 : Ref sig .tc := ⟨.hbm, 341, rfl⟩
abbrev main_v240 : Ref sig .tc := ⟨.hbm, 342, rfl⟩
abbrev main_v241 : Ref sig .tc := ⟨.hbm, 343, rfl⟩
abbrev main_cst_72 : Ref sig .tc := ⟨.hbm, 344, rfl⟩
abbrev main_v242 : Ref sig .tc := ⟨.hbm, 345, rfl⟩
abbrev main_v243 : Ref sig .tc := ⟨.hbm, 346, rfl⟩
abbrev main_v244 : Ref sig .tc := ⟨.hbm, 347, rfl⟩
abbrev main_v245 : Ref sig .tc := ⟨.hbm, 348, rfl⟩
abbrev main_v246 : Ref sig .tc := ⟨.hbm, 349, rfl⟩
abbrev main_v247 : Ref sig .tc := ⟨.hbm, 350, rfl⟩
abbrev main_v248 : Ref sig .tc := ⟨.hbm, 351, rfl⟩
abbrev main_v249 : Ref sig .tc := ⟨.hbm, 352, rfl⟩
abbrev main_v250 : Ref sig .tc := ⟨.hbm, 353, rfl⟩
abbrev main_v251 : Ref sig .tc := ⟨.hbm, 354, rfl⟩
abbrev main_v252 : Ref sig .tc := ⟨.hbm, 355, rfl⟩
abbrev main_cst_73 : Ref sig .tc := ⟨.hbm, 356, rfl⟩
abbrev main_v253 : Ref sig .tc := ⟨.hbm, 357, rfl⟩
abbrev main_v254 : Ref sig .tc := ⟨.hbm, 358, rfl⟩
abbrev main_cst_74 : Ref sig .tc := ⟨.hbm, 359, rfl⟩
abbrev main_v255 : Ref sig .tc := ⟨.hbm, 360, rfl⟩
abbrev main_v256 : Ref sig .tc := ⟨.hbm, 361, rfl⟩
abbrev main_cst_75 : Ref sig .tc := ⟨.hbm, 362, rfl⟩
abbrev main_v257 : Ref sig .tc := ⟨.hbm, 363, rfl⟩
abbrev main_v258 : Ref sig .tc := ⟨.hbm, 364, rfl⟩
abbrev main_v259 : Ref sig .tc := ⟨.hbm, 365, rfl⟩
abbrev main_c_76 : Ref sig .tc := ⟨.hbm, 366, rfl⟩
abbrev main_c_77 : Ref sig .tc := ⟨.hbm, 367, rfl⟩
abbrev main_call5_v0 : Ref sig .tc := ⟨.hbm, 368, rfl⟩
abbrev main_call5_v1 : Ref sig .tc := ⟨.hbm, 369, rfl⟩
abbrev main_call5_v2 : Ref sig .tc := ⟨.hbm, 370, rfl⟩
abbrev main_call5_v3 : Ref sig .tc := ⟨.hbm, 371, rfl⟩
abbrev main_call5_v4 : Ref sig .tc := ⟨.hbm, 372, rfl⟩
abbrev main_v260 : Ref sig .tc := ⟨.hbm, 373, rfl⟩
abbrev main_v261 : Ref sig .tc := ⟨.hbm, 374, rfl⟩
abbrev main_c_78 : Ref sig .tc := ⟨.hbm, 375, rfl⟩
abbrev main_v262 : Ref sig .tc := ⟨.hbm, 376, rfl⟩
abbrev main_v263 : Ref sig .tc := ⟨.hbm, 377, rfl⟩
abbrev main_c_79 : Ref sig .tc := ⟨.hbm, 378, rfl⟩
abbrev main_v264 : Ref sig .tc := ⟨.hbm, 379, rfl⟩
abbrev main_v265 : Ref sig .tc := ⟨.hbm, 380, rfl⟩
abbrev main_v266 : Ref sig .tc := ⟨.hbm, 381, rfl⟩
abbrev main_v267 : Ref sig .tc := ⟨.hbm, 382, rfl⟩
abbrev main_c_80 : Ref sig .tc := ⟨.hbm, 383, rfl⟩
abbrev main_v268 : Ref sig .tc := ⟨.hbm, 384, rfl⟩
abbrev main_v269 : Ref sig .tc := ⟨.hbm, 385, rfl⟩
abbrev main_c_81 : Ref sig .tc := ⟨.hbm, 386, rfl⟩
abbrev main_v270 : Ref sig .tc := ⟨.hbm, 387, rfl⟩
abbrev main_v271 : Ref sig .tc := ⟨.hbm, 388, rfl⟩
abbrev main_v272 : Ref sig .tc := ⟨.hbm, 389, rfl⟩
abbrev main_v273 : Ref sig .tc := ⟨.hbm, 390, rfl⟩
abbrev main_v274 : Ref sig .tc := ⟨.hbm, 391, rfl⟩
abbrev main_c_82 : Ref sig .tc := ⟨.hbm, 392, rfl⟩
abbrev main_v275 : Ref sig .tc := ⟨.hbm, 393, rfl⟩
abbrev main_v276 : Ref sig .tc := ⟨.hbm, 394, rfl⟩
abbrev main_c_83 : Ref sig .tc := ⟨.hbm, 395, rfl⟩
abbrev main_v277 : Ref sig .tc := ⟨.hbm, 396, rfl⟩
abbrev main_v278 : Ref sig .tc := ⟨.hbm, 397, rfl⟩
abbrev main_v279 : Ref sig .tc := ⟨.hbm, 398, rfl⟩
abbrev main_v280 : Ref sig .tc := ⟨.hbm, 399, rfl⟩
abbrev main_v281 : Ref sig .tc := ⟨.hbm, 400, rfl⟩
abbrev main_v282 : Ref sig .tc := ⟨.hbm, 401, rfl⟩
abbrev main_v283 : Ref sig .tc := ⟨.hbm, 402, rfl⟩
abbrev main_v284 : Ref sig .tc := ⟨.hbm, 403, rfl⟩
abbrev main_v285 : Ref sig .tc := ⟨.hbm, 404, rfl⟩
abbrev main_v286 : Ref sig .tc := ⟨.hbm, 405, rfl⟩
abbrev main_v287 : Ref sig .tc := ⟨.hbm, 406, rfl⟩
abbrev main_cst_84 : Ref sig .tc := ⟨.hbm, 407, rfl⟩
abbrev main_v288 : Ref sig .tc := ⟨.hbm, 408, rfl⟩
abbrev main_v289 : Ref sig .tc := ⟨.hbm, 409, rfl⟩
abbrev main_cst_85 : Ref sig .tc := ⟨.hbm, 410, rfl⟩
abbrev main_v290 : Ref sig .tc := ⟨.hbm, 411, rfl⟩
abbrev main_v291 : Ref sig .tc := ⟨.hbm, 412, rfl⟩
abbrev main_cst_86 : Ref sig .tc := ⟨.hbm, 413, rfl⟩
abbrev main_v292 : Ref sig .tc := ⟨.hbm, 414, rfl⟩
abbrev main_v293 : Ref sig .tc := ⟨.hbm, 415, rfl⟩
abbrev main_v294 : Ref sig .tc := ⟨.hbm, 416, rfl⟩
abbrev main_c_87 : Ref sig .tc := ⟨.hbm, 417, rfl⟩
abbrev main_c_88 : Ref sig .tc := ⟨.hbm, 418, rfl⟩
abbrev main_call6_v0 : Ref sig .tc := ⟨.hbm, 419, rfl⟩
abbrev main_call6_v1 : Ref sig .tc := ⟨.hbm, 420, rfl⟩
abbrev main_call6_v2 : Ref sig .tc := ⟨.hbm, 421, rfl⟩
abbrev main_call6_v3 : Ref sig .tc := ⟨.hbm, 422, rfl⟩
abbrev main_call6_v4 : Ref sig .tc := ⟨.hbm, 423, rfl⟩
abbrev main_v295 : Ref sig .tc := ⟨.hbm, 424, rfl⟩
abbrev main_v296 : Ref sig .tc := ⟨.hbm, 425, rfl⟩
abbrev main_c_89 : Ref sig .tc := ⟨.hbm, 426, rfl⟩
abbrev main_v297 : Ref sig .tc := ⟨.hbm, 427, rfl⟩
abbrev main_v298 : Ref sig .tc := ⟨.hbm, 428, rfl⟩
abbrev main_c_90 : Ref sig .tc := ⟨.hbm, 429, rfl⟩
abbrev main_v299 : Ref sig .tc := ⟨.hbm, 430, rfl⟩
abbrev main_v300 : Ref sig .tc := ⟨.hbm, 431, rfl⟩
abbrev main_v301 : Ref sig .tc := ⟨.hbm, 432, rfl⟩
abbrev main_v302 : Ref sig .tc := ⟨.hbm, 433, rfl⟩
abbrev main_cst_91 : Ref sig .tc := ⟨.hbm, 434, rfl⟩
abbrev main_v303 : Ref sig .tc := ⟨.hbm, 435, rfl⟩
abbrev main_v304 : Ref sig .tc := ⟨.hbm, 436, rfl⟩
abbrev main_cst_92 : Ref sig .tc := ⟨.hbm, 437, rfl⟩
abbrev main_v305 : Ref sig .tc := ⟨.hbm, 438, rfl⟩
abbrev main_v306 : Ref sig .tc := ⟨.hbm, 439, rfl⟩
abbrev main_cst_93 : Ref sig .tc := ⟨.hbm, 440, rfl⟩
abbrev main_v307 : Ref sig .tc := ⟨.hbm, 441, rfl⟩
abbrev main_v308 : Ref sig .tc := ⟨.hbm, 442, rfl⟩
abbrev main_v309 : Ref sig .tc := ⟨.hbm, 443, rfl⟩
abbrev main_c_94 : Ref sig .tc := ⟨.hbm, 444, rfl⟩
abbrev main_c_95 : Ref sig .tc := ⟨.hbm, 445, rfl⟩
abbrev main_call7_v0 : Ref sig .tc := ⟨.hbm, 446, rfl⟩
abbrev main_call7_v1 : Ref sig .tc := ⟨.hbm, 447, rfl⟩
abbrev main_call7_v2 : Ref sig .tc := ⟨.hbm, 448, rfl⟩
abbrev main_call7_v3 : Ref sig .tc := ⟨.hbm, 449, rfl⟩
abbrev main_call7_v4 : Ref sig .tc := ⟨.hbm, 450, rfl⟩
abbrev main_v310 : Ref sig .tc := ⟨.hbm, 451, rfl⟩
abbrev main_v311 : Ref sig .tc := ⟨.hbm, 452, rfl⟩
abbrev main_c_96 : Ref sig .tc := ⟨.hbm, 453, rfl⟩
abbrev main_v312 : Ref sig .tc := ⟨.hbm, 454, rfl⟩
abbrev main_v313 : Ref sig .tc := ⟨.hbm, 455, rfl⟩
abbrev main_c_97 : Ref sig .tc := ⟨.hbm, 456, rfl⟩
abbrev main_v314 : Ref sig .tc := ⟨.hbm, 457, rfl⟩
abbrev main_v315 : Ref sig .tc := ⟨.hbm, 458, rfl⟩
abbrev main_v316 : Ref sig .tc := ⟨.hbm, 459, rfl⟩
abbrev main_v317 : Ref sig .tc := ⟨.hbm, 460, rfl⟩
abbrev main_c_98 : Ref sig .tc := ⟨.hbm, 461, rfl⟩
abbrev main_v318 : Ref sig .tc := ⟨.hbm, 462, rfl⟩
abbrev main_v319 : Ref sig .tc := ⟨.hbm, 463, rfl⟩
abbrev main_c_99 : Ref sig .tc := ⟨.hbm, 464, rfl⟩
abbrev main_v320 : Ref sig .tc := ⟨.hbm, 465, rfl⟩
abbrev main_v321 : Ref sig .tc := ⟨.hbm, 466, rfl⟩
abbrev main_v322 : Ref sig .tc := ⟨.hbm, 467, rfl⟩
abbrev main_c_100 : Ref sig .tc := ⟨.hbm, 468, rfl⟩
abbrev main_v323 : Ref sig .tc := ⟨.hbm, 469, rfl⟩
abbrev main_v324 : Ref sig .tc := ⟨.hbm, 470, rfl⟩
abbrev main_c_101 : Ref sig .tc := ⟨.hbm, 471, rfl⟩
abbrev main_v325 : Ref sig .tc := ⟨.hbm, 472, rfl⟩
abbrev main_v326 : Ref sig .tc := ⟨.hbm, 473, rfl⟩
abbrev main_v327 : Ref sig .tc := ⟨.hbm, 474, rfl⟩
abbrev main_v328 : Ref sig .tc := ⟨.hbm, 475, rfl⟩
abbrev main_v329 : Ref sig .tc := ⟨.hbm, 476, rfl⟩
abbrev main_v330 : Ref sig .tc := ⟨.hbm, 477, rfl⟩
abbrev main_v331 : Ref sig .tc := ⟨.hbm, 478, rfl⟩
abbrev main_c_102 : Ref sig .tc := ⟨.hbm, 479, rfl⟩
abbrev main_v332 : Ref sig .tc := ⟨.hbm, 480, rfl⟩
abbrev main_v333 : Ref sig .tc := ⟨.hbm, 481, rfl⟩
abbrev main_c_103 : Ref sig .tc := ⟨.hbm, 482, rfl⟩
abbrev main_v334 : Ref sig .tc := ⟨.hbm, 483, rfl⟩
abbrev main_v335 : Ref sig .tc := ⟨.hbm, 484, rfl⟩
abbrev main_v336 : Ref sig .tc := ⟨.hbm, 485, rfl⟩
abbrev main_c_104 : Ref sig .tc := ⟨.hbm, 486, rfl⟩
abbrev main_v337 : Ref sig .tc := ⟨.hbm, 487, rfl⟩
abbrev main_v338 : Ref sig .tc := ⟨.hbm, 488, rfl⟩
abbrev main_c_105 : Ref sig .tc := ⟨.hbm, 489, rfl⟩
abbrev main_v339 : Ref sig .tc := ⟨.hbm, 490, rfl⟩
abbrev main_v340 : Ref sig .tc := ⟨.hbm, 491, rfl⟩
abbrev main_v341 : Ref sig .tc := ⟨.hbm, 492, rfl⟩
abbrev main_v342 : Ref sig .tc := ⟨.hbm, 493, rfl⟩
abbrev main_v343 : Ref sig .tc := ⟨.hbm, 494, rfl⟩
abbrev main_v344 : Ref sig .tc := ⟨.hbm, 495, rfl⟩
abbrev main_v345 : Ref sig .tc := ⟨.hbm, 496, rfl⟩
abbrev main_c_106 : Ref sig .tc := ⟨.hbm, 497, rfl⟩
abbrev main_v346 : Ref sig .tc := ⟨.hbm, 498, rfl⟩
abbrev main_v347 : Ref sig .tc := ⟨.hbm, 499, rfl⟩
abbrev main_c_107 : Ref sig .tc := ⟨.hbm, 500, rfl⟩
abbrev main_v348 : Ref sig .tc := ⟨.hbm, 501, rfl⟩
abbrev main_v349 : Ref sig .tc := ⟨.hbm, 502, rfl⟩
abbrev main_v350 : Ref sig .tc := ⟨.hbm, 503, rfl⟩
abbrev main_c_108 : Ref sig .tc := ⟨.hbm, 504, rfl⟩
abbrev main_v351 : Ref sig .tc := ⟨.hbm, 505, rfl⟩
abbrev main_v352 : Ref sig .tc := ⟨.hbm, 506, rfl⟩
abbrev main_c_109 : Ref sig .tc := ⟨.hbm, 507, rfl⟩
abbrev main_v353 : Ref sig .tc := ⟨.hbm, 508, rfl⟩
abbrev main_v354 : Ref sig .tc := ⟨.hbm, 509, rfl⟩
abbrev main_v355 : Ref sig .tc := ⟨.hbm, 510, rfl⟩
abbrev main_v356 : Ref sig .tc := ⟨.hbm, 511, rfl⟩
abbrev main_v357 : Ref sig .tc := ⟨.hbm, 512, rfl⟩
abbrev main_v358 : Ref sig .tc := ⟨.hbm, 513, rfl⟩
abbrev main_v359 : Ref sig .tc := ⟨.hbm, 514, rfl⟩
abbrev main_c_110 : Ref sig .tc := ⟨.hbm, 515, rfl⟩
abbrev main_v360 : Ref sig .tc := ⟨.hbm, 516, rfl⟩
abbrev main_v361 : Ref sig .tc := ⟨.hbm, 517, rfl⟩
abbrev main_c_111 : Ref sig .tc := ⟨.hbm, 518, rfl⟩
abbrev main_v362 : Ref sig .tc := ⟨.hbm, 519, rfl⟩
abbrev main_v363 : Ref sig .tc := ⟨.hbm, 520, rfl⟩
abbrev main_v364 : Ref sig .tc := ⟨.hbm, 521, rfl⟩
abbrev main_c_112 : Ref sig .tc := ⟨.hbm, 522, rfl⟩
abbrev main_v365 : Ref sig .tc := ⟨.hbm, 523, rfl⟩
abbrev main_v366 : Ref sig .tc := ⟨.hbm, 524, rfl⟩
abbrev main_c_113 : Ref sig .tc := ⟨.hbm, 525, rfl⟩
abbrev main_v367 : Ref sig .tc := ⟨.hbm, 526, rfl⟩
abbrev main_v368 : Ref sig .tc := ⟨.hbm, 527, rfl⟩
abbrev main_v369 : Ref sig .tc := ⟨.hbm, 528, rfl⟩
abbrev main_v370 : Ref sig .tc := ⟨.hbm, 529, rfl⟩
abbrev main_v371 : Ref sig .tc := ⟨.hbm, 530, rfl⟩
abbrev main_v372 : Ref sig .tc := ⟨.hbm, 531, rfl⟩
abbrev main_v373 : Ref sig .tc := ⟨.hbm, 532, rfl⟩
abbrev main_v374 : Ref sig .tc := ⟨.hbm, 533, rfl⟩
abbrev main_cst_114 : Ref sig .tc := ⟨.hbm, 534, rfl⟩
abbrev main_v375 : Ref sig .tc := ⟨.hbm, 535, rfl⟩
abbrev main_v376 : Ref sig .tc := ⟨.hbm, 536, rfl⟩
abbrev main_v377 : Ref sig .tc := ⟨.hbm, 537, rfl⟩
abbrev main_v378 : Ref sig .tc := ⟨.hbm, 538, rfl⟩
abbrev main_v379 : Ref sig .tc := ⟨.hbm, 539, rfl⟩
abbrev main_v380 : Ref sig .tc := ⟨.hbm, 540, rfl⟩
abbrev main_v381 : Ref sig .tc := ⟨.hbm, 541, rfl⟩
abbrev main_cst_115 : Ref sig .tc := ⟨.hbm, 542, rfl⟩
abbrev main_v382 : Ref sig .tc := ⟨.hbm, 543, rfl⟩
abbrev main_v383 : Ref sig .tc := ⟨.hbm, 544, rfl⟩
abbrev main_v384 : Ref sig .tc := ⟨.hbm, 545, rfl⟩
abbrev main_v385 : Ref sig .tc := ⟨.hbm, 546, rfl⟩
abbrev main_v386 : Ref sig .tc := ⟨.hbm, 547, rfl⟩
abbrev main_v387 : Ref sig .tc := ⟨.hbm, 548, rfl⟩
abbrev main_v388 : Ref sig .tc := ⟨.hbm, 549, rfl⟩
abbrev main_v389 : Ref sig .tc := ⟨.hbm, 550, rfl⟩
abbrev main_v390 : Ref sig .tc := ⟨.hbm, 551, rfl⟩
abbrev main_v391 : Ref sig .tc := ⟨.hbm, 552, rfl⟩
abbrev main_v392 : Ref sig .tc := ⟨.hbm, 553, rfl⟩
abbrev main_cst_116 : Ref sig .tc := ⟨.hbm, 554, rfl⟩
abbrev main_v393 : Ref sig .tc := ⟨.hbm, 555, rfl⟩
abbrev main_v394 : Ref sig .tc := ⟨.hbm, 556, rfl⟩
abbrev main_cst_117 : Ref sig .tc := ⟨.hbm, 557, rfl⟩
abbrev main_v395 : Ref sig .tc := ⟨.hbm, 558, rfl⟩
abbrev main_v396 : Ref sig .tc := ⟨.hbm, 559, rfl⟩
abbrev main_cst_118 : Ref sig .tc := ⟨.hbm, 560, rfl⟩
abbrev main_v397 : Ref sig .tc := ⟨.hbm, 561, rfl⟩
abbrev main_v398 : Ref sig .tc := ⟨.hbm, 562, rfl⟩
abbrev main_v399 : Ref sig .tc := ⟨.hbm, 563, rfl⟩
abbrev main_c_119 : Ref sig .tc := ⟨.hbm, 564, rfl⟩
abbrev main_c_120 : Ref sig .tc := ⟨.hbm, 565, rfl⟩
abbrev main_call8_v0 : Ref sig .tc := ⟨.hbm, 566, rfl⟩
abbrev main_call8_v1 : Ref sig .tc := ⟨.hbm, 567, rfl⟩
abbrev main_call8_v2 : Ref sig .tc := ⟨.hbm, 568, rfl⟩
abbrev main_call8_v3 : Ref sig .tc := ⟨.hbm, 569, rfl⟩
abbrev main_call8_v4 : Ref sig .tc := ⟨.hbm, 570, rfl⟩
abbrev main_v400 : Ref sig .tc := ⟨.hbm, 571, rfl⟩
abbrev main_v401 : Ref sig .tc := ⟨.hbm, 572, rfl⟩
abbrev main_c_121 : Ref sig .tc := ⟨.hbm, 573, rfl⟩
abbrev main_v402 : Ref sig .tc := ⟨.hbm, 574, rfl⟩
abbrev main_v403 : Ref sig .tc := ⟨.hbm, 575, rfl⟩
abbrev main_c_122 : Ref sig .tc := ⟨.hbm, 576, rfl⟩
abbrev main_v404 : Ref sig .tc := ⟨.hbm, 577, rfl⟩
abbrev main_v405 : Ref sig .tc := ⟨.hbm, 578, rfl⟩
abbrev main_v406 : Ref sig .tc := ⟨.hbm, 579, rfl⟩
abbrev main_v407 : Ref sig .tc := ⟨.hbm, 580, rfl⟩
abbrev main_c_123 : Ref sig .tc := ⟨.hbm, 581, rfl⟩
abbrev main_v408 : Ref sig .tc := ⟨.hbm, 582, rfl⟩
abbrev main_v409 : Ref sig .tc := ⟨.hbm, 583, rfl⟩
abbrev main_c_124 : Ref sig .tc := ⟨.hbm, 584, rfl⟩
abbrev main_v410 : Ref sig .tc := ⟨.hbm, 585, rfl⟩
abbrev main_v411 : Ref sig .tc := ⟨.hbm, 586, rfl⟩
abbrev main_v412 : Ref sig .tc := ⟨.hbm, 587, rfl⟩
abbrev main_v413 : Ref sig .tc := ⟨.hbm, 588, rfl⟩
abbrev main_v414 : Ref sig .tc := ⟨.hbm, 589, rfl⟩
abbrev main_c_125 : Ref sig .tc := ⟨.hbm, 590, rfl⟩
abbrev main_v415 : Ref sig .tc := ⟨.hbm, 591, rfl⟩
abbrev main_v416 : Ref sig .tc := ⟨.hbm, 592, rfl⟩
abbrev main_c_126 : Ref sig .tc := ⟨.hbm, 593, rfl⟩
abbrev main_v417 : Ref sig .tc := ⟨.hbm, 594, rfl⟩
abbrev main_v418 : Ref sig .tc := ⟨.hbm, 595, rfl⟩
abbrev main_v419 : Ref sig .tc := ⟨.hbm, 596, rfl⟩
abbrev main_v420 : Ref sig .tc := ⟨.hbm, 597, rfl⟩
abbrev main_v421 : Ref sig .tc := ⟨.hbm, 598, rfl⟩
abbrev main_v422 : Ref sig .tc := ⟨.hbm, 599, rfl⟩
abbrev main_v423 : Ref sig .tc := ⟨.hbm, 600, rfl⟩
abbrev main_v424 : Ref sig .tc := ⟨.hbm, 601, rfl⟩
abbrev main_v425 : Ref sig .tc := ⟨.hbm, 602, rfl⟩
abbrev main_v426 : Ref sig .tc := ⟨.hbm, 603, rfl⟩
abbrev main_v427 : Ref sig .tc := ⟨.hbm, 604, rfl⟩
abbrev main_v428 : Ref sig .tc := ⟨.hbm, 605, rfl⟩
abbrev main_v429 : Ref sig .tc := ⟨.hbm, 606, rfl⟩
abbrev main_v430 : Ref sig .tc := ⟨.hbm, 607, rfl⟩
abbrev main_v431 : Ref sig .tc := ⟨.hbm, 608, rfl⟩
abbrev main_v432 : Ref sig .tc := ⟨.hbm, 609, rfl⟩
abbrev main_v433 : Ref sig .tc := ⟨.hbm, 610, rfl⟩
abbrev main_v434 : Ref sig .tc := ⟨.hbm, 611, rfl⟩
abbrev main_v435 : Ref sig .tc := ⟨.hbm, 612, rfl⟩
abbrev main_v436 : Ref sig .tc := ⟨.hbm, 613, rfl⟩
abbrev main_v437 : Ref sig .tc := ⟨.hbm, 614, rfl⟩
abbrev main_v438 : Ref sig .tc := ⟨.hbm, 615, rfl⟩
abbrev main_v439 : Ref sig .tc := ⟨.hbm, 616, rfl⟩
abbrev main_v440 : Ref sig .tc := ⟨.hbm, 617, rfl⟩
abbrev main_v441 : Ref sig .tc := ⟨.hbm, 618, rfl⟩
abbrev main_v442 : Ref sig .tc := ⟨.hbm, 619, rfl⟩
abbrev main_v443 : Ref sig .tc := ⟨.hbm, 620, rfl⟩
abbrev main_v444 : Ref sig .tc := ⟨.hbm, 621, rfl⟩
abbrev main_v445 : Ref sig .tc := ⟨.hbm, 622, rfl⟩
abbrev main_v446 : Ref sig .tc := ⟨.hbm, 623, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![313], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x6400x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x6400x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x6400 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x6400x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x6400x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x6400 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S48x6400 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S3x16x300x300_S3x300x300x16_0_2_3_1 : S3x16x300x300.Transposes [0, 2, 3, 1] S3x300x300x16
  transposes_S3x16x300_S3x300x16_0_2_1 : S3x16x300.Transposes [0, 2, 1] S3x300x16
  slices_S3x300x300x16_S1x300x300x16_0_0_0_0 : S3x300x300x16.Slices ![0, 0, 0, 0] S1x300x300x16
  shapeCasts_S1x300x300x16_S300x300x16 : S1x300x300x16.ShapeCasts S300x300x16
  slices_S2000000x3_S2000000x1_0_1 : S2000000x3.Slices ![0, 1] S2000000x1
  shapeCasts_S2000000x1_S2000000 : S2000000x1.ShapeCasts S2000000
  slices_S2000000x3_S2000000x1_0_2 : S2000000x3.Slices ![0, 2] S2000000x1
  bcast_S_S2000000 : S_.BroadcastsInDim S2000000 (![] : Fin 0 → Fin S2000000.rank)
  bcast_S2000000_S2000000x1_0 : S2000000.BroadcastsInDim S2000000x1 (![0] : Fin 1 → Fin S2000000x1.rank)
  concatenates_S2000000x1_S2000000x1_S2000000x2_d1 : Shape.Concatenates [S2000000x1, S2000000x1] S2000000x2 1
  bcast_S_S2000000x1 : S_.BroadcastsInDim S2000000x1 (![] : Fin 0 → Fin S2000000x1.rank)
  bcast_S2000000x1_S2000000x16_0_1 : S2000000x1.BroadcastsInDim S2000000x16 (![0, 1] : Fin 2 → Fin S2000000x16.rank)
  slices_S3x300x16_S1x300x16_0_0_0 : S3x300x16.Slices ![0, 0, 0] S1x300x16
  shapeCasts_S1x300x16_S300x16 : S1x300x16.ShapeCasts S300x16
  slices_S2000000x3_S2000000x1_0_0 : S2000000x3.Slices ![0, 0] S2000000x1
  slices_S3x300x300x16_S1x300x300x16_1_0_0_0 : S3x300x300x16.Slices ![1, 0, 0, 0] S1x300x300x16
  slices_S3x300x16_S1x300x16_1_0_0 : S3x300x16.Slices ![1, 0, 0] S1x300x16
  slices_S3x300x300x16_S1x300x300x16_2_0_0_0 : S3x300x300x16.Slices ![2, 0, 0, 0] S1x300x300x16
  slices_S3x300x16_S1x300x16_2_0_0 : S3x300x16.Slices ![2, 0, 0] S1x300x16
  bcast_S2000000x16_S1x2000000x16_1_2 : S2000000x16.BroadcastsInDim S1x2000000x16 (![1, 2] : Fin 2 → Fin S1x2000000x16.rank)
  concatenates_S1x2000000x16_S1x2000000x16_S1x2000000x16_S3x2000000x16_d0 : Shape.Concatenates [S1x2000000x16, S1x2000000x16, S1x2000000x16] S3x2000000x16 0
  bcast_S2000000_S1x2000000_1 : S2000000.BroadcastsInDim S1x2000000 (![1] : Fin 1 → Fin S1x2000000.rank)
  concatenates_S1x2000000_S1x2000000_S1x2000000_S3x2000000_d0 : Shape.Concatenates [S1x2000000, S1x2000000, S1x2000000] S3x2000000 0
  inb_S3x6400x16_S1x6400x16_0_0_0 : ∀ a, (![0, 0, 0] : Fin 3 → Nat) a + S1x6400x16.size a ≤ S3x6400x16.size a
  h_S1x6400x16 : 0 < S1x6400x16.numel
  shapeCasts_S1x6400x16_S6400x16 : S1x6400x16.ShapeCasts S6400x16
  transposes_S6400x16_p1_0_S16x6400 : S6400x16.Transposes [1, 0] S16x6400
  inb_S3x6400_S1x6400_0_0 : ∀ a, (![0, 0] : Fin 2 → Nat) a + S1x6400.size a ≤ S3x6400.size a
  h_S1x6400 : 0 < S1x6400.numel
  shapeCasts_S1x6400_S1x6400 : S1x6400.ShapeCasts S1x6400
  broadcasts_S1x6400_S16x6400 : S1x6400.Broadcasts S16x6400
  inb_S48x6400_S16x6400_0_0 : ∀ a, (![0, 0] : Fin 2 → Nat) a + S16x6400.size a ≤ S48x6400.size a
  h_S16x6400 : 0 < S16x6400.numel
  inb_S3x6400x16_S1x6400x16_1_0_0 : ∀ a, (![1, 0, 0] : Fin 3 → Nat) a + S1x6400x16.size a ≤ S3x6400x16.size a
  inb_S3x6400_S1x6400_1_0 : ∀ a, (![1, 0] : Fin 2 → Nat) a + S1x6400.size a ≤ S3x6400.size a
  inb_S48x6400_S16x6400_16_0 : ∀ a, (![16, 0] : Fin 2 → Nat) a + S16x6400.size a ≤ S48x6400.size a
  inb_S3x6400x16_S1x6400x16_2_0_0 : ∀ a, (![2, 0, 0] : Fin 3 → Nat) a + S1x6400x16.size a ≤ S3x6400x16.size a
  inb_S3x6400_S1x6400_2_0 : ∀ a, (![2, 0] : Fin 2 → Nat) a + S1x6400.size a ≤ S3x6400.size a
  inb_S48x6400_S16x6400_32_0 : ∀ a, (![32, 0] : Fin 2 → Nat) a + S16x6400.size a ≤ S48x6400.size a
  gather_S300x300x16_S2000000x2_S2000000x16_1_01_n_n_01_1_1116_wf : GatherDims.WF S300x300x16 S2000000x2 S2000000x16 [1] [0, 1] [] [0, 1] [] 1 ![1, 1, 16]
  gather_S300x16_S2000000x1_S2000000x16_1_0_n_n_0_1_116_wf : GatherDims.WF S300x16 S2000000x1 S2000000x16 [1] [0] [] [0] [] 1 ![1, 16]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S3x6400x16.size a < S3x2000000x16.size a
  hwx0_0 : ∀ i : grid0.Coords, EltTy.bits .f32 = 32 ∨ (Rect.unit (s := S3x2000000x16) (fun a => cc0_transform_0 i a * S3x6400x16.size a) (fun a => (Pipeline.Clip.of (cc0_transform_0 i a) (S3x6400x16.size a) (S3x2000000x16.size a)).extent (S3x6400x16.size a)) fun a => Pipeline.Clip.inb (Pipeline.Clip.ok_of (hstart0_0 i a))).WholeWords (EltTy.packing .f32)
  hwxs0_0 : ∀ i : grid0.Coords, EltTy.bits .f32 = 32 ∨ (Rect.unit (s := S3x6400x16) (fun _ => 0) (fun a => (Pipeline.Clip.of (cc0_transform_0 i a) (S3x6400x16.size a) (S3x2000000x16.size a)).extent (S3x6400x16.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S3x6400x16.size a < S3x2000000x16.size a
  hwx0_1 : ∀ i : grid0.Coords, EltTy.bits .f32 = 32 ∨ (Rect.unit (s := S3x2000000x16) (fun a => cc0_transform_1 i a * S3x6400x16.size a) (fun a => (Pipeline.Clip.of (cc0_transform_1 i a) (S3x6400x16.size a) (S3x2000000x16.size a)).extent (S3x6400x16.size a)) fun a => Pipeline.Clip.inb (Pipeline.Clip.ok_of (hstart0_1 i a))).WholeWords (EltTy.packing .f32)
  hwxs0_1 : ∀ i : grid0.Coords, EltTy.bits .f32 = 32 ∨ (Rect.unit (s := S3x6400x16) (fun _ => 0) (fun a => (Pipeline.Clip.of (cc0_transform_1 i a) (S3x6400x16.size a) (S3x2000000x16.size a)).extent (S3x6400x16.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S3x6400.size a < S3x2000000.size a
  hwx0_2 : ∀ i : grid0.Coords, EltTy.bits .f32 = 32 ∨ (Rect.unit (s := S3x2000000) (fun a => cc0_transform_2 i a * S3x6400.size a) (fun a => (Pipeline.Clip.of (cc0_transform_2 i a) (S3x6400.size a) (S3x2000000.size a)).extent (S3x6400.size a)) fun a => Pipeline.Clip.inb (Pipeline.Clip.ok_of (hstart0_2 i a))).WholeWords (EltTy.packing .f32)
  hwxs0_2 : ∀ i : grid0.Coords, EltTy.bits .f32 = 32 ∨ (Rect.unit (s := S3x6400) (fun _ => 0) (fun a => (Pipeline.Clip.of (cc0_transform_2 i a) (S3x6400.size a) (S3x2000000.size a)).extent (S3x6400.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S3x6400x16.size a < S3x2000000x16.size a
  hwx0_3 : ∀ i : grid0.Coords, EltTy.bits .f32 = 32 ∨ (Rect.unit (s := S3x2000000x16) (fun a => cc0_transform_3 i a * S3x6400x16.size a) (fun a => (Pipeline.Clip.of (cc0_transform_3 i a) (S3x6400x16.size a) (S3x2000000x16.size a)).extent (S3x6400x16.size a)) fun a => Pipeline.Clip.inb (Pipeline.Clip.ok_of (hstart0_3 i a))).WholeWords (EltTy.packing .f32)
  hwxs0_3 : ∀ i : grid0.Coords, EltTy.bits .f32 = 32 ∨ (Rect.unit (s := S3x6400x16) (fun _ => 0) (fun a => (Pipeline.Clip.of (cc0_transform_3 i a) (S3x6400x16.size a) (S3x2000000x16.size a)).extent (S3x6400x16.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S3x6400x16.size a < S3x2000000x16.size a
  hwx0_4 : ∀ i : grid0.Coords, EltTy.bits .f32 = 32 ∨ (Rect.unit (s := S3x2000000x16) (fun a => cc0_transform_4 i a * S3x6400x16.size a) (fun a => (Pipeline.Clip.of (cc0_transform_4 i a) (S3x6400x16.size a) (S3x2000000x16.size a)).extent (S3x6400x16.size a)) fun a => Pipeline.Clip.inb (Pipeline.Clip.ok_of (hstart0_4 i a))).WholeWords (EltTy.packing .f32)
  hwxs0_4 : ∀ i : grid0.Coords, EltTy.bits .f32 = 32 ∨ (Rect.unit (s := S3x6400x16) (fun _ => 0) (fun a => (Pipeline.Clip.of (cc0_transform_4 i a) (S3x6400x16.size a) (S3x2000000x16.size a)).extent (S3x6400x16.size a)) fun a => (Nat.zero_add _).trans_le (Pipeline.Clip.extent_le (Pipeline.Clip.ok_of (hstart0_4 i a)))).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S3x6400.size a < S3x2000000.size a
  hwx0_5 : ∀ i : grid0.Coords, EltTy.bits .f32 = 32 ∨ (Rect.unit (s := S3x2000000) (fun a => cc0_transform_5 i a * S3x6400.size a) (fun a => (Pipeline.Clip.of (cc0_transform_5 i a) (S3x6400.size a) (S3x2000000.size a)).extent (S3x6400.size a)) fun a => Pipeline.Clip.inb (Pipeline.Clip.ok_of (hstart0_5 i a))).WholeWords (EltTy.packing .f32)
  hwxs0_5 : ∀ i : grid0.Coords, EltTy.bits .f32 = 32 ∨ (Rect.unit (s := S3x6400) (fun _ => 0) (fun a => (Pipeline.Clip.of (cc0_transform_5 i a) (S3x6400.size a) (S3x2000000.size a)).extent (S3x6400.size a)) fun a => (Nat.zero_add _).trans_le (Pipeline.Clip.extent_le (Pipeline.Clip.ok_of (hstart0_5 i a)))).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hstart0_6 : ∀ (i : grid0.Coords) a, cc0_transform_6 i a * S48x6400.size a < S48x2000000.size a
  hwx0_6 : ∀ i : grid0.Coords, EltTy.bits .f32 = 32 ∨ (Rect.unit (s := S48x2000000) (fun a => cc0_transform_6 i a * S48x6400.size a) (fun a => (Pipeline.Clip.of (cc0_transform_6 i a) (S48x6400.size a) (S48x2000000.size a)).extent (S48x6400.size a)) fun a => Pipeline.Clip.inb (Pipeline.Clip.ok_of (hstart0_6 i a))).WholeWords (EltTy.packing .f32)
  hwxs0_6 : ∀ i : grid0.Coords, EltTy.bits .f32 = 32 ∨ (Rect.unit (s := S48x6400) (fun _ => 0) (fun a => (Pipeline.Clip.of (cc0_transform_6 i a) (S48x6400.size a) (S48x2000000.size a)).extent (S48x6400.size a)) fun a => (Nat.zero_add _).trans_le (Pipeline.Clip.extent_le (Pipeline.Clip.ok_of (hstart0_6 i a)))).WholeWords (EltTy.packing .f32)

variable [Facts₀]

def gather_S300x300x16_S2000000x2_S2000000x16_1_01_n_n_01_1_1116 : GatherDims S300x300x16 S2000000x2 S2000000x16 where
  offsetDims := [1]
  collapsedSliceDims := [0, 1]
  operandBatchingDims := []
  startIndicesBatchingDims := []
  startIndexMap := [0, 1]
  indexVectorDim := 1
  sliceSizes := ![1, 1, 16]
  wf := gather_S300x300x16_S2000000x2_S2000000x16_1_01_n_n_01_1_1116_wf
def gather_S300x16_S2000000x1_S2000000x16_1_0_n_n_0_1_116 : GatherDims S300x16 S2000000x1 S2000000x16 where
  offsetDims := [1]
  collapsedSliceDims := [0]
  operandBatchingDims := []
  startIndicesBatchingDims := []
  startIndexMap := [0]
  indexVectorDim := 1
  sliceSizes := ![1, 16]
  wf := gather_S300x16_S2000000x1_S2000000x16_1_0_n_n_0_1_116_wf

abbrev win0_0 : Pipeline.Window sig grid0 :=
  Pipeline.Window.ofSpecClip (Memref.whole main_v425) S3x6400x16.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v429) S3x6400x16.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v433) S3x6400.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v437) S3x6400x16.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_v441) S3x6400x16.size cc0_transform_4 reads0_4 false false 2 stage0_4 sem0_4
    hrank0 hreads0_4 hstart0_4 nbuf0_4 (Memref.isWhole_whole _) hwx0_4 hwxs0_4 hstage0_4

abbrev win0_5 : Pipeline.Window sig grid0 :=
  Pipeline.Window.ofSpecClip (Memref.whole main_v445) S3x6400.size cc0_transform_5 reads0_5 false false 2 stage0_5 sem0_5
    hrank0 hreads0_5 hstart0_5 nbuf0_5 (Memref.isWhole_whole _) hwx0_5 hwxs0_5 hstage0_5

abbrev win0_6 : Pipeline.Window sig grid0 :=
  Pipeline.Window.ofSpecClip (Memref.whole main_v446) S48x6400.size cc0_transform_6 reads0_6 true false 2 stage0_6 sem0_6
    hrank0 hreads0_6 hstart0_6 nbuf0_6 (Memref.isWhole_whole _) hwx0_6 hwxs0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2000000x3 : Shape := ⟨2, ![2000000, 3]⟩
abbrev S3x16x300x300 : Shape := ⟨4, ![3, 16, 300, 300]⟩
abbrev S3x16x300 : Shape := ⟨3, ![3, 16, 300]⟩
abbrev S1x16x300x300 : Shape := ⟨4, ![1, 16, 300, 300]⟩
abbrev S16x300x300 : Shape := ⟨3, ![16, 300, 300]⟩
abbrev S2000000x1 : Shape := ⟨2, ![2000000, 1]⟩
abbrev S2000000 : Shape := ⟨1, ![2000000]⟩
abbrev S_ : Shape := ⟨0, ![]⟩
abbrev S2000000x2 : Shape := ⟨2, ![2000000, 2]⟩
abbrev S16x2000000 : Shape := ⟨2, ![16, 2000000]⟩
abbrev S1x2000000 : Shape := ⟨2, ![1, 2000000]⟩
abbrev S1x16x300 : Shape := ⟨3, ![1, 16, 300]⟩
abbrev S16x300 : Shape := ⟨2, ![16, 300]⟩
abbrev S48x2000000 : Shape := ⟨2, ![48, 2000000]⟩

abbrev nBuf : Space → Nat
  | .hbm => 670
  | .vmem => 0
  | .smem => 0
  | _ => 0

abbrev hbmTy0_0 (i : Nat) : BufTy := match i % 128 with
  | 0 => ⟨S2000000x3, .f32⟩
  | 1 => ⟨S3x16x300x300, .f32⟩
  | 2 => ⟨S3x16x300, .f32⟩
  | 3 => ⟨S1x16x300x300, .f32⟩
  | 4 => ⟨S16x300x300, .f32⟩
  | 5 => ⟨S2000000x1, .f32⟩
  | 6 => ⟨S2000000, .f32⟩
  | 7 => ⟨S2000000x1, .f32⟩
  | 8 => ⟨S2000000, .f32⟩
  | 9 => ⟨S_, .f32⟩
  | 10 => ⟨S2000000, .f32⟩
  | 11 => ⟨S2000000, .f32⟩
  | 12 => ⟨S_, .f32⟩
  | 13 => ⟨S2000000, .f32⟩
  | 14 => ⟨S2000000, .f32⟩
  | 15 => ⟨S_, .f32⟩
  | 16 => ⟨S2000000, .f32⟩
  | 17 => ⟨S2000000, .f32⟩
  | 18 => ⟨S2000000, .f32⟩
  | 19 => ⟨S_, .i32⟩
  | 20 => ⟨S_, .i32⟩
  | 21 => ⟨S_, .f32⟩
  | 22 => ⟨S2000000, .f32⟩
  | 23 => ⟨S2000000, .f32⟩
  | 24 => ⟨S_, .f32⟩
  | 25 => ⟨S2000000, .f32⟩
  | 26 => ⟨S2000000, .f32⟩
  | 27 => ⟨S2000000, .i32⟩
  | 28 => ⟨S_, .i32⟩
  | 29 => ⟨S2000000, .i32⟩
  | 30 => ⟨S2000000, .i32⟩
  | 31 => ⟨S_, .i32⟩
  | 32 => ⟨S2000000, .i32⟩
  | 33 => ⟨S2000000, .i32⟩
  | 34 => ⟨S2000000, .f32⟩
  | 35 => ⟨S2000000, .f32⟩
  | 36 => ⟨S_, .f32⟩
  | 37 => ⟨S2000000, .f32⟩
  | 38 => ⟨S2000000, .f32⟩
  | 39 => ⟨S_, .f32⟩
  | 40 => ⟨S2000000, .f32⟩
  | 41 => ⟨S2000000, .f32⟩
  | 42 => ⟨S_, .f32⟩
  | 43 => ⟨S2000000, .f32⟩
  | 44 => ⟨S2000000, .f32⟩
  | 45 => ⟨S2000000, .f32⟩
  | 46 => ⟨S_, .i32⟩
  | 47 => ⟨S_, .i32⟩
  | 48 => ⟨S_, .f32⟩
  | 49 => ⟨S2000000, .f32⟩
  | 50 => ⟨S2000000, .f32⟩
  | 51 => ⟨S_, .f32⟩
  | 52 => ⟨S2000000, .f32⟩
  | 53 => ⟨S2000000, .f32⟩
  | 54 => ⟨S2000000, .i32⟩
  | 55 => ⟨S_, .i32⟩
  | 56 => ⟨S2000000, .i32⟩
  | 57 => ⟨S2000000, .i32⟩
  | 58 => ⟨S_, .i32⟩
  | 59 => ⟨S2000000, .i32⟩
  | 60 => ⟨S2000000, .i32⟩
  | 61 => ⟨S2000000, .f32⟩
  | 62 => ⟨S2000000, .f32⟩
  | 63 => ⟨S_, .i32⟩
  | 64 => ⟨S2000000, .i32⟩
  | 65 => ⟨S2000000, .i1⟩
  | 66 => ⟨S_, .i32⟩
  | 67 => ⟨S2000000, .i32⟩
  | 68 => ⟨S2000000, .i32⟩
  | 69 => ⟨S2000000, .i32⟩
  | 70 => ⟨S_, .i32⟩
  | 71 => ⟨S2000000, .i32⟩
  | 72 => ⟨S2000000, .i1⟩
  | 73 => ⟨S_, .i32⟩
  | 74 => ⟨S2000000, .i32⟩
  | 75 => ⟨S2000000, .i32⟩
  | 76 => ⟨S2000000, .i32⟩
  | 77 => ⟨S2000000x1, .i32⟩
  | 78 => ⟨S2000000x1, .i32⟩
  | 79 => ⟨S2000000x2, .i32⟩
  | 80 => ⟨S16x2000000, .f32⟩
  | 81 => ⟨S_, .i32⟩
  | 82 => ⟨S2000000, .i32⟩
  | 83 => ⟨S2000000, .i1⟩
  | 84 => ⟨S_, .i32⟩
  | 85 => ⟨S2000000, .i32⟩
  | 86 => ⟨S2000000, .i32⟩
  | 87 => ⟨S2000000, .i32⟩
  | 88 => ⟨S_, .i32⟩
  | 89 => ⟨S2000000, .i32⟩
  | 90 => ⟨S2000000, .i1⟩
  | 91 => ⟨S_, .i32⟩
  | 92 => ⟨S2000000, .i32⟩
  | 93 => ⟨S2000000, .i32⟩
  | 94 => ⟨S2000000, .i32⟩
  | 95 => ⟨S2000000x1, .i32⟩
  | 96 => ⟨S2000000x1, .i32⟩
  | 97 => ⟨S2000000x2, .i32⟩
  | 98 => ⟨S16x2000000, .f32⟩
  | 99 => ⟨S_, .i32⟩
  | 100 => ⟨S2000000, .i32⟩
  | 101 => ⟨S2000000, .i1⟩
  | 102 => ⟨S_, .i32⟩
  | 103 => ⟨S2000000, .i32⟩
  | 104 => ⟨S2000000, .i32⟩
  | 105 => ⟨S2000000, .i32⟩
  | 106 => ⟨S_, .i32⟩
  | 107 => ⟨S2000000, .i32⟩
  | 108 => ⟨S2000000, .i1⟩
  | 109 => ⟨S_, .i32⟩
  | 110 => ⟨S2000000, .i32⟩
  | 111 => ⟨S2000000, .i32⟩
  | 112 => ⟨S2000000, .i32⟩
  | 113 => ⟨S2000000x1, .i32⟩
  | 114 => ⟨S2000000x1, .i32⟩
  | 115 => ⟨S2000000x2, .i32⟩
  | 116 => ⟨S16x2000000, .f32⟩
  | 117 => ⟨S_, .i32⟩
  | 118 => ⟨S2000000, .i32⟩
  | 119 => ⟨S2000000, .i1⟩
  | 120 => ⟨S_, .i32⟩
  | 121 => ⟨S2000000, .i32⟩
  | 122 => ⟨S2000000, .i32⟩
  | 123 => ⟨S2000000, .i32⟩
  | 124 => ⟨S_, .i32⟩
  | 125 => ⟨S2000000, .i32⟩
  | 126 => ⟨S2000000, .i1⟩
  | 127 => ⟨S_, .i32⟩
  | _ => ⟨S2000000x3, .f32⟩

abbrev hbmTy0_1 (i : Nat) : BufTy := match i % 128 with
  | 0 => ⟨S2000000, .i32⟩
  | 1 => ⟨S2000000, .i32⟩
  | 2 => ⟨S2000000, .i32⟩
  | 3 => ⟨S2000000x1, .i32⟩
  | 4 => ⟨S2000000x1, .i32⟩
  | 5 => ⟨S2000000x2, .i32⟩
  | 6 => ⟨S16x2000000, .f32⟩
  | 7 => ⟨S_, .f32⟩
  | 8 => ⟨S2000000, .f32⟩
  | 9 => ⟨S2000000, .f32⟩
  | 10 => ⟨S1x2000000, .f32⟩
  | 11 => ⟨S16x2000000, .f32⟩
  | 12 => ⟨S16x2000000, .f32⟩
  | 13 => ⟨S1x2000000, .f32⟩
  | 14 => ⟨S16x2000000, .f32⟩
  | 15 => ⟨S16x2000000, .f32⟩
  | 16 => ⟨S16x2000000, .f32⟩
  | 17 => ⟨S_, .f32⟩
  | 18 => ⟨S2000000, .f32⟩
  | 19 => ⟨S2000000, .f32⟩
  | 20 => ⟨S1x2000000, .f32⟩
  | 21 => ⟨S16x2000000, .f32⟩
  | 22 => ⟨S16x2000000, .f32⟩
  | 23 => ⟨S_, .f32⟩
  | 24 => ⟨S2000000, .f32⟩
  | 25 => ⟨S2000000, .f32⟩
  | 26 => ⟨S1x2000000, .f32⟩
  | 27 => ⟨S16x2000000, .f32⟩
  | 28 => ⟨S16x2000000, .f32⟩
  | 29 => ⟨S1x2000000, .f32⟩
  | 30 => ⟨S16x2000000, .f32⟩
  | 31 => ⟨S16x2000000, .f32⟩
  | 32 => ⟨S16x2000000, .f32⟩
  | 33 => ⟨S1x2000000, .f32⟩
  | 34 => ⟨S16x2000000, .f32⟩
  | 35 => ⟨S16x2000000, .f32⟩
  | 36 => ⟨S16x2000000, .f32⟩
  | 37 => ⟨S1x16x300, .f32⟩
  | 38 => ⟨S16x300, .f32⟩
  | 39 => ⟨S2000000x1, .f32⟩
  | 40 => ⟨S2000000, .f32⟩
  | 41 => ⟨S_, .f32⟩
  | 42 => ⟨S2000000, .f32⟩
  | 43 => ⟨S2000000, .f32⟩
  | 44 => ⟨S_, .f32⟩
  | 45 => ⟨S2000000, .f32⟩
  | 46 => ⟨S2000000, .f32⟩
  | 47 => ⟨S_, .f32⟩
  | 48 => ⟨S2000000, .f32⟩
  | 49 => ⟨S2000000, .f32⟩
  | 50 => ⟨S2000000, .f32⟩
  | 51 => ⟨S_, .i32⟩
  | 52 => ⟨S_, .i32⟩
  | 53 => ⟨S_, .f32⟩
  | 54 => ⟨S2000000, .f32⟩
  | 55 => ⟨S2000000, .f32⟩
  | 56 => ⟨S_, .f32⟩
  | 57 => ⟨S2000000, .f32⟩
  | 58 => ⟨S2000000, .f32⟩
  | 59 => ⟨S2000000, .i32⟩
  | 60 => ⟨S_, .i32⟩
  | 61 => ⟨S2000000, .i32⟩
  | 62 => ⟨S2000000, .i32⟩
  | 63 => ⟨S_, .i32⟩
  | 64 => ⟨S2000000, .i32⟩
  | 65 => ⟨S2000000, .i32⟩
  | 66 => ⟨S2000000, .f32⟩
  | 67 => ⟨S2000000, .f32⟩
  | 68 => ⟨S_, .i32⟩
  | 69 => ⟨S2000000, .i32⟩
  | 70 => ⟨S2000000, .i1⟩
  | 71 => ⟨S_, .i32⟩
  | 72 => ⟨S2000000, .i32⟩
  | 73 => ⟨S2000000, .i32⟩
  | 74 => ⟨S2000000, .i32⟩
  | 75 => ⟨S2000000x1, .i32⟩
  | 76 => ⟨S16x2000000, .f32⟩
  | 77 => ⟨S_, .f32⟩
  | 78 => ⟨S2000000, .f32⟩
  | 79 => ⟨S2000000, .f32⟩
  | 80 => ⟨S1x2000000, .f32⟩
  | 81 => ⟨S16x2000000, .f32⟩
  | 82 => ⟨S16x2000000, .f32⟩
  | 83 => ⟨S_, .i32⟩
  | 84 => ⟨S2000000, .i32⟩
  | 85 => ⟨S2000000, .i1⟩
  | 86 => ⟨S_, .i32⟩
  | 87 => ⟨S2000000, .i32⟩
  | 88 => ⟨S2000000, .i32⟩
  | 89 => ⟨S2000000, .i32⟩
  | 90 => ⟨S2000000x1, .i32⟩
  | 91 => ⟨S16x2000000, .f32⟩
  | 92 => ⟨S1x2000000, .f32⟩
  | 93 => ⟨S16x2000000, .f32⟩
  | 94 => ⟨S16x2000000, .f32⟩
  | 95 => ⟨S16x2000000, .f32⟩
  | 96 => ⟨S16x2000000, .f32⟩
  | 97 => ⟨S1x16x300x300, .f32⟩
  | 98 => ⟨S16x300x300, .f32⟩
  | 99 => ⟨S2000000x1, .f32⟩
  | 100 => ⟨S2000000, .f32⟩
  | 101 => ⟨S2000000x1, .f32⟩
  | 102 => ⟨S2000000, .f32⟩
  | 103 => ⟨S_, .f32⟩
  | 104 => ⟨S2000000, .f32⟩
  | 105 => ⟨S2000000, .f32⟩
  | 106 => ⟨S_, .f32⟩
  | 107 => ⟨S2000000, .f32⟩
  | 108 => ⟨S2000000, .f32⟩
  | 109 => ⟨S_, .f32⟩
  | 110 => ⟨S2000000, .f32⟩
  | 111 => ⟨S2000000, .f32⟩
  | 112 => ⟨S2000000, .f32⟩
  | 113 => ⟨S_, .i32⟩
  | 114 => ⟨S_, .i32⟩
  | 115 => ⟨S_, .f32⟩
  | 116 => ⟨S2000000, .f32⟩
  | 117 => ⟨S2000000, .f32⟩
  | 118 => ⟨S_, .f32⟩
  | 119 => ⟨S2000000, .f32⟩
  | 120 => ⟨S2000000, .f32⟩
  | 121 => ⟨S2000000, .i32⟩
  | 122 => ⟨S_, .i32⟩
  | 123 => ⟨S2000000, .i32⟩
  | 124 => ⟨S2000000, .i32⟩
  | 125 => ⟨S_, .i32⟩
  | 126 => ⟨S2000000, .i32⟩
  | 127 => ⟨S2000000, .i32⟩
  | _ => ⟨S2000000x3, .f32⟩

abbrev hbmTy0_2 (i : Nat) : BufTy := match i % 128 with
  | 0 => ⟨S2000000, .f32⟩
  | 1 => ⟨S2000000, .f32⟩
  | 2 => ⟨S_, .f32⟩
  | 3 => ⟨S2000000, .f32⟩
  | 4 => ⟨S2000000, .f32⟩
  | 5 => ⟨S_, .f32⟩
  | 6 => ⟨S2000000, .f32⟩
  | 7 => ⟨S2000000, .f32⟩
  | 8 => ⟨S_, .f32⟩
  | 9 => ⟨S2000000, .f32⟩
  | 10 => ⟨S2000000, .f32⟩
  | 11 => ⟨S2000000, .f32⟩
  | 12 => ⟨S_, .i32⟩
  | 13 => ⟨S_, .i32⟩
  | 14 => ⟨S_, .f32⟩
  | 15 => ⟨S2000000, .f32⟩
  | 16 => ⟨S2000000, .f32⟩
  | 17 => ⟨S_, .f32⟩
  | 18 => ⟨S2000000, .f32⟩
  | 19 => ⟨S2000000, .f32⟩
  | 20 => ⟨S2000000, .i32⟩
  | 21 => ⟨S_, .i32⟩
  | 22 => ⟨S2000000, .i32⟩
  | 23 => ⟨S2000000, .i32⟩
  | 24 => ⟨S_, .i32⟩
  | 25 => ⟨S2000000, .i32⟩
  | 26 => ⟨S2000000, .i32⟩
  | 27 => ⟨S2000000, .f32⟩
  | 28 => ⟨S2000000, .f32⟩
  | 29 => ⟨S_, .i32⟩
  | 30 => ⟨S2000000, .i32⟩
  | 31 => ⟨S2000000, .i1⟩
  | 32 => ⟨S_, .i32⟩
  | 33 => ⟨S2000000, .i32⟩
  | 34 => ⟨S2000000, .i32⟩
  | 35 => ⟨S2000000, .i32⟩
  | 36 => ⟨S_, .i32⟩
  | 37 => ⟨S2000000, .i32⟩
  | 38 => ⟨S2000000, .i1⟩
  | 39 => ⟨S_, .i32⟩
  | 40 => ⟨S2000000, .i32⟩
  | 41 => ⟨S2000000, .i32⟩
  | 42 => ⟨S2000000, .i32⟩
  | 43 => ⟨S2000000x1, .i32⟩
  | 44 => ⟨S2000000x1, .i32⟩
  | 45 => ⟨S2000000x2, .i32⟩
  | 46 => ⟨S16x2000000, .f32⟩
  | 47 => ⟨S_, .i32⟩
  | 48 => ⟨S2000000, .i32⟩
  | 49 => ⟨S2000000, .i1⟩
  | 50 => ⟨S_, .i32⟩
  | 51 => ⟨S2000000, .i32⟩
  | 52 => ⟨S2000000, .i32⟩
  | 53 => ⟨S2000000, .i32⟩
  | 54 => ⟨S_, .i32⟩
  | 55 => ⟨S2000000, .i32⟩
  | 56 => ⟨S2000000, .i1⟩
  | 57 => ⟨S_, .i32⟩
  | 58 => ⟨S2000000, .i32⟩
  | 59 => ⟨S2000000, .i32⟩
  | 60 => ⟨S2000000, .i32⟩
  | 61 => ⟨S2000000x1, .i32⟩
  | 62 => ⟨S2000000x1, .i32⟩
  | 63 => ⟨S2000000x2, .i32⟩
  | 64 => ⟨S16x2000000, .f32⟩
  | 65 => ⟨S_, .i32⟩
  | 66 => ⟨S2000000, .i32⟩
  | 67 => ⟨S2000000, .i1⟩
  | 68 => ⟨S_, .i32⟩
  | 69 => ⟨S2000000, .i32⟩
  | 70 => ⟨S2000000, .i32⟩
  | 71 => ⟨S2000000, .i32⟩
  | 72 => ⟨S_, .i32⟩
  | 73 => ⟨S2000000, .i32⟩
  | 74 => ⟨S2000000, .i1⟩
  | 75 => ⟨S_, .i32⟩
  | 76 => ⟨S2000000, .i32⟩
  | 77 => ⟨S2000000, .i32⟩
  | 78 => ⟨S2000000, .i32⟩
  | 79 => ⟨S2000000x1, .i32⟩
  | 80 => ⟨S2000000x1, .i32⟩
  | 81 => ⟨S2000000x2, .i32⟩
  | 82 => ⟨S16x2000000, .f32⟩
  | 83 => ⟨S_, .i32⟩
  | 84 => ⟨S2000000, .i32⟩
  | 85 => ⟨S2000000, .i1⟩
  | 86 => ⟨S_, .i32⟩
  | 87 => ⟨S2000000, .i32⟩
  | 88 => ⟨S2000000, .i32⟩
  | 89 => ⟨S2000000, .i32⟩
  | 90 => ⟨S_, .i32⟩
  | 91 => ⟨S2000000, .i32⟩
  | 92 => ⟨S2000000, .i1⟩
  | 93 => ⟨S_, .i32⟩
  | 94 => ⟨S2000000, .i32⟩
  | 95 => ⟨S2000000, .i32⟩
  | 96 => ⟨S2000000, .i32⟩
  | 97 => ⟨S2000000x1, .i32⟩
  | 98 => ⟨S2000000x1, .i32⟩
  | 99 => ⟨S2000000x2, .i32⟩
  | 100 => ⟨S16x2000000, .f32⟩
  | 101 => ⟨S_, .f32⟩
  | 102 => ⟨S2000000, .f32⟩
  | 103 => ⟨S2000000, .f32⟩
  | 104 => ⟨S1x2000000, .f32⟩
  | 105 => ⟨S16x2000000, .f32⟩
  | 106 => ⟨S16x2000000, .f32⟩
  | 107 => ⟨S1x2000000, .f32⟩
  | 108 => ⟨S16x2000000, .f32⟩
  | 109 => ⟨S16x2000000, .f32⟩
  | 110 => ⟨S16x2000000, .f32⟩
  | 111 => ⟨S_, .f32⟩
  | 112 => ⟨S2000000, .f32⟩
  | 113 => ⟨S2000000, .f32⟩
  | 114 => ⟨S1x2000000, .f32⟩
  | 115 => ⟨S16x2000000, .f32⟩
  | 116 => ⟨S16x2000000, .f32⟩
  | 117 => ⟨S_, .f32⟩
  | 118 => ⟨S2000000, .f32⟩
  | 119 => ⟨S2000000, .f32⟩
  | 120 => ⟨S1x2000000, .f32⟩
  | 121 => ⟨S16x2000000, .f32⟩
  | 122 => ⟨S16x2000000, .f32⟩
  | 123 => ⟨S1x2000000, .f32⟩
  | 124 => ⟨S16x2000000, .f32⟩
  | 125 => ⟨S16x2000000, .f32⟩
  | 126 => ⟨S16x2000000, .f32⟩
  | 127 => ⟨S1x2000000, .f32⟩
  | _ => ⟨S2000000x3, .f32⟩

abbrev hbmTy0_3 (i : Nat) : BufTy := match i % 128 with
  | 0 => ⟨S16x2000000, .f32⟩
  | 1 => ⟨S16x2000000, .f32⟩
  | 2 => ⟨S16x2000000, .f32⟩
  | 3 => ⟨S1x16x300, .f32⟩
  | 4 => ⟨S16x300, .f32⟩
  | 5 => ⟨S2000000x1, .f32⟩
  | 6 => ⟨S2000000, .f32⟩
  | 7 => ⟨S_, .f32⟩
  | 8 => ⟨S2000000, .f32⟩
  | 9 => ⟨S2000000, .f32⟩
  | 10 => ⟨S_, .f32⟩
  | 11 => ⟨S2000000, .f32⟩
  | 12 => ⟨S2000000, .f32⟩
  | 13 => ⟨S_, .f32⟩
  | 14 => ⟨S2000000, .f32⟩
  | 15 => ⟨S2000000, .f32⟩
  | 16 => ⟨S2000000, .f32⟩
  | 17 => ⟨S_, .i32⟩
  | 18 => ⟨S_, .i32⟩
  | 19 => ⟨S_, .f32⟩
  | 20 => ⟨S2000000, .f32⟩
  | 21 => ⟨S2000000, .f32⟩
  | 22 => ⟨S_, .f32⟩
  | 23 => ⟨S2000000, .f32⟩
  | 24 => ⟨S2000000, .f32⟩
  | 25 => ⟨S2000000, .i32⟩
  | 26 => ⟨S_, .i32⟩
  | 27 => ⟨S2000000, .i32⟩
  | 28 => ⟨S2000000, .i32⟩
  | 29 => ⟨S_, .i32⟩
  | 30 => ⟨S2000000, .i32⟩
  | 31 => ⟨S2000000, .i32⟩
  | 32 => ⟨S2000000, .f32⟩
  | 33 => ⟨S2000000, .f32⟩
  | 34 => ⟨S_, .i32⟩
  | 35 => ⟨S2000000, .i32⟩
  | 36 => ⟨S2000000, .i1⟩
  | 37 => ⟨S_, .i32⟩
  | 38 => ⟨S2000000, .i32⟩
  | 39 => ⟨S2000000, .i32⟩
  | 40 => ⟨S2000000, .i32⟩
  | 41 => ⟨S2000000x1, .i32⟩
  | 42 => ⟨S16x2000000, .f32⟩
  | 43 => ⟨S_, .f32⟩
  | 44 => ⟨S2000000, .f32⟩
  | 45 => ⟨S2000000, .f32⟩
  | 46 => ⟨S1x2000000, .f32⟩
  | 47 => ⟨S16x2000000, .f32⟩
  | 48 => ⟨S16x2000000, .f32⟩
  | 49 => ⟨S_, .i32⟩
  | 50 => ⟨S2000000, .i32⟩
  | 51 => ⟨S2000000, .i1⟩
  | 52 => ⟨S_, .i32⟩
  | 53 => ⟨S2000000, .i32⟩
  | 54 => ⟨S2000000, .i32⟩
  | 55 => ⟨S2000000, .i32⟩
  | 56 => ⟨S2000000x1, .i32⟩
  | 57 => ⟨S16x2000000, .f32⟩
  | 58 => ⟨S1x2000000, .f32⟩
  | 59 => ⟨S16x2000000, .f32⟩
  | 60 => ⟨S16x2000000, .f32⟩
  | 61 => ⟨S16x2000000, .f32⟩
  | 62 => ⟨S16x2000000, .f32⟩
  | 63 => ⟨S1x16x300x300, .f32⟩
  | 64 => ⟨S16x300x300, .f32⟩
  | 65 => ⟨S2000000x1, .f32⟩
  | 66 => ⟨S2000000, .f32⟩
  | 67 => ⟨S2000000x1, .f32⟩
  | 68 => ⟨S2000000, .f32⟩
  | 69 => ⟨S_, .f32⟩
  | 70 => ⟨S2000000, .f32⟩
  | 71 => ⟨S2000000, .f32⟩
  | 72 => ⟨S_, .f32⟩
  | 73 => ⟨S2000000, .f32⟩
  | 74 => ⟨S2000000, .f32⟩
  | 75 => ⟨S_, .f32⟩
  | 76 => ⟨S2000000, .f32⟩
  | 77 => ⟨S2000000, .f32⟩
  | 78 => ⟨S2000000, .f32⟩
  | 79 => ⟨S_, .i32⟩
  | 80 => ⟨S_, .i32⟩
  | 81 => ⟨S_, .f32⟩
  | 82 => ⟨S2000000, .f32⟩
  | 83 => ⟨S2000000, .f32⟩
  | 84 => ⟨S_, .f32⟩
  | 85 => ⟨S2000000, .f32⟩
  | 86 => ⟨S2000000, .f32⟩
  | 87 => ⟨S2000000, .i32⟩
  | 88 => ⟨S_, .i32⟩
  | 89 => ⟨S2000000, .i32⟩
  | 90 => ⟨S2000000, .i32⟩
  | 91 => ⟨S_, .i32⟩
  | 92 => ⟨S2000000, .i32⟩
  | 93 => ⟨S2000000, .i32⟩
  | 94 => ⟨S2000000, .f32⟩
  | 95 => ⟨S2000000, .f32⟩
  | 96 => ⟨S_, .f32⟩
  | 97 => ⟨S2000000, .f32⟩
  | 98 => ⟨S2000000, .f32⟩
  | 99 => ⟨S_, .f32⟩
  | 100 => ⟨S2000000, .f32⟩
  | 101 => ⟨S2000000, .f32⟩
  | 102 => ⟨S_, .f32⟩
  | 103 => ⟨S2000000, .f32⟩
  | 104 => ⟨S2000000, .f32⟩
  | 105 => ⟨S2000000, .f32⟩
  | 106 => ⟨S_, .i32⟩
  | 107 => ⟨S_, .i32⟩
  | 108 => ⟨S_, .f32⟩
  | 109 => ⟨S2000000, .f32⟩
  | 110 => ⟨S2000000, .f32⟩
  | 111 => ⟨S_, .f32⟩
  | 112 => ⟨S2000000, .f32⟩
  | 113 => ⟨S2000000, .f32⟩
  | 114 => ⟨S2000000, .i32⟩
  | 115 => ⟨S_, .i32⟩
  | 116 => ⟨S2000000, .i32⟩
  | 117 => ⟨S2000000, .i32⟩
  | 118 => ⟨S_, .i32⟩
  | 119 => ⟨S2000000, .i32⟩
  | 120 => ⟨S2000000, .i32⟩
  | 121 => ⟨S2000000, .f32⟩
  | 122 => ⟨S2000000, .f32⟩
  | 123 => ⟨S_, .i32⟩
  | 124 => ⟨S2000000, .i32⟩
  | 125 => ⟨S2000000, .i1⟩
  | 126 => ⟨S_, .i32⟩
  | 127 => ⟨S2000000, .i32⟩
  | _ => ⟨S2000000x3, .f32⟩

abbrev hbmTy0_4 (i : Nat) : BufTy := match i % 128 with
  | 0 => ⟨S2000000, .i32⟩
  | 1 => ⟨S2000000, .i32⟩
  | 2 => ⟨S_, .i32⟩
  | 3 => ⟨S2000000, .i32⟩
  | 4 => ⟨S2000000, .i1⟩
  | 5 => ⟨S_, .i32⟩
  | 6 => ⟨S2000000, .i32⟩
  | 7 => ⟨S2000000, .i32⟩
  | 8 => ⟨S2000000, .i32⟩
  | 9 => ⟨S2000000x1, .i32⟩
  | 10 => ⟨S2000000x1, .i32⟩
  | 11 => ⟨S2000000x2, .i32⟩
  | 12 => ⟨S16x2000000, .f32⟩
  | 13 => ⟨S_, .i32⟩
  | 14 => ⟨S2000000, .i32⟩
  | 15 => ⟨S2000000, .i1⟩
  | 16 => ⟨S_, .i32⟩
  | 17 => ⟨S2000000, .i32⟩
  | 18 => ⟨S2000000, .i32⟩
  | 19 => ⟨S2000000, .i32⟩
  | 20 => ⟨S_, .i32⟩
  | 21 => ⟨S2000000, .i32⟩
  | 22 => ⟨S2000000, .i1⟩
  | 23 => ⟨S_, .i32⟩
  | 24 => ⟨S2000000, .i32⟩
  | 25 => ⟨S2000000, .i32⟩
  | 26 => ⟨S2000000, .i32⟩
  | 27 => ⟨S2000000x1, .i32⟩
  | 28 => ⟨S2000000x1, .i32⟩
  | 29 => ⟨S2000000x2, .i32⟩
  | 30 => ⟨S16x2000000, .f32⟩
  | 31 => ⟨S_, .i32⟩
  | 32 => ⟨S2000000, .i32⟩
  | 33 => ⟨S2000000, .i1⟩
  | 34 => ⟨S_, .i32⟩
  | 35 => ⟨S2000000, .i32⟩
  | 36 => ⟨S2000000, .i32⟩
  | 37 => ⟨S2000000, .i32⟩
  | 38 => ⟨S_, .i32⟩
  | 39 => ⟨S2000000, .i32⟩
  | 40 => ⟨S2000000, .i1⟩
  | 41 => ⟨S_, .i32⟩
  | 42 => ⟨S2000000, .i32⟩
  | 43 => ⟨S2000000, .i32⟩
  | 44 => ⟨S2000000, .i32⟩
  | 45 => ⟨S2000000x1, .i32⟩
  | 46 => ⟨S2000000x1, .i32⟩
  | 47 => ⟨S2000000x2, .i32⟩
  | 48 => ⟨S16x2000000, .f32⟩
  | 49 => ⟨S_, .i32⟩
  | 50 => ⟨S2000000, .i32⟩
  | 51 => ⟨S2000000, .i1⟩
  | 52 => ⟨S_, .i32⟩
  | 53 => ⟨S2000000, .i32⟩
  | 54 => ⟨S2000000, .i32⟩
  | 55 => ⟨S2000000, .i32⟩
  | 56 => ⟨S_, .i32⟩
  | 57 => ⟨S2000000, .i32⟩
  | 58 => ⟨S2000000, .i1⟩
  | 59 => ⟨S_, .i32⟩
  | 60 => ⟨S2000000, .i32⟩
  | 61 => ⟨S2000000, .i32⟩
  | 62 => ⟨S2000000, .i32⟩
  | 63 => ⟨S2000000x1, .i32⟩
  | 64 => ⟨S2000000x1, .i32⟩
  | 65 => ⟨S2000000x2, .i32⟩
  | 66 => ⟨S16x2000000, .f32⟩
  | 67 => ⟨S_, .f32⟩
  | 68 => ⟨S2000000, .f32⟩
  | 69 => ⟨S2000000, .f32⟩
  | 70 => ⟨S1x2000000, .f32⟩
  | 71 => ⟨S16x2000000, .f32⟩
  | 72 => ⟨S16x2000000, .f32⟩
  | 73 => ⟨S1x2000000, .f32⟩
  | 74 => ⟨S16x2000000, .f32⟩
  | 75 => ⟨S16x2000000, .f32⟩
  | 76 => ⟨S16x2000000, .f32⟩
  | 77 => ⟨S_, .f32⟩
  | 78 => ⟨S2000000, .f32⟩
  | 79 => ⟨S2000000, .f32⟩
  | 80 => ⟨S1x2000000, .f32⟩
  | 81 => ⟨S16x2000000, .f32⟩
  | 82 => ⟨S16x2000000, .f32⟩
  | 83 => ⟨S_, .f32⟩
  | 84 => ⟨S2000000, .f32⟩
  | 85 => ⟨S2000000, .f32⟩
  | 86 => ⟨S1x2000000, .f32⟩
  | 87 => ⟨S16x2000000, .f32⟩
  | 88 => ⟨S16x2000000, .f32⟩
  | 89 => ⟨S1x2000000, .f32⟩
  | 90 => ⟨S16x2000000, .f32⟩
  | 91 => ⟨S16x2000000, .f32⟩
  | 92 => ⟨S16x2000000, .f32⟩
  | 93 => ⟨S1x2000000, .f32⟩
  | 94 => ⟨S16x2000000, .f32⟩
  | 95 => ⟨S16x2000000, .f32⟩
  | 96 => ⟨S16x2000000, .f32⟩
  | 97 => ⟨S1x16x300, .f32⟩
  | 98 => ⟨S16x300, .f32⟩
  | 99 => ⟨S2000000x1, .f32⟩
  | 100 => ⟨S2000000, .f32⟩
  | 101 => ⟨S_, .f32⟩
  | 102 => ⟨S2000000, .f32⟩
  | 103 => ⟨S2000000, .f32⟩
  | 104 => ⟨S_, .f32⟩
  | 105 => ⟨S2000000, .f32⟩
  | 106 => ⟨S2000000, .f32⟩
  | 107 => ⟨S_, .f32⟩
  | 108 => ⟨S2000000, .f32⟩
  | 109 => ⟨S2000000, .f32⟩
  | 110 => ⟨S2000000, .f32⟩
  | 111 => ⟨S_, .i32⟩
  | 112 => ⟨S_, .i32⟩
  | 113 => ⟨S_, .f32⟩
  | 114 => ⟨S2000000, .f32⟩
  | 115 => ⟨S2000000, .f32⟩
  | 116 => ⟨S_, .f32⟩
  | 117 => ⟨S2000000, .f32⟩
  | 118 => ⟨S2000000, .f32⟩
  | 119 => ⟨S2000000, .i32⟩
  | 120 => ⟨S_, .i32⟩
  | 121 => ⟨S2000000, .i32⟩
  | 122 => ⟨S2000000, .i32⟩
  | 123 => ⟨S_, .i32⟩
  | 124 => ⟨S2000000, .i32⟩
  | 125 => ⟨S2000000, .i32⟩
  | 126 => ⟨S2000000, .f32⟩
  | 127 => ⟨S2000000, .f32⟩
  | _ => ⟨S2000000x3, .f32⟩

abbrev hbmTy0_5 (i : Nat) : BufTy := match i % 128 with
  | 0 => ⟨S_, .i32⟩
  | 1 => ⟨S2000000, .i32⟩
  | 2 => ⟨S2000000, .i1⟩
  | 3 => ⟨S_, .i32⟩
  | 4 => ⟨S2000000, .i32⟩
  | 5 => ⟨S2000000, .i32⟩
  | 6 => ⟨S2000000, .i32⟩
  | 7 => ⟨S2000000x1, .i32⟩
  | 8 => ⟨S16x2000000, .f32⟩
  | 9 => ⟨S_, .f32⟩
  | 10 => ⟨S2000000, .f32⟩
  | 11 => ⟨S2000000, .f32⟩
  | 12 => ⟨S1x2000000, .f32⟩
  | 13 => ⟨S16x2000000, .f32⟩
  | 14 => ⟨S16x2000000, .f32⟩
  | 15 => ⟨S_, .i32⟩
  | 16 => ⟨S2000000, .i32⟩
  | 17 => ⟨S2000000, .i1⟩
  | 18 => ⟨S_, .i32⟩
  | 19 => ⟨S2000000, .i32⟩
  | 20 => ⟨S2000000, .i32⟩
  | 21 => ⟨S2000000, .i32⟩
  | 22 => ⟨S2000000x1, .i32⟩
  | 23 => ⟨S16x2000000, .f32⟩
  | 24 => ⟨S1x2000000, .f32⟩
  | 25 => ⟨S16x2000000, .f32⟩
  | 26 => ⟨S16x2000000, .f32⟩
  | 27 => ⟨S16x2000000, .f32⟩
  | 28 => ⟨S16x2000000, .f32⟩
  | 29 => ⟨S48x2000000, .f32⟩
  | _ => ⟨S2000000x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S2000000x3, .f32⟩

abbrev bufTy : (tb : Table) → Fin (tcTables nBuf tb) → BufTy
  | .hbm, ⟨i, _⟩ => hbmTy i
  | _, _ => ⟨S2000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_c_2 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_c_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_8 : Ref sig .tc := ⟨.hbm, 46, rfl⟩
abbrev main_c_9 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_v28 : Ref sig .tc := ⟨.hbm, 53, rfl⟩
abbrev main_v29 : Ref sig .tc := ⟨.hbm, 54, rfl⟩
abbrev main_c_10 : Ref sig .tc := ⟨.hbm, 55, rfl⟩
abbrev main_v30 : Ref sig .tc := ⟨.hbm, 56, rfl⟩
abbrev main_v31 : Ref sig .tc := ⟨.hbm, 57, rfl⟩
abbrev main_c_11 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_c_12 : Ref sig .tc := ⟨.hbm, 63, rfl⟩
abbrev main_v36 : Ref sig .tc := ⟨.hbm, 64, rfl⟩
abbrev main_v37 : Ref sig .tc := ⟨.hbm, 65, rfl⟩
abbrev main_c_13 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_c_14 : Ref sig .tc := ⟨.hbm, 70, rfl⟩
abbrev main_v41 : Ref sig .tc := ⟨.hbm, 71, rfl⟩
abbrev main_v42 : Ref sig .tc := ⟨.hbm, 72, rfl⟩
abbrev main_c_15 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_c_16 : Ref sig .tc := ⟨.hbm, 81, rfl⟩
abbrev main_v50 : Ref sig .tc := ⟨.hbm, 82, rfl⟩
abbrev main_v51 : Ref sig .tc := ⟨.hbm, 83, rfl⟩
abbrev main_c_17 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_c_18 : Ref sig .tc := ⟨.hbm, 88, rfl⟩
abbrev main_v55 : Ref sig .tc := ⟨.hbm, 89, rfl⟩
abbrev main_v56 : Ref sig .tc := ⟨.hbm, 90, rfl⟩
abbrev main_c_19 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_c_20 : Ref sig .tc := ⟨.hbm, 99, rfl⟩
abbrev main_v64 : Ref sig .tc := ⟨.hbm, 100, rfl⟩
abbrev main_v65 : Ref sig .tc := ⟨.hbm, 101, rfl⟩
abbrev main_c_21 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_c_22 : Ref sig .tc := ⟨.hbm, 106, rfl⟩
abbrev main_v69 : Ref sig .tc := ⟨.hbm, 107, rfl⟩
abbrev main_v70 : Ref sig .tc := ⟨.hbm, 108, rfl⟩
abbrev main_c_23 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_c_24 : Ref sig .tc := ⟨.hbm, 117, rfl⟩
abbrev main_v78 : Ref sig .tc := ⟨.hbm, 118, rfl⟩
abbrev main_v79 : Ref sig .tc := ⟨.hbm, 119, rfl⟩
abbrev main_c_25 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_c_26 : Ref sig .tc := ⟨.hbm, 124, rfl⟩
abbrev main_v83 : Ref sig .tc := ⟨.hbm, 125, rfl⟩
abbrev main_v84 : Ref sig .tc := ⟨.hbm, 126, rfl⟩
abbrev main_c_27 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_cst_28 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_cst_29 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_cst_30 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_cst_31 : Ref sig .tc := ⟨.hbm, 169, rfl⟩
abbrev main_v123 : Ref sig .tc := ⟨.hbm, 170, rfl⟩
abbrev main_v124 : Ref sig .tc := ⟨.hbm, 171, rfl⟩
abbrev main_cst_32 : Ref sig .tc := ⟨.hbm, 172, rfl⟩
abbrev main_v125 : Ref sig .tc := ⟨.hbm, 173, rfl⟩
abbrev main_v126 : Ref sig .tc := ⟨.hbm, 174, rfl⟩
abbrev main_cst_33 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_c_34 : Ref sig .tc := ⟨.hbm, 179, rfl⟩
abbrev main_c_35 : Ref sig .tc := ⟨.hbm, 180, rfl⟩
abbrev main_call2_v0 : Ref sig .tc := ⟨.hbm, 181, rfl⟩
abbrev main_call2_v1 : Ref sig .tc := ⟨.hbm, 182, rfl⟩
abbrev main_call2_v2 : Ref sig .tc := ⟨.hbm, 183, rfl⟩
abbrev main_call2_v3 : Ref sig .tc := ⟨.hbm, 184, rfl⟩
abbrev main_call2_v4 : Ref sig .tc := ⟨.hbm, 185, rfl⟩
abbrev main_v130 : Ref sig .tc := ⟨.hbm, 186, rfl⟩
abbrev main_v131 : Ref sig .tc := ⟨.hbm, 187, rfl⟩
abbrev main_c_36 : Ref sig .tc := ⟨.hbm, 188, rfl⟩
abbrev main_v132 : Ref sig .tc := ⟨.hbm, 189, rfl⟩
abbrev main_v133 : Ref sig .tc := ⟨.hbm, 190, rfl⟩
abbrev main_c_37 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_c_38 : Ref sig .tc := ⟨.hbm, 196, rfl⟩
abbrev main_v138 : Ref sig .tc := ⟨.hbm, 197, rfl⟩
abbrev main_v139 : Ref sig .tc := ⟨.hbm, 198, rfl⟩
abbrev main_c_39 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_cst_40 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_c_41 : Ref sig .tc := ⟨.hbm, 211, rfl⟩
abbrev main_v150 : Ref sig .tc := ⟨.hbm, 212, rfl⟩
abbrev main_v151 : Ref sig .tc := ⟨.hbm, 213, rfl⟩
abbrev main_c_42 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_cst_43 : Ref sig .tc := ⟨.hbm, 231, rfl⟩
abbrev main_v168 : Ref sig .tc := ⟨.hbm, 232, rfl⟩
abbrev main_v169 : Ref sig .tc := ⟨.hbm, 233, rfl⟩
abbrev main_cst_44 : Ref sig .tc := ⟨.hbm, 234, rfl⟩
abbrev main_v170 : Ref sig .tc := ⟨.hbm, 235, rfl⟩
abbrev main_v171 : Ref sig .tc := ⟨.hbm, 236, rfl⟩
abbrev main_cst_45 : Ref sig .tc := ⟨.hbm, 237, rfl⟩
abbrev main_v172 : Ref sig .tc := ⟨.hbm, 238, rfl⟩
abbrev main_v173 : Ref sig .tc := ⟨.hbm, 239, rfl⟩
abbrev main_v174 : Ref sig .tc := ⟨.hbm, 240, rfl⟩
abbrev main_c_46 : Ref sig .tc := ⟨.hbm, 241, rfl⟩
abbrev main_c_47 : Ref sig .tc := ⟨.hbm, 242, rfl⟩
abbrev main_call3_v0 : Ref sig .tc := ⟨.hbm, 243, rfl⟩
abbrev main_call3_v1 : Ref sig .tc := ⟨.hbm, 244, rfl⟩
abbrev main_call3_v2 : Ref sig .tc := ⟨.hbm, 245, rfl⟩
abbrev main_call3_v3 : Ref sig .tc := ⟨.hbm, 246, rfl⟩
abbrev main_call3_v4 : Ref sig .tc := ⟨.hbm, 247, rfl⟩
abbrev main_v175 : Ref sig .tc := ⟨.hbm, 248, rfl⟩
abbrev main_v176 : Ref sig .tc := ⟨.hbm, 249, rfl⟩
abbrev main_c_48 : Ref sig .tc := ⟨.hbm, 250, rfl⟩
abbrev main_v177 : Ref sig .tc := ⟨.hbm, 251, rfl⟩
abbrev main_v178 : Ref sig .tc := ⟨.hbm, 252, rfl⟩
abbrev main_c_49 : Ref sig .tc := ⟨.hbm, 253, rfl⟩
abbrev main_v179 : Ref sig .tc := ⟨.hbm, 254, rfl⟩
abbrev main_v180 : Ref sig .tc := ⟨.hbm, 255, rfl⟩
abbrev main_v181 : Ref sig .tc := ⟨.hbm, 256, rfl⟩
abbrev main_v182 : Ref sig .tc := ⟨.hbm, 257, rfl⟩
abbrev main_cst_50 : Ref sig .tc := ⟨.hbm, 258, rfl⟩
abbrev main_v183 : Ref sig .tc := ⟨.hbm, 259, rfl⟩
abbrev main_v184 : Ref sig .tc := ⟨.hbm, 260, rfl⟩
abbrev main_cst_51 : Ref sig .tc := ⟨.hbm, 261, rfl⟩
abbrev main_v185 : Ref sig .tc := ⟨.hbm, 262, rfl⟩
abbrev main_v186 : Ref sig .tc := ⟨.hbm, 263, rfl⟩
abbrev main_cst_52 : Ref sig .tc := ⟨.hbm, 264, rfl⟩
abbrev main_v187 : Ref sig .tc := ⟨.hbm, 265, rfl⟩
abbrev main_v188 : Ref sig .tc := ⟨.hbm, 266, rfl⟩
abbrev main_v189 : Ref sig .tc := ⟨.hbm, 267, rfl⟩
abbrev main_c_53 : Ref sig .tc := ⟨.hbm, 268, rfl⟩
abbrev main_c_54 : Ref sig .tc := ⟨.hbm, 269, rfl⟩
abbrev main_call4_v0 : Ref sig .tc := ⟨.hbm, 270, rfl⟩
abbrev main_call4_v1 : Ref sig .tc := ⟨.hbm, 271, rfl⟩
abbrev main_call4_v2 : Ref sig .tc := ⟨.hbm, 272, rfl⟩
abbrev main_call4_v3 : Ref sig .tc := ⟨.hbm, 273, rfl⟩
abbrev main_call4_v4 : Ref sig .tc := ⟨.hbm, 274, rfl⟩
abbrev main_v190 : Ref sig .tc := ⟨.hbm, 275, rfl⟩
abbrev main_v191 : Ref sig .tc := ⟨.hbm, 276, rfl⟩
abbrev main_c_55 : Ref sig .tc := ⟨.hbm, 277, rfl⟩
abbrev main_v192 : Ref sig .tc := ⟨.hbm, 278, rfl⟩
abbrev main_v193 : Ref sig .tc := ⟨.hbm, 279, rfl⟩
abbrev main_c_56 : Ref sig .tc := ⟨.hbm, 280, rfl⟩
abbrev main_v194 : Ref sig .tc := ⟨.hbm, 281, rfl⟩
abbrev main_v195 : Ref sig .tc := ⟨.hbm, 282, rfl⟩
abbrev main_v196 : Ref sig .tc := ⟨.hbm, 283, rfl⟩
abbrev main_v197 : Ref sig .tc := ⟨.hbm, 284, rfl⟩
abbrev main_c_57 : Ref sig .tc := ⟨.hbm, 285, rfl⟩
abbrev main_v198 : Ref sig .tc := ⟨.hbm, 286, rfl⟩
abbrev main_v199 : Ref sig .tc := ⟨.hbm, 287, rfl⟩
abbrev main_c_58 : Ref sig .tc := ⟨.hbm, 288, rfl⟩
abbrev main_v200 : Ref sig .tc := ⟨.hbm, 289, rfl⟩
abbrev main_v201 : Ref sig .tc := ⟨.hbm, 290, rfl⟩
abbrev main_v202 : Ref sig .tc := ⟨.hbm, 291, rfl⟩
abbrev main_c_59 : Ref sig .tc := ⟨.hbm, 292, rfl⟩
abbrev main_v203 : Ref sig .tc := ⟨.hbm, 293, rfl⟩
abbrev main_v204 : Ref sig .tc := ⟨.hbm, 294, rfl⟩
abbrev main_c_60 : Ref sig .tc := ⟨.hbm, 295, rfl⟩
abbrev main_v205 : Ref sig .tc := ⟨.hbm, 296, rfl⟩
abbrev main_v206 : Ref sig .tc := ⟨.hbm, 297, rfl⟩
abbrev main_v207 : Ref sig .tc := ⟨.hbm, 298, rfl⟩
abbrev main_v208 : Ref sig .tc := ⟨.hbm, 299, rfl⟩
abbrev main_v209 : Ref sig .tc := ⟨.hbm, 300, rfl⟩
abbrev main_v210 : Ref sig .tc := ⟨.hbm, 301, rfl⟩
abbrev main_v211 : Ref sig .tc := ⟨.hbm, 302, rfl⟩
abbrev main_c_61 : Ref sig .tc := ⟨.hbm, 303, rfl⟩
abbrev main_v212 : Ref sig .tc := ⟨.hbm, 304, rfl⟩
abbrev main_v213 : Ref sig .tc := ⟨.hbm, 305, rfl⟩
abbrev main_c_62 : Ref sig .tc := ⟨.hbm, 306, rfl⟩
abbrev main_v214 : Ref sig .tc := ⟨.hbm, 307, rfl⟩
abbrev main_v215 : Ref sig .tc := ⟨.hbm, 308, rfl⟩
abbrev main_v216 : Ref sig .tc := ⟨.hbm, 309, rfl⟩
abbrev main_c_63 : Ref sig .tc := ⟨.hbm, 310, rfl⟩
abbrev main_v217 : Ref sig .tc := ⟨.hbm, 311, rfl⟩
abbrev main_v218 : Ref sig .tc := ⟨.hbm, 312, rfl⟩
abbrev main_c_64 : Ref sig .tc := ⟨.hbm, 313, rfl⟩
abbrev main_v219 : Ref sig .tc := ⟨.hbm, 314, rfl⟩
abbrev main_v220 : Ref sig .tc := ⟨.hbm, 315, rfl⟩
abbrev main_v221 : Ref sig .tc := ⟨.hbm, 316, rfl⟩
abbrev main_v222 : Ref sig .tc := ⟨.hbm, 317, rfl⟩
abbrev main_v223 : Ref sig .tc := ⟨.hbm, 318, rfl⟩
abbrev main_v224 : Ref sig .tc := ⟨.hbm, 319, rfl⟩
abbrev main_v225 : Ref sig .tc := ⟨.hbm, 320, rfl⟩
abbrev main_c_65 : Ref sig .tc := ⟨.hbm, 321, rfl⟩
abbrev main_v226 : Ref sig .tc := ⟨.hbm, 322, rfl⟩
abbrev main_v227 : Ref sig .tc := ⟨.hbm, 323, rfl⟩
abbrev main_c_66 : Ref sig .tc := ⟨.hbm, 324, rfl⟩
abbrev main_v228 : Ref sig .tc := ⟨.hbm, 325, rfl⟩
abbrev main_v229 : Ref sig .tc := ⟨.hbm, 326, rfl⟩
abbrev main_v230 : Ref sig .tc := ⟨.hbm, 327, rfl⟩
abbrev main_c_67 : Ref sig .tc := ⟨.hbm, 328, rfl⟩
abbrev main_v231 : Ref sig .tc := ⟨.hbm, 329, rfl⟩
abbrev main_v232 : Ref sig .tc := ⟨.hbm, 330, rfl⟩
abbrev main_c_68 : Ref sig .tc := ⟨.hbm, 331, rfl⟩
abbrev main_v233 : Ref sig .tc := ⟨.hbm, 332, rfl⟩
abbrev main_v234 : Ref sig .tc := ⟨.hbm, 333, rfl⟩
abbrev main_v235 : Ref sig .tc := ⟨.hbm, 334, rfl⟩
abbrev main_v236 : Ref sig .tc := ⟨.hbm, 335, rfl⟩
abbrev main_v237 : Ref sig .tc := ⟨.hbm, 336, rfl⟩
abbrev main_v238 : Ref sig .tc := ⟨.hbm, 337, rfl⟩
abbrev main_v239 : Ref sig .tc := ⟨.hbm, 338, rfl⟩
abbrev main_c_69 : Ref sig .tc := ⟨.hbm, 339, rfl⟩
abbrev main_v240 : Ref sig .tc := ⟨.hbm, 340, rfl⟩
abbrev main_v241 : Ref sig .tc := ⟨.hbm, 341, rfl⟩
abbrev main_c_70 : Ref sig .tc := ⟨.hbm, 342, rfl⟩
abbrev main_v242 : Ref sig .tc := ⟨.hbm, 343, rfl⟩
abbrev main_v243 : Ref sig .tc := ⟨.hbm, 344, rfl⟩
abbrev main_v244 : Ref sig .tc := ⟨.hbm, 345, rfl⟩
abbrev main_c_71 : Ref sig .tc := ⟨.hbm, 346, rfl⟩
abbrev main_v245 : Ref sig .tc := ⟨.hbm, 347, rfl⟩
abbrev main_v246 : Ref sig .tc := ⟨.hbm, 348, rfl⟩
abbrev main_c_72 : Ref sig .tc := ⟨.hbm, 349, rfl⟩
abbrev main_v247 : Ref sig .tc := ⟨.hbm, 350, rfl⟩
abbrev main_v248 : Ref sig .tc := ⟨.hbm, 351, rfl⟩
abbrev main_v249 : Ref sig .tc := ⟨.hbm, 352, rfl⟩
abbrev main_v250 : Ref sig .tc := ⟨.hbm, 353, rfl⟩
abbrev main_v251 : Ref sig .tc := ⟨.hbm, 354, rfl⟩
abbrev main_v252 : Ref sig .tc := ⟨.hbm, 355, rfl⟩
abbrev main_v253 : Ref sig .tc := ⟨.hbm, 356, rfl⟩
abbrev main_cst_73 : Ref sig .tc := ⟨.hbm, 357, rfl⟩
abbrev main_v254 : Ref sig .tc := ⟨.hbm, 358, rfl⟩
abbrev main_v255 : Ref sig .tc := ⟨.hbm, 359, rfl⟩
abbrev main_v256 : Ref sig .tc := ⟨.hbm, 360, rfl⟩
abbrev main_v257 : Ref sig .tc := ⟨.hbm, 361, rfl⟩
abbrev main_v258 : Ref sig .tc := ⟨.hbm, 362, rfl⟩
abbrev main_v259 : Ref sig .tc := ⟨.hbm, 363, rfl⟩
abbrev main_v260 : Ref sig .tc := ⟨.hbm, 364, rfl⟩
abbrev main_v261 : Ref sig .tc := ⟨.hbm, 365, rfl⟩
abbrev main_v262 : Ref sig .tc := ⟨.hbm, 366, rfl⟩
abbrev main_cst_74 : Ref sig .tc := ⟨.hbm, 367, rfl⟩
abbrev main_v263 : Ref sig .tc := ⟨.hbm, 368, rfl⟩
abbrev main_v264 : Ref sig .tc := ⟨.hbm, 369, rfl⟩
abbrev main_v265 : Ref sig .tc := ⟨.hbm, 370, rfl⟩
abbrev main_v266 : Ref sig .tc := ⟨.hbm, 371, rfl⟩
abbrev main_v267 : Ref sig .tc := ⟨.hbm, 372, rfl⟩
abbrev main_cst_75 : Ref sig .tc := ⟨.hbm, 373, rfl⟩
abbrev main_v268 : Ref sig .tc := ⟨.hbm, 374, rfl⟩
abbrev main_v269 : Ref sig .tc := ⟨.hbm, 375, rfl⟩
abbrev main_v270 : Ref sig .tc := ⟨.hbm, 376, rfl⟩
abbrev main_v271 : Ref sig .tc := ⟨.hbm, 377, rfl⟩
abbrev main_v272 : Ref sig .tc := ⟨.hbm, 378, rfl⟩
abbrev main_v273 : Ref sig .tc := ⟨.hbm, 379, rfl⟩
abbrev main_v274 : Ref sig .tc := ⟨.hbm, 380, rfl⟩
abbrev main_v275 : Ref sig .tc := ⟨.hbm, 381, rfl⟩
abbrev main_v276 : Ref sig .tc := ⟨.hbm, 382, rfl⟩
abbrev main_v277 : Ref sig .tc := ⟨.hbm, 383, rfl⟩
abbrev main_v278 : Ref sig .tc := ⟨.hbm, 384, rfl⟩
abbrev main_v279 : Ref sig .tc := ⟨.hbm, 385, rfl⟩
abbrev main_v280 : Ref sig .tc := ⟨.hbm, 386, rfl⟩
abbrev main_v281 : Ref sig .tc := ⟨.hbm, 387, rfl⟩
abbrev main_v282 : Ref sig .tc := ⟨.hbm, 388, rfl⟩
abbrev main_v283 : Ref sig .tc := ⟨.hbm, 389, rfl⟩
abbrev main_v284 : Ref sig .tc := ⟨.hbm, 390, rfl⟩
abbrev main_cst_76 : Ref sig .tc := ⟨.hbm, 391, rfl⟩
abbrev main_v285 : Ref sig .tc := ⟨.hbm, 392, rfl⟩
abbrev main_v286 : Ref sig .tc := ⟨.hbm, 393, rfl⟩
abbrev main_cst_77 : Ref sig .tc := ⟨.hbm, 394, rfl⟩
abbrev main_v287 : Ref sig .tc := ⟨.hbm, 395, rfl⟩
abbrev main_v288 : Ref sig .tc := ⟨.hbm, 396, rfl⟩
abbrev main_cst_78 : Ref sig .tc := ⟨.hbm, 397, rfl⟩
abbrev main_v289 : Ref sig .tc := ⟨.hbm, 398, rfl⟩
abbrev main_v290 : Ref sig .tc := ⟨.hbm, 399, rfl⟩
abbrev main_v291 : Ref sig .tc := ⟨.hbm, 400, rfl⟩
abbrev main_c_79 : Ref sig .tc := ⟨.hbm, 401, rfl⟩
abbrev main_c_80 : Ref sig .tc := ⟨.hbm, 402, rfl⟩
abbrev main_call5_v0 : Ref sig .tc := ⟨.hbm, 403, rfl⟩
abbrev main_call5_v1 : Ref sig .tc := ⟨.hbm, 404, rfl⟩
abbrev main_call5_v2 : Ref sig .tc := ⟨.hbm, 405, rfl⟩
abbrev main_call5_v3 : Ref sig .tc := ⟨.hbm, 406, rfl⟩
abbrev main_call5_v4 : Ref sig .tc := ⟨.hbm, 407, rfl⟩
abbrev main_v292 : Ref sig .tc := ⟨.hbm, 408, rfl⟩
abbrev main_v293 : Ref sig .tc := ⟨.hbm, 409, rfl⟩
abbrev main_c_81 : Ref sig .tc := ⟨.hbm, 410, rfl⟩
abbrev main_v294 : Ref sig .tc := ⟨.hbm, 411, rfl⟩
abbrev main_v295 : Ref sig .tc := ⟨.hbm, 412, rfl⟩
abbrev main_c_82 : Ref sig .tc := ⟨.hbm, 413, rfl⟩
abbrev main_v296 : Ref sig .tc := ⟨.hbm, 414, rfl⟩
abbrev main_v297 : Ref sig .tc := ⟨.hbm, 415, rfl⟩
abbrev main_v298 : Ref sig .tc := ⟨.hbm, 416, rfl⟩
abbrev main_v299 : Ref sig .tc := ⟨.hbm, 417, rfl⟩
abbrev main_c_83 : Ref sig .tc := ⟨.hbm, 418, rfl⟩
abbrev main_v300 : Ref sig .tc := ⟨.hbm, 419, rfl⟩
abbrev main_v301 : Ref sig .tc := ⟨.hbm, 420, rfl⟩
abbrev main_c_84 : Ref sig .tc := ⟨.hbm, 421, rfl⟩
abbrev main_v302 : Ref sig .tc := ⟨.hbm, 422, rfl⟩
abbrev main_v303 : Ref sig .tc := ⟨.hbm, 423, rfl⟩
abbrev main_v304 : Ref sig .tc := ⟨.hbm, 424, rfl⟩
abbrev main_v305 : Ref sig .tc := ⟨.hbm, 425, rfl⟩
abbrev main_v306 : Ref sig .tc := ⟨.hbm, 426, rfl⟩
abbrev main_cst_85 : Ref sig .tc := ⟨.hbm, 427, rfl⟩
abbrev main_v307 : Ref sig .tc := ⟨.hbm, 428, rfl⟩
abbrev main_v308 : Ref sig .tc := ⟨.hbm, 429, rfl⟩
abbrev main_v309 : Ref sig .tc := ⟨.hbm, 430, rfl⟩
abbrev main_v310 : Ref sig .tc := ⟨.hbm, 431, rfl⟩
abbrev main_v311 : Ref sig .tc := ⟨.hbm, 432, rfl⟩
abbrev main_c_86 : Ref sig .tc := ⟨.hbm, 433, rfl⟩
abbrev main_v312 : Ref sig .tc := ⟨.hbm, 434, rfl⟩
abbrev main_v313 : Ref sig .tc := ⟨.hbm, 435, rfl⟩
abbrev main_c_87 : Ref sig .tc := ⟨.hbm, 436, rfl⟩
abbrev main_v314 : Ref sig .tc := ⟨.hbm, 437, rfl⟩
abbrev main_v315 : Ref sig .tc := ⟨.hbm, 438, rfl⟩
abbrev main_v316 : Ref sig .tc := ⟨.hbm, 439, rfl⟩
abbrev main_v317 : Ref sig .tc := ⟨.hbm, 440, rfl⟩
abbrev main_v318 : Ref sig .tc := ⟨.hbm, 441, rfl⟩
abbrev main_v319 : Ref sig .tc := ⟨.hbm, 442, rfl⟩
abbrev main_v320 : Ref sig .tc := ⟨.hbm, 443, rfl⟩
abbrev main_v321 : Ref sig .tc := ⟨.hbm, 444, rfl⟩
abbrev main_v322 : Ref sig .tc := ⟨.hbm, 445, rfl⟩
abbrev main_v323 : Ref sig .tc := ⟨.hbm, 446, rfl⟩
abbrev main_v324 : Ref sig .tc := ⟨.hbm, 447, rfl⟩
abbrev main_v325 : Ref sig .tc := ⟨.hbm, 448, rfl⟩
abbrev main_v326 : Ref sig .tc := ⟨.hbm, 449, rfl⟩
abbrev main_v327 : Ref sig .tc := ⟨.hbm, 450, rfl⟩
abbrev main_v328 : Ref sig .tc := ⟨.hbm, 451, rfl⟩
abbrev main_v329 : Ref sig .tc := ⟨.hbm, 452, rfl⟩
abbrev main_cst_88 : Ref sig .tc := ⟨.hbm, 453, rfl⟩
abbrev main_v330 : Ref sig .tc := ⟨.hbm, 454, rfl⟩
abbrev main_v331 : Ref sig .tc := ⟨.hbm, 455, rfl⟩
abbrev main_cst_89 : Ref sig .tc := ⟨.hbm, 456, rfl⟩
abbrev main_v332 : Ref sig .tc := ⟨.hbm, 457, rfl⟩
abbrev main_v333 : Ref sig .tc := ⟨.hbm, 458, rfl⟩
abbrev main_cst_90 : Ref sig .tc := ⟨.hbm, 459, rfl⟩
abbrev main_v334 : Ref sig .tc := ⟨.hbm, 460, rfl⟩
abbrev main_v335 : Ref sig .tc := ⟨.hbm, 461, rfl⟩
abbrev main_v336 : Ref sig .tc := ⟨.hbm, 462, rfl⟩
abbrev main_c_91 : Ref sig .tc := ⟨.hbm, 463, rfl⟩
abbrev main_c_92 : Ref sig .tc := ⟨.hbm, 464, rfl⟩
abbrev main_call6_v0 : Ref sig .tc := ⟨.hbm, 465, rfl⟩
abbrev main_call6_v1 : Ref sig .tc := ⟨.hbm, 466, rfl⟩
abbrev main_call6_v2 : Ref sig .tc := ⟨.hbm, 467, rfl⟩
abbrev main_call6_v3 : Ref sig .tc := ⟨.hbm, 468, rfl⟩
abbrev main_call6_v4 : Ref sig .tc := ⟨.hbm, 469, rfl⟩
abbrev main_v337 : Ref sig .tc := ⟨.hbm, 470, rfl⟩
abbrev main_v338 : Ref sig .tc := ⟨.hbm, 471, rfl⟩
abbrev main_c_93 : Ref sig .tc := ⟨.hbm, 472, rfl⟩
abbrev main_v339 : Ref sig .tc := ⟨.hbm, 473, rfl⟩
abbrev main_v340 : Ref sig .tc := ⟨.hbm, 474, rfl⟩
abbrev main_c_94 : Ref sig .tc := ⟨.hbm, 475, rfl⟩
abbrev main_v341 : Ref sig .tc := ⟨.hbm, 476, rfl⟩
abbrev main_v342 : Ref sig .tc := ⟨.hbm, 477, rfl⟩
abbrev main_v343 : Ref sig .tc := ⟨.hbm, 478, rfl⟩
abbrev main_v344 : Ref sig .tc := ⟨.hbm, 479, rfl⟩
abbrev main_cst_95 : Ref sig .tc := ⟨.hbm, 480, rfl⟩
abbrev main_v345 : Ref sig .tc := ⟨.hbm, 481, rfl⟩
abbrev main_v346 : Ref sig .tc := ⟨.hbm, 482, rfl⟩
abbrev main_cst_96 : Ref sig .tc := ⟨.hbm, 483, rfl⟩
abbrev main_v347 : Ref sig .tc := ⟨.hbm, 484, rfl⟩
abbrev main_v348 : Ref sig .tc := ⟨.hbm, 485, rfl⟩
abbrev main_cst_97 : Ref sig .tc := ⟨.hbm, 486, rfl⟩
abbrev main_v349 : Ref sig .tc := ⟨.hbm, 487, rfl⟩
abbrev main_v350 : Ref sig .tc := ⟨.hbm, 488, rfl⟩
abbrev main_v351 : Ref sig .tc := ⟨.hbm, 489, rfl⟩
abbrev main_c_98 : Ref sig .tc := ⟨.hbm, 490, rfl⟩
abbrev main_c_99 : Ref sig .tc := ⟨.hbm, 491, rfl⟩
abbrev main_call7_v0 : Ref sig .tc := ⟨.hbm, 492, rfl⟩
abbrev main_call7_v1 : Ref sig .tc := ⟨.hbm, 493, rfl⟩
abbrev main_call7_v2 : Ref sig .tc := ⟨.hbm, 494, rfl⟩
abbrev main_call7_v3 : Ref sig .tc := ⟨.hbm, 495, rfl⟩
abbrev main_call7_v4 : Ref sig .tc := ⟨.hbm, 496, rfl⟩
abbrev main_v352 : Ref sig .tc := ⟨.hbm, 497, rfl⟩
abbrev main_v353 : Ref sig .tc := ⟨.hbm, 498, rfl⟩
abbrev main_c_100 : Ref sig .tc := ⟨.hbm, 499, rfl⟩
abbrev main_v354 : Ref sig .tc := ⟨.hbm, 500, rfl⟩
abbrev main_v355 : Ref sig .tc := ⟨.hbm, 501, rfl⟩
abbrev main_c_101 : Ref sig .tc := ⟨.hbm, 502, rfl⟩
abbrev main_v356 : Ref sig .tc := ⟨.hbm, 503, rfl⟩
abbrev main_v357 : Ref sig .tc := ⟨.hbm, 504, rfl⟩
abbrev main_v358 : Ref sig .tc := ⟨.hbm, 505, rfl⟩
abbrev main_v359 : Ref sig .tc := ⟨.hbm, 506, rfl⟩
abbrev main_c_102 : Ref sig .tc := ⟨.hbm, 507, rfl⟩
abbrev main_v360 : Ref sig .tc := ⟨.hbm, 508, rfl⟩
abbrev main_v361 : Ref sig .tc := ⟨.hbm, 509, rfl⟩
abbrev main_c_103 : Ref sig .tc := ⟨.hbm, 510, rfl⟩
abbrev main_v362 : Ref sig .tc := ⟨.hbm, 511, rfl⟩
abbrev main_v363 : Ref sig .tc := ⟨.hbm, 512, rfl⟩
abbrev main_v364 : Ref sig .tc := ⟨.hbm, 513, rfl⟩
abbrev main_c_104 : Ref sig .tc := ⟨.hbm, 514, rfl⟩
abbrev main_v365 : Ref sig .tc := ⟨.hbm, 515, rfl⟩
abbrev main_v366 : Ref sig .tc := ⟨.hbm, 516, rfl⟩
abbrev main_c_105 : Ref sig .tc := ⟨.hbm, 517, rfl⟩
abbrev main_v367 : Ref sig .tc := ⟨.hbm, 518, rfl⟩
abbrev main_v368 : Ref sig .tc := ⟨.hbm, 519, rfl⟩
abbrev main_v369 : Ref sig .tc := ⟨.hbm, 520, rfl⟩
abbrev main_v370 : Ref sig .tc := ⟨.hbm, 521, rfl⟩
abbrev main_v371 : Ref sig .tc := ⟨.hbm, 522, rfl⟩
abbrev main_v372 : Ref sig .tc := ⟨.hbm, 523, rfl⟩
abbrev main_v373 : Ref sig .tc := ⟨.hbm, 524, rfl⟩
abbrev main_c_106 : Ref sig .tc := ⟨.hbm, 525, rfl⟩
abbrev main_v374 : Ref sig .tc := ⟨.hbm, 526, rfl⟩
abbrev main_v375 : Ref sig .tc := ⟨.hbm, 527, rfl⟩
abbrev main_c_107 : Ref sig .tc := ⟨.hbm, 528, rfl⟩
abbrev main_v376 : Ref sig .tc := ⟨.hbm, 529, rfl⟩
abbrev main_v377 : Ref sig .tc := ⟨.hbm, 530, rfl⟩
abbrev main_v378 : Ref sig .tc := ⟨.hbm, 531, rfl⟩
abbrev main_c_108 : Ref sig .tc := ⟨.hbm, 532, rfl⟩
abbrev main_v379 : Ref sig .tc := ⟨.hbm, 533, rfl⟩
abbrev main_v380 : Ref sig .tc := ⟨.hbm, 534, rfl⟩
abbrev main_c_109 : Ref sig .tc := ⟨.hbm, 535, rfl⟩
abbrev main_v381 : Ref sig .tc := ⟨.hbm, 536, rfl⟩
abbrev main_v382 : Ref sig .tc := ⟨.hbm, 537, rfl⟩
abbrev main_v383 : Ref sig .tc := ⟨.hbm, 538, rfl⟩
abbrev main_v384 : Ref sig .tc := ⟨.hbm, 539, rfl⟩
abbrev main_v385 : Ref sig .tc := ⟨.hbm, 540, rfl⟩
abbrev main_v386 : Ref sig .tc := ⟨.hbm, 541, rfl⟩
abbrev main_v387 : Ref sig .tc := ⟨.hbm, 542, rfl⟩
abbrev main_c_110 : Ref sig .tc := ⟨.hbm, 543, rfl⟩
abbrev main_v388 : Ref sig .tc := ⟨.hbm, 544, rfl⟩
abbrev main_v389 : Ref sig .tc := ⟨.hbm, 545, rfl⟩
abbrev main_c_111 : Ref sig .tc := ⟨.hbm, 546, rfl⟩
abbrev main_v390 : Ref sig .tc := ⟨.hbm, 547, rfl⟩
abbrev main_v391 : Ref sig .tc := ⟨.hbm, 548, rfl⟩
abbrev main_v392 : Ref sig .tc := ⟨.hbm, 549, rfl⟩
abbrev main_c_112 : Ref sig .tc := ⟨.hbm, 550, rfl⟩
abbrev main_v393 : Ref sig .tc := ⟨.hbm, 551, rfl⟩
abbrev main_v394 : Ref sig .tc := ⟨.hbm, 552, rfl⟩
abbrev main_c_113 : Ref sig .tc := ⟨.hbm, 553, rfl⟩
abbrev main_v395 : Ref sig .tc := ⟨.hbm, 554, rfl⟩
abbrev main_v396 : Ref sig .tc := ⟨.hbm, 555, rfl⟩
abbrev main_v397 : Ref sig .tc := ⟨.hbm, 556, rfl⟩
abbrev main_v398 : Ref sig .tc := ⟨.hbm, 557, rfl⟩
abbrev main_v399 : Ref sig .tc := ⟨.hbm, 558, rfl⟩
abbrev main_v400 : Ref sig .tc := ⟨.hbm, 559, rfl⟩
abbrev main_v401 : Ref sig .tc := ⟨.hbm, 560, rfl⟩
abbrev main_c_114 : Ref sig .tc := ⟨.hbm, 561, rfl⟩
abbrev main_v402 : Ref sig .tc := ⟨.hbm, 562, rfl⟩
abbrev main_v403 : Ref sig .tc := ⟨.hbm, 563, rfl⟩
abbrev main_c_115 : Ref sig .tc := ⟨.hbm, 564, rfl⟩
abbrev main_v404 : Ref sig .tc := ⟨.hbm, 565, rfl⟩
abbrev main_v405 : Ref sig .tc := ⟨.hbm, 566, rfl⟩
abbrev main_v406 : Ref sig .tc := ⟨.hbm, 567, rfl⟩
abbrev main_c_116 : Ref sig .tc := ⟨.hbm, 568, rfl⟩
abbrev main_v407 : Ref sig .tc := ⟨.hbm, 569, rfl⟩
abbrev main_v408 : Ref sig .tc := ⟨.hbm, 570, rfl⟩
abbrev main_c_117 : Ref sig .tc := ⟨.hbm, 571, rfl⟩
abbrev main_v409 : Ref sig .tc := ⟨.hbm, 572, rfl⟩
abbrev main_v410 : Ref sig .tc := ⟨.hbm, 573, rfl⟩
abbrev main_v411 : Ref sig .tc := ⟨.hbm, 574, rfl⟩
abbrev main_v412 : Ref sig .tc := ⟨.hbm, 575, rfl⟩
abbrev main_v413 : Ref sig .tc := ⟨.hbm, 576, rfl⟩
abbrev main_v414 : Ref sig .tc := ⟨.hbm, 577, rfl⟩
abbrev main_v415 : Ref sig .tc := ⟨.hbm, 578, rfl⟩
abbrev main_cst_118 : Ref sig .tc := ⟨.hbm, 579, rfl⟩
abbrev main_v416 : Ref sig .tc := ⟨.hbm, 580, rfl⟩
abbrev main_v417 : Ref sig .tc := ⟨.hbm, 581, rfl⟩
abbrev main_v418 : Ref sig .tc := ⟨.hbm, 582, rfl⟩
abbrev main_v419 : Ref sig .tc := ⟨.hbm, 583, rfl⟩
abbrev main_v420 : Ref sig .tc := ⟨.hbm, 584, rfl⟩
abbrev main_v421 : Ref sig .tc := ⟨.hbm, 585, rfl⟩
abbrev main_v422 : Ref sig .tc := ⟨.hbm, 586, rfl⟩
abbrev main_v423 : Ref sig .tc := ⟨.hbm, 587, rfl⟩
abbrev main_v424 : Ref sig .tc := ⟨.hbm, 588, rfl⟩
abbrev main_cst_119 : Ref sig .tc := ⟨.hbm, 589, rfl⟩
abbrev main_v425 : Ref sig .tc := ⟨.hbm, 590, rfl⟩
abbrev main_v426 : Ref sig .tc := ⟨.hbm, 591, rfl⟩
abbrev main_v427 : Ref sig .tc := ⟨.hbm, 592, rfl⟩
abbrev main_v428 : Ref sig .tc := ⟨.hbm, 593, rfl⟩
abbrev main_v429 : Ref sig .tc := ⟨.hbm, 594, rfl⟩
abbrev main_cst_120 : Ref sig .tc := ⟨.hbm, 595, rfl⟩
abbrev main_v430 : Ref sig .tc := ⟨.hbm, 596, rfl⟩
abbrev main_v431 : Ref sig .tc := ⟨.hbm, 597, rfl⟩
abbrev main_v432 : Ref sig .tc := ⟨.hbm, 598, rfl⟩
abbrev main_v433 : Ref sig .tc := ⟨.hbm, 599, rfl⟩
abbrev main_v434 : Ref sig .tc := ⟨.hbm, 600, rfl⟩
abbrev main_v435 : Ref sig .tc := ⟨.hbm, 601, rfl⟩
abbrev main_v436 : Ref sig .tc := ⟨.hbm, 602, rfl⟩
abbrev main_v437 : Ref sig .tc := ⟨.hbm, 603, rfl⟩
abbrev main_v438 : Ref sig .tc := ⟨.hbm, 604, rfl⟩
abbrev main_v439 : Ref sig .tc := ⟨.hbm, 605, rfl⟩
abbrev main_v440 : Ref sig .tc := ⟨.hbm, 606, rfl⟩
abbrev main_v441 : Ref sig .tc := ⟨.hbm, 607, rfl⟩
abbrev main_v442 : Ref sig .tc := ⟨.hbm, 608, rfl⟩
abbrev main_v443 : Ref sig .tc := ⟨.hbm, 609, rfl⟩
abbrev main_v444 : Ref sig .tc := ⟨.hbm, 610, rfl⟩
abbrev main_v445 : Ref sig .tc := ⟨.hbm, 611, rfl⟩
abbrev main_v446 : Ref sig .tc := ⟨.hbm, 612, rfl⟩
abbrev main_cst_121 : Ref sig .tc := ⟨.hbm, 613, rfl⟩
abbrev main_v447 : Ref sig .tc := ⟨.hbm, 614, rfl⟩
abbrev main_v448 : Ref sig .tc := ⟨.hbm, 615, rfl⟩
abbrev main_cst_122 : Ref sig .tc := ⟨.hbm, 616, rfl⟩
abbrev main_v449 : Ref sig .tc := ⟨.hbm, 617, rfl⟩
abbrev main_v450 : Ref sig .tc := ⟨.hbm, 618, rfl⟩
abbrev main_cst_123 : Ref sig .tc := ⟨.hbm, 619, rfl⟩
abbrev main_v451 : Ref sig .tc := ⟨.hbm, 620, rfl⟩
abbrev main_v452 : Ref sig .tc := ⟨.hbm, 621, rfl⟩
abbrev main_v453 : Ref sig .tc := ⟨.hbm, 622, rfl⟩
abbrev main_c_124 : Ref sig .tc := ⟨.hbm, 623, rfl⟩
abbrev main_c_125 : Ref sig .tc := ⟨.hbm, 624, rfl⟩
abbrev main_call8_v0 : Ref sig .tc := ⟨.hbm, 625, rfl⟩
abbrev main_call8_v1 : Ref sig .tc := ⟨.hbm, 626, rfl⟩
abbrev main_call8_v2 : Ref sig .tc := ⟨.hbm, 627, rfl⟩
abbrev main_call8_v3 : Ref sig .tc := ⟨.hbm, 628, rfl⟩
abbrev main_call8_v4 : Ref sig .tc := ⟨.hbm, 629, rfl⟩
abbrev main_v454 : Ref sig .tc := ⟨.hbm, 630, rfl⟩
abbrev main_v455 : Ref sig .tc := ⟨.hbm, 631, rfl⟩
abbrev main_c_126 : Ref sig .tc := ⟨.hbm, 632, rfl⟩
abbrev main_v456 : Ref sig .tc := ⟨.hbm, 633, rfl⟩
abbrev main_v457 : Ref sig .tc := ⟨.hbm, 634, rfl⟩
abbrev main_c_127 : Ref sig .tc := ⟨.hbm, 635, rfl⟩
abbrev main_v458 : Ref sig .tc := ⟨.hbm, 636, rfl⟩
abbrev main_v459 : Ref sig .tc := ⟨.hbm, 637, rfl⟩
abbrev main_v460 : Ref sig .tc := ⟨.hbm, 638, rfl⟩
abbrev main_v461 : Ref sig .tc := ⟨.hbm, 639, rfl⟩
abbrev main_c_128 : Ref sig .tc := ⟨.hbm, 640, rfl⟩
abbrev main_v462 : Ref sig .tc := ⟨.hbm, 641, rfl⟩
abbrev main_v463 : Ref sig .tc := ⟨.hbm, 642, rfl⟩
abbrev main_c_129 : Ref sig .tc := ⟨.hbm, 643, rfl⟩
abbrev main_v464 : Ref sig .tc := ⟨.hbm, 644, rfl⟩
abbrev main_v465 : Ref sig .tc := ⟨.hbm, 645, rfl⟩
abbrev main_v466 : Ref sig .tc := ⟨.hbm, 646, rfl⟩
abbrev main_v467 : Ref sig .tc := ⟨.hbm, 647, rfl⟩
abbrev main_v468 : Ref sig .tc := ⟨.hbm, 648, rfl⟩
abbrev main_cst_130 : Ref sig .tc := ⟨.hbm, 649, rfl⟩
abbrev main_v469 : Ref sig .tc := ⟨.hbm, 650, rfl⟩
abbrev main_v470 : Ref sig .tc := ⟨.hbm, 651, rfl⟩
abbrev main_v471 : Ref sig .tc := ⟨.hbm, 652, rfl⟩
abbrev main_v472 : Ref sig .tc := ⟨.hbm, 653, rfl⟩
abbrev main_v473 : Ref sig .tc := ⟨.hbm, 654, rfl⟩
abbrev main_c_131 : Ref sig .tc := ⟨.hbm, 655, rfl⟩
abbrev main_v474 : Ref sig .tc := ⟨.hbm, 656, rfl⟩
abbrev main_v475 : Ref sig .tc := ⟨.hbm, 657, rfl⟩
abbrev main_c_132 : Ref sig .tc := ⟨.hbm, 658, rfl⟩
abbrev main_v476 : Ref sig .tc := ⟨.hbm, 659, rfl⟩
abbrev main_v477 : Ref sig .tc := ⟨.hbm, 660, rfl⟩
abbrev main_v478 : Ref sig .tc := ⟨.hbm, 661, rfl⟩
abbrev main_v479 : Ref sig .tc := ⟨.hbm, 662, rfl⟩
abbrev main_v480 : Ref sig .tc := ⟨.hbm, 663, rfl⟩
abbrev main_v481 : Ref sig .tc := ⟨.hbm, 664, rfl⟩
abbrev main_v482 : Ref sig .tc := ⟨.hbm, 665, rfl⟩
abbrev main_v483 : Ref sig .tc := ⟨.hbm, 666, rfl⟩
abbrev main_v484 : Ref sig .tc := ⟨.hbm, 667, rfl⟩
abbrev main_v485 : Ref sig .tc := ⟨.hbm, 668, rfl⟩
abbrev main_v486 : Ref sig .tc := ⟨.hbm, 669, rfl⟩

abbrev nD : Nat := 1
abbrev τ : Topo := Topo.v7x

variable {F : FTy → Type} [FloatOps F]

class Facts₀ : Prop where
  slices_S3x16x300x300_S1x16x300x300_0_0_0_0 : S3x16x300x300.Slices ![0, 0, 0, 0] S1x16x300x300
  shapeCasts_S1x16x300x300_S16x300x300 : S1x16x300x300.ShapeCasts S16x300x300
  slices_S2000000x3_S2000000x1_0_1 : S2000000x3.Slices ![0, 1] S2000000x1
  shapeCasts_S2000000x1_S2000000 : S2000000x1.ShapeCasts S2000000
  slices_S2000000x3_S2000000x1_0_2 : S2000000x3.Slices ![0, 2] S2000000x1
  bcast_S_S2000000 : S_.BroadcastsInDim S2000000 (![] : Fin 0 → Fin S2000000.rank)
  bcast_S2000000_S2000000x1_0 : S2000000.BroadcastsInDim S2000000x1 (![0] : Fin 1 → Fin S2000000x1.rank)
  concatenates_S2000000x1_S2000000x1_S2000000x2_d1 : Shape.Concatenates [S2000000x1, S2000000x1] S2000000x2 1
  bcast_S2000000_S1x2000000_1 : S2000000.BroadcastsInDim S1x2000000 (![1] : Fin 1 → Fin S1x2000000.rank)
  bcast_S1x2000000_S16x2000000_0_1 : S1x2000000.BroadcastsInDim S16x2000000 (![0, 1] : Fin 2 → Fin S16x2000000.rank)
  slices_S3x16x300_S1x16x300_0_0_0 : S3x16x300.Slices ![0, 0, 0] S1x16x300
  shapeCasts_S1x16x300_S16x300 : S1x16x300.ShapeCasts S16x300
  slices_S2000000x3_S2000000x1_0_0 : S2000000x3.Slices ![0, 0] S2000000x1
  slices_S3x16x300x300_S1x16x300x300_1_0_0_0 : S3x16x300x300.Slices ![1, 0, 0, 0] S1x16x300x300
  slices_S3x16x300_S1x16x300_1_0_0 : S3x16x300.Slices ![1, 0, 0] S1x16x300
  slices_S3x16x300x300_S1x16x300x300_2_0_0_0 : S3x16x300x300.Slices ![2, 0, 0, 0] S1x16x300x300
  slices_S3x16x300_S1x16x300_2_0_0 : S3x16x300.Slices ![2, 0, 0] S1x16x300
  concatenates_S16x2000000_S16x2000000_S16x2000000_S48x2000000_d0 : Shape.Concatenates [S16x2000000, S16x2000000, S16x2000000] S48x2000000 0
  gather_S16x300x300_S2000000x2_S16x2000000_0_12_n_n_12_1_1611_wf : GatherDims.WF S16x300x300 S2000000x2 S16x2000000 [0] [1, 2] [] [1, 2] [] 1 ![16, 1, 1]
  gather_S16x300_S2000000x1_S16x2000000_0_1_n_n_1_1_161_wf : GatherDims.WF S16x300 S2000000x1 S16x2000000 [0] [1] [] [1] [] 1 ![16, 1]

variable [Facts₀]

def gather_S16x300x300_S2000000x2_S16x2000000_0_12_n_n_12_1_1611 : GatherDims S16x300x300 S2000000x2 S16x2000000 where
  offsetDims := [0]
  collapsedSliceDims := [1, 2]
  operandBatchingDims := []
  startIndicesBatchingDims := []
  startIndexMap := [1, 2]
  indexVectorDim := 1
  sliceSizes := ![16, 1, 1]
  wf := gather_S16x300x300_S2000000x2_S16x2000000_0_12_n_n_12_1_1611_wf
def gather_S16x300_S2000000x1_S16x2000000_0_1_n_n_1_1_161 : GatherDims S16x300 S2000000x1 S16x2000000 where
  offsetDims := [0]
  collapsedSliceDims := [1]
  operandBatchingDims := []
  startIndicesBatchingDims := []
  startIndexMap := [1]
  indexVectorDim := 1
  sliceSizes := ![16, 1]
  wf := gather_S16x300_S2000000x1_S16x2000000_0_1_n_n_1_1_161_wf

class Facts : Prop extends Facts₀ where

variable [Facts]
-- ==== Proof.KBitsHost.lean ====
/-
  The program's @main is a long straight line of array operations (coordinate arithmetic, table look-ups, the
  x-axis interpolation, stacking) followed by one kernel launch.  This module states what every buffer holds when
  the launch is reached -- the fold of those operations over the initial memory -- shows that @main is exactly
  "those operations, then the launch", and that none of the operations writes an argument array, so the launch
  finds the three arguments as they were.
-/
import proofs.«171750_j84275848282428_2_alg».proof.Proof.Gen.Kernel.Launch
import proofs.«171750_j84275848282428_2_alg».proof.Proof.Gen.Kernel.Skeleton
import proofs.«171750_j84275848282428_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The stretches of array operations before the launch, in program order (the outlined clamp function's
    operations are stretches of their own). -/
abbrev prefixOps : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18]

/-- Core `c`'s buffers when the launch is reached: the operations folded over the initial memory. -/
abbrev V (c : Dev nD) (b : Ref sig .tc) : Buf (Elt F) ((c : Thread nD τ).loc b) :=
  StableHlo.after (List.flatten (prefixOps (F := F))) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor

/-- @main is the operations and then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main (prefixOps (F := F))
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh⟩) main_chain

set_option maxHeartbeats 4000000 in
/-- No operation before the launch writes argument 0: the launch finds it as it was. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No operation before the launch writes argument 1: the launch finds it as it was. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No operation before the launch writes argument 2: the launch finds it as it was. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

end Cert.Kernel.Hand

end
-- ==== Proof.KBitsBody.lean ====
/-
  The kernel body at one grid point.  It reads, for each of the three coordinate planes k = 0, 1, 2, the k-th slab
  [1, 6400, 16] of the four tap blocks and the k-th row [1, 6400] of the two weight blocks, and writes the k-th
  band of sixteen rows of the [48, 6400] output block.  So the output block is determined piece by piece: three
  stores, each a pure function of six loads.  This module names that block and proves the body's
  separation-logic triple: on buffers holding any six input blocks, the body terminates without a fault, leaves the
  inputs as they were and the output buffer at the named block.
-/
import proofs.«171750_j84275848282428_2_alg».proof.Proof.Gen.Kernel.Launch
import proofs.«171750_j84275848282428_2_alg».proof.Proof.Gen.Kernel.Skeleton
import proofs.«171750_j84275848282428_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes -/

/-- Slab `k` of a tap block: all 6400 points, all 16 channels of plane `k`. -/
abbrev tap0 : Rect S3x6400x16 := Rect.unit (s := S3x6400x16) ![0, 0, 0] S1x6400x16.size inb_S3x6400x16_S1x6400x16_0_0_0
abbrev tap1 : Rect S3x6400x16 := Rect.unit (s := S3x6400x16) ![1, 0, 0] S1x6400x16.size inb_S3x6400x16_S1x6400x16_1_0_0
abbrev tap2 : Rect S3x6400x16 := Rect.unit (s := S3x6400x16) ![2, 0, 0] S1x6400x16.size inb_S3x6400x16_S1x6400x16_2_0_0
/-- Row `k` of a weight block. -/
abbrev wt0 : Rect S3x6400 := Rect.unit (s := S3x6400) ![0, 0] S1x6400.size inb_S3x6400_S1x6400_0_0
abbrev wt1 : Rect S3x6400 := Rect.unit (s := S3x6400) ![1, 0] S1x6400.size inb_S3x6400_S1x6400_1_0
abbrev wt2 : Rect S3x6400 := Rect.unit (s := S3x6400) ![2, 0] S1x6400.size inb_S3x6400_S1x6400_2_0
/-- Band `k` of the output block: rows 16k .. 16k+15. -/
abbrev band0 : Rect S48x6400 := Rect.unit (s := S48x6400) ![0, 0] S16x6400.size inb_S48x6400_S16x6400_0_0
abbrev band1 : Rect S48x6400 := Rect.unit (s := S48x6400) ![16, 0] S16x6400.size inb_S48x6400_S16x6400_16_0
abbrev band2 : Rect S48x6400 := Rect.unit (s := S48x6400) ![32, 0] S16x6400.size inb_S48x6400_S16x6400_32_0

/-! ## What the body leaves in the output buffer -/

/-- The output block as the body's three stores leave it (the last store first), each band the body's
    arithmetic of the matching slabs and rows of the six input blocks. -/
def outBlock (x0 x1 : Vec F S3x6400x16 .f32) (x2 : Vec F S3x6400 .f32) (x3 x4 : Vec F S3x6400x16 .f32) (x5 : Vec F S3x6400 .f32) :
    Vec F S48x6400 .f32 :=
  View.canon [⟨band2, k0_pay1 (k0_pay5 (View.ld x0 tap2)) (k0_pay6 (View.ld x1 tap2)) (View.ld x2 wt2) (View.ld x3 tap2) (View.ld x4 tap2) (View.ld x5 wt2)⟩,
    ⟨band1, k0_pay4 (k0_pay3 (View.ld x0 tap1)) (View.ld x1 tap1) (View.ld x2 wt1) (View.ld x3 tap1) (View.ld x4 tap1) (View.ld x5 wt1)⟩,
    ⟨band0, k0_pay2 (View.ld x0 tap0) (View.ld x1 tap0) (View.ld x2 wt0) (View.ld x3 tap0) (View.ld x4 tap0) (View.ld x5 wt0)⟩]

/-- The three bands tile the block, so every index of the block lies in one of them. -/
theorem bands_cover (p0 p1 p2 : Vec F S16x6400 .f32) (y : S48x6400.Idx) :
    ∃ pc ∈ ([⟨band2, p0⟩, ⟨band1, p1⟩, ⟨band0, p2⟩] : List (View.Piece (Elt F) S48x6400 .f32)), y ∈ pc.1.set :=
  View.cover_of_tiled [⟨band2, p0⟩, ⟨band1, p1⟩, ⟨band0, p2⟩] S16x6400.size (by rfl) y

/-! ## The body's triple -/

set_option maxHeartbeats 4000000 in
/-- On whole buffers, the six inputs' at contents `x0 .. x5` and the output's at anything, the body runs to the
    end, hands the inputs back unchanged and the output buffer at `outBlock x0 .. x5`. -/
theorem sound_kernel (c : Dev nD) (E : Set ℕ) (i : grid0.Coords)
    (arg1 : Memref sig .tc .vmem S3x6400x16 .f32) (harg1 : arg1.IsWhole) (arg2 : Memref sig .tc .vmem S3x6400x16 .f32) (harg2 : arg2.IsWhole)
    (arg3 : Memref sig .tc .vmem S3x6400 .f32) (harg3 : arg3.IsWhole) (arg4 : Memref sig .tc .vmem S3x6400x16 .f32) (harg4 : arg4.IsWhole)
    (arg5 : Memref sig .tc .vmem S3x6400x16 .f32) (harg5 : arg5.IsWhole) (arg6 : Memref sig .tc .vmem S3x6400 .f32) (harg6 : arg6.IsWhole)
    (arg7 : Memref sig .tc .vmem S48x6400 .f32) (harg7 : arg7.IsWhole)
    (x0 x1 : Vec F S3x6400x16 .f32) (x2 : Vec F S3x6400 .f32) (x3 x4 : Vec F S3x6400x16 .f32) (x5 : Vec F S3x6400 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outBlock x0 x1 x2 x3 x4 x5)) -∗ K ⟨⟩))
      ⊢ wp frame (wpE (defs₀ (F := F)) Variants.none c none) E (cc0__vm_combine_kernel i arg1 harg1 arg2 harg2 arg3 harg3 arg4 harg4 arg5 harg5 arg6 harg6 arg7 harg7) K := by
  simp only [cc0__vm_combine_kernel_eq_skeleton]; unfold cc0__vm_combine_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (bands_cover _ _ _)

end Cert.Kernel.Hand

end
-- ==== Proof.KBitsPayload.lean ====
/-
  The body's arithmetic read at one output element.  Band k of the output block is sixteen channel rows by 6400
  points; its element at (channel ch, point n) is

      (a (1 - w) + b w) * (a' (1 - w') + b' w')

  where a, b are the two plane taps of plane k at (n, ch), w the plane weight of plane k at n, a', b' the two
  line taps and w' the line weight.  The taps arrive point-major ([6400, 16]) and are transposed in registers;
  the weights arrive as one row and are repeated over the sixteen channels.  Nothing else happens: every output
  element depends on one point n only.
-/
import proofs.«171750_j84275848282428_2_alg».proof.Proof.KBitsBody
import Idealize.ShloMosaic.Lib.ValueIdx
import Idealize.ShloMosaic.Lib.ValueLayout
import Idealize.ShloMosaic.Lib.Pipeline.Value

set_option maxRecDepth 16384

noncomputable section

namespace Cert.Kernel.Hand

open Cert.Kernel Cert.Kernel.Gen
open Idealize.ShloMosaic Idealize.ShloMosaic.ValueIdx

variable {F : FTy → Type} [FloatOps F]

/-- One output element from its six inputs: the y-interpolated plane value times the interpolated line value. -/
def combine (a b w a' b' w' : F .f32) : F .f32 :=
  FloatOps.mulf
    (FloatOps.addf (FloatOps.mulf a (FloatOps.subf (Scalar.ofBits .f32 0x3F800000#32) w)) (FloatOps.mulf b w))
    (FloatOps.addf (FloatOps.mulf a' (FloatOps.subf (Scalar.ofBits .f32 0x3F800000#32) w')) (FloatOps.mulf b' w'))

/-- Band 0's payload at (ch, n). -/
theorem band0_apply (v0 v2 : Vec F S1x6400x16 .f32) (v6 : Vec F S1x6400 .f32) (v15 v17 : Vec F S1x6400x16 .f32) (v21 : Vec F S1x6400 .f32)
    (ch : Fin 16) (n : Fin 6400) :
    k0_pay2 v0 v2 v6 v15 v17 v21 (ix2 ch n)
      = combine (v0 (ix3 (0 : Fin 1) n ch)) (v2 (ix3 (0 : Fin 1) n ch)) (v6 (ix2 (0 : Fin 1) n))
          (v15 (ix3 (0 : Fin 1) n ch)) (v17 (ix3 (0 : Fin 1) n ch)) (v21 (ix2 (0 : Fin 1) n)) := by
  unfold k0_pay2 combine
  have T : ∀ (v : Vec F S1x6400x16 .f32), transpose S16x6400 [1, 0] (shapeCast S6400x16 v shapeCasts_S1x6400x16_S6400x16)
      transposes_S6400x16_p1_0_S16x6400 (ix2 ch n) = v (ix3 (0 : Fin 1) n ch) := fun v =>
    (transpose_ix2_apply _ _ ch n).trans (shapeCast_1ab_ab_apply v _ n ch)
  have S : ∀ (v : Vec F S1x6400 .f32), shapeCast S1x6400 v shapeCasts_S1x6400_S1x6400 = v := fun v => shapeCast_self v _
  simp only [mulf, addf, subf, broadcast, broadcastTo_1b_ab_apply]
  rw [T v0, T v2, T v15, T v17, S v6, S v21]

/-- Band 1's payload at (ch, n). -/
theorem band1_apply (v32 v34 : Vec F S1x6400x16 .f32) (v38 : Vec F S1x6400 .f32) (v47 v49 : Vec F S1x6400x16 .f32) (v53 : Vec F S1x6400 .f32)
    (ch : Fin 16) (n : Fin 6400) :
    k0_pay4 (k0_pay3 v32) v34 v38 v47 v49 v53 (ix2 ch n)
      = combine (v32 (ix3 (0 : Fin 1) n ch)) (v34 (ix3 (0 : Fin 1) n ch)) (v38 (ix2 (0 : Fin 1) n))
          (v47 (ix3 (0 : Fin 1) n ch)) (v49 (ix3 (0 : Fin 1) n ch)) (v53 (ix2 (0 : Fin 1) n)) := by
  unfold k0_pay4 k0_pay3 combine
  have T : ∀ (v : Vec F S1x6400x16 .f32), transpose S16x6400 [1, 0] (shapeCast S6400x16 v shapeCasts_S1x6400x16_S6400x16)
      transposes_S6400x16_p1_0_S16x6400 (ix2 ch n) = v (ix3 (0 : Fin 1) n ch) := fun v =>
    (transpose_ix2_apply _ _ ch n).trans (shapeCast_1ab_ab_apply v _ n ch)
  have S : ∀ (v : Vec F S1x6400 .f32), shapeCast S1x6400 v shapeCasts_S1x6400_S1x6400 = v := fun v => shapeCast_self v _
  simp only [mulf, addf, subf, broadcast, broadcastTo_1b_ab_apply]
  rw [T v32, T v34, T v47, T v49, S v38, S v53]

/-- Band 2's payload at (ch, n). -/
theorem band2_apply (v64 v66 : Vec F S1x6400x16 .f32) (v70 : Vec F S1x6400 .f32) (v79 v81 : Vec F S1x6400x16 .f32) (v85 : Vec F S1x6400 .f32)
    (ch : Fin 16) (n : Fin 6400) :
    k0_pay1 (k0_pay5 v64) (k0_pay6 v66) v70 v79 v81 v85 (ix2 ch n)
      = combine (v64 (ix3 (0 : Fin 1) n ch)) (v66 (ix3 (0 : Fin 1) n ch)) (v70 (ix2 (0 : Fin 1) n))
          (v79 (ix3 (0 : Fin 1) n ch)) (v81 (ix3 (0 : Fin 1) n ch)) (v85 (ix2 (0 : Fin 1) n)) := by
  unfold k0_pay1 k0_pay5 k0_pay6 combine
  have T : ∀ (v : Vec F S1x6400x16 .f32), transpose S16x6400 [1, 0] (shapeCast S6400x16 v shapeCasts_S1x6400x16_S6400x16)
      transposes_S6400x16_p1_0_S16x6400 (ix2 ch n) = v (ix3 (0 : Fin 1) n ch) := fun v =>
    (transpose_ix2_apply _ _ ch n).trans (shapeCast_1ab_ab_apply v _ n ch)
  have S : ∀ (v : Vec F S1x6400 .f32), shapeCast S1x6400 v shapeCasts_S1x6400_S1x6400 = v := fun v => shapeCast_self v _
  simp only [mulf, addf, subf, broadcast, broadcastTo_1b_ab_apply]
  rw [T v64, T v66, T v79, T v81, S v70, S v85]

end Cert.Kernel.Hand

end
-- ==== Proof.KBitsBlock.lean ====
/-
  The output block read at an index.  Row 16 k + ch of the [48, 6400] block lies in band k, so its element at
  point n is the body's arithmetic of the six input blocks at plane k, point n, channel ch.  Hence the part of the
  output block that lies inside the output array depends only on the parts of the input blocks that lie inside
  their arrays: at the last grid point, where the blocks overhang the arrays by half their points, whatever
  fills the overhang of the inputs never reaches an element that is written back.
-/
import proofs.«171750_j84275848282428_2_alg».proof.Proof.KBitsPayload

set_option maxRecDepth 16384

noncomputable section

namespace Cert.Kernel.Hand

open Cert.Kernel Cert.Kernel.Gen
open Idealize.ShloMosaic Idealize.ShloMosaic.ValueIdx

variable {F : FTy → Type} [FloatOps F]

/-- Row `16 k + ch`, point `n` of the output block. -/
abbrev oix (k : Fin 3) (ch : Fin 16) (n : Fin 6400) : S48x6400.Idx :=
  ix2 ⟨16 * k.val + ch.val, by have := k.isLt; have := ch.isLt; omega⟩ n

/-- Every index of the output block is such a row and point. -/
theorem exists_oix (j : S48x6400.Idx) : ∃ (k : Fin 3) (ch : Fin 16) (n : Fin 6400), j = oix k ch n := by
  have h0 : (j 0).val < 48 := (j 0).isLt
  refine ⟨⟨(j 0).val / 16, by omega⟩, ⟨(j 0).val % 16, by omega⟩, ⟨(j 1).val, (j 1).isLt⟩, funext fun a => Fin.ext ?_⟩
  match a with
  | ⟨0, _⟩ => show (j 0).val = 16 * ((j 0).val / 16) + (j 0).val % 16; omega
  | ⟨1, _⟩ => rfl

/-! ## Where the bands and the slabs sit -/

theorem band0_emb (ch : Fin 16) (n : Fin 6400) : band0.emb (ix2 ch n) = oix 0 ch n :=
  funext fun a => Fin.ext (by
    rw [Rect.emb_apply]
    match a with
    | ⟨0, _⟩ => show 0 + 1 * ch.val = 16 * 0 + ch.val; omega
    | ⟨1, _⟩ => show 0 + 1 * n.val = n.val; omega)
theorem band1_emb (ch : Fin 16) (n : Fin 6400) : band1.emb (ix2 ch n) = oix 1 ch n :=
  funext fun a => Fin.ext (by
    rw [Rect.emb_apply]
    match a with
    | ⟨0, _⟩ => show 16 + 1 * ch.val = 16 * 1 + ch.val; omega
    | ⟨1, _⟩ => show 0 + 1 * n.val = n.val; omega)
theorem band2_emb (ch : Fin 16) (n : Fin 6400) : band2.emb (ix2 ch n) = oix 2 ch n :=
  funext fun a => Fin.ext (by
    rw [Rect.emb_apply]
    match a with
    | ⟨0, _⟩ => show 32 + 1 * ch.val = 16 * 2 + ch.val; omega
    | ⟨1, _⟩ => show 0 + 1 * n.val = n.val; omega)

/-- Rows below 32 are not in band 2, rows below 16 not in band 1. -/
theorem not_mem_band2 (k : Fin 3) (hk : k.val < 2) (ch : Fin 16) (n : Fin 6400) : oix k ch n ∉ band2.set := fun h => by
  have := (Rect.mem_set_unit.mp h (0 : Fin 2)).1
  have hc := ch.isLt
  change 32 ≤ 16 * k.val + ch.val at this
  omega
theorem not_mem_band1 (ch : Fin 16) (n : Fin 6400) : oix 0 ch n ∉ band1.set := fun h => by
  have := (Rect.mem_set_unit.mp h (0 : Fin 2)).1
  have hc := ch.isLt
  change 16 ≤ 16 * 0 + ch.val at this
  omega

theorem tap0_idx (n : Fin 6400) (ch : Fin 16) : tap0.toLoadRect.idx (ix3 (0 : Fin 1) n ch) = ix3 (0 : Fin 3) n ch :=
  funext fun a => Fin.ext (by
    match a with
    | ⟨0, _⟩ => rfl
    | ⟨1, _⟩ => show 0 + 1 * n.val = n.val; omega
    | ⟨2, _⟩ => show 0 + 1 * ch.val = ch.val; omega)
theorem tap1_idx (n : Fin 6400) (ch : Fin 16) : tap1.toLoadRect.idx (ix3 (0 : Fin 1) n ch) = ix3 (1 : Fin 3) n ch :=
  funext fun a => Fin.ext (by
    match a with
    | ⟨0, _⟩ => rfl
    | ⟨1, _⟩ => show 0 + 1 * n.val = n.val; omega
    | ⟨2, _⟩ => show 0 + 1 * ch.val = ch.val; omega)
theorem tap2_idx (n : Fin 6400) (ch : Fin 16) : tap2.toLoadRect.idx (ix3 (0 : Fin 1) n ch) = ix3 (2 : Fin 3) n ch :=
  funext fun a => Fin.ext (by
    match a with
    | ⟨0, _⟩ => rfl
    | ⟨1, _⟩ => show 0 + 1 * n.val = n.val; omega
    | ⟨2, _⟩ => show 0 + 1 * ch.val = ch.val; omega)
theorem wt0_idx (n : Fin 6400) : wt0.toLoadRect.idx (ix2 (0 : Fin 1) n) = ix2 (0 : Fin 3) n :=
  funext fun a => Fin.ext (by
    match a with
    | ⟨0, _⟩ => rfl
    | ⟨1, _⟩ => show 0 + 1 * n.val = n.val; omega)
theorem wt1_idx (n : Fin 6400) : wt1.toLoadRect.idx (ix2 (0 : Fin 1) n) = ix2 (1 : Fin 3) n :=
  funext fun a => Fin.ext (by
    match a with
    | ⟨0, _⟩ => rfl
    | ⟨1, _⟩ => show 0 + 1 * n.val = n.val; omega)
theorem wt2_idx (n : Fin 6400) : wt2.toLoadRect.idx (ix2 (0 : Fin 1) n) = ix2 (2 : Fin 3) n :=
  funext fun a => Fin.ext (by
    match a with
    | ⟨0, _⟩ => rfl
    | ⟨1, _⟩ => show 0 + 1 * n.val = n.val; omega)

/-- The three-band canon read at a row of band 0, 1, 2: that band's payload. -/
theorem canon_band0 (p2 p1 p0 : Vec F S16x6400 .f32) (ch : Fin 16) (n : Fin 6400) :
    View.canon ([⟨band2, p2⟩, ⟨band1, p1⟩, ⟨band0, p0⟩] : List (View.Piece (Elt F) S48x6400 .f32)) (oix 0 ch n) = p0 (ix2 ch n) := by
  rw [View.canon_cons_of_not_mem (⟨band2, p2⟩ : View.Piece (Elt F) S48x6400 .f32) [⟨band1, p1⟩, ⟨band0, p0⟩] (not_mem_band2 0 (by decide) ch n),
    View.canon_cons_of_not_mem (⟨band1, p1⟩ : View.Piece (Elt F) S48x6400 .f32) [⟨band0, p0⟩] (not_mem_band1 ch n), ← band0_emb ch n]
  exact View.canon_cons_emb band0 p0 [] (ix2 ch n)
theorem canon_band1 (p2 p1 p0 : Vec F S16x6400 .f32) (ch : Fin 16) (n : Fin 6400) :
    View.canon ([⟨band2, p2⟩, ⟨band1, p1⟩, ⟨band0, p0⟩] : List (View.Piece (Elt F) S48x6400 .f32)) (oix 1 ch n) = p1 (ix2 ch n) := by
  rw [View.canon_cons_of_not_mem (⟨band2, p2⟩ : View.Piece (Elt F) S48x6400 .f32) [⟨band1, p1⟩, ⟨band0, p0⟩] (not_mem_band2 1 (by decide) ch n),
    ← band1_emb ch n]
  exact View.canon_cons_emb band1 p1 [⟨band0, p0⟩] (ix2 ch n)
theorem canon_band2 (p2 p1 p0 : Vec F S16x6400 .f32) (ch : Fin 16) (n : Fin 6400) :
    View.canon ([⟨band2, p2⟩, ⟨band1, p1⟩, ⟨band0, p0⟩] : List (View.Piece (Elt F) S48x6400 .f32)) (oix 2 ch n) = p2 (ix2 ch n) := by
  rw [← band2_emb ch n]
  exact View.canon_cons_emb band2 p2 [⟨band1, p1⟩, ⟨band0, p0⟩] (ix2 ch n)

/-! ## The output block at an index -/

variable (x0 x1 : Vec F S3x6400x16 .f32) (x2 : Vec F S3x6400 .f32) (x3 x4 : Vec F S3x6400x16 .f32) (x5 : Vec F S3x6400 .f32)

theorem outBlock_apply0 (ch : Fin 16) (n : Fin 6400) :
    outBlock x0 x1 x2 x3 x4 x5 (oix 0 ch n)
      = combine (x0 (ix3 (0 : Fin 3) n ch)) (x1 (ix3 (0 : Fin 3) n ch)) (x2 (ix2 (0 : Fin 3) n))
          (x3 (ix3 (0 : Fin 3) n ch)) (x4 (ix3 (0 : Fin 3) n ch)) (x5 (ix2 (0 : Fin 3) n)) := by
  unfold outBlock
  rw [canon_band0, band0_apply]
  show combine (x0 (tap0.toLoadRect.idx _)) (x1 (tap0.toLoadRect.idx _)) (x2 (wt0.toLoadRect.idx _))
    (x3 (tap0.toLoadRect.idx _)) (x4 (tap0.toLoadRect.idx _)) (x5 (wt0.toLoadRect.idx _)) = _
  rw [tap0_idx, wt0_idx]

theorem outBlock_apply1 (ch : Fin 16) (n : Fin 6400) :
    outBlock x0 x1 x2 x3 x4 x5 (oix 1 ch n)
      = combine (x0 (ix3 (1 : Fin 3) n ch)) (x1 (ix3 (1 : Fin 3) n ch)) (x2 (ix2 (1 : Fin 3) n))
          (x3 (ix3 (1 : Fin 3) n ch)) (x4 (ix3 (1 : Fin 3) n ch)) (x5 (ix2 (1 : Fin 3) n)) := by
  unfold outBlock
  rw [canon_band1, band1_apply]
  show combine (x0 (tap1.toLoadRect.idx _)) (x1 (tap1.toLoadRect.idx _)) (x2 (wt1.toLoadRect.idx _))
    (x3 (tap1.toLoadRect.idx _)) (x4 (tap1.toLoadRect.idx _)) (x5 (wt1.toLoadRect.idx _)) = _
  rw [tap1_idx, wt1_idx]

theorem outBlock_apply2 (ch : Fin 16) (n : Fin 6400) :
    outBlock x0 x1 x2 x3 x4 x5 (oix 2 ch n)
      = combine (x0 (ix3 (2 : Fin 3) n ch)) (x1 (ix3 (2 : Fin 3) n ch)) (x2 (ix2 (2 : Fin 3) n))
          (x3 (ix3 (2 : Fin 3) n ch)) (x4 (ix3 (2 : Fin 3) n ch)) (x5 (ix2 (2 : Fin 3) n)) := by
  unfold outBlock
  rw [canon_band2, band2_apply]
  show combine (x0 (tap2.toLoadRect.idx _)) (x1 (tap2.toLoadRect.idx _)) (x2 (wt2.toLoadRect.idx _))
    (x3 (tap2.toLoadRect.idx _)) (x4 (tap2.toLoadRect.idx _)) (x5 (wt2.toLoadRect.idx _)) = _
  rw [tap2_idx, wt2_idx]

/-- THE OUTPUT BLOCK AT (16 k + ch, n): the body's arithmetic of the inputs at plane k, point n, channel ch. -/
theorem outBlock_apply (k : Fin 3) (ch : Fin 16) (n : Fin 6400) :
    outBlock x0 x1 x2 x3 x4 x5 (oix k ch n)
      = combine (x0 (ix3 k n ch)) (x1 (ix3 k n ch)) (x2 (ix2 k n)) (x3 (ix3 k n ch)) (x4 (ix3 k n ch)) (x5 (ix2 k n)) := by
  match k with
  | ⟨0, _⟩ => exact outBlock_apply0 x0 x1 x2 x3 x4 x5 ch n
  | ⟨1, _⟩ => exact outBlock_apply1 x0 x1 x2 x3 x4 x5 ch n
  | ⟨2, _⟩ => exact outBlock_apply2 x0 x1 x2 x3 x4 x5 ch n

end Cert.Kernel.Hand

end
-- ==== Proof.KBitsFrame.lean ====
/-
  The launch.  The pipeline walks the 313 grid points; at point t it fetches block t of each of the six stacked
  input arrays (6400 points of every plane), runs the body and writes block t of the output back.  Two million
  points are 312 whole blocks and a half: the last block of every array overhangs it, the fetch there fills only
  the first 3200 points of the staging buffer and the write-back writes only the first 3200 points of the output
  block.  The proof data names what every staging buffer holds after the body at point t: an input's buffer its
  block (filled out with zeros past the array's end), the output's buffer the body's block of those.  Because every
  output element depends on one point only (the output block read at an index), what is written back never depends
  on what fills the overhang.  The library's frame theorem then gives the run: every weakly fair execution
  terminates without a fault, the output array ends at the blocks written back and every other buffer as the
  launch found it -- in particular the three arguments.
-/
import proofs.«171750_j84275848282428_2_alg».proof.Proof.KBitsHost
import proofs.«171750_j84275848282428_2_alg».proof.Proof.KBitsBlock

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks -/

/-- Window `w`'s block at point `t`, read off its array as the launch finds it: the part inside the array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input 0's block at point `t` as a whole staging buffer: zeros past the array's end. -/
def blk0 (c : Dev nD) (t : Fin cfg0.N) : Vec F S3x6400x16 .f32 :=
  win0_0.fill (grid0.coords t) (fun _ => Scalar.ofBits .f32 0#32) (iblk m c 0 t)
/-- Input 1's block at point `t` as a whole staging buffer: zeros past the array's end. -/
def blk1 (c : Dev nD) (t : Fin cfg0.N) : Vec F S3x6400x16 .f32 :=
  win0_1.fill (grid0.coords t) (fun _ => Scalar.ofBits .f32 0#32) (iblk m c 1 t)
/-- Input 2's block at point `t` as a whole staging buffer: zeros past the array's end. -/
def blk2 (c : Dev nD) (t : Fin cfg0.N) : Vec F S3x6400 .f32 :=
  win0_2.fill (grid0.coords t) (fun _ => Scalar.ofBits .f32 0#32) (iblk m c 2 t)
/-- Input 3's block at point `t` as a whole staging buffer: zeros past the array's end. -/
def blk3 (c : Dev nD) (t : Fin cfg0.N) : Vec F S3x6400x16 .f32 :=
  win0_3.fill (grid0.coords t) (fun _ => Scalar.ofBits .f32 0#32) (iblk m c 3 t)
/-- Input 4's block at point `t` as a whole staging buffer: zeros past the array's end. -/
def blk4 (c : Dev nD) (t : Fin cfg0.N) : Vec F S3x6400x16 .f32 :=
  win0_4.fill (grid0.coords t) (fun _ => Scalar.ofBits .f32 0#32) (iblk m c 4 t)
/-- Input 5's block at point `t` as a whole staging buffer: zeros past the array's end. -/
def blk5 (c : Dev nD) (t : Fin cfg0.N) : Vec F S3x6400 .f32 :=
  win0_5.fill (grid0.coords t) (fun _ => Scalar.ofBits .f32 0#32) (iblk m c 5 t)

/-- The proof data: the arrays as the launch finds them; after the body at point `t` each input's buffer at its
    block and the output's at the body's block of them; the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => blk0 m c t
    | ⟨1, _⟩ => blk1 m c t
    | ⟨2, _⟩ => blk2 m c t
    | ⟨3, _⟩ => blk3 m c t
    | ⟨4, _⟩ => blk4 m c t
    | ⟨5, _⟩ => blk5 m c t
    | ⟨6, _⟩ => outBlock (blk0 m c t) (blk1 m c t) (blk2 m c t) (blk3 m c t) (blk4 m c t) (blk5 m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = blk0 m c t := by dsimp only [dats]
theorem after1 (c : Dev nD) (t : Fin cfg0.N) : (dats m 0 c).after 1 t = blk1 m c t := by dsimp only [dats]
theorem after2 (c : Dev nD) (t : Fin cfg0.N) : (dats m 0 c).after 2 t = blk2 m c t := by dsimp only [dats]
theorem after3 (c : Dev nD) (t : Fin cfg0.N) : (dats m 0 c).after 3 t = blk3 m c t := by dsimp only [dats]
theorem after4 (c : Dev nD) (t : Fin cfg0.N) : (dats m 0 c).after 4 t = blk4 m c t := by dsimp only [dats]
theorem after5 (c : Dev nD) (t : Fin cfg0.N) : (dats m 0 c).after 5 t = blk5 m c t := by dsimp only [dats]
theorem after6 (c : Dev nD) (t : Fin cfg0.N) : (dats m 0 c).after 6 t
    = outBlock (blk0 m c t) (blk1 m c t) (blk2 m c t) (blk3 m c t) (blk4 m c t) (blk5 m c t) := by dsimp only [dats]

/-- Every input is fetched at every point: its buffer holds the block where the fetch filled it, `d` elsewhere. -/
theorem before0 (c : Dev nD) (t : Fin cfg0.N) (d) :
    (dats m 0 c).before 0 t d = win0_0.fill (grid0.coords t) d (iblk m c 0 t) := by
  unfold Dat.before; rw [if_pos (fetch0_0 t)]; rfl
theorem before1 (c : Dev nD) (t : Fin cfg0.N) (d) :
    (dats m 0 c).before 1 t d = win0_1.fill (grid0.coords t) d (iblk m c 1 t) := by
  unfold Dat.before; rw [if_pos (fetch0_1 t)]; rfl
theorem before2 (c : Dev nD) (t : Fin cfg0.N) (d) :
    (dats m 0 c).before 2 t d = win0_2.fill (grid0.coords t) d (iblk m c 2 t) := by
  unfold Dat.before; rw [if_pos (fetch0_2 t)]; rfl
theorem before3 (c : Dev nD) (t : Fin cfg0.N) (d) :
    (dats m 0 c).before 3 t d = win0_3.fill (grid0.coords t) d (iblk m c 3 t) := by
  unfold Dat.before; rw [if_pos (fetch0_3 t)]; rfl
theorem before4 (c : Dev nD) (t : Fin cfg0.N) (d) :
    (dats m 0 c).before 4 t d = win0_4.fill (grid0.coords t) d (iblk m c 4 t) := by
  unfold Dat.before; rw [if_pos (fetch0_4 t)]; rfl
theorem before5 (c : Dev nD) (t : Fin cfg0.N) (d) :
    (dats m 0 c).before 5 t d = win0_5.fill (grid0.coords t) d (iblk m c 5 t) := by
  unfold Dat.before; rw [if_pos (fetch0_5 t)]; rfl
/-- The output is written back at every point: its buffer is fresh at every point. -/
theorem before6 (c : Dev nD) (t : Fin cfg0.N) (d) : (dats m 0 c).before 6 t d = d :=
  (dats m 0 c).before_out_reset 6 rfl t (by
    by_cases h0 : t.val = 0
    · exact .inl h0
    · exact .inr ⟨h0, flush0_6 _⟩) d

/-! ## What is written back does not depend on the overhang -/

/-- Contents that agree on the part a window's transfers move agree at every index of that part. -/
theorem eq_of_cut_eq {G : Pipeline.Grid} (w : Pipeline.Window sig G) {α : Type} (i : G.Coords) {X Y : w.block.Idx → α}
    (h : w.cut i X = w.cut i Y) (J : w.block.Idx) (hJ : w.moved i J = true) : X J = Y J :=
  congrFun h (fun a => ⟨(J a).val, (w.moved_iff i J).mp hJ a⟩)

/-- The windows are cut alike: on the point axis every window keeps as many points as the output's, and no
    other axis is cut. -/
theorem cuts (t : Fin cfg0.N) :
    win0_6.xsize (grid0.coords t) 0 = 48
    ∧ (win0_0.xsize (grid0.coords t) 0 = 3 ∧ win0_0.xsize (grid0.coords t) 1 = win0_6.xsize (grid0.coords t) 1 ∧ win0_0.xsize (grid0.coords t) 2 = 16)
    ∧ (win0_1.xsize (grid0.coords t) 0 = 3 ∧ win0_1.xsize (grid0.coords t) 1 = win0_6.xsize (grid0.coords t) 1 ∧ win0_1.xsize (grid0.coords t) 2 = 16)
    ∧ (win0_2.xsize (grid0.coords t) 0 = 3 ∧ win0_2.xsize (grid0.coords t) 1 = win0_6.xsize (grid0.coords t) 1)
    ∧ (win0_3.xsize (grid0.coords t) 0 = 3 ∧ win0_3.xsize (grid0.coords t) 1 = win0_6.xsize (grid0.coords t) 1 ∧ win0_3.xsize (grid0.coords t) 2 = 16)
    ∧ (win0_4.xsize (grid0.coords t) 0 = 3 ∧ win0_4.xsize (grid0.coords t) 1 = win0_6.xsize (grid0.coords t) 1 ∧ win0_4.xsize (grid0.coords t) 2 = 16)
    ∧ (win0_5.xsize (grid0.coords t) 0 = 3 ∧ win0_5.xsize (grid0.coords t) 1 = win0_6.xsize (grid0.coords t) 1) :=
  (by decide +kernel : ∀ t : Fin grid0.N,
    win0_6.xsize (grid0.coords t) 0 = 48
    ∧ (win0_0.xsize (grid0.coords t) 0 = 3 ∧ win0_0.xsize (grid0.coords t) 1 = win0_6.xsize (grid0.coords t) 1 ∧ win0_0.xsize (grid0.coords t) 2 = 16)
    ∧ (win0_1.xsize (grid0.coords t) 0 = 3 ∧ win0_1.xsize (grid0.coords t) 1 = win0_6.xsize (grid0.coords t) 1 ∧ win0_1.xsize (grid0.coords t) 2 = 16)
    ∧ (win0_2.xsize (grid0.coords t) 0 = 3 ∧ win0_2.xsize (grid0.coords t) 1 = win0_6.xsize (grid0.coords t) 1)
    ∧ (win0_3.xsize (grid0.coords t) 0 = 3 ∧ win0_3.xsize (grid0.coords t) 1 = win0_6.xsize (grid0.coords t) 1 ∧ win0_3.xsize (grid0.coords t) 2 = 16)
    ∧ (win0_4.xsize (grid0.coords t) 0 = 3 ∧ win0_4.xsize (grid0.coords t) 1 = win0_6.xsize (grid0.coords t) 1 ∧ win0_4.xsize (grid0.coords t) 2 = 16)
    ∧ (win0_5.xsize (grid0.coords t) 0 = 3 ∧ win0_5.xsize (grid0.coords t) 1 = win0_6.xsize (grid0.coords t) 1)) t

/-- A point inside the output's block is inside every tap block, at every plane and channel, -/
theorem moved3 (t : Fin cfg0.N) (k : Fin 3) (ch : Fin 16) (n : Fin 6400) (hn : n.val < win0_6.xsize (grid0.coords t) 1) :
    win0_0.moved (grid0.coords t) (ix3 k n ch) = true ∧ win0_1.moved (grid0.coords t) (ix3 k n ch) = true
    ∧ win0_3.moved (grid0.coords t) (ix3 k n ch) = true ∧ win0_4.moved (grid0.coords t) (ix3 k n ch) = true := by
  obtain ⟨-, ⟨a0, a1, a2⟩, ⟨b0, b1, b2⟩, -, ⟨c0, c1, c2⟩, ⟨d0, d1, d2⟩, -⟩ := cuts t
  have hk := k.isLt; have hc := ch.isLt
  exact ⟨(win0_0.moved_iff _ _).mpr fun a => match a with
      | ⟨0, _⟩ => lt_of_lt_of_eq hk a0.symm | ⟨1, _⟩ => lt_of_lt_of_eq hn a1.symm | ⟨2, _⟩ => lt_of_lt_of_eq hc a2.symm,
    (win0_1.moved_iff _ _).mpr fun a => match a with
      | ⟨0, _⟩ => lt_of_lt_of_eq hk b0.symm | ⟨1, _⟩ => lt_of_lt_of_eq hn b1.symm | ⟨2, _⟩ => lt_of_lt_of_eq hc b2.symm,
    (win0_3.moved_iff _ _).mpr fun a => match a with
      | ⟨0, _⟩ => lt_of_lt_of_eq hk c0.symm | ⟨1, _⟩ => lt_of_lt_of_eq hn c1.symm | ⟨2, _⟩ => lt_of_lt_of_eq hc c2.symm,
    (win0_4.moved_iff _ _).mpr fun a => match a with
      | ⟨0, _⟩ => lt_of_lt_of_eq hk d0.symm | ⟨1, _⟩ => lt_of_lt_of_eq hn d1.symm | ⟨2, _⟩ => lt_of_lt_of_eq hc d2.symm⟩
/-- and inside both weight blocks, at every plane. -/
theorem moved2 (t : Fin cfg0.N) (k : Fin 3) (n : Fin 6400) (hn : n.val < win0_6.xsize (grid0.coords t) 1) :
    win0_2.moved (grid0.coords t) (ix2 k n) = true ∧ win0_5.moved (grid0.coords t) (ix2 k n) = true := by
  obtain ⟨-, -, -, ⟨a0, a1⟩, -, -, ⟨b0, b1⟩⟩ := cuts t
  have hk := k.isLt
  exact ⟨(win0_2.moved_iff _ _).mpr fun a => match a with
      | ⟨0, _⟩ => lt_of_lt_of_eq hk a0.symm | ⟨1, _⟩ => lt_of_lt_of_eq hn a1.symm,
    (win0_5.moved_iff _ _).mpr fun a => match a with
      | ⟨0, _⟩ => lt_of_lt_of_eq hk b0.symm | ⟨1, _⟩ => lt_of_lt_of_eq hn b1.symm⟩

/-- Input blocks that agree inside their arrays give output blocks that agree inside the output array. -/
theorem cut_outBlock_congr (t : Fin cfg0.N)
    (X0 Y0 X1 Y1 : Vec F S3x6400x16 .f32) (X2 Y2 : Vec F S3x6400 .f32) (X3 Y3 X4 Y4 : Vec F S3x6400x16 .f32) (X5 Y5 : Vec F S3x6400 .f32)
    (h0 : win0_0.cut (grid0.coords t) X0 = win0_0.cut (grid0.coords t) Y0) (h1 : win0_1.cut (grid0.coords t) X1 = win0_1.cut (grid0.coords t) Y1)
    (h2 : win0_2.cut (grid0.coords t) X2 = win0_2.cut (grid0.coords t) Y2) (h3 : win0_3.cut (grid0.coords t) X3 = win0_3.cut (grid0.coords t) Y3)
    (h4 : win0_4.cut (grid0.coords t) X4 = win0_4.cut (grid0.coords t) Y4) (h5 : win0_5.cut (grid0.coords t) X5 = win0_5.cut (grid0.coords t) Y5) :
    win0_6.cut (grid0.coords t) (outBlock X0 X1 X2 X3 X4 X5) = win0_6.cut (grid0.coords t) (outBlock Y0 Y1 Y2 Y3 Y4 Y5) := by
  funext j
  show outBlock X0 X1 X2 X3 X4 X5 (win0_6.xinj (grid0.coords t) j) = outBlock Y0 Y1 Y2 Y3 Y4 Y5 (win0_6.xinj (grid0.coords t) j)
  have hm := win0_6.moved_xinj (grid0.coords t) j
  obtain ⟨k, ch, n, e⟩ := exists_oix (win0_6.xinj (grid0.coords t) j)
  rw [e] at hm ⊢
  have hn : n.val < win0_6.xsize (grid0.coords t) 1 := (win0_6.moved_iff _ _).mp hm (1 : Fin 2)
  obtain ⟨m0, m1, m3, m4⟩ := moved3 t k ch n hn
  obtain ⟨m2, m5⟩ := moved2 t k n hn
  rw [outBlock_apply, outBlock_apply, eq_of_cut_eq win0_0 _ h0 _ m0, eq_of_cut_eq win0_1 _ h1 _ m1, eq_of_cut_eq win0_2 _ h2 _ m2,
    eq_of_cut_eq win0_3 _ h3 _ m3, eq_of_cut_eq win0_4 _ h4 _ m4, eq_of_cut_eq win0_5 _ h5 _ m5]

/-! ## The body obligation -/

set_option maxHeartbeats 2000000 in
/-- At every point the body, handed the inputs' buffers just fetched and the output's at anything, hands every
    buffer back at what the proof data names on the part its transfers move. -/
theorem body_obligation (c : Dev nD) : BodyObligationLoose (dats m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  rw [before0 m c t d0, before1 m c t d1, before2 m c t d2, before3 m c t d3, before4 m c t d4, before5 m c t d5, before6 m c t d6]
  iapply (sound_kernel (F := F) c Set.univ (grid0.coords t) _ _ _ _ _ _ _ _ _ _ _ _ _ _
    (win0_0.fill (grid0.coords t) d0 (iblk m c 0 t)) (win0_1.fill (grid0.coords t) d1 (iblk m c 1 t))
    (win0_2.fill (grid0.coords t) d2 (iblk m c 2 t)) (win0_3.fill (grid0.coords t) d3 (iblk m c 3 t))
    (win0_4.fill (grid0.coords t) d4 (iblk m c 4 t)) (win0_5.fill (grid0.coords t) d5 (iblk m c 5 t)) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  have c0 : win0_0.cut (grid0.coords t) (blk0 m c t) = iblk m c 0 t := win0_0.cut_fill _ _ _
  have c1 : win0_1.cut (grid0.coords t) (blk1 m c t) = iblk m c 1 t := win0_1.cut_fill _ _ _
  have c2 : win0_2.cut (grid0.coords t) (blk2 m c t) = iblk m c 2 t := win0_2.cut_fill _ _ _
  have c3 : win0_3.cut (grid0.coords t) (blk3 m c t) = iblk m c 3 t := win0_3.cut_fill _ _ _
  have c4 : win0_4.cut (grid0.coords t) (blk4 m c t) = iblk m c 4 t := win0_4.cut_fill _ _ _
  have c5 : win0_5.cut (grid0.coords t) (blk5 m c t) = iblk m c 5 t := win0_5.cut_fill _ _ _
  have c6 := cut_outBlock_congr (F := F) t
    (win0_0.fill (grid0.coords t) d0 (iblk m c 0 t)) (blk0 m c t) (win0_1.fill (grid0.coords t) d1 (iblk m c 1 t)) (blk1 m c t)
    (win0_2.fill (grid0.coords t) d2 (iblk m c 2 t)) (blk2 m c t) (win0_3.fill (grid0.coords t) d3 (iblk m c 3 t)) (blk3 m c t)
    (win0_4.fill (grid0.coords t) d4 (iblk m c 4 t)) (blk4 m c t) (win0_5.fill (grid0.coords t) d5 (iblk m c 5 t)) (blk5 m c t)
    ((win0_0.cut_fill _ _ _).trans c0.symm) ((win0_1.cut_fill _ _ _).trans c1.symm) ((win0_2.cut_fill _ _ _).trans c2.symm)
    ((win0_3.cut_fill _ _ _).trans c3.symm) ((win0_4.cut_fill _ _ _).trans c4.symm) ((win0_5.cut_fill _ _ _).trans c5.symm)
  isplitl [H0]
  · iexists d0
    change _ ⊢ owns (c : Thread nD τ) (st0_0 t) fullShare (win0_0.fill (grid0.coords t) d0 (win0_0.cut (grid0.coords t) (blk0 m c t)))
    rw [c0]; try iexact H0
  isplitl [H1]
  · iexists d1
    change _ ⊢ owns (c : Thread nD τ) (st0_1 t) fullShare (win0_1.fill (grid0.coords t) d1 (win0_1.cut (grid0.coords t) (blk1 m c t)))
    rw [c1]; try iexact H1
  isplitl [H2]
  · iexists d2
    change _ ⊢ owns (c : Thread nD τ) (st0_2 t) fullShare (win0_2.fill (grid0.coords t) d2 (win0_2.cut (grid0.coords t) (blk2 m c t)))
    rw [c2]; try iexact H2
  isplitl [H3]
  · iexists d3
    change _ ⊢ owns (c : Thread nD τ) (st0_3 t) fullShare (win0_3.fill (grid0.coords t) d3 (win0_3.cut (grid0.coords t) (blk3 m c t)))
    rw [c3]; try iexact H3
  isplitl [H4]
  · iexists d4
    change _ ⊢ owns (c : Thread nD τ) (st0_4 t) fullShare (win0_4.fill (grid0.coords t) d4 (win0_4.cut (grid0.coords t) (blk4 m c t)))
    rw [c4]; try iexact H4
  isplitl [H5]
  · iexists d5
    change _ ⊢ owns (c : Thread nD τ) (st0_5 t) fullShare (win0_5.fill (grid0.coords t) d5 (win0_5.cut (grid0.coords t) (blk5 m c t)))
    rw [c5]; try iexact H5
  · iexists (outBlock (win0_0.fill (grid0.coords t) d0 (iblk m c 0 t)) (win0_1.fill (grid0.coords t) d1 (iblk m c 1 t))
      (win0_2.fill (grid0.coords t) d2 (iblk m c 2 t)) (win0_3.fill (grid0.coords t) d3 (iblk m c 3 t))
      (win0_4.fill (grid0.coords t) d4 (iblk m c 4 t)) (win0_5.fill (grid0.coords t) d5 (iblk m c 5 t)))
    rw [show (dats m 0 c).after (6 : Fin 7) t
      = outBlock (blk0 m c t) (blk1 m c t) (blk2 m c t) (blk3 m c t) (blk4 m c t) (blk5 m c t) from after6 m c t]
    change _ ⊢ owns (c : Thread nD τ) (st0_6 t) fullShare (win0_6.fill (grid0.coords t)
      (outBlock (win0_0.fill (grid0.coords t) d0 (iblk m c 0 t)) (win0_1.fill (grid0.coords t) d1 (iblk m c 1 t))
        (win0_2.fill (grid0.coords t) d2 (iblk m c 2 t)) (win0_3.fill (grid0.coords t) d3 (iblk m c 3 t))
        (win0_4.fill (grid0.coords t) d4 (iblk m c 4 t)) (win0_5.fill (grid0.coords t) d5 (iblk m c 5 t)))
      (win0_6.cut (grid0.coords t) (outBlock (blk0 m c t) (blk1 m c t) (blk2 m c t) (blk3 m c t) (blk4 m c t) (blk5 m c t))))
    rw [win0_6.fill_congr_cut (grid0.coords t) c6]; try iexact H6

/-! ## The run and the frame -/

set_option backward.isDefEq.respectTransparency.types false in
/-- Every weakly fair execution of @main terminates without a fault; every array of the pipeline ends at what the
    library computes from the proof data and every other unscoped buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- THE FRAME, at any float instance: the program runs to the end, faults nowhere, and its three argument arrays
    end as they began (no window stages them and no operation before the launch writes them). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (V_main_arg0 m c),
     ((h c).2 main_arg1 (Pipeline.mem_restRefs_of main_arg1 (by decide) (by decide))).trans (V_main_arg1 m c),
     ((h c).2 main_arg2 (Pipeline.mem_restRefs_of main_arg2 (by decide) (by decide))).trans (V_main_arg2 m c)⟩) (run_main m ρ)

end Cert.Kernel.Hand

end
-- ==== Proof.KIdealHost.lean ====
/-
  The program's @main is a long straight line of array operations (coordinate arithmetic, table look-ups, the
  x-axis interpolation, stacking) followed by one kernel launch.  This module states what every buffer holds when
  the launch is reached -- the fold of those operations over the initial memory -- shows that @main is exactly
  "those operations, then the launch", and that none of the operations writes an argument array, so the launch
  finds the three arguments as they were.
-/
import proofs.«171750_j84275848282428_2_alg».proof.Proof.Gen.KernelIdeal.Launch
import proofs.«171750_j84275848282428_2_alg».proof.Proof.Gen.KernelIdeal.Skeleton
import proofs.«171750_j84275848282428_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The stretches of array operations before the launch, in program order (the outlined clamp function's
    operations are stretches of their own). -/
abbrev prefixOps : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18]

/-- Core `c`'s buffers when the launch is reached: the operations folded over the initial memory. -/
abbrev V (c : Dev nD) (b : Ref sig .tc) : Buf (Elt F) ((c : Thread nD τ).loc b) :=
  StableHlo.after (List.flatten (prefixOps (F := F))) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor

/-- @main is the operations and then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main (prefixOps (F := F))
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh⟩) main_chain

set_option maxHeartbeats 4000000 in
/-- No operation before the launch writes argument 0: the launch finds it as it was. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No operation before the launch writes argument 1: the launch finds it as it was. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No operation before the launch writes argument 2: the launch finds it as it was. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

end Cert.KernelIdeal.Hand

end
-- ==== Proof.KIdealBody.lean ====
/-
  The kernel body at one grid point.  It reads, for each of the three coordinate planes k = 0, 1, 2, the k-th slab
  [1, 6400, 16] of the four tap blocks and the k-th row [1, 6400] of the two weight blocks, and writes the k-th
  band of sixteen rows of the [48, 6400] output block.  So the output block is determined piece by piece: three
  stores, each a pure function of six loads.  This module names that block and proves the body's
  separation-logic triple: on buffers holding any six input blocks, the body terminates without a fault, leaves the
  inputs as they were and the output buffer at the named block.
-/
import proofs.«171750_j84275848282428_2_alg».proof.Proof.Gen.KernelIdeal.Launch
import proofs.«171750_j84275848282428_2_alg».proof.Proof.Gen.KernelIdeal.Skeleton
import proofs.«171750_j84275848282428_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes -/

/-- Slab `k` of a tap block: all 6400 points, all 16 channels of plane `k`. -/
abbrev tap0 : Rect S3x6400x16 := Rect.unit (s := S3x6400x16) ![0, 0, 0] S1x6400x16.size inb_S3x6400x16_S1x6400x16_0_0_0
abbrev tap1 : Rect S3x6400x16 := Rect.unit (s := S3x6400x16) ![1, 0, 0] S1x6400x16.size inb_S3x6400x16_S1x6400x16_1_0_0
abbrev tap2 : Rect S3x6400x16 := Rect.unit (s := S3x6400x16) ![2, 0, 0] S1x6400x16.size inb_S3x6400x16_S1x6400x16_2_0_0
/-- Row `k` of a weight block. -/
abbrev wt0 : Rect S3x6400 := Rect.unit (s := S3x6400) ![0, 0] S1x6400.size inb_S3x6400_S1x6400_0_0
abbrev wt1 : Rect S3x6400 := Rect.unit (s := S3x6400) ![1, 0] S1x6400.size inb_S3x6400_S1x6400_1_0
abbrev wt2 : Rect S3x6400 := Rect.unit (s := S3x6400) ![2, 0] S1x6400.size inb_S3x6400_S1x6400_2_0
/-- Band `k` of the output block: rows 16k .. 16k+15. -/
abbrev band0 : Rect S48x6400 := Rect.unit (s := S48x6400) ![0, 0] S16x6400.size inb_S48x6400_S16x6400_0_0
abbrev band1 : Rect S48x6400 := Rect.unit (s := S48x6400) ![16, 0] S16x6400.size inb_S48x6400_S16x6400_16_0
abbrev band2 : Rect S48x6400 := Rect.unit (s := S48x6400) ![32, 0] S16x6400.size inb_S48x6400_S16x6400_32_0

/-! ## What the body leaves in the output buffer -/

/-- The output block as the body's three stores leave it (the last store first), each band the body's
    arithmetic of the matching slabs and rows of the six input blocks. -/
def outBlock (x0 x1 : Vec F S3x6400x16 .f32) (x2 : Vec F S3x6400 .f32) (x3 x4 : Vec F S3x6400x16 .f32) (x5 : Vec F S3x6400 .f32) :
    Vec F S48x6400 .f32 :=
  View.canon [⟨band2, k0_pay1 (k0_pay5 (View.ld x0 tap2)) (k0_pay6 (View.ld x1 tap2)) (View.ld x2 wt2) (View.ld x3 tap2) (View.ld x4 tap2) (View.ld x5 wt2)⟩,
    ⟨band1, k0_pay4 (k0_pay3 (View.ld x0 tap1)) (View.ld x1 tap1) (View.ld x2 wt1) (View.ld x3 tap1) (View.ld x4 tap1) (View.ld x5 wt1)⟩,
    ⟨band0, k0_pay2 (View.ld x0 tap0) (View.ld x1 tap0) (View.ld x2 wt0) (View.ld x3 tap0) (View.ld x4 tap0) (View.ld x5 wt0)⟩]

/-- The three bands tile the block, so every index of the block lies in one of them. -/
theorem bands_cover (p0 p1 p2 : Vec F S16x6400 .f32) (y : S48x6400.Idx) :
    ∃ pc ∈ ([⟨band2, p0⟩, ⟨band1, p1⟩, ⟨band0, p2⟩] : List (View.Piece (Elt F) S48x6400 .f32)), y ∈ pc.1.set :=
  View.cover_of_tiled [⟨band2, p0⟩, ⟨band1, p1⟩, ⟨band0, p2⟩] S16x6400.size (by rfl) y

/-! ## The body's triple -/

set_option maxHeartbeats 4000000 in
/-- On whole buffers, the six inputs' at contents `x0 .. x5` and the output's at anything, the body runs to the
    end, hands the inputs back unchanged and the output buffer at `outBlock x0 .. x5`. -/
theorem sound_kernel (c : Dev nD) (E : Set ℕ) (i : grid0.Coords)
    (arg1 : Memref sig .tc .vmem S3x6400x16 .f32) (harg1 : arg1.IsWhole) (arg2 : Memref sig .tc .vmem S3x6400x16 .f32) (harg2 : arg2.IsWhole)
    (arg3 : Memref sig .tc .vmem S3x6400 .f32) (harg3 : arg3.IsWhole) (arg4 : Memref sig .tc .vmem S3x6400x16 .f32) (harg4 : arg4.IsWhole)
    (arg5 : Memref sig .tc .vmem S3x6400x16 .f32) (harg5 : arg5.IsWhole) (arg6 : Memref sig .tc .vmem S3x6400 .f32) (harg6 : arg6.IsWhole)
    (arg7 : Memref sig .tc .vmem S48x6400 .f32) (harg7 : arg7.IsWhole)
    (x0 x1 : Vec F S3x6400x16 .f32) (x2 : Vec F S3x6400 .f32) (x3 x4 : Vec F S3x6400x16 .f32) (x5 : Vec F S3x6400 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outBlock x0 x1 x2 x3 x4 x5)) -∗ K ⟨⟩))
      ⊢ wp frame (wpE (defs₀ (F := F)) Variants.none c none) E (cc0__vm_combine_kernel i arg1 harg1 arg2 harg2 arg3 harg3 arg4 harg4 arg5 harg5 arg6 harg6 arg7 harg7) K := by
  simp only [cc0__vm_combine_kernel_eq_skeleton]; unfold cc0__vm_combine_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (bands_cover _ _ _)

end Cert.KernelIdeal.Hand

end
-- ==== Proof.KIdealPayload.lean ====
/-
  The body's arithmetic read at one output element.  Band k of the output block is sixteen channel rows by 6400
  points; its element at (channel ch, point n) is

      (a (1 - w) + b w) * (a' (1 - w') + b' w')

  where a, b are the two plane taps of plane k at (n, ch), w the plane weight of plane k at n, a', b' the two
  line taps and w' the line weight.  The taps arrive point-major ([6400, 16]) and are transposed in registers;
  the weights arrive as one row and are repeated over the sixteen channels.  Nothing else happens: every output
  element depends on one point n only.
-/
import proofs.«171750_j84275848282428_2_alg».proof.Proof.KIdealBody
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.ValueIdx

variable {F : FTy → Type} [FloatOps F]

/-- One output element from its six inputs: the y-interpolated plane value times the interpolated line value. -/
def combine (a b w a' b' w' : F .f32) : F .f32 :=
  FloatOps.mulf
    (FloatOps.addf (FloatOps.mulf a (FloatOps.subf (Scalar.ofBits .f32 0x3F800000#32) w)) (FloatOps.mulf b w))
    (FloatOps.addf (FloatOps.mulf a' (FloatOps.subf (Scalar.ofBits .f32 0x3F800000#32) w')) (FloatOps.mulf b' w'))

/-- Band 0's payload at (ch, n). -/
theorem band0_apply (v0 v2 : Vec F S1x6400x16 .f32) (v6 : Vec F S1x6400 .f32) (v15 v17 : Vec F S1x6400x16 .f32) (v21 : Vec F S1x6400 .f32)
    (ch : Fin 16) (n : Fin 6400) :
    k0_pay2 v0 v2 v6 v15 v17 v21 (ix2 ch n)
      = combine (v0 (ix3 (0 : Fin 1) n ch)) (v2 (ix3 (0 : Fin 1) n ch)) (v6 (ix2 (0 : Fin 1) n))
          (v15 (ix3 (0 : Fin 1) n ch)) (v17 (ix3 (0 : Fin 1) n ch)) (v21 (ix2 (0 : Fin 1) n)) := by
  unfold k0_pay2 combine
  have T : ∀ (v : Vec F S1x6400x16 .f32), transpose S16x6400 [1, 0] (shapeCast S6400x16 v shapeCasts_S1x6400x16_S6400x16)
      transposes_S6400x16_p1_0_S16x6400 (ix2 ch n) = v (ix3 (0 : Fin 1) n ch) := fun v =>
    (transpose_ix2_apply _ _ ch n).trans (shapeCast_1ab_ab_apply v _ n ch)
  have S : ∀ (v : Vec F S1x6400 .f32), shapeCast S1x6400 v shapeCasts_S1x6400_S1x6400 = v := fun v => shapeCast_self v _
  simp only [mulf, addf, subf, broadcast, broadcastTo_1b_ab_apply]
  rw [T v0, T v2, T v15, T v17, S v6, S v21]

/-- Band 1's payload at (ch, n). -/
theorem band1_apply (v32 v34 : Vec F S1x6400x16 .f32) (v38 : Vec F S1x6400 .f32) (v47 v49 : Vec F S1x6400x16 .f32) (v53 : Vec F S1x6400 .f32)
    (ch : Fin 16) (n : Fin 6400) :
    k0_pay4 (k0_pay3 v32) v34 v38 v47 v49 v53 (ix2 ch n)
      = combine (v32 (ix3 (0 : Fin 1) n ch)) (v34 (ix3 (0 : Fin 1) n ch)) (v38 (ix2 (0 : Fin 1) n))
          (v47 (ix3 (0 : Fin 1) n ch)) (v49 (ix3 (0 : Fin 1) n ch)) (v53 (ix2 (0 : Fin 1) n)) := by
  unfold k0_pay4 k0_pay3 combine
  have T : ∀ (v : Vec F S1x6400x16 .f32), transpose S16x6400 [1, 0] (shapeCast S6400x16 v shapeCasts_S1x6400x16_S6400x16)
      transposes_S6400x16_p1_0_S16x6400 (ix2 ch n) = v (ix3 (0 : Fin 1) n ch) := fun v =>
    (transpose_ix2_apply _ _ ch n).trans (shapeCast_1ab_ab_apply v _ n ch)
  have S : ∀ (v : Vec F S1x6400 .f32), shapeCast S1x6400 v shapeCasts_S1x6400_S1x6400 = v := fun v => shapeCast_self v _
  simp only [mulf, addf, subf, broadcast, broadcastTo_1b_ab_apply]
  rw [T v32, T v34, T v47, T v49, S v38, S v53]

/-- Band 2's payload at (ch, n). -/
theorem band2_apply (v64 v66 : Vec F S1x6400x16 .f32) (v70 : Vec F S1x6400 .f32) (v79 v81 : Vec F S1x6400x16 .f32) (v85 : Vec F S1x6400 .f32)
    (ch : Fin 16) (n : Fin 6400) :
    k0_pay1 (k0_pay5 v64) (k0_pay6 v66) v70 v79 v81 v85 (ix2 ch n)
      = combine (v64 (ix3 (0 : Fin 1) n ch)) (v66 (ix3 (0 : Fin 1) n ch)) (v70 (ix2 (0 : Fin 1) n))
          (v79 (ix3 (0 : Fin 1) n ch)) (v81 (ix3 (0 : Fin 1) n ch)) (v85 (ix2 (0 : Fin 1) n)) := by
  unfold k0_pay1 k0_pay5 k0_pay6 combine
  have T : ∀ (v : Vec F S1x6400x16 .f32), transpose S16x6400 [1, 0] (shapeCast S6400x16 v shapeCasts_S1x6400x16_S6400x16)
      transposes_S6400x16_p1_0_S16x6400 (ix2 ch n) = v (ix3 (0 : Fin 1) n ch) := fun v =>
    (transpose_ix2_apply _ _ ch n).trans (shapeCast_1ab_ab_apply v _ n ch)
  have S : ∀ (v : Vec F S1x6400 .f32), shapeCast S1x6400 v shapeCasts_S1x6400_S1x6400 = v := fun v => shapeCast_self v _
  simp only [mulf, addf, subf, broadcast, broadcastTo_1b_ab_apply]
  rw [T v64, T v66, T v79, T v81, S v70, S v85]

end Cert.KernelIdeal.Hand

end
-- ==== Proof.KIdealBlock.lean ====
/-
  The output block read at an index.  Row 16 k + ch of the [48, 6400] block lies in band k, so its element at
  point n is the body's arithmetic of the six input blocks at plane k, point n, channel ch.  Hence the part of the
  output block that lies inside the output array depends only on the parts of the input blocks that lie inside
  their arrays: at the last grid point, where the blocks overhang the arrays by half their points, whatever
  fills the overhang of the inputs never reaches an element that is written back.
-/
import proofs.«171750_j84275848282428_2_alg».proof.Proof.KIdealPayload

set_option maxRecDepth 16384

noncomputable section

namespace Cert.KernelIdeal.Hand

open Cert.KernelIdeal Cert.KernelIdeal.Gen
open Idealize.ShloMosaic Idealize.ShloMosaic.ValueIdx

variable {F : FTy → Type} [FloatOps F]

/-- Row `16 k + ch`, point `n` of the output block. -/
abbrev oix (k : Fin 3) (ch : Fin 16) (n : Fin 6400) : S48x6400.Idx :=
  ix2 ⟨16 * k.val + ch.val, by have := k.isLt; have := ch.isLt; omega⟩ n

/-- Every index of the output block is such a row and point. -/
theorem exists_oix (j : S48x6400.Idx) : ∃ (k : Fin 3) (ch : Fin 16) (n : Fin 6400), j = oix k ch n := by
  have h0 : (j 0).val < 48 := (j 0).isLt
  refine ⟨⟨(j 0).val / 16, by omega⟩, ⟨(j 0).val % 16, by omega⟩, ⟨(j 1).val, (j 1).isLt⟩, funext fun a => Fin.ext ?_⟩
  match a with
  | ⟨0, _⟩ => show (j 0).val = 16 * ((j 0).val / 16) + (j 0).val % 16; omega
  | ⟨1, _⟩ => rfl

/-! ## Where the bands and the slabs sit -/

theorem band0_emb (ch : Fin 16) (n : Fin 6400) : band0.emb (ix2 ch n) = oix 0 ch n :=
  funext fun a => Fin.ext (by
    rw [Rect.emb_apply]
    match a with
    | ⟨0, _⟩ => show 0 + 1 * ch.val = 16 * 0 + ch.val; omega
    | ⟨1, _⟩ => show 0 + 1 * n.val = n.val; omega)
theorem band1_emb (ch : Fin 16) (n : Fin 6400) : band1.emb (ix2 ch n) = oix 1 ch n :=
  funext fun a => Fin.ext (by
    rw [Rect.emb_apply]
    match a with
    | ⟨0, _⟩ => show 16 + 1 * ch.val = 16 * 1 + ch.val; omega
    | ⟨1, _⟩ => show 0 + 1 * n.val = n.val; omega)
theorem band2_emb (ch : Fin 16) (n : Fin 6400) : band2.emb (ix2 ch n) = oix 2 ch n :=
  funext fun a => Fin.ext (by
    rw [Rect.emb_apply]
    match a with
    | ⟨0, _⟩ => show 32 + 1 * ch.val = 16 * 2 + ch.val; omega
    | ⟨1, _⟩ => show 0 + 1 * n.val = n.val; omega)

/-- Rows below 32 are not in band 2, rows below 16 not in band 1. -/
theorem not_mem_band2 (k : Fin 3) (hk : k.val < 2) (ch : Fin 16) (n : Fin 6400) : oix k ch n ∉ band2.set := fun h => by
  have := (Rect.mem_set_unit.mp h (0 : Fin 2)).1
  have hc := ch.isLt
  change 32 ≤ 16 * k.val + ch.val at this
  omega
theorem not_mem_band1 (ch : Fin 16) (n : Fin 6400) : oix 0 ch n ∉ band1.set := fun h => by
  have := (Rect.mem_set_unit.mp h (0 : Fin 2)).1
  have hc := ch.isLt
  change 16 ≤ 16 * 0 + ch.val at this
  omega

theorem tap0_idx (n : Fin 6400) (ch : Fin 16) : tap0.toLoadRect.idx (ix3 (0 : Fin 1) n ch) = ix3 (0 : Fin 3) n ch :=
  funext fun a => Fin.ext (by
    match a with
    | ⟨0, _⟩ => rfl
    | ⟨1, _⟩ => show 0 + 1 * n.val = n.val; omega
    | ⟨2, _⟩ => show 0 + 1 * ch.val = ch.val; omega)
theorem tap1_idx (n : Fin 6400) (ch : Fin 16) : tap1.toLoadRect.idx (ix3 (0 : Fin 1) n ch) = ix3 (1 : Fin 3) n ch :=
  funext fun a => Fin.ext (by
    match a with
    | ⟨0, _⟩ => rfl
    | ⟨1, _⟩ => show 0 + 1 * n.val = n.val; omega
    | ⟨2, _⟩ => show 0 + 1 * ch.val = ch.val; omega)
theorem tap2_idx (n : Fin 6400) (ch : Fin 16) : tap2.toLoadRect.idx (ix3 (0 : Fin 1) n ch) = ix3 (2 : Fin 3) n ch :=
  funext fun a => Fin.ext (by
    match a with
    | ⟨0, _⟩ => rfl
    | ⟨1, _⟩ => show 0 + 1 * n.val = n.val; omega
    | ⟨2, _⟩ => show 0 + 1 * ch.val = ch.val; omega)
theorem wt0_idx (n : Fin 6400) : wt0.toLoadRect.idx (ix2 (0 : Fin 1) n) = ix2 (0 : Fin 3) n :=
  funext fun a => Fin.ext (by
    match a with
    | ⟨0, _⟩ => rfl
    | ⟨1, _⟩ => show 0 + 1 * n.val = n.val; omega)
theorem wt1_idx (n : Fin 6400) : wt1.toLoadRect.idx (ix2 (0 : Fin 1) n) = ix2 (1 : Fin 3) n :=
  funext fun a => Fin.ext (by
    match a with
    | ⟨0, _⟩ => rfl
    | ⟨1, _⟩ => show 0 + 1 * n.val = n.val; omega)
theorem wt2_idx (n : Fin 6400) : wt2.toLoadRect.idx (ix2 (0 : Fin 1) n) = ix2 (2 : Fin 3) n :=
  funext fun a => Fin.ext (by
    match a with
    | ⟨0, _⟩ => rfl
    | ⟨1, _⟩ => show 0 + 1 * n.val = n.val; omega)

/-- The three-band canon read at a row of band 0, 1, 2: that band's payload. -/
theorem canon_band0 (p2 p1 p0 : Vec F S16x6400 .f32) (ch : Fin 16) (n : Fin 6400) :
    View.canon ([⟨band2, p2⟩, ⟨band1, p1⟩, ⟨band0, p0⟩] : List (View.Piece (Elt F) S48x6400 .f32)) (oix 0 ch n) = p0 (ix2 ch n) := by
  rw [View.canon_cons_of_not_mem (⟨band2, p2⟩ : View.Piece (Elt F) S48x6400 .f32) [⟨band1, p1⟩, ⟨band0, p0⟩] (not_mem_band2 0 (by decide) ch n),
    View.canon_cons_of_not_mem (⟨band1, p1⟩ : View.Piece (Elt F) S48x6400 .f32) [⟨band0, p0⟩] (not_mem_band1 ch n), ← band0_emb ch n]
  exact View.canon_cons_emb band0 p0 [] (ix2 ch n)
theorem canon_band1 (p2 p1 p0 : Vec F S16x6400 .f32) (ch : Fin 16) (n : Fin 6400) :
    View.canon ([⟨band2, p2⟩, ⟨band1, p1⟩, ⟨band0, p0⟩] : List (View.Piece (Elt F) S48x6400 .f32)) (oix 1 ch n) = p1 (ix2 ch n) := by
  rw [View.canon_cons_of_not_mem (⟨band2, p2⟩ : View.Piece (Elt F) S48x6400 .f32) [⟨band1, p1⟩, ⟨band0, p0⟩] (not_mem_band2 1 (by decide) ch n),
    ← band1_emb ch n]
  exact View.canon_cons_emb band1 p1 [⟨band0, p0⟩] (ix2 ch n)
theorem canon_band2 (p2 p1 p0 : Vec F S16x6400 .f32) (ch : Fin 16) (n : Fin 6400) :
    View.canon ([⟨band2, p2⟩, ⟨band1, p1⟩, ⟨band0, p0⟩] : List (View.Piece (Elt F) S48x6400 .f32)) (oix 2 ch n) = p2 (ix2 ch n) := by
  rw [← band2_emb ch n]
  exact View.canon_cons_emb band2 p2 [⟨band1, p1⟩, ⟨band0, p0⟩] (ix2 ch n)

/-! ## The output block at an index -/

variable (x0 x1 : Vec F S3x6400x16 .f32) (x2 : Vec F S3x6400 .f32) (x3 x4 : Vec F S3x6400x16 .f32) (x5 : Vec F S3x6400 .f32)

theorem outBlock_apply0 (ch : Fin 16) (n : Fin 6400) :
    outBlock x0 x1 x2 x3 x4 x5 (oix 0 ch n)
      = combine (x0 (ix3 (0 : Fin 3) n ch)) (x1 (ix3 (0 : Fin 3) n ch)) (x2 (ix2 (0 : Fin 3) n))
          (x3 (ix3 (0 : Fin 3) n ch)) (x4 (ix3 (0 : Fin 3) n ch)) (x5 (ix2 (0 : Fin 3) n)) := by
  unfold outBlock
  rw [canon_band0, band0_apply]
  show combine (x0 (tap0.toLoadRect.idx _)) (x1 (tap0.toLoadRect.idx _)) (x2 (wt0.toLoadRect.idx _))
    (x3 (tap0.toLoadRect.idx _)) (x4 (tap0.toLoadRect.idx _)) (x5 (wt0.toLoadRect.idx _)) = _
  rw [tap0_idx, wt0_idx]

theorem outBlock_apply1 (ch : Fin 16) (n : Fin 6400) :
    outBlock x0 x1 x2 x3 x4 x5 (oix 1 ch n)
      = combine (x0 (ix3 (1 : Fin 3) n ch)) (x1 (ix3 (1 : Fin 3) n ch)) (x2 (ix2 (1 : Fin 3) n))
          (x3 (ix3 (1 : Fin 3) n ch)) (x4 (ix3 (1 : Fin 3) n ch)) (x5 (ix2 (1 : Fin 3) n)) := by
  unfold outBlock
  rw [canon_band1, band1_apply]
  show combine (x0 (tap1.toLoadRect.idx _)) (x1 (tap1.toLoadRect.idx _)) (x2 (wt1.toLoadRect.idx _))
    (x3 (tap1.toLoadRect.idx _)) (x4 (tap1.toLoadRect.idx _)) (x5 (wt1.toLoadRect.idx _)) = _
  rw [tap1_idx, wt1_idx]

theorem outBlock_apply2 (ch : Fin 16) (n : Fin 6400) :
    outBlock x0 x1 x2 x3 x4 x5 (oix 2 ch n)
      = combine (x0 (ix3 (2 : Fin 3) n ch)) (x1 (ix3 (2 : Fin 3) n ch)) (x2 (ix2 (2 : Fin 3) n))
          (x3 (ix3 (2 : Fin 3) n ch)) (x4 (ix3 (2 : Fin 3) n ch)) (x5 (ix2 (2 : Fin 3) n)) := by
  unfold outBlock
  rw [canon_band2, band2_apply]
  show combine (x0 (tap2.toLoadRect.idx _)) (x1 (tap2.toLoadRect.idx _)) (x2 (wt2.toLoadRect.idx _))
    (x3 (tap2.toLoadRect.idx _)) (x4 (tap2.toLoadRect.idx _)) (x5 (wt2.toLoadRect.idx _)) = _
  rw [tap2_idx, wt2_idx]

/-- THE OUTPUT BLOCK AT (16 k + ch, n): the body's arithmetic of the inputs at plane k, point n, channel ch. -/
theorem outBlock_apply (k : Fin 3) (ch : Fin 16) (n : Fin 6400) :
    outBlock x0 x1 x2 x3 x4 x5 (oix k ch n)
      = combine (x0 (ix3 k n ch)) (x1 (ix3 k n ch)) (x2 (ix2 k n)) (x3 (ix3 k n ch)) (x4 (ix3 k n ch)) (x5 (ix2 k n)) := by
  match k with
  | ⟨0, _⟩ => exact outBlock_apply0 x0 x1 x2 x3 x4 x5 ch n
  | ⟨1, _⟩ => exact outBlock_apply1 x0 x1 x2 x3 x4 x5 ch n
  | ⟨2, _⟩ => exact outBlock_apply2 x0 x1 x2 x3 x4 x5 ch n

end Cert.KernelIdeal.Hand

end
-- ==== Proof.KIdealFrame.lean ====
/-
  The launch.  The pipeline walks the 313 grid points; at point t it fetches block t of each of the six stacked
  input arrays (6400 points of every plane), runs the body and writes block t of the output back.  Two million
  points are 312 whole blocks and a half: the last block of every array overhangs it, the fetch there fills only
  the first 3200 points of the staging buffer and the write-back writes only the first 3200 points of the output
  block.  The proof data names what every staging buffer holds after the body at point t: an input's buffer its
  block (filled out with zeros past the array's end), the output's buffer the body's block of those.  Because every
  output element depends on one point only (the output block read at an index), what is written back never depends
  on what fills the overhang.  The library's frame theorem then gives the run: every weakly fair execution
  terminates without a fault, the output array ends at the blocks written back and every other buffer as the
  launch found it -- in particular the three arguments.
-/
import proofs.«171750_j84275848282428_2_alg».proof.Proof.KIdealHost
import proofs.«171750_j84275848282428_2_alg».proof.Proof.KIdealBlock

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks -/

/-- Window `w`'s block at point `t`, read off its array as the launch finds it: the part inside the array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input 0's block at point `t` as a whole staging buffer: zeros past the array's end. -/
def blk0 (c : Dev nD) (t : Fin cfg0.N) : Vec F S3x6400x16 .f32 :=
  win0_0.fill (grid0.coords t) (fun _ => Scalar.ofBits .f32 0#32) (iblk m c 0 t)
/-- Input 1's block at point `t` as a whole staging buffer: zeros past the array's end. -/
def blk1 (c : Dev nD) (t : Fin cfg0.N) : Vec F S3x6400x16 .f32 :=
  win0_1.fill (grid0.coords t) (fun _ => Scalar.ofBits .f32 0#32) (iblk m c 1 t)
/-- Input 2's block at point `t` as a whole staging buffer: zeros past the array's end. -/
def blk2 (c : Dev nD) (t : Fin cfg0.N) : Vec F S3x6400 .f32 :=
  win0_2.fill (grid0.coords t) (fun _ => Scalar.ofBits .f32 0#32) (iblk m c 2 t)
/-- Input 3's block at point `t` as a whole staging buffer: zeros past the array's end. -/
def blk3 (c : Dev nD) (t : Fin cfg0.N) : Vec F S3x6400x16 .f32 :=
  win0_3.fill (grid0.coords t) (fun _ => Scalar.ofBits .f32 0#32) (iblk m c 3 t)
/-- Input 4's block at point `t` as a whole staging buffer: zeros past the array's end. -/
def blk4 (c : Dev nD) (t : Fin cfg0.N) : Vec F S3x6400x16 .f32 :=
  win0_4.fill (grid0.coords t) (fun _ => Scalar.ofBits .f32 0#32) (iblk m c 4 t)
/-- Input 5's block at point `t` as a whole staging buffer: zeros past the array's end. -/
def blk5 (c : Dev nD) (t : Fin cfg0.N) : Vec F S3x6400 .f32 :=
  win0_5.fill (grid0.coords t) (fun _ => Scalar.ofBits .f32 0#32) (iblk m c 5 t)

/-- The proof data: the arrays as the launch finds them; after the body at point `t` each input's buffer at its
    block and the output's at the body's block of them; the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => blk0 m c t
    | ⟨1, _⟩ => blk1 m c t
    | ⟨2, _⟩ => blk2 m c t
    | ⟨3, _⟩ => blk3 m c t
    | ⟨4, _⟩ => blk4 m c t
    | ⟨5, _⟩ => blk5 m c t
    | ⟨6, _⟩ => outBlock (blk0 m c t) (blk1 m c t) (blk2 m c t) (blk3 m c t) (blk4 m c t) (blk5 m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = blk0 m c t := by dsimp only [dats]
theorem after1 (c : Dev nD) (t : Fin cfg0.N) : (dats m 0 c).after 1 t = blk1 m c t := by dsimp only [dats]
theorem after2 (c : Dev nD) (t : Fin cfg0.N) : (dats m 0 c).after 2 t = blk2 m c t := by dsimp only [dats]
theorem after3 (c : Dev nD) (t : Fin cfg0.N) : (dats m 0 c).after 3 t = blk3 m c t := by dsimp only [dats]
theorem after4 (c : Dev nD) (t : Fin cfg0.N) : (dats m 0 c).after 4 t = blk4 m c t := by dsimp only [dats]
theorem after5 (c : Dev nD) (t : Fin cfg0.N) : (dats m 0 c).after 5 t = blk5 m c t := by dsimp only [dats]
theorem after6 (c : Dev nD) (t : Fin cfg0.N) : (dats m 0 c).after 6 t
    = outBlock (blk0 m c t) (blk1 m c t) (blk2 m c t) (blk3 m c t) (blk4 m c t) (blk5 m c t) := by dsimp only [dats]

/-- Every input is fetched at every point: its buffer holds the block where the fetch filled it, `d` elsewhere. -/
theorem before0 (c : Dev nD) (t : Fin cfg0.N) (d) :
    (dats m 0 c).before 0 t d = win0_0.fill (grid0.coords t) d (iblk m c 0 t) := by
  unfold Dat.before; rw [if_pos (fetch0_0 t)]; rfl
theorem before1 (c : Dev nD) (t : Fin cfg0.N) (d) :
    (dats m 0 c).before 1 t d = win0_1.fill (grid0.coords t) d (iblk m c 1 t) := by
  unfold Dat.before; rw [if_pos (fetch0_1 t)]; rfl
theorem before2 (c : Dev nD) (t : Fin cfg0.N) (d) :
    (dats m 0 c).before 2 t d = win0_2.fill (grid0.coords t) d (iblk m c 2 t) := by
  unfold Dat.before; rw [if_pos (fetch0_2 t)]; rfl
theorem before3 (c : Dev nD) (t : Fin cfg0.N) (d) :
    (dats m 0 c).before 3 t d = win0_3.fill (grid0.coords t) d (iblk m c 3 t) := by
  unfold Dat.before; rw [if_pos (fetch0_3 t)]; rfl
theorem before4 (c : Dev nD) (t : Fin cfg0.N) (d) :
    (dats m 0 c).before 4 t d = win0_4.fill (grid0.coords t) d (iblk m c 4 t) := by
  unfold Dat.before; rw [if_pos (fetch0_4 t)]; rfl
theorem before5 (c : Dev nD) (t : Fin cfg0.N) (d) :
    (dats m 0 c).before 5 t d = win0_5.fill (grid0.coords t) d (iblk m c 5 t) := by
  unfold Dat.before; rw [if_pos (fetch0_5 t)]; rfl
/-- The output is written back at every point: its buffer is fresh at every point. -/
theorem before6 (c : Dev nD) (t : Fin cfg0.N) (d) : (dats m 0 c).before 6 t d = d :=
  (dats m 0 c).before_out_reset 6 rfl t (by
    by_cases h0 : t.val = 0
    · exact .inl h0
    · exact .inr ⟨h0, flush0_6 _⟩) d

/-! ## What is written back does not depend on the overhang -/

/-- Contents that agree on the part a window's transfers move agree at every index of that part. -/
theorem eq_of_cut_eq {G : Pipeline.Grid} (w : Pipeline.Window sig G) {α : Type} (i : G.Coords) {X Y : w.block.Idx → α}
    (h : w.cut i X = w.cut i Y) (J : w.block.Idx) (hJ : w.moved i J = true) : X J = Y J :=
  congrFun h (fun a => ⟨(J a).val, (w.moved_iff i J).mp hJ a⟩)

/-- The windows are cut alike: on the point axis every window keeps as many points as the output's, and no
    other axis is cut. -/
theorem cuts (t : Fin cfg0.N) :
    win0_6.xsize (grid0.coords t) 0 = 48
    ∧ (win0_0.xsize (grid0.coords t) 0 = 3 ∧ win0_0.xsize (grid0.coords t) 1 = win0_6.xsize (grid0.coords t) 1 ∧ win0_0.xsize (grid0.coords t) 2 = 16)
    ∧ (win0_1.xsize (grid0.coords t) 0 = 3 ∧ win0_1.xsize (grid0.coords t) 1 = win0_6.xsize (grid0.coords t) 1 ∧ win0_1.xsize (grid0.coords t) 2 = 16)
    ∧ (win0_2.xsize (grid0.coords t) 0 = 3 ∧ win0_2.xsize (grid0.coords t) 1 = win0_6.xsize (grid0.coords t) 1)
    ∧ (win0_3.xsize (grid0.coords t) 0 = 3 ∧ win0_3.xsize (grid0.coords t) 1 = win0_6.xsize (grid0.coords t) 1 ∧ win0_3.xsize (grid0.coords t) 2 = 16)
    ∧ (win0_4.xsize (grid0.coords t) 0 = 3 ∧ win0_4.xsize (grid0.coords t) 1 = win0_6.xsize (grid0.coords t) 1 ∧ win0_4.xsize (grid0.coords t) 2 = 16)
    ∧ (win0_5.xsize (grid0.coords t) 0 = 3 ∧ win0_5.xsize (grid0.coords t) 1 = win0_6.xsize (grid0.coords t) 1) :=
  (by decide +kernel : ∀ t : Fin grid0.N,
    win0_6.xsize (grid0.coords t) 0 = 48
    ∧ (win0_0.xsize (grid0.coords t) 0 = 3 ∧ win0_0.xsize (grid0.coords t) 1 = win0_6.xsize (grid0.coords t) 1 ∧ win0_0.xsize (grid0.coords t) 2 = 16)
    ∧ (win0_1.xsize (grid0.coords t) 0 = 3 ∧ win0_1.xsize (grid0.coords t) 1 = win0_6.xsize (grid0.coords t) 1 ∧ win0_1.xsize (grid0.coords t) 2 = 16)
    ∧ (win0_2.xsize (grid0.coords t) 0 = 3 ∧ win0_2.xsize (grid0.coords t) 1 = win0_6.xsize (grid0.coords t) 1)
    ∧ (win0_3.xsize (grid0.coords t) 0 = 3 ∧ win0_3.xsize (grid0.coords t) 1 = win0_6.xsize (grid0.coords t) 1 ∧ win0_3.xsize (grid0.coords t) 2 = 16)
    ∧ (win0_4.xsize (grid0.coords t) 0 = 3 ∧ win0_4.xsize (grid0.coords t) 1 = win0_6.xsize (grid0.coords t) 1 ∧ win0_4.xsize (grid0.coords t) 2 = 16)
    ∧ (win0_5.xsize (grid0.coords t) 0 = 3 ∧ win0_5.xsize (grid0.coords t) 1 = win0_6.xsize (grid0.coords t) 1)) t

/-- A point inside the output's block is inside every tap block, at every plane and channel, -/
theorem moved3 (t : Fin cfg0.N) (k : Fin 3) (ch : Fin 16) (n : Fin 6400) (hn : n.val < win0_6.xsize (grid0.coords t) 1) :
    win0_0.moved (grid0.coords t) (ix3 k n ch) = true ∧ win0_1.moved (grid0.coords t) (ix3 k n ch) = true
    ∧ win0_3.moved (grid0.coords t) (ix3 k n ch) = true ∧ win0_4.moved (grid0.coords t) (ix3 k n ch) = true := by
  obtain ⟨-, ⟨a0, a1, a2⟩, ⟨b0, b1, b2⟩, -, ⟨c0, c1, c2⟩, ⟨d0, d1, d2⟩, -⟩ := cuts t
  have hk := k.isLt; have hc := ch.isLt
  exact ⟨(win0_0.moved_iff _ _).mpr fun a => match a with
      | ⟨0, _⟩ => lt_of_lt_of_eq hk a0.symm | ⟨1, _⟩ => lt_of_lt_of_eq hn a1.symm | ⟨2, _⟩ => lt_of_lt_of_eq hc a2.symm,
    (win0_1.moved_iff _ _).mpr fun a => match a with
      | ⟨0, _⟩ => lt_of_lt_of_eq hk b0.symm | ⟨1, _⟩ => lt_of_lt_of_eq hn b1.symm | ⟨2, _⟩ => lt_of_lt_of_eq hc b2.symm,
    (win0_3.moved_iff _ _).mpr fun a => match a with
      | ⟨0, _⟩ => lt_of_lt_of_eq hk c0.symm | ⟨1, _⟩ => lt_of_lt_of_eq hn c1.symm | ⟨2, _⟩ => lt_of_lt_of_eq hc c2.symm,
    (win0_4.moved_iff _ _).mpr fun a => match a with
      | ⟨0, _⟩ => lt_of_lt_of_eq hk d0.symm | ⟨1, _⟩ => lt_of_lt_of_eq hn d1.symm | ⟨2, _⟩ => lt_of_lt_of_eq hc d2.symm⟩
/-- and inside both weight blocks, at every plane. -/
theorem moved2 (t : Fin cfg0.N) (k : Fin 3) (n : Fin 6400) (hn : n.val < win0_6.xsize (grid0.coords t) 1) :
    win0_2.moved (grid0.coords t) (ix2 k n) = true ∧ win0_5.moved (grid0.coords t) (ix2 k n) = true := by
  obtain ⟨-, -, -, ⟨a0, a1⟩, -, -, ⟨b0, b1⟩⟩ := cuts t
  have hk := k.isLt
  exact ⟨(win0_2.moved_iff _ _).mpr fun a => match a with
      | ⟨0, _⟩ => lt_of_lt_of_eq hk a0.symm | ⟨1, _⟩ => lt_of_lt_of_eq hn a1.symm,
    (win0_5.moved_iff _ _).mpr fun a => match a with
      | ⟨0, _⟩ => lt_of_lt_of_eq hk b0.symm | ⟨1, _⟩ => lt_of_lt_of_eq hn b1.symm⟩

/-- Input blocks that agree inside their arrays give output blocks that agree inside the output array. -/
theorem cut_outBlock_congr (t : Fin cfg0.N)
    (X0 Y0 X1 Y1 : Vec F S3x6400x16 .f32) (X2 Y2 : Vec F S3x6400 .f32) (X3 Y3 X4 Y4 : Vec F S3x6400x16 .f32) (X5 Y5 : Vec F S3x6400 .f32)
    (h0 : win0_0.cut (grid0.coords t) X0 = win0_0.cut (grid0.coords t) Y0) (h1 : win0_1.cut (grid0.coords t) X1 = win0_1.cut (grid0.coords t) Y1)
    (h2 : win0_2.cut (grid0.coords t) X2 = win0_2.cut (grid0.coords t) Y2) (h3 : win0_3.cut (grid0.coords t) X3 = win0_3.cut (grid0.coords t) Y3)
    (h4 : win0_4.cut (grid0.coords t) X4 = win0_4.cut (grid0.coords t) Y4) (h5 : win0_5.cut (grid0.coords t) X5 = win0_5.cut (grid0.coords t) Y5) :
    win0_6.cut (grid0.coords t) (outBlock X0 X1 X2 X3 X4 X5) = win0_6.cut (grid0.coords t) (outBlock Y0 Y1 Y2 Y3 Y4 Y5) := by
  funext j
  show outBlock X0 X1 X2 X3 X4 X5 (win0_6.xinj (grid0.coords t) j) = outBlock Y0 Y1 Y2 Y3 Y4 Y5 (win0_6.xinj (grid0.coords t) j)
  have hm := win0_6.moved_xinj (grid0.coords t) j
  obtain ⟨k, ch, n, e⟩ := exists_oix (win0_6.xinj (grid0.coords t) j)
  rw [e] at hm ⊢
  have hn : n.val < win0_6.xsize (grid0.coords t) 1 := (win0_6.moved_iff _ _).mp hm (1 : Fin 2)
  obtain ⟨m0, m1, m3, m4⟩ := moved3 t k ch n hn
  obtain ⟨m2, m5⟩ := moved2 t k n hn
  rw [outBlock_apply, outBlock_apply, eq_of_cut_eq win0_0 _ h0 _ m0, eq_of_cut_eq win0_1 _ h1 _ m1, eq_of_cut_eq win0_2 _ h2 _ m2,
    eq_of_cut_eq win0_3 _ h3 _ m3, eq_of_cut_eq win0_4 _ h4 _ m4, eq_of_cut_eq win0_5 _ h5 _ m5]

/-! ## The body obligation -/

set_option maxHeartbeats 2000000 in
/-- At every point the body, handed the inputs' buffers just fetched and the output's at anything, hands every
    buffer back at what the proof data names on the part its transfers move. -/
theorem body_obligation (c : Dev nD) : BodyObligationLoose (dats m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  rw [before0 m c t d0, before1 m c t d1, before2 m c t d2, before3 m c t d3, before4 m c t d4, before5 m c t d5, before6 m c t d6]
  iapply (sound_kernel (F := F) c Set.univ (grid0.coords t) _ _ _ _ _ _ _ _ _ _ _ _ _ _
    (win0_0.fill (grid0.coords t) d0 (iblk m c 0 t)) (win0_1.fill (grid0.coords t) d1 (iblk m c 1 t))
    (win0_2.fill (grid0.coords t) d2 (iblk m c 2 t)) (win0_3.fill (grid0.coords t) d3 (iblk m c 3 t))
    (win0_4.fill (grid0.coords t) d4 (iblk m c 4 t)) (win0_5.fill (grid0.coords t) d5 (iblk m c 5 t)) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  have c0 : win0_0.cut (grid0.coords t) (blk0 m c t) = iblk m c 0 t := win0_0.cut_fill _ _ _
  have c1 : win0_1.cut (grid0.coords t) (blk1 m c t) = iblk m c 1 t := win0_1.cut_fill _ _ _
  have c2 : win0_2.cut (grid0.coords t) (blk2 m c t) = iblk m c 2 t := win0_2.cut_fill _ _ _
  have c3 : win0_3.cut (grid0.coords t) (blk3 m c t) = iblk m c 3 t := win0_3.cut_fill _ _ _
  have c4 : win0_4.cut (grid0.coords t) (blk4 m c t) = iblk m c 4 t := win0_4.cut_fill _ _ _
  have c5 : win0_5.cut (grid0.coords t) (blk5 m c t) = iblk m c 5 t := win0_5.cut_fill _ _ _
  have c6 := cut_outBlock_congr (F := F) t
    (win0_0.fill (grid0.coords t) d0 (iblk m c 0 t)) (blk0 m c t) (win0_1.fill (grid0.coords t) d1 (iblk m c 1 t)) (blk1 m c t)
    (win0_2.fill (grid0.coords t) d2 (iblk m c 2 t)) (blk2 m c t) (win0_3.fill (grid0.coords t) d3 (iblk m c 3 t)) (blk3 m c t)
    (win0_4.fill (grid0.coords t) d4 (iblk m c 4 t)) (blk4 m c t) (win0_5.fill (grid0.coords t) d5 (iblk m c 5 t)) (blk5 m c t)
    ((win0_0.cut_fill _ _ _).trans c0.symm) ((win0_1.cut_fill _ _ _).trans c1.symm) ((win0_2.cut_fill _ _ _).trans c2.symm)
    ((win0_3.cut_fill _ _ _).trans c3.symm) ((win0_4.cut_fill _ _ _).trans c4.symm) ((win0_5.cut_fill _ _ _).trans c5.symm)
  isplitl [H0]
  · iexists d0
    change _ ⊢ owns (c : Thread nD τ) (st0_0 t) fullShare (win0_0.fill (grid0.coords t) d0 (win0_0.cut (grid0.coords t) (blk0 m c t)))
    rw [c0]; try iexact H0
  isplitl [H1]
  · iexists d1
    change _ ⊢ owns (c : Thread nD τ) (st0_1 t) fullShare (win0_1.fill (grid0.coords t) d1 (win0_1.cut (grid0.coords t) (blk1 m c t)))
    rw [c1]; try iexact H1
  isplitl [H2]
  · iexists d2
    change _ ⊢ owns (c : Thread nD τ) (st0_2 t) fullShare (win0_2.fill (grid0.coords t) d2 (win0_2.cut (grid0.coords t) (blk2 m c t)))
    rw [c2]; try iexact H2
  isplitl [H3]
  · iexists d3
    change _ ⊢ owns (c : Thread nD τ) (st0_3 t) fullShare (win0_3.fill (grid0.coords t) d3 (win0_3.cut (grid0.coords t) (blk3 m c t)))
    rw [c3]; try iexact H3
  isplitl [H4]
  · iexists d4
    change _ ⊢ owns (c : Thread nD τ) (st0_4 t) fullShare (win0_4.fill (grid0.coords t) d4 (win0_4.cut (grid0.coords t) (blk4 m c t)))
    rw [c4]; try iexact H4
  isplitl [H5]
  · iexists d5
    change _ ⊢ owns (c : Thread nD τ) (st0_5 t) fullShare (win0_5.fill (grid0.coords t) d5 (win0_5.cut (grid0.coords t) (blk5 m c t)))
    rw [c5]; try iexact H5
  · iexists (outBlock (win0_0.fill (grid0.coords t) d0 (iblk m c 0 t)) (win0_1.fill (grid0.coords t) d1 (iblk m c 1 t))
      (win0_2.fill (grid0.coords t) d2 (iblk m c 2 t)) (win0_3.fill (grid0.coords t) d3 (iblk m c 3 t))
      (win0_4.fill (grid0.coords t) d4 (iblk m c 4 t)) (win0_5.fill (grid0.coords t) d5 (iblk m c 5 t)))
    rw [show (dats m 0 c).after (6 : Fin 7) t
      = outBlock (blk0 m c t) (blk1 m c t) (blk2 m c t) (blk3 m c t) (blk4 m c t) (blk5 m c t) from after6 m c t]
    change _ ⊢ owns (c : Thread nD τ) (st0_6 t) fullShare (win0_6.fill (grid0.coords t)
      (outBlock (win0_0.fill (grid0.coords t) d0 (iblk m c 0 t)) (win0_1.fill (grid0.coords t) d1 (iblk m c 1 t))
        (win0_2.fill (grid0.coords t) d2 (iblk m c 2 t)) (win0_3.fill (grid0.coords t) d3 (iblk m c 3 t))
        (win0_4.fill (grid0.coords t) d4 (iblk m c 4 t)) (win0_5.fill (grid0.coords t) d5 (iblk m c 5 t)))
      (win0_6.cut (grid0.coords t) (outBlock (blk0 m c t) (blk1 m c t) (blk2 m c t) (blk3 m c t) (blk4 m c t) (blk5 m c t))))
    rw [win0_6.fill_congr_cut (grid0.coords t) c6]; try iexact H6

/-! ## The run and the frame -/

set_option backward.isDefEq.respectTransparency.types false in
/-- Every weakly fair execution of @main terminates without a fault; every array of the pipeline ends at what the
    library computes from the proof data and every other unscoped buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- THE FRAME, at any float instance: the program runs to the end, faults nowhere, and its three argument arrays
    end as they began (no window stages them and no operation before the launch writes them). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (V_main_arg0 m c),
     ((h c).2 main_arg1 (Pipeline.mem_restRefs_of main_arg1 (by decide) (by decide))).trans (V_main_arg1 m c),
     ((h c).2 main_arg2 (Pipeline.mem_restRefs_of main_arg2 (by decide) (by decide))).trans (V_main_arg2 m c)⟩) (run_main m ρ)

end Cert.KernelIdeal.Hand

end
-- ==== Proof.KIdealFinal.lean ====
/-
  The output array after the launch.  Point t writes back block t of the output: rows 0..47, points 6400 t .. of
  the array (the last block only its first 3200 points).  Element (16 k + ch, n) of that block is the body's
  arithmetic of the six staged blocks at plane k, point n, channel ch, and those are the six operand arrays at point
  6400 t + n.  So every block written back is a block of ONE array: at row 16 k + ch and point N the body's arithmetic
  of the operand arrays at plane k, point N, channel ch.  The 313 blocks cover the array, so that is what it ends as.
-/
import proofs.«171750_j84275848282428_2_alg».proof.Proof.KIdealFrame

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- The plane and the channel of a row of the output array. -/
abbrev rowPlane (j : S48x2000000.Idx) : Fin 3 := ⟨(j 0).val / 16, by have : (j 0).val < 48 := (j 0).isLt; omega⟩
abbrev rowChan (j : S48x2000000.Idx) : Fin 16 := ⟨(j 0).val % 16, by omega⟩
abbrev colPoint (j : S48x2000000.Idx) : Fin 2000000 := ⟨(j 1).val, (j 1).isLt⟩

/-- THE OUTPUT ARRAY from the six operand arrays: at row 16 k + ch, point N, the body's arithmetic at (k, N, ch). -/
def outArr (A0 A1 : Vec F S3x2000000x16 .f32) (A2 : Vec F S3x2000000 .f32) (A3 A4 : Vec F S3x2000000x16 .f32) (A5 : Vec F S3x2000000 .f32) :
    Vec F S48x2000000 .f32 := fun j =>
  combine (A0 (ix3 (rowPlane j) (colPoint j) (rowChan j))) (A1 (ix3 (rowPlane j) (colPoint j) (rowChan j))) (A2 (ix2 (rowPlane j) (colPoint j)))
    (A3 (ix3 (rowPlane j) (colPoint j) (rowChan j))) (A4 (ix3 (rowPlane j) (colPoint j) (rowChan j))) (A5 (ix2 (rowPlane j) (colPoint j)))

/-- The index maps over the grid: every window's block index is (0, t[, 0]); the output's block is cut to 3200 points
    at the last grid point only. -/
theorem idx_facts (t : Fin cfg0.N) : (win0_0.index t (0 : Fin 3) = 0 ∧ win0_0.index t (1 : Fin 3) = t.val ∧ win0_0.index t (2 : Fin 3) = 0) ∧ (win0_1.index t (0 : Fin 3) = 0 ∧ win0_1.index t (1 : Fin 3) = t.val ∧ win0_1.index t (2 : Fin 3) = 0) ∧ (win0_2.index t (0 : Fin 2) = 0 ∧ win0_2.index t (1 : Fin 2) = t.val) ∧ (win0_3.index t (0 : Fin 3) = 0 ∧ win0_3.index t (1 : Fin 3) = t.val ∧ win0_3.index t (2 : Fin 3) = 0) ∧ (win0_4.index t (0 : Fin 3) = 0 ∧ win0_4.index t (1 : Fin 3) = t.val ∧ win0_4.index t (2 : Fin 3) = 0) ∧ (win0_5.index t (0 : Fin 2) = 0 ∧ win0_5.index t (1 : Fin 2) = t.val) ∧ (win0_6.index t (0 : Fin 2) = 0 ∧ win0_6.index t (1 : Fin 2) = t.val)
    ∧ win0_6.xsize (grid0.coords t) (0 : Fin 2) = 48 ∧ win0_6.xsize (grid0.coords t) (1 : Fin 2) = (if t.val = 312 then 3200 else 6400) :=
  (by decide +kernel : ∀ t : Fin grid0.N, (win0_0.index t (0 : Fin 3) = 0 ∧ win0_0.index t (1 : Fin 3) = t.val ∧ win0_0.index t (2 : Fin 3) = 0) ∧ (win0_1.index t (0 : Fin 3) = 0 ∧ win0_1.index t (1 : Fin 3) = t.val ∧ win0_1.index t (2 : Fin 3) = 0) ∧ (win0_2.index t (0 : Fin 2) = 0 ∧ win0_2.index t (1 : Fin 2) = t.val) ∧ (win0_3.index t (0 : Fin 3) = 0 ∧ win0_3.index t (1 : Fin 3) = t.val ∧ win0_3.index t (2 : Fin 3) = 0) ∧ (win0_4.index t (0 : Fin 3) = 0 ∧ win0_4.index t (1 : Fin 3) = t.val ∧ win0_4.index t (2 : Fin 3) = 0) ∧ (win0_5.index t (0 : Fin 2) = 0 ∧ win0_5.index t (1 : Fin 2) = t.val) ∧ (win0_6.index t (0 : Fin 2) = 0 ∧ win0_6.index t (1 : Fin 2) = t.val)
    ∧ win0_6.xsize (grid0.coords t) (0 : Fin 2) = 48 ∧ win0_6.xsize (grid0.coords t) (1 : Fin 2) = (if t.val = 312 then 3200 else 6400)) t

/-- Operand 0's staged block at plane k, point n of the block, channel ch, where the point lies inside the array: the
    operand array at plane k, point 6400 t + n, channel ch. -/
theorem blk0_at (c : Dev nD) (t : Fin cfg0.N) (k : Fin 3) (n : Fin 6400) (ch : Fin 16)
    (hJ : win0_0.moved (grid0.coords t) (ix3 k n ch) = true) (I : S3x2000000x16.Idx)
    (h0 : (I 0).val = k.val) (h1 : (I 1).val = t.val * 6400 + n.val) (h2 : (I 2).val = ch.val) :
    blk0 m c t (ix3 k n ch) = V m c main_v425 I := by
  unfold blk0 Window.fill
  rw [dif_pos hJ]
  show V m c main_v425 (((cfg0.win 0).blk t).view.emb _) = V m c main_v425 I
  refine congrArg _ (funext fun a => Fin.ext ?_)
  obtain ⟨e0, e1, e2⟩ := (idx_facts t).1
  match a with
  | ⟨0, _⟩ => show win0_0.index t (0 : Fin 3) * 3 + 1 * k.val = (I 0).val; rw [e0, h0]; omega
  | ⟨1, _⟩ => show win0_0.index t (1 : Fin 3) * 6400 + 1 * n.val = (I 1).val; rw [e1, h1]; omega
  | ⟨2, _⟩ => show win0_0.index t (2 : Fin 3) * 16 + 1 * ch.val = (I 2).val; rw [e2, h2]; omega
/-- Operand 1's staged block at plane k, point n of the block, channel ch, where the point lies inside the array: the
    operand array at plane k, point 6400 t + n, channel ch. -/
theorem blk1_at (c : Dev nD) (t : Fin cfg0.N) (k : Fin 3) (n : Fin 6400) (ch : Fin 16)
    (hJ : win0_1.moved (grid0.coords t) (ix3 k n ch) = true) (I : S3x2000000x16.Idx)
    (h0 : (I 0).val = k.val) (h1 : (I 1).val = t.val * 6400 + n.val) (h2 : (I 2).val = ch.val) :
    blk1 m c t (ix3 k n ch) = V m c main_v429 I := by
  unfold blk1 Window.fill
  rw [dif_pos hJ]
  show V m c main_v429 (((cfg0.win 1).blk t).view.emb _) = V m c main_v429 I
  refine congrArg _ (funext fun a => Fin.ext ?_)
  obtain ⟨e0, e1, e2⟩ := (idx_facts t).2.1
  match a with
  | ⟨0, _⟩ => show win0_1.index t (0 : Fin 3) * 3 + 1 * k.val = (I 0).val; rw [e0, h0]; omega
  | ⟨1, _⟩ => show win0_1.index t (1 : Fin 3) * 6400 + 1 * n.val = (I 1).val; rw [e1, h1]; omega
  | ⟨2, _⟩ => show win0_1.index t (2 : Fin 3) * 16 + 1 * ch.val = (I 2).val; rw [e2, h2]; omega
/-- Weight operand 2's staged block at plane k, point n of the block: the operand array at plane k, point 6400 t + n. -/
theorem blk2_at (c : Dev nD) (t : Fin cfg0.N) (k : Fin 3) (n : Fin 6400)
    (hJ : win0_2.moved (grid0.coords t) (ix2 k n) = true) (I : S3x2000000.Idx)
    (h0 : (I 0).val = k.val) (h1 : (I 1).val = t.val * 6400 + n.val) :
    blk2 m c t (ix2 k n) = V m c main_v433 I := by
  unfold blk2 Window.fill
  rw [dif_pos hJ]
  show V m c main_v433 (((cfg0.win 2).blk t).view.emb _) = V m c main_v433 I
  refine congrArg _ (funext fun a => Fin.ext ?_)
  obtain ⟨e0, e1⟩ := (idx_facts t).2.2.1
  match a with
  | ⟨0, _⟩ => show win0_2.index t (0 : Fin 2) * 3 + 1 * k.val = (I 0).val; rw [e0, h0]; omega
  | ⟨1, _⟩ => show win0_2.index t (1 : Fin 2) * 6400 + 1 * n.val = (I 1).val; rw [e1, h1]; omega
/-- Operand 3's staged block at plane k, point n of the block, channel ch, where the point lies inside the array: the
    operand array at plane k, point 6400 t + n, channel ch. -/
theorem blk3_at (c : Dev nD) (t : Fin cfg0.N) (k : Fin 3) (n : Fin 6400) (ch : Fin 16)
    (hJ : win0_3.moved (grid0.coords t) (ix3 k n ch) = true) (I : S3x2000000x16.Idx)
    (h0 : (I 0).val = k.val) (h1 : (I 1).val = t.val * 6400 + n.val) (h2 : (I 2).val = ch.val) :
    blk3 m c t (ix3 k n ch) = V m c main_v437 I := by
  unfold blk3 Window.fill
  rw [dif_pos hJ]
  show V m c main_v437 (((cfg0.win 3).blk t).view.emb _) = V m c main_v437 I
  refine congrArg _ (funext fun a => Fin.ext ?_)
  obtain ⟨e0, e1, e2⟩ := (idx_facts t).2.2.2.1
  match a with
  | ⟨0, _⟩ => show win0_3.index t (0 : Fin 3) * 3 + 1 * k.val = (I 0).val; rw [e0, h0]; omega
  | ⟨1, _⟩ => show win0_3.index t (1 : Fin 3) * 6400 + 1 * n.val = (I 1).val; rw [e1, h1]; omega
  | ⟨2, _⟩ => show win0_3.index t (2 : Fin 3) * 16 + 1 * ch.val = (I 2).val; rw [e2, h2]; omega
/-- Operand 4's staged block at plane k, point n of the block, channel ch, where the point lies inside the array: the
    operand array at plane k, point 6400 t + n, channel ch. -/
theorem blk4_at (c : Dev nD) (t : Fin cfg0.N) (k : Fin 3) (n : Fin 6400) (ch : Fin 16)
    (hJ : win0_4.moved (grid0.coords t) (ix3 k n ch) = true) (I : S3x2000000x16.Idx)
    (h0 : (I 0).val = k.val) (h1 : (I 1).val = t.val * 6400 + n.val) (h2 : (I 2).val = ch.val) :
    blk4 m c t (ix3 k n ch) = V m c main_v441 I := by
  unfold blk4 Window.fill
  rw [dif_pos hJ]
  show V m c main_v441 (((cfg0.win 4).blk t).view.emb _) = V m c main_v441 I
  refine congrArg _ (funext fun a => Fin.ext ?_)
  obtain ⟨e0, e1, e2⟩ := (idx_facts t).2.2.2.2.1
  match a with
  | ⟨0, _⟩ => show win0_4.index t (0 : Fin 3) * 3 + 1 * k.val = (I 0).val; rw [e0, h0]; omega
  | ⟨1, _⟩ => show win0_4.index t (1 : Fin 3) * 6400 + 1 * n.val = (I 1).val; rw [e1, h1]; omega
  | ⟨2, _⟩ => show win0_4.index t (2 : Fin 3) * 16 + 1 * ch.val = (I 2).val; rw [e2, h2]; omega
/-- Weight operand 5's staged block at plane k, point n of the block: the operand array at plane k, point 6400 t + n. -/
theorem blk5_at (c : Dev nD) (t : Fin cfg0.N) (k : Fin 3) (n : Fin 6400)
    (hJ : win0_5.moved (grid0.coords t) (ix2 k n) = true) (I : S3x2000000.Idx)
    (h0 : (I 0).val = k.val) (h1 : (I 1).val = t.val * 6400 + n.val) :
    blk5 m c t (ix2 k n) = V m c main_v445 I := by
  unfold blk5 Window.fill
  rw [dif_pos hJ]
  show V m c main_v445 (((cfg0.win 5).blk t).view.emb _) = V m c main_v445 I
  refine congrArg _ (funext fun a => Fin.ext ?_)
  obtain ⟨e0, e1⟩ := (idx_facts t).2.2.2.2.2.1
  match a with
  | ⟨0, _⟩ => show win0_5.index t (0 : Fin 2) * 3 + 1 * k.val = (I 0).val; rw [e0, h0]; omega
  | ⟨1, _⟩ => show win0_5.index t (1 : Fin 2) * 6400 + 1 * n.val = (I 1).val; rw [e1, h1]; omega

/-- WHAT POINT t WRITES BACK is block t of the one output array. -/
theorem flushed6_eq (c : Dev nD) (t : Fin cfg0.N) :
    (dats m 0 c).flushed 6 t = ((cfg0.win 6).blk t).view.read (Elt F)
      (outArr (V m c main_v425) (V m c main_v429) (V m c main_v433) (V m c main_v437) (V m c main_v441) (V m c main_v445)) := by
  show (cfg0.win 6).cut (grid0.coords t) ((dats m 0 c).after 6 t) = _
  rw [after6]
  funext y
  show outBlock (blk0 m c t) (blk1 m c t) (blk2 m c t) (blk3 m c t) (blk4 m c t) (blk5 m c t) (win0_6.xinj (grid0.coords t) y)
    = outArr (V m c main_v425) (V m c main_v429) (V m c main_v433) (V m c main_v437) (V m c main_v441) (V m c main_v445)
        (((cfg0.win 6).blk t).view.emb y)
  have hm := win0_6.moved_xinj (grid0.coords t) y
  obtain ⟨k, ch, n, e⟩ := exists_oix (win0_6.xinj (grid0.coords t) y)
  rw [e] at hm ⊢
  have hn : n.val < win0_6.xsize (grid0.coords t) 1 := (win0_6.moved_iff _ _).mp hm (1 : Fin 2)
  obtain ⟨m0, m1, m3, m4⟩ := moved3 t k ch n hn
  obtain ⟨m2, m5⟩ := moved2 t k n hn
  -- the array index of the block's element: row 16 k + ch, point 6400 t + n
  have hk := k.isLt; have hc := ch.isLt
  have ey0 : (y 0).val = 16 * k.val + ch.val := congrArg (fun J : S48x6400.Idx => (J 0).val) e
  have ey1 : (y 1).val = n.val := congrArg (fun J : S48x6400.Idx => (J 1).val) e
  obtain ⟨-, -, -, -, -, -, ⟨f0, f1⟩, -, -⟩ := idx_facts t
  have r0 : ((((cfg0.win 6).blk t).view.emb y) 0).val = 16 * k.val + ch.val := by
    show win0_6.index t (0 : Fin 2) * 48 + 1 * (y 0).val = _; rw [f0, ey0]; omega
  have r1 : ((((cfg0.win 6).blk t).view.emb y) 1).val = t.val * 6400 + n.val := by
    show win0_6.index t (1 : Fin 2) * 6400 + 1 * (y 1).val = _; rw [f1, ey1]; omega
  have hpl : (rowPlane (((cfg0.win 6).blk t).view.emb y)).val = k.val := by show _ / 16 = _; rw [r0]; omega
  have hch : (rowChan (((cfg0.win 6).blk t).view.emb y)).val = ch.val := by show _ % 16 = _; rw [r0]; omega
  rw [outBlock_apply,
    blk0_at m c t k n ch m0 (ix3 (rowPlane (((cfg0.win 6).blk t).view.emb y)) (colPoint (((cfg0.win 6).blk t).view.emb y)) (rowChan (((cfg0.win 6).blk t).view.emb y))) hpl r1 hch,
    blk1_at m c t k n ch m1 (ix3 (rowPlane (((cfg0.win 6).blk t).view.emb y)) (colPoint (((cfg0.win 6).blk t).view.emb y)) (rowChan (((cfg0.win 6).blk t).view.emb y))) hpl r1 hch,
    blk2_at m c t k n m2 (ix2 (rowPlane (((cfg0.win 6).blk t).view.emb y)) (colPoint (((cfg0.win 6).blk t).view.emb y))) hpl r1,
    blk3_at m c t k n ch m3 (ix3 (rowPlane (((cfg0.win 6).blk t).view.emb y)) (colPoint (((cfg0.win 6).blk t).view.emb y)) (rowChan (((cfg0.win 6).blk t).view.emb y))) hpl r1 hch,
    blk4_at m c t k n ch m4 (ix3 (rowPlane (((cfg0.win 6).blk t).view.emb y)) (colPoint (((cfg0.win 6).blk t).view.emb y)) (rowChan (((cfg0.win 6).blk t).view.emb y))) hpl r1 hch,
    blk5_at m c t k n m5 (ix2 (rowPlane (((cfg0.win 6).blk t).view.emb y)) (colPoint (((cfg0.win 6).blk t).view.emb y))) hpl r1]
  rfl

/-- An index of the output array is in point t's block iff its row and point are in the block's ranges. -/
theorem mem_blk6 (t : Fin cfg0.N) (i : S48x2000000.Idx) :
    i ∈ ((cfg0.win 6).blk t).view.set ↔ ∀ a : Fin 2, win0_6.index t a * S48x6400.size a ≤ (i a).val
      ∧ (i a).val < win0_6.index t a * S48x6400.size a + win0_6.xsize (grid0.coords t) a := by
  show i ∈ ((View.whole main_v446).slice (win0_6.rect t)).set ↔ _
  rw [View.set_slice_whole, Rect.mem_set_unit]
  exact Iff.rfl

/-- The blocks cover the array: point N lies in block N / 6400. -/
theorem cover6 (i : S48x2000000.Idx) : ∃ t : Fin cfg0.N, (cfg0.win 6).flush t = true ∧ i ∈ ((cfg0.win 6).blk t).view.set := by
  have hi0 : (i 0).val < 48 := (i 0).isLt
  have hi1 : (i 1).val < 2000000 := (i 1).isLt
  refine ⟨⟨(i 1).val / 6400, by show _ < grid0.N; rw [N_0]; omega⟩, flush0_6 _, ?_⟩
  rw [mem_blk6]
  obtain ⟨-, -, -, -, -, -, ⟨f0, f1⟩, x0, x1⟩ := idx_facts ⟨(i 1).val / 6400, by show _ < grid0.N; rw [N_0]; omega⟩
  intro a
  match a with
  | ⟨0, _⟩ =>
    show win0_6.index _ (0 : Fin 2) * 48 ≤ (i 0).val ∧ (i 0).val < win0_6.index _ (0 : Fin 2) * 48 + win0_6.xsize _ (0 : Fin 2)
    rw [f0, x0]; omega
  | ⟨1, _⟩ =>
    show win0_6.index _ (1 : Fin 2) * 6400 ≤ (i 1).val ∧ (i 1).val < win0_6.index _ (1 : Fin 2) * 6400 + win0_6.xsize _ (1 : Fin 2)
    rw [f1, x1]
    show (i 1).val / 6400 * 6400 ≤ (i 1).val ∧ (i 1).val < (i 1).val / 6400 * 6400 + (if (i 1).val / 6400 = 312 then 3200 else 6400)
    split <;> omega

/-- THE OUTPUT ARRAY after the launch. -/
theorem final6 (c : Dev nD) : (dats m 0 c).arrAt 6 cfg0.N
    = outArr (V m c main_v425) (V m c main_v429) (V m c main_v433) (V m c main_v437) (V m c main_v441) (V m c main_v445) :=
  (dats m 0 c).arrAt_eq_of_cover 6 _ (fun t _ => flushed6_eq m c t) cover6

/-- THE RUN, READ: every weakly fair execution terminates without a fault, the result array at the one output array
    and the three arguments as they were. -/
theorem run_value : θ_run defs (onTc (τ := τ) (main (F := F))) ⟨m, fun _ => 0, ρ⟩ fun r => ∀ c : Dev nD,
      r.2.mem ((c.tc : Thread nD τ).loc main_v446)
        = outArr (V m c main_v425) (V m c main_v429) (V m c main_v433) (V m c main_v437) (V m c main_v441) (V m c main_v445)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).1 6).trans (final6 m c),
     ((h c).2 main_arg0 (Pipeline.mem_restRefs_of main_arg0 (by decide) (by decide))).trans (V_main_arg0 m c),
     ((h c).2 main_arg1 (Pipeline.mem_restRefs_of main_arg1 (by decide) (by decide))).trans (V_main_arg1 m c),
     ((h c).2 main_arg2 (Pipeline.mem_restRefs_of main_arg2 (by decide) (by decide))).trans (V_main_arg2 m c)⟩) (run_main m ρ)

end Cert.KernelIdeal.Hand

end
-- ==== Proof.GridSample.lean ====
/-
  Shared vocabulary for trilinear-style table sampling ("grid sample" with corner alignment) as both programs spell it
  on whole arrays.  For a column g of normalized coordinates in [-1, 1], over two million points:

    pix g   = (g + 1) * 1/2 * 299                    the pixel coordinate,
    cell g  = int (min 299 (max 0 (floor (pix g))))   the lower cell,
    next g  = min (cell g + 1) 299                    the upper cell,
    frac g  = pix g - float (cell g)                  the interpolation weight,
    wrap i  = if i < 0 then i + 300 else i            the index as the table look-up normalizes it.

  Both programs compute exactly these arrays from the same column of the same input, operation for operation, so
  nothing about them is ever needed beyond their names.
-/
import Idealize.ShloMosaic.PureOps.Ideal
import Idealize.ShloMosaic.Lib.ValueIdx
import Idealize.ShloMosaic.Lib.ValueLayout
import Idealize.ShloMosaic.Lib.Pipeline.Value

noncomputable section

namespace GS

open Idealize.ShloMosaic Idealize.ShloMosaic.ValueIdx

variable {F : FTy → Type} [FloatOps F]

abbrev S0 : Shape := ⟨0, ![]⟩
abbrev SN : Shape := ⟨1, ![2000000]⟩
abbrev SN1 : Shape := ⟨2, ![2000000, 1]⟩
abbrev SN3 : Shape := ⟨2, ![2000000, 3]⟩

theorem bc0N : S0.BroadcastsInDim SN (![] : Fin 0 → Fin SN.rank) := by decide
theorem castN1N : SN1.ShapeCasts SN := by decide
theorem slice0 : SN3.Slices ![0, 0] SN1 := by decide
theorem slice1 : SN3.Slices ![0, 1] SN1 := by decide
theorem slice2 : SN3.Slices ![0, 2] SN1 := by decide

/-- Column 0, 1, 2 of the points array as a flat array. -/
def col0 (xyz : FVec F SN3 .f32) : FVec F SN .f32 := shapeCast SN (extractStridedSlice SN1 ![0, 0] xyz slice0) castN1N
def col1 (xyz : FVec F SN3 .f32) : FVec F SN .f32 := shapeCast SN (extractStridedSlice SN1 ![0, 1] xyz slice1) castN1N
def col2 (xyz : FVec F SN3 .f32) : FVec F SN .f32 := shapeCast SN (extractStridedSlice SN1 ![0, 2] xyz slice2) castN1N

/-- The pixel coordinate of a normalized coordinate: (g + 1) * 1/2 * 299. -/
def pix (g : FVec F SN .f32) : FVec F SN .f32 :=
  mulf (mulf (addf g (broadcastInDim SN ![] bc0N (constant S0 .f32 0x3F800000#32)))
    (broadcastInDim SN ![] bc0N (constant S0 .f32 0x3F000000#32))) (broadcastInDim SN ![] bc0N (constant S0 .f32 0x43958000#32))

/-- The lower cell: the floor of the pixel coordinate kept within [0, 299], as an integer. -/
def cell (g : FVec F SN .f32) : IVec SN 32 :=
  fptosi 32 (minimumf (broadcastInDim SN ![] bc0N (sitofp .f32 (constantI S0 32 299#32)))
    (maximumf (broadcastInDim SN ![] bc0N (sitofp .f32 (constantI S0 32 0#32))) (Host.floor (pix g))))

/-- The upper cell: one more, at most 299. -/
def next (g : FVec F SN .f32) : IVec SN 32 :=
  minsi (addi (cell g) (broadcastInDim SN ![] bc0N (constantI S0 32 1#32))) (broadcastInDim SN ![] bc0N (constantI S0 32 299#32))

/-- The interpolation weight: the pixel coordinate less the lower cell. -/
def frac (g : FVec F SN .f32) : FVec F SN .f32 := subf (pix g) (sitofp .f32 (cell g))

/-- An index as a table look-up normalizes it: a negative one counts from the end. -/
def wrap (i : IVec SN 32) : IVec SN 32 :=
  select (cmpi .slt i (broadcastInDim SN ![] bc0N (constantI S0 32 0#32))) (addi i (broadcastInDim SN ![] bc0N (constantI S0 32 300#32))) i

/-! ## Shapes -/

abbrev SN2 : Shape := ⟨2, ![2000000, 2]⟩
abbrev SN16 : Shape := ⟨2, ![2000000, 16]⟩
abbrev S1N16 : Shape := ⟨3, ![1, 2000000, 16]⟩
abbrev S3N16 : Shape := ⟨3, ![3, 2000000, 16]⟩
abbrev S1N : Shape := ⟨2, ![1, 2000000]⟩
abbrev S3N : Shape := ⟨2, ![3, 2000000]⟩
abbrev S16N : Shape := ⟨2, ![16, 2000000]⟩
abbrev S48N : Shape := ⟨2, ![48, 2000000]⟩
/-- The plane tables [3, 16, 300, 300] and the line tables [3, 16, 300], as given; -/
abbrev SP3 : Shape := ⟨4, ![3, 16, 300, 300]⟩
abbrev SL3 : Shape := ⟨3, ![3, 16, 300]⟩
/-- one plane or line table, channel-first (as given) -/
abbrev SP1 : Shape := ⟨4, ![1, 16, 300, 300]⟩
abbrev SP : Shape := ⟨3, ![16, 300, 300]⟩
abbrev SL1 : Shape := ⟨3, ![1, 16, 300]⟩
abbrev SL : Shape := ⟨2, ![16, 300]⟩
/-- and channel-last (transposed once, so that a point's sixteen channels are contiguous). -/
abbrev SQ3 : Shape := ⟨4, ![3, 300, 300, 16]⟩
abbrev SQ1 : Shape := ⟨4, ![1, 300, 300, 16]⟩
abbrev SQ : Shape := ⟨3, ![300, 300, 16]⟩
abbrev SM3 : Shape := ⟨3, ![3, 300, 16]⟩
abbrev SM1 : Shape := ⟨3, ![1, 300, 16]⟩
abbrev SM : Shape := ⟨2, ![300, 16]⟩

theorem bcNN1 : SN.BroadcastsInDim SN1 (![0] : Fin 1 → Fin SN1.rank) := by decide
theorem bc0N1 : S0.BroadcastsInDim SN1 (![] : Fin 0 → Fin SN1.rank) := by decide
theorem bcN1N16 : SN1.BroadcastsInDim SN16 (![0, 1] : Fin 2 → Fin SN16.rank) := by decide
theorem catN2 : Shape.Concatenates [SN1, SN1] SN2 1 := by decide
theorem bcN16_1N16 : SN16.BroadcastsInDim S1N16 (![1, 2] : Fin 2 → Fin S1N16.rank) := by decide
theorem cat3N16 : Shape.Concatenates [S1N16, S1N16, S1N16] S3N16 0 := by decide
theorem bcN_1N : SN.BroadcastsInDim S1N (![1] : Fin 1 → Fin S1N.rank) := by decide
theorem cat3N : Shape.Concatenates [S1N, S1N, S1N] S3N 0 := by decide
theorem bc1N_16N : S1N.BroadcastsInDim S16N (![0, 1] : Fin 2 → Fin S16N.rank) := by decide
theorem cat48N : Shape.Concatenates [S16N, S16N, S16N] S48N 0 := by decide
theorem trP : SP3.Transposes [0, 2, 3, 1] SQ3 := by decide
theorem trL : SL3.Transposes [0, 2, 1] SM3 := by decide
theorem castQ : SQ1.ShapeCasts SQ := by decide
theorem castM : SM1.ShapeCasts SM := by decide
theorem castP : SP1.ShapeCasts SP := by decide
theorem castL : SL1.ShapeCasts SL := by decide

/-! ## The index pair and the weights as the look-ups and products take them -/

/-- A flat array as one column. -/
def colN1 {α : Type} (v : SN.Idx → α) : SN1.Idx → α := broadcastInDim SN1 ![0] bcNN1 v

/-- The (row, column) index pairs of a plane look-up, point by point. -/
def pairIdx (Y X : IVec SN 32) : IVec SN2 32 := concatenate SN2 1 [⟨SN1, colN1 Y⟩, ⟨SN1, colN1 X⟩] catN2

/-! ## The kernel's side: channel-last tables, point-major taps -/

/-- Plane table `o`, channel-last: [300, 300, 16]. -/
def tableQ (o : Nat) (hs : SQ3.Slices ![o, 0, 0, 0] SQ1) (PL : FVec F SP3 .f32) : FVec F SQ .f32 :=
  shapeCast SQ (extractStridedSlice SQ1 ![o, 0, 0, 0] (transpose SQ3 [0, 2, 3, 1] PL trP) hs) castQ
/-- Line table `o`, channel-last: [300, 16]. -/
def tableM (o : Nat) (hs : SM3.Slices ![o, 0, 0] SM1) (LN : FVec F SL3 .f32) : FVec F SM .f32 :=
  shapeCast SM (extractStridedSlice SM1 ![o, 0, 0] (transpose SM3 [0, 2, 1] LN trL) hs) castM

/-- The look-up of whole channel rows of a channel-last plane table at index pairs. -/
abbrev dimsQ (wf : GatherDims.WF SQ SN2 SN16 [1] [0, 1] [] [0, 1] [] 1 ![1, 1, 16]) : GatherDims SQ SN2 SN16 where
  offsetDims := [1]
  collapsedSliceDims := [0, 1]
  operandBatchingDims := []
  startIndicesBatchingDims := []
  startIndexMap := [0, 1]
  indexVectorDim := 1
  sliceSizes := ![1, 1, 16]
  wf := wf
/-- The look-up of whole channel rows of a channel-last line table at indices. -/
abbrev dimsM (wf : GatherDims.WF SM SN1 SN16 [1] [0] [] [0] [] 1 ![1, 16]) : GatherDims SM SN1 SN16 where
  offsetDims := [1]
  collapsedSliceDims := [0]
  operandBatchingDims := []
  startIndicesBatchingDims := []
  startIndexMap := [0]
  indexVectorDim := 1
  sliceSizes := ![1, 16]
  wf := wf
theorem wfQ : GatherDims.WF SQ SN2 SN16 [1] [0, 1] [] [0, 1] [] 1 ![1, 1, 16] := by decide
theorem wfM : GatherDims.WF SM SN1 SN16 [1] [0] [] [0] [] 1 ![1, 16] := by decide

/-- The x-interpolation of two point-major taps with the weight of each point. -/
def lerpQ (a b : FVec F SN16 .f32) (w : FVec F SN .f32) : FVec F SN16 .f32 :=
  addf (mulf a (broadcastInDim SN16 ![0, 1] bcN1N16 (subf (broadcastInDim SN1 ![] bc0N1 (constant S0 .f32 0x3F800000#32)) (colN1 w))))
    (mulf b (broadcastInDim SN16 ![0, 1] bcN1N16 (colN1 w)))

/-- Three point-major arrays stacked plane by plane; three weight arrays likewise. -/
def stack16 {α : Type} (a b c : SN16.Idx → α) : S3N16.Idx → α :=
  concatenate S3N16 0 [⟨S1N16, broadcastInDim S1N16 ![1, 2] bcN16_1N16 a⟩, ⟨S1N16, broadcastInDim S1N16 ![1, 2] bcN16_1N16 b⟩,
    ⟨S1N16, broadcastInDim S1N16 ![1, 2] bcN16_1N16 c⟩] cat3N16
def stack1 {α : Type} (a b c : SN.Idx → α) : S3N.Idx → α :=
  concatenate S3N 0 [⟨S1N, broadcastInDim S1N ![1] bcN_1N a⟩, ⟨S1N, broadcastInDim S1N ![1] bcN_1N b⟩,
    ⟨S1N, broadcastInDim S1N ![1] bcN_1N c⟩] cat3N

/-! ## The reference's side: channel-first tables, channel-major taps -/

/-- Plane table `o` as given: [16, 300, 300]; line table `o`: [16, 300]. -/
def tableP (o : Nat) (hs : SP3.Slices ![o, 0, 0, 0] SP1) (PL : FVec F SP3 .f32) : FVec F SP .f32 :=
  shapeCast SP (extractStridedSlice SP1 ![o, 0, 0, 0] PL hs) castP
def tableL (o : Nat) (hs : SL3.Slices ![o, 0, 0] SL1) (LN : FVec F SL3 .f32) : FVec F SL .f32 :=
  shapeCast SL (extractStridedSlice SL1 ![o, 0, 0] LN hs) castL

abbrev dimsP (wf : GatherDims.WF SP SN2 S16N [0] [1, 2] [] [1, 2] [] 1 ![16, 1, 1]) : GatherDims SP SN2 S16N where
  offsetDims := [0]
  collapsedSliceDims := [1, 2]
  operandBatchingDims := []
  startIndicesBatchingDims := []
  startIndexMap := [1, 2]
  indexVectorDim := 1
  sliceSizes := ![16, 1, 1]
  wf := wf
abbrev dimsL (wf : GatherDims.WF SL SN1 S16N [0] [1] [] [1] [] 1 ![16, 1]) : GatherDims SL SN1 S16N where
  offsetDims := [0]
  collapsedSliceDims := [1]
  operandBatchingDims := []
  startIndicesBatchingDims := []
  startIndexMap := [1]
  indexVectorDim := 1
  sliceSizes := ![16, 1]
  wf := wf
theorem wfP : GatherDims.WF SP SN2 S16N [0] [1, 2] [] [1, 2] [] 1 ![16, 1, 1] := by decide
theorem wfL : GatherDims.WF SL SN1 S16N [0] [1] [] [1] [] 1 ![16, 1] := by decide

/-- A per-point array repeated over the sixteen channels, channel-major. -/
def rows16 {α : Type} (w : SN.Idx → α) : S16N.Idx → α :=
  broadcastInDim S16N ![0, 1] bc1N_16N (broadcastInDim S1N ![1] bcN_1N w)
/-- One minus a weight array. -/
def oneMinus (w : FVec F SN .f32) : FVec F SN .f32 := subf (broadcastInDim SN ![] bc0N (constant S0 .f32 0x3F800000#32)) w
/-- Three channel-major arrays stacked plane by plane. -/
def stack48 {α : Type} (a b c : S16N.Idx → α) : S48N.Idx → α :=
  concatenate S48N 0 [⟨S16N, a⟩, ⟨S16N, b⟩, ⟨S16N, c⟩] cat48N

end GS

end
-- ==== Proof.SamplePlanes.lean ====
/-
  The arrays both programs compute, plane by plane, over the shared vocabulary: the kernel's host prefix builds the
  x-interpolated taps point-major from channel-last tables; the reference builds the whole bilinear sample
  channel-major from the tables as given.
-/
import proofs.«171750_j84275848282428_2_alg».proof.Proof.GridSample

noncomputable section

namespace GS

open Idealize.ShloMosaic Idealize.ShloMosaic.ValueIdx

variable {F : FTy → Type} [FloatOps F]

/-! ## The sampled arrays, plane by plane

Plane 0 is sampled at (x, y) = (columns 1, 2) of the points and its line at column 0; plane 1 at columns (0, 2), line
column 1; plane 2 at columns (0, 1), line column 2. -/

def xcol (k : Fin 3) (xyz : FVec F SN3 .f32) : FVec F SN .f32 := match k with | 0 => col1 xyz | 1 => col0 xyz | 2 => col0 xyz
def ycol (k : Fin 3) (xyz : FVec F SN3 .f32) : FVec F SN .f32 := match k with | 0 => col2 xyz | 1 => col2 xyz | 2 => col1 xyz
def lcol (k : Fin 3) (xyz : FVec F SN3 .f32) : FVec F SN .f32 := match k with | 0 => col0 xyz | 1 => col1 xyz | 2 => col2 xyz

theorem sliceQ (k : Fin 3) : SQ3.Slices ![k.val, 0, 0, 0] SQ1 := by revert k; decide
theorem sliceM (k : Fin 3) : SM3.Slices ![k.val, 0, 0] SM1 := by revert k; decide
theorem sliceP (k : Fin 3) : SP3.Slices ![k.val, 0, 0, 0] SP1 := by revert k; decide
theorem sliceL (k : Fin 3) : SL3.Slices ![k.val, 0, 0] SL1 := by revert k; decide

/-- The kernel's side.  Plane `k`'s tap at row `cell`/`next` of y, x-interpolated: point-major [N, 16]. -/
def rowTapQ (k : Fin 3) (xyz : FVec F SN3 .f32) (PL : FVec F SP3 .f32) (Y : IVec SN 32) : FVec F SN16 .f32 :=
  lerpQ (Host.gather (dimsQ wfQ) (tableQ k.val (sliceQ k) PL) (pairIdx Y (wrap (cell (xcol k xyz)))))
    (Host.gather (dimsQ wfQ) (tableQ k.val (sliceQ k) PL) (pairIdx Y (wrap (next (xcol k xyz))))) (frac (xcol k xyz))
def lowQ (k : Fin 3) (xyz : FVec F SN3 .f32) (PL : FVec F SP3 .f32) : FVec F SN16 .f32 := rowTapQ k xyz PL (wrap (cell (ycol k xyz)))
def highQ (k : Fin 3) (xyz : FVec F SN3 .f32) (PL : FVec F SP3 .f32) : FVec F SN16 .f32 := rowTapQ k xyz PL (wrap (next (ycol k xyz)))
/-- Line `k`'s two taps, point-major. -/
def lineLowQ (k : Fin 3) (xyz : FVec F SN3 .f32) (LN : FVec F SL3 .f32) : FVec F SN16 .f32 :=
  Host.gather (dimsM wfM) (tableM k.val (sliceM k) LN) (colN1 (wrap (cell (lcol k xyz))))
def lineHighQ (k : Fin 3) (xyz : FVec F SN3 .f32) (LN : FVec F SL3 .f32) : FVec F SN16 .f32 :=
  Host.gather (dimsM wfM) (tableM k.val (sliceM k) LN) (colN1 (wrap (next (lcol k xyz))))

/-- The reference's side.  Plane `k` bilinearly sampled, channel-major [16, N], -/
def rowTapP (k : Fin 3) (xyz : FVec F SN3 .f32) (PL : FVec F SP3 .f32) (Y : IVec SN 32) : FVec F S16N .f32 :=
  addf (mulf (Host.gather (dimsP wfP) (tableP k.val (sliceP k) PL) (pairIdx Y (wrap (cell (xcol k xyz))))) (rows16 (oneMinus (frac (xcol k xyz)))))
    (mulf (Host.gather (dimsP wfP) (tableP k.val (sliceP k) PL) (pairIdx Y (wrap (next (xcol k xyz))))) (rows16 (frac (xcol k xyz))))
def planeP (k : Fin 3) (xyz : FVec F SN3 .f32) (PL : FVec F SP3 .f32) : FVec F S16N .f32 :=
  addf (mulf (rowTapP k xyz PL (wrap (cell (ycol k xyz)))) (rows16 (oneMinus (frac (ycol k xyz)))))
    (mulf (rowTapP k xyz PL (wrap (next (ycol k xyz)))) (rows16 (frac (ycol k xyz))))
/-- line `k` linearly sampled, -/
def lineP (k : Fin 3) (xyz : FVec F SN3 .f32) (LN : FVec F SL3 .f32) : FVec F S16N .f32 :=
  addf (mulf (Host.gather (dimsL wfL) (tableL k.val (sliceL k) LN) (colN1 (wrap (cell (lcol k xyz))))) (rows16 (oneMinus (frac (lcol k xyz)))))
    (mulf (Host.gather (dimsL wfL) (tableL k.val (sliceL k) LN) (colN1 (wrap (next (lcol k xyz))))) (rows16 (frac (lcol k xyz))))
/-- and the reference's result: the three products stacked. -/
def refResult (xyz : FVec F SN3 .f32) (PL : FVec F SP3 .f32) (LN : FVec F SL3 .f32) : FVec F S48N .f32 :=
  stack48 (mulf (planeP 0 xyz PL) (lineP 0 xyz LN)) (mulf (planeP 1 xyz PL) (lineP 1 xyz LN)) (mulf (planeP 2 xyz PL) (lineP 2 xyz LN))

end GS

end
-- ==== Proof.LibNary3.lean ====
/-
  A host operation that reads THREE operands through one family of references (a concatenation of three arrays):
  its result buffer holds the operation's function of the three operands' contents, each read at its own buffer.
  With it, the value a buffer holds after a straight line of host operations can be computed through such an
  operation by one rewriting pass, as it is through the operations of one, two or four operands.
-/
import Idealize.ShloMosaic.Lib.StableHlo.Run

namespace Idealize.ShloMosaic.StableHlo

open Idealize.ShloMosaic Idealize.SL.Sem

variable {nD : Nat} {τ : Topo} {sig : RefSig} {Val : EltTy → Type}
variable {x a b y : Ref sig .tc}

/-- The result of a three-operand host operation at its result buffer: its function of the operands' contents,
    the family written out operand by operand. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, stated for the rewriting pass (the result buffer matched whatever its spelling; the function kept as one
    applied term, `id f`, so that the pass goes on into the operands before the function's body is opened). -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = id f (Fin.cons (F (Proc.devRef .tc x)) (Fin.cons (F (Proc.devRef .tc a)) (Fin.cons (F (Proc.devRef .tc b)) (fun i => i.elim0)))) :=
  nary3_result f hxs hy F

/-- The result of a two-operand host operation at its result buffer, the operation's function kept as ONE applied term
    (`id f`) so that a rewriting pass goes on into the operands' contents before the function's body is opened: a body that
    puts its operands inside a list of pieces (a concatenation of two arrays) hides them from the pass once opened. -/
theorem binary_result_id {a b y : Ref sig .tc} (f : a.ty.Contents Val → b.ty.Contents Val → y.ty.Contents Val) (ha hb hy)
    (F : Valuation τ sig Val) :
    (binary (τ := τ) a b y f ha hb hy).result F (no_index (Proc.devRef .tc y)) = id f (F (Proc.devRef .tc a)) (F (Proc.devRef .tc b)) :=
  binary_result a b y f ha hb hy F

/-- What one buffer holds after a straight line of host operations, by one rewriting pass: every operation's result
    at its own buffer is its function of its operands' contents, at any other buffer what was there. -/
macro "after_results_three" : tactic =>
  `(tactic| (simp (disch := decide) only [after_cons, after_nil,
      nullary_result', unary_result', binary_result_id, ternary_result', quaternary_result', reshape_result', nary3_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo
-- ==== Proof.KIdealValueA.lean ====
/-
  What the launch finds in its stacked operand arrays, as functions of the three argument arrays (part A: the lower plane taps).  The
  operations before the launch compute, for each plane, the row-interpolated taps of the plane table (channel-last,
  point-major), the taps of the line table and the two remaining weights, and stack the three planes.  Each operand
  array is that composition, read off the operations one after the other: first as the operations spell it (the
  coordinate arithmetic under its shared names), then under the names of the taps.
-/
import proofs.«171750_j84275848282428_2_alg».proof.Proof.KIdealHost
import proofs.«171750_j84275848282428_2_alg».proof.Proof.SamplePlanes
import proofs.«171750_j84275848282428_2_alg».proof.Proof.LibNary3

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

variable (m : (ℓ : Loc nD τ sig) → Buf (Elt F) ℓ)

set_option maxHeartbeats 400000000 in
/-- The launch finds the taps at the lower row, x-interpolated, the three planes stacked. -/
theorem operand0_eq (c : Dev nD) : V m c main_v425 = GS.stack16 (GS.lowQ 0 (m ((c : Thread nD τ).loc main_arg0)) (m ((c : Thread nD τ).loc main_arg1))) (GS.lowQ 1 (m ((c : Thread nD τ).loc main_arg0)) (m ((c : Thread nD τ).loc main_arg1))) (GS.lowQ 2 (m ((c : Thread nD τ).loc main_arg0)) (m ((c : Thread nD τ).loc main_arg1))) := by
  have h1 : V m c main_v425 = (concatenate S3x2000000x16 0 [⟨S1x2000000x16, (broadcastInDim S1x2000000x16 ![1, 2] bcast_S2000000x16_S1x2000000x16_1_2 (addf (mulf (Host.gather gather_S300x300x16_S2000000x2_S2000000x16_1_01_n_n_01_1_1116 (shapeCast _ (extractStridedSlice S1x300x300x16 ![0, 0, 0, 0] (transpose S3x300x300x16 [0, 2, 3, 1] (m ((c : Thread nD τ).loc main_arg1)) transposes_S3x16x300x300_S3x300x300x16_0_2_3_1) slices_S3x300x300x16_S1x300x300x16_0_0_0_0) shapeCasts_S1x300x300x16_S300x300x16) (concatenate S2000000x2 1 [⟨S2000000x1, (broadcastInDim S2000000x1 ![0] bcast_S2000000_S2000000x1_0 (GS.wrap (GS.cell (GS.col2 (m ((c : Thread nD τ).loc main_arg0))))))⟩, ⟨S2000000x1, (broadcastInDim S2000000x1 ![0] bcast_S2000000_S2000000x1_0 (GS.wrap (GS.cell (GS.col1 (m ((c : Thread nD τ).loc main_arg0))))))⟩] concatenates_S2000000x1_S2000000x1_S2000000x2_d1)) (broadcastInDim S2000000x16 ![0, 1] bcast_S2000000x1_S2000000x16_0_1 (subf (broadcastInDim S2000000x1 ![] bcast_S_S2000000x1 (constant S_ .f32 0x3F800000#32)) (broadcastInDim S2000000x1 ![0] bcast_S2000000_S2000000x1_0 (GS.frac (GS.col1 (m ((c : Thread nD τ).loc main_arg0)))))))) (mulf (Host.gather gather_S300x300x16_S2000000x2_S2000000x16_1_01_n_n_01_1_1116 (shapeCast _ (extractStridedSlice S1x300x300x16 ![0, 0, 0, 0] (transpose S3x300x300x16 [0, 2, 3, 1] (m ((c : Thread nD τ).loc main_arg1)) transposes_S3x16x300x300_S3x300x300x16_0_2_3_1) slices_S3x300x300x16_S1x300x300x16_0_0_0_0) shapeCasts_S1x300x300x16_S300x300x16) (concatenate S2000000x2 1 [⟨S2000000x1, (broadcastInDim S2000000x1 ![0] bcast_S2000000_S2000000x1_0 (GS.wrap (GS.cell (GS.col2 (m ((c : Thread nD τ).loc main_arg0))))))⟩, ⟨S2000000x1, (broadcastInDim S2000000x1 ![0] bcast_S2000000_S2000000x1_0 (GS.wrap (GS.next (GS.col1 (m ((c : Thread nD τ).loc main_arg0))))))⟩] concatenates_S2000000x1_S2000000x1_S2000000x2_d1)) (broadcastInDim S2000000x16 ![0, 1] bcast_S2000000x1_S2000000x16_0_1 (broadcastInDim S2000000x1 ![0] bcast_S2000000_S2000000x1_0 (GS.frac (GS.col1 (m ((c : Thread nD τ).loc main_arg0)))))))))⟩, ⟨S1x2000000x16, (broadcastInDim S1x2000000x16 ![1, 2] bcast_S2000000x16_S1x2000000x16_1_2 (addf (mulf (Host.gather gather_S300x300x16_S2000000x2_S2000000x16_1_01_n_n_01_1_1116 (shapeCast _ (extractStridedSlice S1x300x300x16 ![1, 0, 0, 0] (transpose S3x300x300x16 [0, 2, 3, 1] (m ((c : Thread nD τ).loc main_arg1)) transposes_S3x16x300x300_S3x300x300x16_0_2_3_1) slices_S3x300x300x16_S1x300x300x16_1_0_0_0) shapeCasts_S1x300x300x16_S300x300x16) (concatenate S2000000x2 1 [⟨S2000000x1, (broadcastInDim S2000000x1 ![0] bcast_S2000000_S2000000x1_0 (GS.wrap (GS.cell (GS.col2 (m ((c : Thread nD τ).loc main_arg0))))))⟩, ⟨S2000000x1, (broadcastInDim S2000000x1 ![0] bcast_S2000000_S2000000x1_0 (GS.wrap (GS.cell (GS.col0 (m ((c : Thread nD τ).loc main_arg0))))))⟩] concatenates_S2000000x1_S2000000x1_S2000000x2_d1)) (broadcastInDim S2000000x16 ![0, 1] bcast_S2000000x1_S2000000x16_0_1 (subf (broadcastInDim S2000000x1 ![] bcast_S_S2000000x1 (constant S_ .f32 0x3F800000#32)) (broadcastInDim S2000000x1 ![0] bcast_S2000000_S2000000x1_0 (GS.frac (GS.col0 (m ((c : Thread nD τ).loc main_arg0)))))))) (mulf (Host.gather gather_S300x300x16_S2000000x2_S2000000x16_1_01_n_n_01_1_1116 (shapeCast _ (extractStridedSlice S1x300x300x16 ![1, 0, 0, 0] (transpose S3x300x300x16 [0, 2, 3, 1] (m ((c : Thread nD τ).loc main_arg1)) transposes_S3x16x300x300_S3x300x300x16_0_2_3_1) slices_S3x300x300x16_S1x300x300x16_1_0_0_0) shapeCasts_S1x300x300x16_S300x300x16) (concatenate S2000000x2 1 [⟨S2000000x1, (broadcastInDim S2000000x1 ![0] bcast_S2000000_S2000000x1_0 (GS.wrap (GS.cell (GS.col2 (m ((c : Thread nD τ).loc main_arg0))))))⟩, ⟨S2000000x1, (broadcastInDim S2000000x1 ![0] bcast_S2000000_S2000000x1_0 (GS.wrap (GS.next (GS.col0 (m ((c : Thread nD τ).loc main_arg0))))))⟩] concatenates_S2000000x1_S2000000x1_S2000000x2_d1)) (broadcastInDim S2000000x16 ![0, 1] bcast_S2000000x1_S2000000x16_0_1 (broadcastInDim S2000000x1 ![0] bcast_S2000000_S2000000x1_0 (GS.frac (GS.col0 (m ((c : Thread nD τ).loc main_arg0)))))))))⟩, ⟨S1x2000000x16, (broadcastInDim S1x2000000x16 ![1, 2] bcast_S2000000x16_S1x2000000x16_1_2 (addf (mulf (Host.gather gather_S300x300x16_S2000000x2_S2000000x16_1_01_n_n_01_1_1116 (shapeCast _ (extractStridedSlice S1x300x300x16 ![2, 0, 0, 0] (transpose S3x300x300x16 [0, 2, 3, 1] (m ((c : Thread nD τ).loc main_arg1)) transposes_S3x16x300x300_S3x300x300x16_0_2_3_1) slices_S3x300x300x16_S1x300x300x16_2_0_0_0) shapeCasts_S1x300x300x16_S300x300x16) (concatenate S2000000x2 1 [⟨S2000000x1, (broadcastInDim S2000000x1 ![0] bcast_S2000000_S2000000x1_0 (GS.wrap (GS.cell (GS.col1 (m ((c : Thread nD τ).loc main_arg0))))))⟩, ⟨S2000000x1, (broadcastInDim S2000000x1 ![0] bcast_S2000000_S2000000x1_0 (GS.wrap (GS.cell (GS.col0 (m ((c : Thread nD τ).loc main_arg0))))))⟩] concatenates_S2000000x1_S2000000x1_S2000000x2_d1)) (broadcastInDim S2000000x16 ![0, 1] bcast_S2000000x1_S2000000x16_0_1 (subf (broadcastInDim S2000000x1 ![] bcast_S_S2000000x1 (constant S_ .f32 0x3F800000#32)) (broadcastInDim S2000000x1 ![0] bcast_S2000000_S2000000x1_0 (GS.frac (GS.col0 (m ((c : Thread nD τ).loc main_arg0)))))))) (mulf (Host.gather gather_S300x300x16_S2000000x2_S2000000x16_1_01_n_n_01_1_1116 (shapeCast _ (extractStridedSlice S1x300x300x16 ![2, 0, 0, 0] (transpose S3x300x300x16 [0, 2, 3, 1] (m ((c : Thread nD τ).loc main_arg1)) transposes_S3x16x300x300_S3x300x300x16_0_2_3_1) slices_S3x300x300x16_S1x300x300x16_2_0_0_0) shapeCasts_S1x300x300x16_S300x300x16) (concatenate S2000000x2 1 [⟨S2000000x1, (broadcastInDim S2000000x1 ![0] bcast_S2000000_S2000000x1_0 (GS.wrap (GS.cell (GS.col1 (m ((c : Thread nD τ).loc main_arg0))))))⟩, ⟨S2000000x1, (broadcastInDim S2000000x1 ![0] bcast_S2000000_S2000000x1_0 (GS.wrap (GS.next (GS.col0 (m ((c : Thread nD τ).loc main_arg0))))))⟩] concatenates_S2000000x1_S2000000x1_S2000000x2_d1)) (broadcastInDim S2000000x16 ![0, 1] bcast_S2000000x1_S2000000x16_0_1 (broadcastInDim S2000000x1 ![0] bcast_S2000000_S2000000x1_0 (GS.frac (GS.col0 (m ((c : Thread nD τ).loc main_arg0)))))))))⟩] concatenates_S1x2000000x16_S1x2000000x16_S1x2000000x16_S3x2000000x16_d0) := by
    show StableHlo.after (List.flatten (prefixOps (F := F))) (fun b => m (c, b)) (Proc.devRef .tc main_v425) = _
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
    after_results_three
    rfl
  exact h1.trans rfl

end Cert.KernelIdeal.Hand

end
-- ==== Proof.KIdealValueB.lean ====
/-
  What the launch finds in its stacked operand arrays, as functions of the three argument arrays (part B: the line taps).  The
  operations before the launch compute, for each plane, the row-interpolated taps of the plane table (channel-last,
  point-major), the taps of the line table and the two remaining weights, and stack the three planes.  Each operand
  array is that composition, read off the operations one after the other.
-/
import proofs.«171750_j84275848282428_2_alg».proof.Proof.KIdealHost
import proofs.«171750_j84275848282428_2_alg».proof.Proof.SamplePlanes
import proofs.«171750_j84275848282428_2_alg».proof.Proof.LibNary3

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

variable (m : (ℓ : Loc nD τ sig) → Buf (Elt F) ℓ)

set_option maxHeartbeats 400000000 in
/-- The launch finds the lower line taps, the three planes stacked. -/
theorem operand3_eq (c : Dev nD) : V m c main_v437 = GS.stack16 (GS.lineLowQ 0 (m ((c : Thread nD τ).loc main_arg0)) (m ((c : Thread nD τ).loc main_arg2))) (GS.lineLowQ 1 (m ((c : Thread nD τ).loc main_arg0)) (m ((c : Thread nD τ).loc main_arg2))) (GS.lineLowQ 2 (m ((c : Thread nD τ).loc main_arg0)) (m ((c : Thread nD τ).loc main_arg2))) := by
  show StableHlo.after (List.flatten (prefixOps (F := F))) (fun b => m (c, b)) (Proc.devRef .tc main_v437) = _
  simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results_three
  rfl

set_option maxHeartbeats 400000000 in
/-- The launch finds the upper line taps, the three planes stacked. -/
theorem operand4_eq (c : Dev nD) : V m c main_v441 = GS.stack16 (GS.lineHighQ 0 (m ((c : Thread nD τ).loc main_arg0)) (m ((c : Thread nD τ).loc main_arg2))) (GS.lineHighQ 1 (m ((c : Thread nD τ).loc main_arg0)) (m ((c : Thread nD τ).loc main_arg2))) (GS.lineHighQ 2 (m ((c : Thread nD τ).loc main_arg0)) (m ((c : Thread nD τ).loc main_arg2))) := by
  show StableHlo.after (List.flatten (prefixOps (F := F))) (fun b => m (c, b)) (Proc.devRef .tc main_v441) = _
  simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results_three
  rfl

end Cert.KernelIdeal.Hand

end
-- ==== Proof.KIdealValueC.lean ====
/-
  What the launch finds in its stacked operand arrays, as functions of the three argument arrays (part C: the weights).  The
  operations before the launch compute, for each plane, the row-interpolated taps of the plane table (channel-last,
  point-major), the taps of the line table and the two remaining weights, and stack the three planes.  Each operand
  array is that composition, read off the operations one after the other.
-/
import proofs.«171750_j84275848282428_2_alg».proof.Proof.KIdealHost
import proofs.«171750_j84275848282428_2_alg».proof.Proof.SamplePlanes
import proofs.«171750_j84275848282428_2_alg».proof.Proof.LibNary3

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

variable (m : (ℓ : Loc nD τ sig) → Buf (Elt F) ℓ)

set_option maxHeartbeats 400000000 in
/-- The launch finds the y weights, the three planes stacked. -/
theorem operand2_eq (c : Dev nD) : V m c main_v433 = GS.stack1 (GS.frac (GS.ycol 0 (m ((c : Thread nD τ).loc main_arg0)))) (GS.frac (GS.ycol 1 (m ((c : Thread nD τ).loc main_arg0)))) (GS.frac (GS.ycol 2 (m ((c : Thread nD τ).loc main_arg0)))) := by
  show StableHlo.after (List.flatten (prefixOps (F := F))) (fun b => m (c, b)) (Proc.devRef .tc main_v433) = _
  simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results_three
  rfl

set_option maxHeartbeats 400000000 in
/-- The launch finds the line weights, the three planes stacked. -/
theorem operand5_eq (c : Dev nD) : V m c main_v445 = GS.stack1 (GS.frac (GS.lcol 0 (m ((c : Thread nD τ).loc main_arg0)))) (GS.frac (GS.lcol 1 (m ((c : Thread nD τ).loc main_arg0)))) (GS.frac (GS.lcol 2 (m ((c : Thread nD τ).loc main_arg0)))) := by
  show StableHlo.after (List.flatten (prefixOps (F := F))) (fun b => m (c, b)) (Proc.devRef .tc main_v445) = _
  simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results_three
  rfl

end Cert.KernelIdeal.Hand

end
-- ==== Proof.KIdealValueD.lean ====
/-
  What the launch finds in its stacked operand arrays, as functions of the three argument arrays (part D: the upper plane taps).  The
  operations before the launch compute, for each plane, the row-interpolated taps of the plane table (channel-last,
  point-major), the taps of the line table and the two remaining weights, and stack the three planes.  Each operand
  array is that composition, read off the operations one after the other: first as the operations spell it (the
  coordinate arithmetic under its shared names), then under the names of the taps.
-/
import proofs.«171750_j84275848282428_2_alg».proof.Proof.KIdealHost
import proofs.«171750_j84275848282428_2_alg».proof.Proof.SamplePlanes
import proofs.«171750_j84275848282428_2_alg».proof.Proof.LibNary3

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

variable (m : (ℓ : Loc nD τ sig) → Buf (Elt F) ℓ)

set_option maxHeartbeats 400000000 in
/-- The launch finds the taps at the upper row, x-interpolated, the three planes stacked. -/
theorem operand1_eq (c : Dev nD) : V m c main_v429 = GS.stack16 (GS.highQ 0 (m ((c : Thread nD τ).loc main_arg0)) (m ((c : Thread nD τ).loc main_arg1))) (GS.highQ 1 (m ((c : Thread nD τ).loc main_arg0)) (m ((c : Thread nD τ).loc main_arg1))) (GS.highQ 2 (m ((c : Thread nD τ).loc main_arg0)) (m ((c : Thread nD τ).loc main_arg1))) := by
  have h1 : V m c main_v429 = (concatenate S3x2000000x16 0 [⟨S1x2000000x16, (broadcastInDim S1x2000000x16 ![1, 2] bcast_S2000000x16_S1x2000000x16_1_2 (addf (mulf (Host.gather gather_S300x300x16_S2000000x2_S2000000x16_1_01_n_n_01_1_1116 (shapeCast _ (extractStridedSlice S1x300x300x16 ![0, 0, 0, 0] (transpose S3x300x300x16 [0, 2, 3, 1] (m ((c : Thread nD τ).loc main_arg1)) transposes_S3x16x300x300_S3x300x300x16_0_2_3_1) slices_S3x300x300x16_S1x300x300x16_0_0_0_0) shapeCasts_S1x300x300x16_S300x300x16) (concatenate S2000000x2 1 [⟨S2000000x1, (broadcastInDim S2000000x1 ![0] bcast_S2000000_S2000000x1_0 (GS.wrap (GS.next (GS.col2 (m ((c : Thread nD τ).loc main_arg0))))))⟩, ⟨S2000000x1, (broadcastInDim S2000000x1 ![0] bcast_S2000000_S2000000x1_0 (GS.wrap (GS.cell (GS.col1 (m ((c : Thread nD τ).loc main_arg0))))))⟩] concatenates_S2000000x1_S2000000x1_S2000000x2_d1)) (broadcastInDim S2000000x16 ![0, 1] bcast_S2000000x1_S2000000x16_0_1 (subf (broadcastInDim S2000000x1 ![] bcast_S_S2000000x1 (constant S_ .f32 0x3F800000#32)) (broadcastInDim S2000000x1 ![0] bcast_S2000000_S2000000x1_0 (GS.frac (GS.col1 (m ((c : Thread nD τ).loc main_arg0)))))))) (mulf (Host.gather gather_S300x300x16_S2000000x2_S2000000x16_1_01_n_n_01_1_1116 (shapeCast _ (extractStridedSlice S1x300x300x16 ![0, 0, 0, 0] (transpose S3x300x300x16 [0, 2, 3, 1] (m ((c : Thread nD τ).loc main_arg1)) transposes_S3x16x300x300_S3x300x300x16_0_2_3_1) slices_S3x300x300x16_S1x300x300x16_0_0_0_0) shapeCasts_S1x300x300x16_S300x300x16) (concatenate S2000000x2 1 [⟨S2000000x1, (broadcastInDim S2000000x1 ![0] bcast_S2000000_S2000000x1_0 (GS.wrap (GS.next (GS.col2 (m ((c : Thread nD τ).loc main_arg0))))))⟩, ⟨S2000000x1, (broadcastInDim S2000000x1 ![0] bcast_S2000000_S2000000x1_0 (GS.wrap (GS.next (GS.col1 (m ((c : Thread nD τ).loc main_arg0))))))⟩] concatenates_S2000000x1_S2000000x1_S2000000x2_d1)) (broadcastInDim S2000000x16 ![0, 1] bcast_S2000000x1_S2000000x16_0_1 (broadcastInDim S2000000x1 ![0] bcast_S2000000_S2000000x1_0 (GS.frac (GS.col1 (m ((c : Thread nD τ).loc main_arg0)))))))))⟩, ⟨S1x2000000x16, (broadcastInDim S1x2000000x16 ![1, 2] bcast_S2000000x16_S1x2000000x16_1_2 (addf (mulf (Host.gather gather_S300x300x16_S2000000x2_S2000000x16_1_01_n_n_01_1_1116 (shapeCast _ (extractStridedSlice S1x300x300x16 ![1, 0, 0, 0] (transpose S3x300x300x16 [0, 2, 3, 1] (m ((c : Thread nD τ).loc main_arg1)) transposes_S3x16x300x300_S3x300x300x16_0_2_3_1) slices_S3x300x300x16_S1x300x300x16_1_0_0_0) shapeCasts_S1x300x300x16_S300x300x16) (concatenate S2000000x2 1 [⟨S2000000x1, (broadcastInDim S2000000x1 ![0] bcast_S2000000_S2000000x1_0 (GS.wrap (GS.next (GS.col2 (m ((c : Thread nD τ).loc main_arg0))))))⟩, ⟨S2000000x1, (broadcastInDim S2000000x1 ![0] bcast_S2000000_S2000000x1_0 (GS.wrap (GS.cell (GS.col0 (m ((c : Thread nD τ).loc main_arg0))))))⟩] concatenates_S2000000x1_S2000000x1_S2000000x2_d1)) (broadcastInDim S2000000x16 ![0, 1] bcast_S2000000x1_S2000000x16_0_1 (subf (broadcastInDim S2000000x1 ![] bcast_S_S2000000x1 (constant S_ .f32 0x3F800000#32)) (broadcastInDim S2000000x1 ![0] bcast_S2000000_S2000000x1_0 (GS.frac (GS.col0 (m ((c : Thread nD τ).loc main_arg0)))))))) (mulf (Host.gather gather_S300x300x16_S2000000x2_S2000000x16_1_01_n_n_01_1_1116 (shapeCast _ (extractStridedSlice S1x300x300x16 ![1, 0, 0, 0] (transpose S3x300x300x16 [0, 2, 3, 1] (m ((c : Thread nD τ).loc main_arg1)) transposes_S3x16x300x300_S3x300x300x16_0_2_3_1) slices_S3x300x300x16_S1x300x300x16_1_0_0_0) shapeCasts_S1x300x300x16_S300x300x16) (concatenate S2000000x2 1 [⟨S2000000x1, (broadcastInDim S2000000x1 ![0] bcast_S2000000_S2000000x1_0 (GS.wrap (GS.next (GS.col2 (m ((c : Thread nD τ).loc main_arg0))))))⟩, ⟨S2000000x1, (broadcastInDim S2000000x1 ![0] bcast_S2000000_S2000000x1_0 (GS.wrap (GS.next (GS.col0 (m ((c : Thread nD τ).loc main_arg0))))))⟩] concatenates_S2000000x1_S2000000x1_S2000000x2_d1)) (broadcastInDim S2000000x16 ![0, 1] bcast_S2000000x1_S2000000x16_0_1 (broadcastInDim S2000000x1 ![0] bcast_S2000000_S2000000x1_0 (GS.frac (GS.col0 (m ((c : Thread nD τ).loc main_arg0)))))))))⟩, ⟨S1x2000000x16, (broadcastInDim S1x2000000x16 ![1, 2] bcast_S2000000x16_S1x2000000x16_1_2 (addf (mulf (Host.gather gather_S300x300x16_S2000000x2_S2000000x16_1_01_n_n_01_1_1116 (shapeCast _ (extractStridedSlice S1x300x300x16 ![2, 0, 0, 0] (transpose S3x300x300x16 [0, 2, 3, 1] (m ((c : Thread nD τ).loc main_arg1)) transposes_S3x16x300x300_S3x300x300x16_0_2_3_1) slices_S3x300x300x16_S1x300x300x16_2_0_0_0) shapeCasts_S1x300x300x16_S300x300x16) (concatenate S2000000x2 1 [⟨S2000000x1, (broadcastInDim S2000000x1 ![0] bcast_S2000000_S2000000x1_0 (GS.wrap (GS.next (GS.col1 (m ((c : Thread nD τ).loc main_arg0))))))⟩, ⟨S2000000x1, (broadcastInDim S2000000x1 ![0] bcast_S2000000_S2000000x1_0 (GS.wrap (GS.cell (GS.col0 (m ((c : Thread nD τ).loc main_arg0))))))⟩] concatenates_S2000000x1_S2000000x1_S2000000x2_d1)) (broadcastInDim S2000000x16 ![0, 1] bcast_S2000000x1_S2000000x16_0_1 (subf (broadcastInDim S2000000x1 ![] bcast_S_S2000000x1 (constant S_ .f32 0x3F800000#32)) (broadcastInDim S2000000x1 ![0] bcast_S2000000_S2000000x1_0 (GS.frac (GS.col0 (m ((c : Thread nD τ).loc main_arg0)))))))) (mulf (Host.gather gather_S300x300x16_S2000000x2_S2000000x16_1_01_n_n_01_1_1116 (shapeCast _ (extractStridedSlice S1x300x300x16 ![2, 0, 0, 0] (transpose S3x300x300x16 [0, 2, 3, 1] (m ((c : Thread nD τ).loc main_arg1)) transposes_S3x16x300x300_S3x300x300x16_0_2_3_1) slices_S3x300x300x16_S1x300x300x16_2_0_0_0) shapeCasts_S1x300x300x16_S300x300x16) (concatenate S2000000x2 1 [⟨S2000000x1, (broadcastInDim S2000000x1 ![0] bcast_S2000000_S2000000x1_0 (GS.wrap (GS.next (GS.col1 (m ((c : Thread nD τ).loc main_arg0))))))⟩, ⟨S2000000x1, (broadcastInDim S2000000x1 ![0] bcast_S2000000_S2000000x1_0 (GS.wrap (GS.next (GS.col0 (m ((c : Thread nD τ).loc main_arg0))))))⟩] concatenates_S2000000x1_S2000000x1_S2000000x2_d1)) (broadcastInDim S2000000x16 ![0, 1] bcast_S2000000x1_S2000000x16_0_1 (broadcastInDim S2000000x1 ![0] bcast_S2000000_S2000000x1_0 (GS.frac (GS.col0 (m ((c : Thread nD τ).loc main_arg0)))))))))⟩] concatenates_S1x2000000x16_S1x2000000x16_S1x2000000x16_S3x2000000x16_d0) := by
    show StableHlo.after (List.flatten (prefixOps (F := F))) (fun b => m (c, b)) (Proc.devRef .tc main_v429) = _
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
    after_results_three
    rfl
  exact h1.trans rfl

end Cert.KernelIdeal.Hand

end
-- ==== Proof.SampleRead.lean ====
/-
  The shared arrays read at an index.  A look-up of a table at an index array reads, at each point, the table's
  row at that point's index, read as a signed integer and kept within the table's 300 rows; the channel-last and
  the channel-first tables hold the same entries; stacking, repeating over channels and interpolating are read
  coordinate by coordinate.
-/
import proofs.«171750_j84275848282428_2_alg».proof.Proof.GridSample

set_option maxRecDepth 16384

noncomputable section

namespace GS

open Idealize.ShloMosaic Idealize.ShloMosaic.ValueIdx

variable {F : FTy → Type} [FloatOps F] {α : Type}

/-- A look-up index as the look-up takes it: read signed, kept within the 300 rows. -/
def clamp (i : BitVec 32) : Fin 300 := ⟨min i.toInt.toNat 299, by omega⟩

/-! ## Columns and index pairs -/

theorem colN1_apply (v : SN.Idx → α) (n : Fin 2000000) (z : Fin 1) : colN1 v (ix2 n z) = v (ix1 n) := by
  unfold colN1
  refine broadcastInDim_apply _ _ v _ (ix1 n) (fun a => ?_)
  match a with
  | ⟨0, _⟩ => show n.val = if (2000000 : Nat) = 1 then 0 else n.val; rw [if_neg (by decide)]

theorem pairIdx_apply0 (Y X : IVec SN 32) (n : Fin 2000000) : pairIdx Y X (ix2 n (0 : Fin 2)) = Y (ix1 n) := by
  unfold pairIdx
  rw [concatenate_pair_apply_left (1 : Fin 2) (colN1 Y) (colN1 X) catN2 (ix2 n (0 : Fin 2)) rfl (ix2 n (0 : Fin 1))
    (fun b => by match b with | ⟨0, _⟩ => rfl | ⟨1, _⟩ => rfl)]
  exact colN1_apply Y n 0

theorem pairIdx_apply1 (Y X : IVec SN 32) (n : Fin 2000000) : pairIdx Y X (ix2 n (1 : Fin 2)) = X (ix1 n) := by
  unfold pairIdx
  rw [concatenate_pair_apply_right (1 : Fin 2) (colN1 Y) (colN1 X) catN2 (ix2 n (1 : Fin 2)) rfl rfl (ix2 n (0 : Fin 1))
    (fun b hb => by match b with | ⟨0, _⟩ => rfl | ⟨1, _⟩ => exact absurd rfl hb) rfl]
  exact colN1_apply X n 0

/-! ## The tables -/

theorem tableQ_apply (o : Nat) (ho : o < 3) (hs : SQ3.Slices ![o, 0, 0, 0] SQ1) (PL : FVec F SP3 .f32) (y x : Fin 300) (ch : Fin 16) :
    tableQ o hs PL (ix3 y x ch) = PL (ix4 ⟨o, ho⟩ ch y x) := by
  unfold tableQ
  rw [shapeCast_1abc_abc_apply,
    extractStridedSlice_apply ![o, 0, 0, 0] _ hs (ix4 (0 : Fin 1) y x ch) (ix4 ⟨o, ho⟩ y x ch)
      (fun a => by match a with | ⟨0, _⟩ => rfl | ⟨1, _⟩ => (show y.val = 0 + y.val; omega) | ⟨2, _⟩ => (show x.val = 0 + x.val; omega) | ⟨3, _⟩ => (show ch.val = 0 + ch.val; omega))]
  exact transpose_apply [0, 2, 3, 1] PL trP (ix4 ⟨o, ho⟩ y x ch) (ix4 ⟨o, ho⟩ ch y x)
    (fun b => by match b with | ⟨0, _⟩ => rfl | ⟨1, _⟩ => rfl | ⟨2, _⟩ => rfl | ⟨3, _⟩ => rfl)

theorem tableP_apply (o : Nat) (ho : o < 3) (hs : SP3.Slices ![o, 0, 0, 0] SP1) (PL : FVec F SP3 .f32) (ch : Fin 16) (y x : Fin 300) :
    tableP o hs PL (ix3 ch y x) = PL (ix4 ⟨o, ho⟩ ch y x) := by
  unfold tableP
  rw [shapeCast_1abc_abc_apply]
  exact extractStridedSlice_apply ![o, 0, 0, 0] PL hs (ix4 (0 : Fin 1) ch y x) (ix4 ⟨o, ho⟩ ch y x)
      (fun a => by match a with | ⟨0, _⟩ => rfl | ⟨1, _⟩ => (show ch.val = 0 + ch.val; omega) | ⟨2, _⟩ => (show y.val = 0 + y.val; omega) | ⟨3, _⟩ => (show x.val = 0 + x.val; omega))

theorem tableM_apply (o : Nat) (ho : o < 3) (hs : SM3.Slices ![o, 0, 0] SM1) (LN : FVec F SL3 .f32) (l : Fin 300) (ch : Fin 16) :
    tableM o hs LN (ix2 l ch) = LN (ix3 ⟨o, ho⟩ ch l) := by
  unfold tableM
  rw [shapeCast_1ab_ab_apply,
    extractStridedSlice_apply ![o, 0, 0] _ hs (ix3 (0 : Fin 1) l ch) (ix3 ⟨o, ho⟩ l ch)
      (fun a => by match a with | ⟨0, _⟩ => rfl | ⟨1, _⟩ => (show l.val = 0 + l.val; omega) | ⟨2, _⟩ => (show ch.val = 0 + ch.val; omega))]
  exact transpose_apply [0, 2, 1] LN trL (ix3 ⟨o, ho⟩ l ch) (ix3 ⟨o, ho⟩ ch l)
    (fun b => by match b with | ⟨0, _⟩ => rfl | ⟨1, _⟩ => rfl | ⟨2, _⟩ => rfl)

theorem tableL_apply (o : Nat) (ho : o < 3) (hs : SL3.Slices ![o, 0, 0] SL1) (LN : FVec F SL3 .f32) (ch : Fin 16) (l : Fin 300) :
    tableL o hs LN (ix2 ch l) = LN (ix3 ⟨o, ho⟩ ch l) := by
  unfold tableL
  rw [shapeCast_1ab_ab_apply]
  exact extractStridedSlice_apply ![o, 0, 0] LN hs (ix3 (0 : Fin 1) ch l) (ix3 ⟨o, ho⟩ ch l)
      (fun a => by match a with | ⟨0, _⟩ => rfl | ⟨1, _⟩ => (show ch.val = 0 + ch.val; omega) | ⟨2, _⟩ => (show l.val = 0 + l.val; omega))

end GS

end
-- ==== Proof.SampleLookup.lean ====
/-
  A table look-up read at an index.  The look-up takes, at each point, one whole channel row of the table at the
  row (and column) the point's index (pair) names, each index read as a signed integer and kept within the 300 rows.
-/
import proofs.«171750_j84275848282428_2_alg».proof.Proof.SampleRead

set_option maxRecDepth 16384

noncomputable section

namespace GS

open Idealize.ShloMosaic Idealize.ShloMosaic.ValueIdx

variable {α : Type}

/-- Channel-last plane table, point-major result: at (n, ch) the table at (row, column, ch). -/
theorem gatherQ_apply (wf : GatherDims.WF SQ SN2 SN16 [1] [0, 1] [] [0, 1] [] 1 ![1, 1, 16]) (x : SQ.Idx → α) (idx : IVec SN2 32) (n : Fin 2000000) (ch : Fin 16) :
    Host.gather (dimsQ wf) x idx (ix2 n ch) = x (ix3 (clamp (idx (ix2 n (0 : Fin 2)))) (clamp (idx (ix2 n (1 : Fin 2)))) ch) := by
  unfold Host.gather
  congr 1
  funext a
  refine Fin.ext ?_
  show (dimsQ wf).start (ix2 n ch) idx a + (dimsQ wf).batchCoord (ix2 n ch) a + (dimsQ wf).offCoord (ix2 n ch) a = _
  rw [GatherDims.batchCoord_eq_zero _ _ _ List.not_mem_nil, Nat.add_zero]
  match a with
  | ⟨0, hA⟩ =>
    rw [GatherDims.offCoord_eq_zero _ _ _ (fun h => ((GatherDims.mem_sKept _ _).mp h).1
      (show (0 : Fin 3) ∈ ([0, 1] : List (Fin 3)) from by decide)), Nat.add_zero]
    unfold GatherDims.start
    split
    · rename_i ha
      have hsi : (dimsQ wf).siIdx (ix2 n ch) ⟨List.idxOf (⟨0, hA⟩ : Fin 3) (dimsQ wf).startIndexMap,
          List.idxOf_lt_length_iff.2 ha⟩ = ix2 n (0 : Fin 2) := by
        funext b; refine Fin.ext ?_
        match b with
        | ⟨0, _⟩ => rfl
        | ⟨1, _⟩ => rfl
      rw [hsi]
      rfl
    · rename_i hna
      exact absurd (show (0 : Fin 3) ∈ ([0, 1] : List (Fin 3)) from by decide) hna
  | ⟨1, hA⟩ =>
    rw [GatherDims.offCoord_eq_zero _ _ _ (fun h => ((GatherDims.mem_sKept _ _).mp h).1
      (show (1 : Fin 3) ∈ ([0, 1] : List (Fin 3)) from by decide)), Nat.add_zero]
    unfold GatherDims.start
    split
    · rename_i ha
      have hsi : (dimsQ wf).siIdx (ix2 n ch) ⟨List.idxOf (⟨1, hA⟩ : Fin 3) (dimsQ wf).startIndexMap,
          List.idxOf_lt_length_iff.2 ha⟩ = ix2 n (1 : Fin 2) := by
        funext b; refine Fin.ext ?_
        match b with
        | ⟨0, _⟩ => rfl
        | ⟨1, _⟩ => rfl
      rw [hsi]
      rfl
    · rename_i hna
      exact absurd (show (1 : Fin 3) ∈ ([0, 1] : List (Fin 3)) from by decide) hna
  | ⟨2, hA⟩ =>
    have hk : (⟨2, hA⟩ : Fin 3) ∈ (dimsQ wf).sKept :=
      (GatherDims.mem_sKept _ _).mpr ⟨(show ¬ ((2 : Fin 3) ∈ ([0, 1] : List (Fin 3))) from by decide), List.not_mem_nil⟩
    have hs : (dimsQ wf).start (ix2 n ch) idx (⟨2, hA⟩ : Fin 3) = 0 := by
      unfold GatherDims.start
      split
      · rename_i ha; exact absurd ha (show ¬ ((2 : Fin 3) ∈ ([0, 1] : List (Fin 3))) from by decide)
      · rfl
    rw [hs, Nat.zero_add]
    unfold GatherDims.offCoord
    split
    · rfl
    · rename_i hn; exact absurd hk hn

/-- Channel-last line table, point-major result: at (n, ch) the table at (row, ch). -/
theorem gatherM_apply (wf : GatherDims.WF SM SN1 SN16 [1] [0] [] [0] [] 1 ![1, 16]) (x : SM.Idx → α) (idx : IVec SN1 32) (n : Fin 2000000) (ch : Fin 16) :
    Host.gather (dimsM wf) x idx (ix2 n ch) = x (ix2 (clamp (idx (ix2 n (0 : Fin 1)))) ch) := by
  unfold Host.gather
  congr 1
  funext a
  refine Fin.ext ?_
  show (dimsM wf).start (ix2 n ch) idx a + (dimsM wf).batchCoord (ix2 n ch) a + (dimsM wf).offCoord (ix2 n ch) a = _
  rw [GatherDims.batchCoord_eq_zero _ _ _ List.not_mem_nil, Nat.add_zero]
  match a with
  | ⟨0, hA⟩ =>
    rw [GatherDims.offCoord_eq_zero _ _ _ (fun h => ((GatherDims.mem_sKept _ _).mp h).1
      (show (0 : Fin 2) ∈ ([0] : List (Fin 2)) from by decide)), Nat.add_zero]
    unfold GatherDims.start
    split
    · rename_i ha
      have hsi : (dimsM wf).siIdx (ix2 n ch) ⟨List.idxOf (⟨0, hA⟩ : Fin 2) (dimsM wf).startIndexMap,
          List.idxOf_lt_length_iff.2 ha⟩ = ix2 n (0 : Fin 1) := by
        funext b; refine Fin.ext ?_
        match b with
        | ⟨0, _⟩ => rfl
        | ⟨1, _⟩ => rfl
      rw [hsi]
      rfl
    · rename_i hna
      exact absurd (show (0 : Fin 2) ∈ ([0] : List (Fin 2)) from by decide) hna
  | ⟨1, hA⟩ =>
    have hk : (⟨1, hA⟩ : Fin 2) ∈ (dimsM wf).sKept :=
      (GatherDims.mem_sKept _ _).mpr ⟨(show ¬ ((1 : Fin 2) ∈ ([0] : List (Fin 2))) from by decide), List.not_mem_nil⟩
    have hs : (dimsM wf).start (ix2 n ch) idx (⟨1, hA⟩ : Fin 2) = 0 := by
      unfold GatherDims.start
      split
      · rename_i ha; exact absurd ha (show ¬ ((1 : Fin 2) ∈ ([0] : List (Fin 2))) from by decide)
      · rfl
    rw [hs, Nat.zero_add]
    unfold GatherDims.offCoord
    split
    · rfl
    · rename_i hn; exact absurd hk hn

/-- Channel-first plane table, channel-major result: at (ch, n) the table at (ch, row, column). -/
theorem gatherP_apply (wf : GatherDims.WF SP SN2 S16N [0] [1, 2] [] [1, 2] [] 1 ![16, 1, 1]) (x : SP.Idx → α) (idx : IVec SN2 32) (ch : Fin 16) (n : Fin 2000000) :
    Host.gather (dimsP wf) x idx (ix2 ch n) = x (ix3 ch (clamp (idx (ix2 n (0 : Fin 2)))) (clamp (idx (ix2 n (1 : Fin 2))))) := by
  unfold Host.gather
  congr 1
  funext a
  refine Fin.ext ?_
  show (dimsP wf).start (ix2 ch n) idx a + (dimsP wf).batchCoord (ix2 ch n) a + (dimsP wf).offCoord (ix2 ch n) a = _
  rw [GatherDims.batchCoord_eq_zero _ _ _ List.not_mem_nil, Nat.add_zero]
  match a with
  | ⟨0, hA⟩ =>
    have hk : (⟨0, hA⟩ : Fin 3) ∈ (dimsP wf).sKept :=
      (GatherDims.mem_sKept _ _).mpr ⟨(show ¬ ((0 : Fin 3) ∈ ([1, 2] : List (Fin 3))) from by decide), List.not_mem_nil⟩
    have hs : (dimsP wf).start (ix2 ch n) idx (⟨0, hA⟩ : Fin 3) = 0 := by
      unfold GatherDims.start
      split
      · rename_i ha; exact absurd ha (show ¬ ((0 : Fin 3) ∈ ([1, 2] : List (Fin 3))) from by decide)
      · rfl
    rw [hs, Nat.zero_add]
    unfold GatherDims.offCoord
    split
    · rfl
    · rename_i hn; exact absurd hk hn
  | ⟨1, hA⟩ =>
    rw [GatherDims.offCoord_eq_zero _ _ _ (fun h => ((GatherDims.mem_sKept _ _).mp h).1
      (show (1 : Fin 3) ∈ ([1, 2] : List (Fin 3)) from by decide)), Nat.add_zero]
    unfold GatherDims.start
    split
    · rename_i ha
      have hsi : (dimsP wf).siIdx (ix2 ch n) ⟨List.idxOf (⟨1, hA⟩ : Fin 3) (dimsP wf).startIndexMap,
          List.idxOf_lt_length_iff.2 ha⟩ = ix2 n (0 : Fin 2) := by
        funext b; refine Fin.ext ?_
        match b with
        | ⟨0, _⟩ => rfl
        | ⟨1, _⟩ => rfl
      rw [hsi]
      rfl
    · rename_i hna
      exact absurd (show (1 : Fin 3) ∈ ([1, 2] : List (Fin 3)) from by decide) hna
  | ⟨2, hA⟩ =>
    rw [GatherDims.offCoord_eq_zero _ _ _ (fun h => ((GatherDims.mem_sKept _ _).mp h).1
      (show (2 : Fin 3) ∈ ([1, 2] : List (Fin 3)) from by decide)), Nat.add_zero]
    unfold GatherDims.start
    split
    · rename_i ha
      have hsi : (dimsP wf).siIdx (ix2 ch n) ⟨List.idxOf (⟨2, hA⟩ : Fin 3) (dimsP wf).startIndexMap,
          List.idxOf_lt_length_iff.2 ha⟩ = ix2 n (1 : Fin 2) := by
        funext b; refine Fin.ext ?_
        match b with
        | ⟨0, _⟩ => rfl
        | ⟨1, _⟩ => rfl
      rw [hsi]
      rfl
    · rename_i hna
      exact absurd (show (2 : Fin 3) ∈ ([1, 2] : List (Fin 3)) from by decide) hna

/-- Channel-first line table, channel-major result: at (ch, n) the table at (ch, row). -/
theorem gatherL_apply (wf : GatherDims.WF SL SN1 S16N [0] [1] [] [1] [] 1 ![16, 1]) (x : SL.Idx → α) (idx : IVec SN1 32) (ch : Fin 16) (n : Fin 2000000) :
    Host.gather (dimsL wf) x idx (ix2 ch n) = x (ix2 ch (clamp (idx (ix2 n (0 : Fin 1))))) := by
  unfold Host.gather
  congr 1
  funext a
  refine Fin.ext ?_
  show (dimsL wf).start (ix2 ch n) idx a + (dimsL wf).batchCoord (ix2 ch n) a + (dimsL wf).offCoord (ix2 ch n) a = _
  rw [GatherDims.batchCoord_eq_zero _ _ _ List.not_mem_nil, Nat.add_zero]
  match a with
  | ⟨0, hA⟩ =>
    have hk : (⟨0, hA⟩ : Fin 2) ∈ (dimsL wf).sKept :=
      (GatherDims.mem_sKept _ _).mpr ⟨(show ¬ ((0 : Fin 2) ∈ ([1] : List (Fin 2))) from by decide), List.not_mem_nil⟩
    have hs : (dimsL wf).start (ix2 ch n) idx (⟨0, hA⟩ : Fin 2) = 0 := by
      unfold GatherDims.start
      split
      · rename_i ha; exact absurd ha (show ¬ ((0 : Fin 2) ∈ ([1] : List (Fin 2))) from by decide)
      · rfl
    rw [hs, Nat.zero_add]
    unfold GatherDims.offCoord
    split
    · rfl
    · rename_i hn; exact absurd hk hn
  | ⟨1, hA⟩ =>
    rw [GatherDims.offCoord_eq_zero _ _ _ (fun h => ((GatherDims.mem_sKept _ _).mp h).1
      (show (1 : Fin 2) ∈ ([1] : List (Fin 2)) from by decide)), Nat.add_zero]
    unfold GatherDims.start
    split
    · rename_i ha
      have hsi : (dimsL wf).siIdx (ix2 ch n) ⟨List.idxOf (⟨1, hA⟩ : Fin 2) (dimsL wf).startIndexMap,
          List.idxOf_lt_length_iff.2 ha⟩ = ix2 n (0 : Fin 1) := by
        funext b; refine Fin.ext ?_
        match b with
        | ⟨0, _⟩ => rfl
        | ⟨1, _⟩ => rfl
      rw [hsi]
      rfl
    · rename_i hna
      exact absurd (show (1 : Fin 2) ∈ ([1] : List (Fin 2)) from by decide) hna

end GS

end
-- ==== Proof.SampleStack.lean ====
/-
  Stacking, repeating and interpolating, read coordinate by coordinate: plane k of three stacked arrays is the k-th
  array; an array repeated over the channels is itself at every channel; the x-interpolation of two taps at a point is
  the first times one minus the point's weight plus the second times the weight.
-/
import proofs.«171750_j84275848282428_2_alg».proof.Proof.GridSample

set_option maxRecDepth 16384

noncomputable section

namespace GS

open Idealize.ShloMosaic Idealize.ShloMosaic.ValueIdx

variable {F : FTy → Type} [FloatOps F] {α : Type}

/-- The k-th of three. -/
def sel3 {β : Type} (a b c : β) (k : Fin 3) : β := match k with | 0 => a | 1 => b | 2 => c

theorem lift16_apply (a : SN16.Idx → α) (z : Fin 1) (n : Fin 2000000) (ch : Fin 16) :
    broadcastInDim S1N16 ![1, 2] bcN16_1N16 a (ix3 z n ch) = a (ix2 n ch) :=
  broadcastInDim_apply _ _ a _ (ix2 n ch) (fun b => by
    match b with
    | ⟨0, _⟩ => show n.val = if (2000000 : Nat) = 1 then 0 else n.val; rw [if_neg (by decide)]
    | ⟨1, _⟩ => show ch.val = if (16 : Nat) = 1 then 0 else ch.val; rw [if_neg (by decide)])

theorem lift1_apply (a : SN.Idx → α) (z : Fin 1) (n : Fin 2000000) :
    broadcastInDim S1N ![1] bcN_1N a (ix2 z n) = a (ix1 n) :=
  broadcastInDim_apply _ _ a _ (ix1 n) (fun b => by
    match b with
    | ⟨0, _⟩ => show n.val = if (2000000 : Nat) = 1 then 0 else n.val; rw [if_neg (by decide)])

/-- Plane k of three stacked point-major arrays. -/
theorem stack16_apply (a b c : SN16.Idx → α) (k : Fin 3) (n : Fin 2000000) (ch : Fin 16) :
    stack16 a b c (ix3 k n ch) = sel3 a b c k (ix2 n ch) := by
  unfold stack16
  match k with
  | ⟨0, _⟩ =>
    refine (concatenate_apply_piece (t := S3N16) (0 : Fin 3) ([⟨S1N16, broadcastInDim S1N16 ![1, 2] bcN16_1N16 a⟩, ⟨S1N16, broadcastInDim S1N16 ![1, 2] bcN16_1N16 b⟩, ⟨S1N16, broadcastInDim S1N16 ![1, 2] bcN16_1N16 c⟩] : List ((s : Shape) × (s.Idx → α))) cat3N16 (ix3 (0 : Fin 3) n ch) 0 (show 0 < 3 from by decide) S1N16 _ rfl rfl 0 (by rfl) (ix3 (0 : Fin 1) n ch)
      (fun b hb => by match b with | ⟨0, _⟩ => exact absurd rfl hb | ⟨1, _⟩ => rfl | ⟨2, _⟩ => rfl) (by rfl)).trans ?_
    exact lift16_apply a 0 n ch
  | ⟨1, _⟩ =>
    refine (concatenate_apply_piece (t := S3N16) (0 : Fin 3) ([⟨S1N16, broadcastInDim S1N16 ![1, 2] bcN16_1N16 a⟩, ⟨S1N16, broadcastInDim S1N16 ![1, 2] bcN16_1N16 b⟩, ⟨S1N16, broadcastInDim S1N16 ![1, 2] bcN16_1N16 c⟩] : List ((s : Shape) × (s.Idx → α))) cat3N16 (ix3 (1 : Fin 3) n ch) 1 (show 1 < 3 from by decide) S1N16 _ rfl rfl 1 (by rfl) (ix3 (0 : Fin 1) n ch)
      (fun b hb => by match b with | ⟨0, _⟩ => exact absurd rfl hb | ⟨1, _⟩ => rfl | ⟨2, _⟩ => rfl) (by rfl)).trans ?_
    exact lift16_apply b 0 n ch
  | ⟨2, _⟩ =>
    refine (concatenate_apply_piece (t := S3N16) (0 : Fin 3) ([⟨S1N16, broadcastInDim S1N16 ![1, 2] bcN16_1N16 a⟩, ⟨S1N16, broadcastInDim S1N16 ![1, 2] bcN16_1N16 b⟩, ⟨S1N16, broadcastInDim S1N16 ![1, 2] bcN16_1N16 c⟩] : List ((s : Shape) × (s.Idx → α))) cat3N16 (ix3 (2 : Fin 3) n ch) 2 (show 2 < 3 from by decide) S1N16 _ rfl rfl 2 (by rfl) (ix3 (0 : Fin 1) n ch)
      (fun b hb => by match b with | ⟨0, _⟩ => exact absurd rfl hb | ⟨1, _⟩ => rfl | ⟨2, _⟩ => rfl) (by rfl)).trans ?_
    exact lift16_apply c 0 n ch

/-- Plane k of three stacked per-point arrays. -/
theorem stack1_apply (a b c : SN.Idx → α) (k : Fin 3) (n : Fin 2000000) :
    stack1 a b c (ix2 k n) = sel3 a b c k (ix1 n) := by
  unfold stack1
  match k with
  | ⟨0, _⟩ =>
    refine (concatenate_apply_piece (t := S3N) (0 : Fin 2) ([⟨S1N, broadcastInDim S1N ![1] bcN_1N a⟩, ⟨S1N, broadcastInDim S1N ![1] bcN_1N b⟩, ⟨S1N, broadcastInDim S1N ![1] bcN_1N c⟩] : List ((s : Shape) × (s.Idx → α))) cat3N (ix2 (0 : Fin 3) n) 0 (show 0 < 3 from by decide) S1N _ rfl rfl 0 (by rfl) (ix2 (0 : Fin 1) n)
      (fun b hb => by match b with | ⟨0, _⟩ => exact absurd rfl hb | ⟨1, _⟩ => rfl) (by rfl)).trans ?_
    exact lift1_apply a 0 n
  | ⟨1, _⟩ =>
    refine (concatenate_apply_piece (t := S3N) (0 : Fin 2) ([⟨S1N, broadcastInDim S1N ![1] bcN_1N a⟩, ⟨S1N, broadcastInDim S1N ![1] bcN_1N b⟩, ⟨S1N, broadcastInDim S1N ![1] bcN_1N c⟩] : List ((s : Shape) × (s.Idx → α))) cat3N (ix2 (1 : Fin 3) n) 1 (show 1 < 3 from by decide) S1N _ rfl rfl 1 (by rfl) (ix2 (0 : Fin 1) n)
      (fun b hb => by match b with | ⟨0, _⟩ => exact absurd rfl hb | ⟨1, _⟩ => rfl) (by rfl)).trans ?_
    exact lift1_apply b 0 n
  | ⟨2, _⟩ =>
    refine (concatenate_apply_piece (t := S3N) (0 : Fin 2) ([⟨S1N, broadcastInDim S1N ![1] bcN_1N a⟩, ⟨S1N, broadcastInDim S1N ![1] bcN_1N b⟩, ⟨S1N, broadcastInDim S1N ![1] bcN_1N c⟩] : List ((s : Shape) × (s.Idx → α))) cat3N (ix2 (2 : Fin 3) n) 2 (show 2 < 3 from by decide) S1N _ rfl rfl 2 (by rfl) (ix2 (0 : Fin 1) n)
      (fun b hb => by match b with | ⟨0, _⟩ => exact absurd rfl hb | ⟨1, _⟩ => rfl) (by rfl)).trans ?_
    exact lift1_apply c 0 n

/-- Row 16 k + ch of three stacked channel-major arrays: row ch of the k-th. -/
theorem stack48_apply (a b c : S16N.Idx → α) (k : Fin 3) (ch : Fin 16) (n : Fin 2000000)
    (h : 16 * k.val + ch.val < 48) :
    stack48 a b c (ix2 (⟨16 * k.val + ch.val, h⟩ : Fin 48) n) = sel3 a b c k (ix2 ch n) := by
  unfold stack48
  match k, h with
  | ⟨0, _⟩, h =>
    exact concatenate_apply_piece (t := S48N) (0 : Fin 2) ([⟨S16N, a⟩, ⟨S16N, b⟩, ⟨S16N, c⟩] : List ((s : Shape) × (s.Idx → α))) cat48N (ix2 (⟨16 * 0 + ch.val, h⟩ : Fin 48) n) 0 (show 0 < 3 from by decide) S16N _ rfl rfl 0 (by rfl) (ix2 ch n)
      (fun b hb => by match b with | ⟨0, _⟩ => exact absurd rfl hb | ⟨1, _⟩ => rfl) (by show 0 + ch.val = 16 * 0 + ch.val; omega)
  | ⟨1, _⟩, h =>
    exact concatenate_apply_piece (t := S48N) (0 : Fin 2) ([⟨S16N, a⟩, ⟨S16N, b⟩, ⟨S16N, c⟩] : List ((s : Shape) × (s.Idx → α))) cat48N (ix2 (⟨16 * 1 + ch.val, h⟩ : Fin 48) n) 1 (show 1 < 3 from by decide) S16N _ rfl rfl 16 (by rfl) (ix2 ch n)
      (fun b hb => by match b with | ⟨0, _⟩ => exact absurd rfl hb | ⟨1, _⟩ => rfl) (by show 16 + ch.val = 16 * 1 + ch.val; omega)
  | ⟨2, _⟩, h =>
    exact concatenate_apply_piece (t := S48N) (0 : Fin 2) ([⟨S16N, a⟩, ⟨S16N, b⟩, ⟨S16N, c⟩] : List ((s : Shape) × (s.Idx → α))) cat48N (ix2 (⟨16 * 2 + ch.val, h⟩ : Fin 48) n) 2 (show 2 < 3 from by decide) S16N _ rfl rfl 32 (by rfl) (ix2 ch n)
      (fun b hb => by match b with | ⟨0, _⟩ => exact absurd rfl hb | ⟨1, _⟩ => rfl) (by show 32 + ch.val = 16 * 2 + ch.val; omega)

/-- An array repeated over the channels. -/
theorem rows16_apply (w : SN.Idx → α) (ch : Fin 16) (n : Fin 2000000) : rows16 w (ix2 ch n) = w (ix1 n) := by
  unfold rows16
  refine (broadcastInDim_apply _ _ _ _ (ix2 (0 : Fin 1) n) (fun b => by
    match b with
    | ⟨0, _⟩ => show (0 : Nat) = if (1 : Nat) = 1 then 0 else ch.val; rw [if_pos rfl]
    | ⟨1, _⟩ => show n.val = if (2000000 : Nat) = 1 then 0 else n.val; rw [if_neg (by decide)])).trans ?_
  exact lift1_apply w 0 n

/-- The constant one, at any index of the scalar shape. -/
theorem one_apply (i : S0.Idx) : constant (F := F) S0 .f32 0x3F800000#32 i = Scalar.ofBits .f32 0x3F800000#32 := rfl

theorem oneN_apply (n : Fin 2000000) :
    broadcastInDim SN ![] bc0N (constant (F := F) S0 .f32 0x3F800000#32) (ix1 n) = Scalar.ofBits .f32 0x3F800000#32 :=
  (broadcastInDim_apply _ _ _ (ix1 n) ix0 (fun b => b.elim0)).trans (one_apply ix0)

theorem oneN1_apply (n : Fin 2000000) (z : Fin 1) :
    broadcastInDim SN1 ![] bc0N1 (constant (F := F) S0 .f32 0x3F800000#32) (ix2 n z) = Scalar.ofBits .f32 0x3F800000#32 :=
  (broadcastInDim_apply _ _ _ (ix2 n z) ix0 (fun b => b.elim0)).trans (one_apply ix0)

theorem spread16_apply (v : SN1.Idx → α) (n : Fin 2000000) (ch : Fin 16) :
    broadcastInDim SN16 ![0, 1] bcN1N16 v (ix2 n ch) = v (ix2 n (0 : Fin 1)) :=
  broadcastInDim_apply _ _ v _ (ix2 n (0 : Fin 1)) (fun b => by
    match b with
    | ⟨0, _⟩ => show n.val = if (2000000 : Nat) = 1 then 0 else n.val; rw [if_neg (by decide)]
    | ⟨1, _⟩ => show (0 : Nat) = if (1 : Nat) = 1 then 0 else ch.val; rw [if_pos rfl])

theorem colN1_at (v : SN.Idx → α) (n : Fin 2000000) (z : Fin 1) : colN1 v (ix2 n z) = v (ix1 n) := by
  unfold colN1
  exact broadcastInDim_apply _ _ v _ (ix1 n) (fun b => by
    match b with
    | ⟨0, _⟩ => show n.val = if (2000000 : Nat) = 1 then 0 else n.val; rw [if_neg (by decide)])

theorem oneMinus_apply (w : FVec F SN .f32) (n : Fin 2000000) :
    oneMinus w (ix1 n) = FloatOps.subf (Scalar.ofBits .f32 0x3F800000#32) (w (ix1 n)) := by
  unfold oneMinus
  exact congrArg (fun z => FloatOps.subf z (w (ix1 n))) (oneN_apply n)

/-- The x-interpolation of two point-major taps at (n, ch). -/
theorem lerpQ_apply (a b : FVec F SN16 .f32) (w : FVec F SN .f32) (n : Fin 2000000) (ch : Fin 16) :
    lerpQ a b w (ix2 n ch)
      = FloatOps.addf (FloatOps.mulf (a (ix2 n ch)) (FloatOps.subf (Scalar.ofBits .f32 0x3F800000#32) (w (ix1 n))))
          (FloatOps.mulf (b (ix2 n ch)) (w (ix1 n))) := by
  unfold lerpQ
  have h1 : broadcastInDim SN16 ![0, 1] bcN1N16 (subf (broadcastInDim SN1 ![] bc0N1 (constant S0 .f32 0x3F800000#32)) (colN1 w)) (ix2 n ch)
      = FloatOps.subf (Scalar.ofBits .f32 0x3F800000#32) (w (ix1 n)) :=
    (spread16_apply _ n ch).trans (congrArg₂ FloatOps.subf (oneN1_apply n 0) (colN1_at w n 0))
  have h2 : broadcastInDim SN16 ![0, 1] bcN1N16 (colN1 w) (ix2 n ch) = w (ix1 n) :=
    (spread16_apply _ n ch).trans (colN1_at w n 0)
  exact congrArg₂ FloatOps.addf (congrArg (FloatOps.mulf (a (ix2 n ch))) h1) (congrArg (FloatOps.mulf (b (ix2 n ch))) h2)

end GS

end
-- ==== Proof.SampleSpec.lean ====
/-
  The sampled value at one output element, and the two programs' arrays read there.  At plane k, channel ch and point
  n the value is

      ((P y0 x0 (1 - wx) + P y0 x1 wx) (1 - wy) + (P y1 x0 (1 - wx) + P y1 x1 wx) wy) * (L l0 (1 - wl) + L l1 wl)

  with P the plane table of plane k at channel ch, L its line table, (x0, x1), (y0, y1), (l0, l1) the lower and upper
  cells of the point's coordinates along the plane's two axes and along its line, and wx, wy, wl the weights.  The
  kernel's operands (channel-last tables, point-major taps, the y- and line-interpolation left to the kernel body) and
  the reference's result (tables as given, channel-major) both read as exactly this.
-/
import proofs.«171750_j84275848282428_2_alg».proof.Proof.SamplePlanes
import proofs.«171750_j84275848282428_2_alg».proof.Proof.SampleLookup
import proofs.«171750_j84275848282428_2_alg».proof.Proof.SampleStack

set_option maxRecDepth 16384

noncomputable section

namespace GS

open Idealize.ShloMosaic Idealize.ShloMosaic.ValueIdx

variable {F : FTy → Type} [FloatOps F]

/-- Interpolate two values with a weight: a (1 - w) + b w. -/
def mix (a b w : F .f32) : F .f32 :=
  FloatOps.addf (FloatOps.mulf a (FloatOps.subf (Scalar.ofBits .f32 0x3F800000#32) w)) (FloatOps.mulf b w)

/-- THE SAMPLED VALUE at plane k, channel ch, point n. -/
def sampleAt (xyz : FVec F SN3 .f32) (PL : FVec F SP3 .f32) (LN : FVec F SL3 .f32) (k : Fin 3) (ch : Fin 16) (n : Fin 2000000) : F .f32 :=
  FloatOps.mulf
    (mix
      (mix (PL (ix4 k ch (clamp (wrap (cell (ycol k xyz)) (ix1 n))) (clamp (wrap (cell (xcol k xyz)) (ix1 n)))))
        (PL (ix4 k ch (clamp (wrap (cell (ycol k xyz)) (ix1 n))) (clamp (wrap (next (xcol k xyz)) (ix1 n))))) (frac (xcol k xyz) (ix1 n)))
      (mix (PL (ix4 k ch (clamp (wrap (next (ycol k xyz)) (ix1 n))) (clamp (wrap (cell (xcol k xyz)) (ix1 n)))))
        (PL (ix4 k ch (clamp (wrap (next (ycol k xyz)) (ix1 n))) (clamp (wrap (next (xcol k xyz)) (ix1 n))))) (frac (xcol k xyz) (ix1 n)))
      (frac (ycol k xyz) (ix1 n)))
    (mix (LN (ix3 k ch (clamp (wrap (cell (lcol k xyz)) (ix1 n))))) (LN (ix3 k ch (clamp (wrap (next (lcol k xyz)) (ix1 n)))))
      (frac (lcol k xyz) (ix1 n)))

theorem sel3_eta {β : Type} (f : Fin 3 → β) (k : Fin 3) : sel3 (f 0) (f 1) (f 2) k = f k := by
  match k with
  | ⟨0, _⟩ => rfl
  | ⟨1, _⟩ => rfl
  | ⟨2, _⟩ => rfl

/-! ## The kernel's side -/

theorem rowTapQ_apply (k : Fin 3) (xyz : FVec F SN3 .f32) (PL : FVec F SP3 .f32) (Y : IVec SN 32) (n : Fin 2000000) (ch : Fin 16) :
    rowTapQ k xyz PL Y (ix2 n ch)
      = mix (PL (ix4 k ch (clamp (Y (ix1 n))) (clamp (wrap (cell (xcol k xyz)) (ix1 n)))))
          (PL (ix4 k ch (clamp (Y (ix1 n))) (clamp (wrap (next (xcol k xyz)) (ix1 n))))) (frac (xcol k xyz) (ix1 n)) := by
  unfold rowTapQ mix
  simp only [lerpQ_apply, gatherQ_apply, pairIdx_apply0, pairIdx_apply1, tableQ_apply k.val k.isLt]

theorem lineLowQ_apply (k : Fin 3) (xyz : FVec F SN3 .f32) (LN : FVec F SL3 .f32) (n : Fin 2000000) (ch : Fin 16) :
    lineLowQ k xyz LN (ix2 n ch) = LN (ix3 k ch (clamp (wrap (cell (lcol k xyz)) (ix1 n)))) := by
  unfold lineLowQ
  simp only [gatherM_apply, colN1_apply, tableM_apply k.val k.isLt]

theorem lineHighQ_apply (k : Fin 3) (xyz : FVec F SN3 .f32) (LN : FVec F SL3 .f32) (n : Fin 2000000) (ch : Fin 16) :
    lineHighQ k xyz LN (ix2 n ch) = LN (ix3 k ch (clamp (wrap (next (lcol k xyz)) (ix1 n)))) := by
  unfold lineHighQ
  simp only [gatherM_apply, colN1_apply, tableM_apply k.val k.isLt]

/-- The kernel body's arithmetic of the six operands at (k, n, ch) is the sampled value. -/
theorem kernel_apply (xyz : FVec F SN3 .f32) (PL : FVec F SP3 .f32) (LN : FVec F SL3 .f32) (k : Fin 3) (ch : Fin 16) (n : Fin 2000000) :
    FloatOps.mulf
      (mix (stack16 (lowQ 0 xyz PL) (lowQ 1 xyz PL) (lowQ 2 xyz PL) (ix3 k n ch))
        (stack16 (highQ 0 xyz PL) (highQ 1 xyz PL) (highQ 2 xyz PL) (ix3 k n ch))
        (stack1 (frac (ycol 0 xyz)) (frac (ycol 1 xyz)) (frac (ycol 2 xyz)) (ix2 k n)))
      (mix (stack16 (lineLowQ 0 xyz LN) (lineLowQ 1 xyz LN) (lineLowQ 2 xyz LN) (ix3 k n ch))
        (stack16 (lineHighQ 0 xyz LN) (lineHighQ 1 xyz LN) (lineHighQ 2 xyz LN) (ix3 k n ch))
        (stack1 (frac (lcol 0 xyz)) (frac (lcol 1 xyz)) (frac (lcol 2 xyz)) (ix2 k n)))
      = sampleAt xyz PL LN k ch n := by
  rw [stack16_apply, stack16_apply, stack16_apply, stack16_apply, stack1_apply, stack1_apply,
    sel3_eta (fun k => lowQ k xyz PL), sel3_eta (fun k => highQ k xyz PL), sel3_eta (fun k => frac (ycol k xyz)),
    sel3_eta (fun k => lineLowQ k xyz LN), sel3_eta (fun k => lineHighQ k xyz LN), sel3_eta (fun k => frac (lcol k xyz))]
  unfold lowQ highQ sampleAt
  rw [rowTapQ_apply, rowTapQ_apply, lineLowQ_apply, lineHighQ_apply]

/-! ## The reference's side -/

theorem rowTapP_apply (k : Fin 3) (xyz : FVec F SN3 .f32) (PL : FVec F SP3 .f32) (Y : IVec SN 32) (ch : Fin 16) (n : Fin 2000000) :
    rowTapP k xyz PL Y (ix2 ch n)
      = mix (PL (ix4 k ch (clamp (Y (ix1 n))) (clamp (wrap (cell (xcol k xyz)) (ix1 n)))))
          (PL (ix4 k ch (clamp (Y (ix1 n))) (clamp (wrap (next (xcol k xyz)) (ix1 n))))) (frac (xcol k xyz) (ix1 n)) := by
  unfold rowTapP mix
  simp only [addf, mulf, rows16_apply, oneMinus_apply, gatherP_apply, pairIdx_apply0, pairIdx_apply1, tableP_apply k.val k.isLt]

theorem planeP_apply (k : Fin 3) (xyz : FVec F SN3 .f32) (PL : FVec F SP3 .f32) (ch : Fin 16) (n : Fin 2000000) :
    planeP k xyz PL (ix2 ch n)
      = mix (rowTapP k xyz PL (wrap (cell (ycol k xyz))) (ix2 ch n)) (rowTapP k xyz PL (wrap (next (ycol k xyz))) (ix2 ch n))
          (frac (ycol k xyz) (ix1 n)) := by
  unfold planeP mix
  simp only [addf, mulf, rows16_apply, oneMinus_apply]

theorem lineP_apply (k : Fin 3) (xyz : FVec F SN3 .f32) (LN : FVec F SL3 .f32) (ch : Fin 16) (n : Fin 2000000) :
    lineP k xyz LN (ix2 ch n)
      = mix (LN (ix3 k ch (clamp (wrap (cell (lcol k xyz)) (ix1 n))))) (LN (ix3 k ch (clamp (wrap (next (lcol k xyz)) (ix1 n)))))
          (frac (lcol k xyz) (ix1 n)) := by
  unfold lineP mix
  simp only [addf, mulf, rows16_apply, oneMinus_apply, gatherL_apply, colN1_apply, tableL_apply k.val k.isLt]

/-- The reference's result at row 16 k + ch, point n is the sampled value. -/
theorem ref_apply (xyz : FVec F SN3 .f32) (PL : FVec F SP3 .f32) (LN : FVec F SL3 .f32) (k : Fin 3) (ch : Fin 16) (n : Fin 2000000)
    (h : 16 * k.val + ch.val < 48) :
    refResult xyz PL LN (ix2 (⟨16 * k.val + ch.val, h⟩ : Fin 48) n) = sampleAt xyz PL LN k ch n := by
  unfold refResult
  rw [stack48_apply, sel3_eta (fun k => mulf (planeP k xyz PL) (lineP k xyz LN))]
  show FloatOps.mulf (planeP k xyz PL (ix2 ch n)) (lineP k xyz LN (ix2 ch n)) = _
  rw [planeP_apply, rowTapP_apply, rowTapP_apply, lineP_apply]
  rfl

end GS

end
-- ==== Proof.Bridge.lean ====
/-
  The two programs compute one array.  The kernel's output array is, at row 16 k + ch and point n, the body's
  arithmetic of the six operand arrays at (k, n, ch); the operand arrays are the stacked taps and weights; so that
  element is the sampled value at (k, ch, n).  The reference's result at the same row and point is the same sampled
  value.  No arithmetic law is used: the two programs apply the same operations to the same table entries and the
  same weights, in the same order, and differ only in how the arrays are laid out on the way.
-/
import proofs.«171750_j84275848282428_2_alg».proof.Defs
import proofs.«171750_j84275848282428_2_alg».proof.Proof.KIdealFinal
import proofs.«171750_j84275848282428_2_alg».proof.Proof.KIdealValueA
import proofs.«171750_j84275848282428_2_alg».proof.Proof.KIdealValueB
import proofs.«171750_j84275848282428_2_alg».proof.Proof.KIdealValueC
import proofs.«171750_j84275848282428_2_alg».proof.Proof.KIdealValueD
import proofs.«171750_j84275848282428_2_alg».proof.Proof.SampleSpec

set_option maxRecDepth 16384

noncomputable section

namespace Cert.Proof.Bridge

open Idealize.ShloMosaic Idealize.ShloMosaic.TcCoe Idealize.SL.Sem Idealize.ShloMosaic.ValueIdx
open Cert.KernelIdeal Cert.KernelIdeal.Gen Cert.KernelIdeal.Hand

variable {F : FTy → Type} [FloatOps F]

/-- THE KERNEL'S RESULT IS THE REFERENCE'S: the output array the launch leaves, from the operand arrays the launch
    finds, is the reference's result of the same three argument arrays. -/
theorem kernel_result (m : (ℓ : Loc nD τ sig) → Buf (Elt F) ℓ) (c : Dev nD) :
    outArr (V m c main_v425) (V m c main_v429) (V m c main_v433) (V m c main_v437) (V m c main_v441) (V m c main_v445)
      = GS.refResult (m ((c : Thread nD τ).loc main_arg0)) (m ((c : Thread nD τ).loc main_arg1)) (m ((c : Thread nD τ).loc main_arg2)) := by
  rw [operand0_eq, operand1_eq, operand2_eq, operand3_eq, operand4_eq, operand5_eq]
  funext j
  have hlt : 16 * (rowPlane j).val + (rowChan j).val < 48 := by
    have h48 : (j 0).val < 48 := (j 0).isLt
    show 16 * ((j 0).val / 16) + (j 0).val % 16 < 48
    omega
  have hj : (ix2 (⟨16 * (rowPlane j).val + (rowChan j).val, hlt⟩ : Fin 48) (colPoint j) : GS.S48N.Idx) = j :=
    funext fun a => Fin.ext (by
      match a with
      | ⟨0, _⟩ => show 16 * ((j 0).val / 16) + (j 0).val % 16 = (j 0).val; omega
      | ⟨1, _⟩ => rfl)
  exact ((GS.kernel_apply _ _ _ (rowPlane j) (rowChan j) (colPoint j)).trans
    (GS.ref_apply _ _ _ (rowPlane j) (rowChan j) (colPoint j) hlt).symm).trans (congrArg (GS.refResult _ _ _) hj)

end Cert.Proof.Bridge

end
-- ==== Proof.RefRun.lean ====
/-
  The reference is a straight line of 667 array operations with no kernel launch.  Listed in order they are its
  @main, so every weakly fair execution runs them one after the other, terminates, and leaves every buffer at the
  fold of the operations over the initial memory.  No operation writes an argument array, so the three arguments
  end as they began: the reference's frame.  The list is kept in the eleven windows @main itself is printed in.
-/
import proofs.«171750_j84275848282428_2_alg».proof.Defs
import proofs.«171750_j84275848282428_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- The operations of statements 1 .. of @main, in order. -/
abbrev ops0 : List (HloOp τ sig (Elt F)) :=
  [ unary main_arg1 main_v0 ((extractStridedSlice S1x16x300x300 ![0, 0, 0, 0] · slices_S3x16x300x300_S1x16x300x300_0_0_0_0) : (⟨S3x16x300x300, .f32⟩ : BufTy).Contents (Elt F) → (⟨S1x16x300x300, .f32⟩ : BufTy).Contents (Elt F)),
    reshape main_v0 main_v1 rfl shapeCasts_S1x16x300x300_S16x300x300,
    unary main_arg0 main_v2 ((extractStridedSlice S2000000x1 ![0, 1] · slices_S2000000x3_S2000000x1_0_1) : (⟨S2000000x3, .f32⟩ : BufTy).Contents (Elt F) → (⟨S2000000x1, .f32⟩ : BufTy).Contents (Elt F)),
    reshape main_v2 main_v3 rfl shapeCasts_S2000000x1_S2000000,
    unary main_arg0 main_v4 ((extractStridedSlice S2000000x1 ![0, 2] · slices_S2000000x3_S2000000x1_0_2) : (⟨S2000000x3, .f32⟩ : BufTy).Contents (Elt F) → (⟨S2000000x1, .f32⟩ : BufTy).Contents (Elt F)),
    reshape main_v4 main_v5 rfl shapeCasts_S2000000x1_S2000000,
    nullary main_cst (constant S_ .f32 0x3F800000#32),
    unary main_cst main_v6 (broadcastInDim S2000000 ![] bcast_S_S2000000 : (⟨S_, .f32⟩ : BufTy).Contents (Elt F) → (⟨S2000000, .f32⟩ : BufTy).Contents (Elt F)),
    binary main_v3 main_v6 main_v7 (addf : (⟨S2000000, .f32⟩ : BufTy).Contents (Elt F) → (⟨S2000000, .f32⟩ : BufTy).Contents (Elt F) → (⟨S2000000, .f32⟩ : BufTy).Contents (Elt F)),
    nullary main_cst_0 (constant S_ .f32 0x3F000000#32),
    unary main_cst_0 main_v8 (broadcastInDim S2000000 ![] bcast_S_S2000000 : (⟨S_, .f32⟩ : BufTy).Contents (Elt F) → (⟨S2000000, .f32⟩ : BufTy).Contents (Elt F)),
    binary main_v7 main_v8 main_v9 (mulf : (⟨S2000000, .f32⟩ : BufTy).Contents (Elt F) → (⟨S2000000, .f32⟩ : BufTy).Contents (Elt F) → (⟨S2000000, .f32⟩ : BufTy).Contents (Elt F)),
    nullary main_cst_1 (constant S_ .f32 0x43958000#32),
    unary main_cst_1 main_v10 (broadcastInDim S2000000 ![] bcast_S_S2000000 : (⟨S_, .f32⟩ : BufTy).Contents (Elt F) → (⟨S2000000, .f32⟩ : BufTy).Contents (Elt F)),
    binary main_v9 main_v10 main_v11 (mulf : (⟨S2000000, .f32⟩ : BufTy).Contents (Elt F) → (⟨S2000000, .f32⟩ : BufTy).Contents (Elt F) → (⟨S2000000, .f32⟩ : BufTy).Contents (Elt F)),
    unary main_v11 main_v12 (Host.floor : (⟨S2000000, .f32⟩ : BufTy).Contents (Elt F) → (⟨S2000000, .f32⟩ : BufTy).Contents (Elt F)),
    nullary main_c (constantI S_ 32 0#32),
    nullary main_c_2 (constantI S_ 32 299#32),
    TRef.unary (TRef.of (T := ⟨S_, .i32⟩) main_c) (TRef.of (T := ⟨S_, .f32⟩) main_call0_v0) (sitofp .f32),
    TRef.unary (TRef.of (T := ⟨S_, .f32⟩) main_call0_v0) (TRef.of (T := ⟨S2000000, .f32⟩) main_call0_v1) (broadcastInDim S2000000 ![] bcast_S_S2000000),
    TRef.binary (TRef.of (T := ⟨S2000000, .f32⟩) main_call0_v1) (TRef.of (T := ⟨S2000000, .f32⟩) main_v12) (TRef.of (T := ⟨S2000000, .f32⟩) main_call0_v2) maximumf,
    TRef.unary (TRef.of (T := ⟨S_, .i32⟩) main_c_2) (TRef.of (T := ⟨S_, .f32⟩) main_call0_v3) (sitofp .f32),
    TRef.unary (TRef.of (T := ⟨S_, .f32⟩) main_call0_v3) (TRef.of (T := ⟨S2000000, .f32⟩) main_call0_v4) (broadcastInDim S2000000 ![] bcast_S_S2000000),
    TRef.binary (TRef.of (T := ⟨S2000000, .f32⟩) main_call0_v4) (TRef.of (T := ⟨S2000000, .f32⟩) main_call0_v2) (TRef.of (T := ⟨S2000000, .f32⟩) main_v13) minimumf,
    unary main_v13 main_v14 (fptosi 32 : (⟨S2000000, .f32⟩ : BufTy).Contents (Elt F) → (⟨S2000000, .i32⟩ : BufTy).Contents (Elt F)),
    nullary main_c_3 (constantI S_ 32 1#32),
    unary main_c_3 main_v15 (broadcastInDim S2000000 ![] bcast_S_S2000000 : (⟨S_, .i32⟩ : BufTy).Contents (Elt F) → (⟨S2000000, .i32⟩ : BufTy).Contents (Elt F)),
    binary main_v14 main_v15 main_v16 (addi : (⟨S2000000, .i32⟩ : BufTy).Contents (Elt F) → (⟨S2000000, .i32⟩ : BufTy).Contents (Elt F) → (⟨S2000000, .i32⟩ : BufTy).Contents (Elt F)),
    nullary main_c_4 (constantI S_ 32 299#32),
    unary main_c_4 main_v17 (broadcastInDim S2000000 ![] bcast_S_S2000000 : (⟨S_, .i32⟩ : BufTy).Contents (Elt F) → (⟨S2000000, .i32⟩ : BufTy).Contents (Elt F)),
    binary main_v16 main_v17 main_v18 (minsi : (⟨S2000000, .i32⟩ : BufTy).Contents (Elt F) → (⟨S2000000, .i32⟩ : BufTy).Contents (Elt F) → (⟨S2000000, .i32⟩ : BufTy).Contents (Elt F)),
    unary main_v14 main_v19 (sitofp .f32 : (⟨S2000000, .i32⟩ : BufTy).Contents (Elt F) → (⟨S2000000, .f32⟩ : BufTy).Contents (Elt F)),
    binary main_v11 main_v19 main_v20 (subf : (⟨S2000000, .f32⟩ : BufTy).Contents (Elt F) → (⟨S2000000, .f32⟩ : BufTy).Contents (Elt F) → (⟨S2000000, .f32⟩ : BufTy).Contents (Elt F)),
    nullary main_cst_5 (constant S_ .f32 0x3F800000#32),
    unary main_cst_5 main_v21 (broadcastInDim S2000000 ![] bcast_S_S2000000 : (⟨S_, .f32⟩ : BufTy).Contents (Elt F) → (⟨S2000000, .f32⟩ : BufTy).Contents (Elt F)),
    binary main_v5 main_v21 main_v22 (addf : (⟨S2000000, .f32⟩ : BufTy).Contents (Elt F) → (⟨S2000000, .f32⟩ : BufTy).Contents (Elt F) → (⟨S2000000, .f32⟩ : BufTy).Contents (Elt F)),
    nullary main_cst_6 (constant S_ .f32 0x3F000000#32),
    unary main_cst_6 main_v23 (broadcastInDim S2000000 ![] bcast_S_S2000000 : (⟨S_, .f32⟩ : BufTy).Contents (Elt F) → (⟨S2000000, .f32⟩ : BufTy).Contents (Elt F)),
    binary main_v22 main_v23 main_v24 (mulf : (⟨S2000000, .f32⟩ : BufTy).Contents (Elt F) → (⟨S2000000, .f32⟩ : BufTy).Contents (Elt F) → (⟨S2000000, .f32⟩ : BufTy).Contents (Elt F)),
    nullary main_cst_7 (constant S_ .f32 0x43958000#32),
    unary main_cst_7 main_v25 (broadcastInDim S2000000 ![] bcast_S_S2000000 : (⟨S_, .f32⟩ : BufTy).Contents (Elt F) → (⟨S2000000, .f32⟩ : BufTy).Contents (Elt F)),
    binary main_v24 main_v25 main_v26 (mulf : (⟨S2000000, .f32⟩ : BufTy).Contents (Elt F) → (⟨S2000000, .f32⟩ : BufTy).Contents (Elt F) → (⟨S2000000, .f32⟩ : BufTy).Contents (Elt F)),
    unary main_v26 main_v27 (Host.floor : (⟨S2000000, .f32⟩ : BufTy).Contents (Elt F) → (⟨S2000000, .f32⟩ : BufTy).Contents (Elt F)),
    nullary main_c_8 (constantI S_ 32 0#32),
    nullary main_c_9 (constantI S_ 32 299#32),
    TRef.unary (TRef.of (T := ⟨S_, .i32⟩) main_c_8) (TRef.of (T := ⟨S_, .f32⟩) main_call1_v0) (sitofp .f32),
    TRef.unary (TRef.of (T := ⟨S_, .f32⟩) main_call1_v0) (TRef.of (T := ⟨S2000000, .f32⟩) main_call1_v1) (broadcastInDim S2000000 ![] bcast_S_S2000000),
    TRef.binary (TRef.of (T := ⟨S2000000, .f32⟩) main_call1_v1) (TRef.of (T := ⟨S2000000, .f32⟩) main_v27) (TRef.of (T := ⟨S2000000, .f32⟩) main_call1_v2) maximumf,
    TRef.unary (TRef.of (T := ⟨S_, .i32⟩) main_c_9) (TRef.of (T := ⟨S_, .f32⟩) main_call1_v3) (sitofp .f32),
    TRef.unary (TRef.of (T := ⟨S_, .f32⟩) main_call1_v3) (TRef.of (T := ⟨S2000000, .f32⟩) main_call1_v4) (broadcastInDim S2000000 ![] bcast_S_S2000000),
    TRef.binary (TRef.of (T := ⟨S2000000, .f32⟩) main_call1_v4) (TRef.of (T := ⟨S2000000, .f32⟩) main_call1_v2) (TRef.of (T := ⟨S2000000, .f32⟩) main_v28) minimumf,
    unary main_v28 main_v29 (fptosi 32 : (⟨S2000000, .f32⟩ : BufTy).Contents (Elt F) → (⟨S2000000, .i32⟩ : BufTy).Contents (Elt F)),
    nullary main_c_10 (constantI S_ 32 1#32),
    unary main_c_10 main_v30 (broadcastInDim S2000000 ![] bcast_S_S2000000 : (⟨S_, .i32⟩ : BufTy).Contents (Elt F) → (⟨S2000000, .i32⟩ : BufTy).Contents (Elt F)),
    binary main_v29 main_v30 main_v31 (addi : (⟨S2000000, .i32⟩ : BufTy).Contents (Elt F) → (⟨S2000000, .i32⟩ : BufTy).Contents (Elt F) → (⟨S2000000, .i32⟩ : BufTy).Contents (Elt F)),
    nullary main_c_11 (constantI S_ 32 299#32),
    unary main_c_11 main_v32 (broadcastInDim S2000000 ![] bcast_S_S2000000 : (⟨S_, .i32⟩ : BufTy).Contents (Elt F) → (⟨S2000000, .i32⟩ : BufTy).Contents (Elt F)),
    binary main_v31 main_v32 main_v33 (minsi : (⟨S2000000, .i32⟩ : BufTy).Contents (Elt F) → (⟨S2000000, .i32⟩ : BufTy).Contents (Elt F) → (⟨S2000000, .i32⟩ : BufTy).Contents (Elt F)),
    unary main_v29 main_v34 (sitofp .f32 : (⟨S2000000, .i32⟩ : BufTy).Contents (Elt F) → (⟨S2000000, .f32⟩ : BufTy).Contents (Elt F)),
    binary main_v26 main_v34 main_v35 (subf : (⟨S2000000, .f32⟩ : BufTy).Contents (Elt F) → (⟨S2000000, .f32⟩ : BufTy).Contents (Elt F) → (⟨S2000000, .f32⟩ : BufTy).Contents (Elt F)),
    nullary main_c_12 (constantI S_ 32 0#32),
    unary main_c_12 main_v36 (broadcastInDim S2000000 ![] bcast_S_S2000000 : (⟨S_, .i32⟩ : BufTy).Contents (Elt F) → (⟨S2000000, .i32⟩ : BufTy).Contents (Elt F)),
    binary main_v29 main_v36 main_v37 (cmpi .slt : (⟨S2000000, .i32⟩ : BufTy).Contents (Elt F) → (⟨S2000000, .i32⟩ : BufTy).Contents (Elt F) → (⟨S2000000, .i1⟩ : BufTy).Contents (Elt F)),
    nullary main_c_13 (constantI S_ 32 300#32),
    unary main_c_13 main_v38 (broadcastInDim S2000000 ![] bcast_S_S2000000 : (⟨S_, .i32⟩ : BufTy).Contents (Elt F) → (⟨S2000000, .i32⟩ : BufTy).Contents (Elt F)),
    binary main_v29 main_v38 main_v39 (addi : (⟨S2000000, .i32⟩ : BufTy).Contents (Elt F) → (⟨S2000000, .i32⟩ : BufTy).Contents (Elt F) → (⟨S2000000, .i32⟩ : BufTy).Contents (Elt F)),
    ternary main_v37 main_v39 main_v29 main_v40 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_14 (constantI S_ 32 0#32),
    unary main_c_14 main_v41 (broadcastInDim S2000000 ![] bcast_S_S2000000 : (⟨S_, .i32⟩ : BufTy).Contents (Elt F) → (⟨S2000000, .i32⟩ : BufTy).Contents (Elt F)),
    binary main_v14 main_v41 main_v42 (cmpi .slt : (⟨S2000000, .i32⟩ : BufTy).Contents (Elt F) → (⟨S2000000, .i32⟩ : BufTy).Contents (Elt F) → (⟨S2000000, .i1⟩ : BufTy).Contents (Elt F)) ]
set_option maxRecDepth 16384 in
set_option maxHeartbeats 4000000 in
theorem part0_eq (c : Dev nD) : main_part0 (F := F) c = seq ops0 := rfl
set_option maxRecDepth 16384 in
theorem ops0_sub : (ops0 : List (HloOp τ sig (Elt F))).Forall fun op => op.bufs ⊆ tcRefs τ sig :=
  ⟨unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub ..⟩
set_option maxRecDepth 16384 in
set_option maxHeartbeats 4000000 in
theorem ops0_fresh : (ops0 : List (HloOp τ sig (Elt F))).Forall fun op => op.fresh = ∅ := by
  simp only [List.Forall]; repeat' constructor

set_option maxRecDepth 16384 in
set_option maxHeartbeats 4000000 in
/-- The operations of statements 61 .. of @main, in order. -/
abbrev ops1 : List (HloOp τ sig (Elt F)) :=
  [ nullary main_c_15 (constantI S_ 32 300#32),
    unary main_c_15 main_v43 (broadcastInDim S2000000 ![] bcast_S_S2000000 : (⟨S_, .i32⟩ : BufTy).Contents (Elt F) → (⟨S2000000, .i32⟩ : BufTy).Contents (Elt F)),
    binary main_v14 main_v43 main_v44 (addi : (⟨S2000000, .i32⟩ : BufTy).Contents (Elt F) → (⟨S2000000, .i32⟩ : BufTy).Contents (Elt F) → (⟨S2000000, .i32⟩ : BufTy).Contents (Elt F)),
    ternary main_v42 main_v44 main_v14 main_v45 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v40 main_v46 (broadcastInDim S2000000x1 ![0] bcast_S2000000_S2000000x1_0 : (⟨S2000000, .i32⟩ : BufTy).Contents (Elt F) → (⟨S2000000x1, .i32⟩ : BufTy).Contents (Elt F)),
    unary main_v45 main_v47 (broadcastInDim S2000000x1 ![0] bcast_S2000000_S2000000x1_0 : (⟨S2000000, .i32⟩ : BufTy).Contents (Elt F) → (⟨S2000000x1, .i32⟩ : BufTy).Contents (Elt F)),
    binary main_v46 main_v47 main_v48 ((fun a b => concatenate S2000000x2 1 [⟨S2000000x1, a⟩, ⟨S2000000x1, b⟩] concatenates_S2000000x1_S2000000x1_S2000000x2_d1) : (⟨S2000000x1, .i32⟩ : BufTy).Contents (Elt F) → (⟨S2000000x1, .i32⟩ : BufTy).Contents (Elt F) → (⟨S2000000x2, .i32⟩ : BufTy).Contents (Elt F)),
    binary main_v1 main_v48 main_v49 ((fun x i => Host.gather gather_S16x300x300_S2000000x2_S16x2000000_0_12_n_n_12_1_1611 x i) : (⟨S16x300x300, .f32⟩ : BufTy).Contents (Elt F) → (⟨S2000000x2, .i32⟩ : BufTy).Contents (Elt F) → (⟨S16x2000000, .f32⟩ : BufTy).Contents (Elt F)),
    nullary main_c_16 (constantI S_ 32 0#32),
    unary main_c_16 main_v50 (broadcastInDim S2000000 ![] bcast_S_S2000000 : (⟨S_, .i32⟩ : BufTy).Contents (Elt F) → (⟨S2000000, .i32⟩ : BufTy).Contents (Elt F)),
    binary main_v29 main_v50 main_v51 (cmpi .slt : (⟨S2000000, .i32⟩ : BufTy).Contents (Elt F) → (⟨S2000000, .i32⟩ : BufTy).Contents (Elt F) → (⟨S2000000, .i1⟩ : BufTy).Contents (Elt F)),
    nullary main_c_17 (constantI S_ 32 300#32),
    unary main_c_17 main_v52 (broadcastInDim S2000000 ![] bcast_S_S2000000 : (⟨S_, .i32⟩ : BufTy).Contents (Elt F) → (⟨S2000000, .i32⟩ : BufTy).Contents (Elt F)),
    binary main_v29 main_v52 main_v53 (addi : (⟨S2000000, .i32⟩ : BufTy).Contents (Elt F) → (⟨S2000000, .i32⟩ : BufTy).Contents (Elt F) → (⟨S2000000, .i32⟩ : BufTy).Contents (Elt F)),
    ternary main_v51 main_v53 main_v29 main_v54 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_18 (constantI S_ 32 0#32),
    unary main_c_18 main_v55 (broadcastInDim S2000000 ![] bcast_S_S2000000 : (⟨S_, .i32⟩ : BufTy).Contents (Elt F) → (⟨S2000000, .i32⟩ : BufTy).Contents (Elt F)),
    binary main_v18 main_v55 main_v56 (cmpi .slt : (⟨S2000000, .i32⟩ : BufTy).Contents (Elt F) → (⟨S2000000, .i32⟩ : BufTy).Contents (Elt F) → (⟨S2000000, .i1⟩ : BufTy).Contents (Elt F)),
    nullary main_c_19 (constantI S_ 32 300#32),
    unary main_c_19 main_v57 (broadcastInDim S2000000 ![] bcast_S_S2000000 : (⟨S_, .i32⟩ : BufTy).Contents (Elt F) → (⟨S2000000, .i32⟩ : BufTy).Contents (Elt F)),
    binary main_v18 main_v57 main_v58 (addi : (⟨S2000000, .i32⟩ : BufTy).Contents (Elt F) → (⟨S2000000, .i32⟩ : BufTy).Contents (Elt F) → (⟨S2000000, .i32⟩ : BufTy).Contents (Elt F)),
    ternary main_v56 main_v58 main_v18 main_v59 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v54 main_v60 (broadcastInDim S2000000x1 ![0] bcast_S2000000_S2000000x1_0 : (⟨S2000000, .i32⟩ : BufTy).Contents (Elt F) → (⟨S2000000x1, .i32⟩ : BufTy).Contents (Elt F)),
    unary main_v59 main_v61 (broadcastInDim S2000000x1 ![0] bcast_S2000000_S2000000x1_0 : (⟨S2000000, .i32⟩ : BufTy).Contents (Elt F) → (⟨S2000000x1, .i32⟩ : BufTy).Contents (Elt F)),
    binary main_v60 main_v61 main_v62 ((fun a b => concatenate S2000000x2 1 [⟨S2000000x1, a⟩, ⟨S2000000x1, b⟩] concatenates_S2000000x1_S2000000x1_S2000000x2_d1) : (⟨S2000000x1, .i32⟩ : BufTy).Contents (Elt F) → (⟨S2000000x1, .i32⟩ : BufTy).Contents (Elt F) → (⟨S2000000x2, .i32⟩ : BufTy).Contents (Elt F)),
    binary main_v1 main_v62 main_v63 ((fun x i => Host.gather gather_S16x300x300_S2000000x2_S16x2000000_0_12_n_n_12_1_1611 x i) : (⟨S16x300x300, .f32⟩ : BufTy).Contents (Elt F) → (⟨S2000000x2, .i32⟩ : BufTy).Contents (Elt F) → (⟨S16x2000000, .f32⟩ : BufTy).Contents (Elt F)),
    nullary main_c_20 (constantI S_ 32 0#32),
    unary main_c_20 main_v64 (broadcastInDim S2000000 ![] bcast_S_S2000000 : (⟨S_, .i32⟩ : BufTy).Contents (Elt F) → (⟨S2000000, .i32⟩ : BufTy).Contents (Elt F)),
    binary main_v33 main_v64 main_v65 (cmpi .slt : (⟨S2000000, .i32⟩ : BufTy).Contents (Elt F) → (⟨S2000000, .i32⟩ : BufTy).Contents (Elt F) → (⟨S2000000, .i1⟩ : BufTy).Contents (Elt F)),
    nullary main_c_21 (constantI S_ 32 300#32),
    unary main_c_21 main_v66 (broadcastInDim S2000000 ![] bcast_S_S2000000 : (⟨S_, .i32⟩ : BufTy).Contents (Elt F) → (⟨S2000000, .i32⟩ : BufTy).Contents (Elt F)),
    binary main_v33 main_v66 main_v67 (addi : (⟨S2000000, .i32⟩ : BufTy).Contents (Elt F) → (⟨S2000000, .i32⟩ : BufTy).Contents (Elt F) → (⟨S2000000, .i32⟩ : BufTy).Contents (Elt F)),
    ternary main_v65 main_v67 main_v33 main_v68 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_22 (constantI S_ 32 0#32),
    unary main_c_22 main_v69 (broadcastInDim S2000000 ![] bcast_S_S2000000 : (⟨S_, .i32⟩ : BufTy).Contents (Elt F) → (⟨S2000000, .i32⟩ : BufTy).Contents (Elt F)),
    binary main_v14 main_v69 main_v70 (cmpi .slt : (⟨S2000000, .i32⟩ : BufTy).Contents (Elt F) → (⟨S2000000, .i32⟩ : BufTy).Contents (Elt F) → (⟨S2000000, .i1⟩ : BufTy).Contents (Elt F)),
    nullary main_c_23 (constantI S_ 32 300#32),
    unary main_c_23 main_v71 (broadcastInDim S2000000 ![] bcast_S_S2000000 : (⟨S_, .i32⟩ : BufTy).Contents (Elt F) → (⟨S2000000, .i32⟩ : BufTy).Contents (Elt F)),
    binary main_v14 main_v71 main_v72 (addi : (⟨S2000000, .i32⟩ : BufTy).Contents (Elt F) → (⟨S2000000, .i32⟩ : BufTy).Contents (Elt F) → (⟨S2000000, .i32⟩ : BufTy).Contents (Elt F)),
    ternary main_v70 main_v72 main_v14 main_v73 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v68 main_v74 (broadcastInDim S2000000x1 ![0] bcast_S2000000_S2000000x1_0 : (⟨S2000000, .i32⟩ : BufTy).Contents (Elt F) → (⟨S2000000x1, .i32⟩ : BufTy).Contents (Elt F)),
    unary main_v73 main_v75 (broadcastInDim S2000000x1 ![0] bcast_S2000000_S2000000x1_0 : (⟨S2000000, .i32⟩ : BufTy).Contents (Elt F) → (⟨S2000000x1, .i32⟩ : BufTy).Contents (Elt F)),
    binary main_v74 main_v75 main_v76 ((fun a b => concatenate S2000000x2 1 [⟨S2000000x1, a⟩, ⟨S2000000x1, b⟩] concatenates_S2000000x1_S2000000x1_S2000000x2_d1) : (⟨S2000000x1, .i32⟩ : BufTy).Contents (Elt F) → (⟨S2000000x1, .i32⟩ : BufTy).Contents (Elt F) → (⟨S2000000x2, .i32⟩ : BufTy).Contents (Elt F)),
    binary main_v1 main_v76 main_v77 ((fun x i => Host.gather gather_S16x300x300_S2000000x2_S16x2000000_0_12_n_n_12_1_1611 x i) : (⟨S16x300x300, .f32⟩ : BufTy).Contents (Elt F) → (⟨S2000000x2, .i32⟩ : BufTy).Contents (Elt F) → (⟨S16x2000000, .f32⟩ : BufTy).Contents (Elt F)),
    nullary main_c_24 (constantI S_ 32 0#32),
    unary main_c_24 main_v78 (broadcastInDim S2000000 ![] bcast_S_S2000000 : (⟨S_, .i32⟩ : BufTy).Contents (Elt F) → (⟨S2000000, .i32⟩ : BufTy).Contents (Elt F)),
    binary main_v33 main_v78 main_v79 (cmpi .slt : (⟨S2000000, .i32⟩ : BufTy).Contents (Elt F) → (⟨S2000000, .i32⟩ : BufTy).Contents (Elt F) → (⟨S2000000, .i1⟩ : BufTy).Contents (Elt F)),
    nullary main_c_25 (constantI S_ 32 300#32),
    unary main_c_25 main_v80 (broadcastInDim S2000000 ![] bcast_S_S2000000 : (⟨S_, .i32⟩ : BufTy).Contents (Elt F) → (⟨S2000000, .i32⟩ : BufTy).Contents (Elt F)),
    binary main_v33 main_v80 main_v81 (addi : (⟨S2000000, .i32⟩ : BufTy).Contents (Elt F) → (⟨S2000000, .i32⟩ : BufTy).Contents (Elt F) → (⟨S2000000, .i32⟩ : BufTy).Contents (Elt F)),
    ternary main_v79 main_v81 main_v33 main_v82 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_26 (constantI S_ 32 0#32),
    unary main_c_26 main_v83 (broadcastInDim S2000000 ![] bcast_S_S2000000 : (⟨S_, .i32⟩ : BufTy).Contents (Elt F) → (⟨S2000000, .i32⟩ : BufTy).Contents (Elt F)),
    binary main_v18 main_v83 main_v84 (cmpi .slt : (⟨S2000000, .i32⟩ : BufTy).Contents (Elt F) → (⟨S2000000, .i32⟩ : BufTy).Contents (Elt F) → (⟨S2000000, .i1⟩ : BufTy).Contents (Elt F)),
    nullary main_c_27 (constantI S_ 32 300#32),
    unary main_c_27 main_v85 (broadcastInDim S2000000 ![] bcast_S_S2000000 : (⟨S_, .i32⟩ : BufTy).Contents (Elt F) → (⟨S2000000, .i32⟩ : BufTy).Contents (Elt F)),
    binary main_v18 main_v85 main_v86 (addi : (⟨S2000000, .i32⟩ : BufTy).Contents (Elt F) → (⟨S2000000, .i32⟩ : BufTy).Contents (Elt F) → (⟨S2000000, .i32⟩ : BufTy).Contents (Elt F)),
    ternary main_v84 main_v86 main_v18 main_v87 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v82 main_v88 (broadcastInDim S2000000x1 ![0] bcast_S2000000_S2000000x1_0 : (⟨S2000000, .i32⟩ : BufTy).Contents (Elt F) → (⟨S2000000x1, .i32⟩ : BufTy).Contents (Elt F)),
    unary main_v87 main_v89 (broadcastInDim S2000000x1 ![0] bcast_S2000000_S2000000x1_0 : (⟨S2000000, .i32⟩ : BufTy).Contents (Elt F) → (⟨S2000000x1, .i32⟩ : BufTy).Contents (Elt F)) ]
set_option maxRecDepth 16384 in
set_option maxHeartbeats 4000000 in
theorem part1_eq (c : Dev nD) : main_part1 (F := F) c = seq ops1 := rfl
set_option maxRecDepth 16384 in
theorem ops1_sub : (ops1 : List (HloOp τ sig (Elt F))).Forall fun op => op.bufs ⊆ tcRefs τ sig :=
  ⟨nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub ..⟩
set_option maxRecDepth 16384 in
set_option maxHeartbeats 4000000 in
theorem ops1_fresh : (ops1 : List (HloOp τ sig (Elt F))).Forall fun op => op.fresh = ∅ := by
  simp only [List.Forall]; repeat' constructor

set_option maxRecDepth 16384 in
set_option maxHeartbeats 4000000 in
/-- The operations of statements 121 .. of @main, in order. -/
abbrev ops2 : List (HloOp τ sig (Elt F)) :=
  [ binary main_v88 main_v89 main_v90 ((fun a b => concatenate S2000000x2 1 [⟨S2000000x1, a⟩, ⟨S2000000x1, b⟩] concatenates_S2000000x1_S2000000x1_S2000000x2_d1) : (⟨S2000000x1, .i32⟩ : BufTy).Contents (Elt F) → (⟨S2000000x1, .i32⟩ : BufTy).Contents (Elt F) → (⟨S2000000x2, .i32⟩ : BufTy).Contents (Elt F)),
    binary main_v1 main_v90 main_v91 ((fun x i => Host.gather gather_S16x300x300_S2000000x2_S16x2000000_0_12_n_n_12_1_1611 x i) : (⟨S16x300x300, .f32⟩ : BufTy).Contents (Elt F) → (⟨S2000000x2, .i32⟩ : BufTy).Contents (Elt F) → (⟨S16x2000000, .f32⟩ : BufTy).Contents (Elt F)),
    nullary main_cst_28 (constant S_ .f32 0x3F800000#32),
    unary main_cst_28 main_v92 (broadcastInDim S2000000 ![] bcast_S_S2000000 : (⟨S_, .f32⟩ : BufTy).Contents (Elt F) → (⟨S2000000, .f32⟩ : BufTy).Contents (Elt F)),
    binary main_v92 main_v20 main_v93 (subf : (⟨S2000000, .f32⟩ : BufTy).Contents (Elt F) → (⟨S2000000, .f32⟩ : BufTy).Contents (Elt F) → (⟨S2000000, .f32⟩ : BufTy).Contents (Elt F)),
    unary main_v93 main_v94 (broadcastInDim S1x2000000 ![1] bcast_S2000000_S1x2000000_1 : (⟨S2000000, .f32⟩ : BufTy).Contents (Elt F) → (⟨S1x2000000, .f32⟩ : BufTy).Contents (Elt F)),
    unary main_v94 main_v95 (broadcastInDim S16x2000000 ![0, 1] bcast_S1x2000000_S16x2000000_0_1 : (⟨S1x2000000, .f32⟩ : BufTy).Contents (Elt F) → (⟨S16x2000000, .f32⟩ : BufTy).Contents (Elt F)),
    binary main_v49 main_v95 main_v96 (mulf : (⟨S16x2000000, .f32⟩ : BufTy).Contents (Elt F) → (⟨S16x2000000, .f32⟩ : BufTy).Contents (Elt F) → (⟨S16x2000000, .f32⟩ : BufTy).Contents (Elt F)),
    unary main_v20 main_v97 (broadcastInDim S1x2000000 ![1] bcast_S2000000_S1x2000000_1 : (⟨S2000000, .f32⟩ : BufTy).Contents (Elt F) → (⟨S1x2000000, .f32⟩ : BufTy).Contents (Elt F)),
    unary main_v97 main_v98 (broadcastInDim S16x2000000 ![0, 1] bcast_S1x2000000_S16x2000000_0_1 : (⟨S1x2000000, .f32⟩ : BufTy).Contents (Elt F) → (⟨S16x2000000, .f32⟩ : BufTy).Contents (Elt F)),
    binary main_v63 main_v98 main_v99 (mulf : (⟨S16x2000000, .f32⟩ : BufTy).Contents (Elt F) → (⟨S16x2000000, .f32⟩ : BufTy).Contents (Elt F) → (⟨S16x2000000, .f32⟩ : BufTy).Contents (Elt F)),
    binary main_v96 main_v99 main_v100 (addf : (⟨S16x2000000, .f32⟩ : BufTy).Contents (Elt F) → (⟨S16x2000000, .f32⟩ : BufTy).Contents (Elt F) → (⟨S16x2000000, .f32⟩ : BufTy).Contents (Elt F)),
    nullary main_cst_29 (constant S_ .f32 0x3F800000#32),
    unary main_cst_29 main_v101 (broadcastInDim S2000000 ![] bcast_S_S2000000 : (⟨S_, .f32⟩ : BufTy).Contents (Elt F) → (⟨S2000000, .f32⟩ : BufTy).Contents (Elt F)),
    binary main_v101 main_v35 main_v102 (subf : (⟨S2000000, .f32⟩ : BufTy).Contents (Elt F) → (⟨S2000000, .f32⟩ : BufTy).Contents (Elt F) → (⟨S2000000, .f32⟩ : BufTy).Contents (Elt F)),
    unary main_v102 main_v103 (broadcastInDim S1x2000000 ![1] bcast_S2000000_S1x2000000_1 : (⟨S2000000, .f32⟩ : BufTy).Contents (Elt F) → (⟨S1x2000000, .f32⟩ : BufTy).Contents (Elt F)),
    unary main_v103 main_v104 (broadcastInDim S16x2000000 ![0, 1] bcast_S1x2000000_S16x2000000_0_1 : (⟨S1x2000000, .f32⟩ : BufTy).Contents (Elt F) → (⟨S16x2000000, .f32⟩ : BufTy).Contents (Elt F)),
    binary main_v100 main_v104 main_v105 (mulf : (⟨S16x2000000, .f32⟩ : BufTy).Contents (Elt F) → (⟨S16x2000000, .f32⟩ : BufTy).Contents (Elt F) → (⟨S16x2000000, .f32⟩ : BufTy).Contents (Elt F)),
    nullary main_cst_30 (constant S_ .f32 0x3F800000#32),
    unary main_cst_30 main_v106 (broadcastInDim S2000000 ![] bcast_S_S2000000 : (⟨S_, .f32⟩ : BufTy).Contents (Elt F) → (⟨S2000000, .f32⟩ : BufTy).Contents (Elt F)),
    binary main_v106 main_v20 main_v107 (subf : (⟨S2000000, .f32⟩ : BufTy).Contents (Elt F) → (⟨S2000000, .f32⟩ : BufTy).Contents (Elt F) → (⟨S2000000, .f32⟩ : BufTy).Contents (Elt F)),
    unary main_v107 main_v108 (broadcastInDim S1x2000000 ![1] bcast_S2000000_S1x2000000_1 : (⟨S2000000, .f32⟩ : BufTy).Contents (Elt F) → (⟨S1x2000000, .f32⟩ : BufTy).Contents (Elt F)),
    unary main_v108 main_v109 (broadcastInDim S16x2000000 ![0, 1] bcast_S1x2000000_S16x2000000_0_1 : (⟨S1x2000000, .f32⟩ : BufTy).Contents (Elt F) → (⟨S16x2000000, .f32⟩ : BufTy).Contents (Elt F)),
    binary main_v77 main_v109 main_v110 (mulf : (⟨S16x2000000, .f32⟩ : BufTy).Contents (Elt F) → (⟨S16x2000000, .f32⟩ : BufTy).Contents (Elt F) → (⟨S16x2000000, .f32⟩ : BufTy).Contents (Elt F)),
    unary main_v20 main_v111 (broadcastInDim S1x2000000 ![1] bcast_S2000000_S1x2000000_1 : (⟨S2000000, .f32⟩ : BufTy).Contents (Elt F) → (⟨S1x2000000, .f32⟩ : BufTy).Contents (Elt F)),
    unary main_v111 main_v112 (broadcastInDim S16x2000000 ![0, 1] bcast_S1x2000000_S16x2000000_0_1 : (⟨S1x2000000, .f32⟩ : BufTy).Contents (Elt F) → (⟨S16x2000000, .f32⟩ : BufTy).Contents (Elt F)),
    binary main_v91 main_v112 main_v113 (mulf : (⟨S16x2000000, .f32⟩ : BufTy).Contents (Elt F) → (⟨S16x2000000, .f32⟩ : BufTy).Contents (Elt F) → (⟨S16x2000000, .f32⟩ : BufTy).Contents (Elt F)),
    binary main_v110 main_v113 main_v114 (addf : (⟨S16x2000000, .f32⟩ : BufTy).Contents (Elt F) → (⟨S16x2000000, .f32⟩ : BufTy).Contents (Elt F) → (⟨S16x2000000, .f32⟩ : BufTy).Contents (Elt F)),
    unary main_v35 main_v115 (broadcastInDim S1x2000000 ![1] bcast_S2000000_S1x2000000_1 : (⟨S2000000, .f32⟩ : BufTy).Contents (Elt F) → (⟨S1x2000000, .f32⟩ : BufTy).Contents (Elt F)),
    unary main_v115 main_v116 (broadcastInDim S16x2000000 ![0, 1] bcast_S1x2000000_S16x2000000_0_1 : (⟨S1x2000000, .f32⟩ : BufTy).Contents (Elt F) → (⟨S16x2000000, .f32⟩ : BufTy).Contents (Elt F)),
    binary main_v114 main_v116 main_v117 (mulf : (⟨S16x2000000, .f32⟩ : BufTy).Contents (Elt F) → (⟨S16x2000000, .f32⟩ : BufTy).Contents (Elt F) → (⟨S16x2000000, .f32⟩ : BufTy).Contents (Elt F)),
    binary main_v105 main_v117 main_v118 (addf : (⟨S16x2000000, .f32⟩ : BufTy).Contents (Elt F) → (⟨S16x2000000, .f32⟩ : BufTy).Contents (Elt F) → (⟨S16x2000000, .f32⟩ : BufTy).Contents (Elt F)),
    unary main_arg2 main_v119 ((extractStridedSlice S1x16x300 ![0, 0, 0] · slices_S3x16x300_S1x16x300_0_0_0) : (⟨S3x16x300, .f32⟩ : BufTy).Contents (Elt F) → (⟨S1x16x300, .f32⟩ : BufTy).Contents (Elt F)),
    reshape main_v119 main_v120 rfl shapeCasts_S1x16x300_S16x300,
    unary main_arg0 main_v121 ((extractStridedSlice S2000000x1 ![0, 0] · slices_S2000000x3_S2000000x1_0_0) : (⟨S2000000x3, .f32⟩ : BufTy).Contents (Elt F) → (⟨S2000000x1, .f32⟩ : BufTy).Contents (Elt F)),
    reshape main_v121 main_v122 rfl shapeCasts_S2000000x1_S2000000,
    nullary main_cst_31 (constant S_ .f32 0x3F800000#32),
    unary main_cst_31 main_v123 (broadcastInDim S2000000 ![] bcast_S_S2000000 : (⟨S_, .f32⟩ : BufTy).Contents (Elt F) → (⟨S2000000, .f32⟩ : BufTy).Contents (Elt F)),
    binary main_v122 main_v123 main_v124 (addf : (⟨S2000000, .f32⟩ : BufTy).Contents (Elt F) → (⟨S2000000, .f32⟩ : BufTy).Contents (Elt F) → (⟨S2000000, .f32⟩ : BufTy).Contents (Elt F)),
    nullary main_cst_32 (constant S_ .f32 0x3F000000#32),
    unary main_cst_32 main_v125 (broadcastInDim S2000000 ![] bcast_S_S2000000 : (⟨S_, .f32⟩ : BufTy).Contents (Elt F) → (⟨S2000000, .f32⟩ : BufTy).Contents (Elt F)),
    binary main_v124 main_v125 main_v126 (mulf : (⟨S2000000, .f32⟩ : BufTy).Contents (Elt F) → (⟨S2000000, .f32⟩ : BufTy).Contents (Elt F) → (⟨S2000000, .f32⟩ : BufTy).Contents (Elt F)),
    nullary main_cst_33 (constant S_ .f32 0x43958000#32),
    unary main_cst_33 main_v127 (broadcastInDim S2000000 ![] bcast_S_S2000000 : (⟨S_, .f32⟩ : BufTy).Contents (Elt F) → (⟨S2000000, .f32⟩ : BufTy).Contents (Elt F)),
    binary main_v126 main_v127 main_v128 (mulf : (⟨S2000000, .f32⟩ : BufTy).Contents (Elt F) → (⟨S2000000, .f32⟩ : BufTy).Contents (Elt F) → (⟨S2000000, .f32⟩ : BufTy).Contents (Elt F)),
    unary main_v128 main_v129 (Host.floor : (⟨S2000000, .f32⟩ : BufTy).Contents (Elt F) → (⟨S2000000, .f32⟩ : BufTy).Contents (Elt F)),
    nullary main_c_34 (constantI S_ 32 0#32),
    nullary main_c_35 (constantI S_ 32 299#32),
    TRef.unary (TRef.of (T := ⟨S_, .i32⟩) main_c_34) (TRef.of (T := ⟨S_, .f32⟩) main_call2_v0) (sitofp .f32),
    TRef.unary (TRef.of (T := ⟨S_, .f32⟩) main_call2_v0) (TRef.of (T := ⟨S2000000, .f32⟩) main_call2_v1) (broadcastInDim S2000000 ![] bcast_S_S2000000),
    TRef.binary (TRef.of (T := ⟨S2000000, .f32⟩) main_call2_v1) (TRef.of (T := ⟨S2000000, .f32⟩) main_v129) (TRef.of (T := ⟨S2000000, .f32⟩) main_call2_v2) maximumf,
    TRef.unary (TRef.of (T := ⟨S_, .i32⟩) main_c_35) (TRef.of (T := ⟨S_, .f32⟩) main_call2_v3) (sitofp .f32),
    TRef.unary (TRef.of (T := ⟨S_, .f32⟩) main_call2_v3) (TRef.of (T := ⟨S2000000, .f32⟩) main_call2_v4) (broadcastInDim S2000000 ![] bcast_S_S2000000),
    TRef.binary (TRef.of (T := ⟨S2000000, .f32⟩) main_call2_v4) (TRef.of (T := ⟨S2000000, .f32⟩) main_call2_v2) (TRef.of (T := ⟨S2000000, .f32⟩) main_v130) minimumf,
    unary main_v130 main_v131 (fptosi 32 : (⟨S2000000, .f32⟩ : BufTy).Contents (Elt F) → (⟨S2000000, .i32⟩ : BufTy).Contents (Elt F)),
    nullary main_c_36 (constantI S_ 32 1#32),
    unary main_c_36 main_v132 (broadcastInDim S2000000 ![] bcast_S_S2000000 : (⟨S_, .i32⟩ : BufTy).Contents (Elt F) → (⟨S2000000, .i32⟩ : BufTy).Contents (Elt F)),
    binary main_v131 main_v132 main_v133 (addi : (⟨S2000000, .i32⟩ : BufTy).Contents (Elt F) → (⟨S2000000, .i32⟩ : BufTy).Contents (Elt F) → (⟨S2000000, .i32⟩ : BufTy).Contents (Elt F)),
    nullary main_c_37 (constantI S_ 32 299#32),
    unary main_c_37 main_v134 (broadcastInDim S2000000 ![] bcast_S_S2000000 : (⟨S_, .i32⟩ : BufTy).Contents (Elt F) → (⟨S2000000, .i32⟩ : BufTy).Contents (Elt F)),
    binary main_v133 main_v134 main_v135 (minsi : (⟨S2000000, .i32⟩ : BufTy).Contents (Elt F) → (⟨S2000000, .i32⟩ : BufTy).Contents (Elt F) → (⟨S2000000, .i32⟩ : BufTy).Contents (Elt F)),
    unary main_v131 main_v136 (sitofp .f32 : (⟨S2000000, .i32⟩ : BufTy).Contents (Elt F) → (⟨S2000000, .f32⟩ : BufTy).Contents (Elt F)),
    binary main_v128 main_v136 main_v137 (subf : (⟨S2000000, .f32⟩ : BufTy).Contents (Elt F) → (⟨S2000000, .f32⟩ : BufTy).Contents (Elt F) → (⟨S2000000, .f32⟩ : BufTy).Contents (Elt F)),
    nullary main_c_38 (constantI S_ 32 0#32),
    unary main_c_38 main_v138 (broadcastInDim S2000000 ![] bcast_S_S2000000 : (⟨S_, .i32⟩ : BufTy).Contents (Elt F) → (⟨S2000000, .i32⟩ : BufTy).Contents (Elt F)) ]
set_option maxRecDepth 16384 in
set_option maxHeartbeats 4000000 in
theorem part2_eq (c : Dev nD) : main_part2 (F := F) c = seq ops2 := rfl
set_option maxRecDepth 16384 in
theorem ops2_sub : (ops2 : List (HloOp τ sig (Elt F))).Forall fun op => op.bufs ⊆ tcRefs τ sig :=
  ⟨binary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., unary_bufs_sub .., binary_bufs_sub .., nullary_bufs_sub .., unary_bufs_sub ..⟩
set_option maxRecDepth 16384 in
set_option maxHeartbeats 4000000 in
theorem ops2_fresh : (ops2 : List (HloOp τ sig (Elt F))).Forall fun op => op.fresh = ∅ := by
  simp only [List.Forall]; repeat' constructor

set_option maxRecDepth 16384 in
set_option maxHeartbeats 4000000 in
/-- The operations of statements 181 .. of @main, in order. -/
abbrev ops3 : List (HloOp τ sig (Elt F)) :=
  [ binary main_v131 main_v138 main_v139 (cmpi .slt : (⟨S2000000, .i32⟩ : BufTy).Contents (Elt F) → (⟨S2000000, .i32⟩ : BufTy).Contents (Elt F) → (⟨S2000000, .i1⟩ : BufTy).Contents (Elt F)),
    nullary main_c_39 (constantI S_ 32 300#32),
    unary main_c_39 main_v140 (broadcastInDim S2000000 ![] bcast_S_S2000000 : (⟨S_, .i32⟩ : BufTy).Contents (Elt F) → (⟨S2000000, .i32⟩ : BufTy).Contents (Elt F)),
    binary main_v131 main_v140 main_v141 (addi : (⟨S2000000, .i32⟩ : BufTy).Contents (Elt F) → (⟨S2000000, .i32⟩ : BufTy).Contents (Elt F) → (⟨S2000000, .i32⟩ : BufTy).Contents (Elt F)),
    ternary main_v139 main_v141 main_v131 main_v142 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v142 main_v143 (broadcastInDim S2000000x1 ![0] bcast_S2000000_S2000000x1_0 : (⟨S2000000, .i32⟩ : BufTy).Contents (Elt F) → (⟨S2000000x1, .i32⟩ : BufTy).Contents (Elt F)),
    binary main_v120 main_v143 main_v144 ((fun x i => Host.gather gather_S16x300_S2000000x1_S16x2000000_0_1_n_n_1_1_161 x i) : (⟨S16x300, .f32⟩ : BufTy).Contents (Elt F) → (⟨S2000000x1, .i32⟩ : BufTy).Contents (Elt F) → (⟨S16x2000000, .f32⟩ : BufTy).Contents (Elt F)),
    nullary main_cst_40 (constant S_ .f32 0x3F800000#32),
    unary main_cst_40 main_v145 (broadcastInDim S2000000 ![] bcast_S_S2000000 : (⟨S_, .f32⟩ : BufTy).Contents (Elt F) → (⟨S2000000, .f32⟩ : BufTy).Contents (Elt F)),
    binary main_v145 main_v137 main_v146 (subf : (⟨S2000000, .f32⟩ : BufTy).Contents (Elt F) → (⟨S2000000, .f32⟩ : BufTy).Contents (Elt F) → (⟨S2000000, .f32⟩ : BufTy).Contents (Elt F)),
    unary main_v146 main_v147 (broadcastInDim S1x2000000 ![1] bcast_S2000000_S1x2000000_1 : (⟨S2000000, .f32⟩ : BufTy).Contents (Elt F) → (⟨S1x2000000, .f32⟩ : BufTy).Contents (Elt F)),
    unary main_v147 main_v148 (broadcastInDim S16x2000000 ![0, 1] bcast_S1x2000000_S16x2000000_0_1 : (⟨S1x2000000, .f32⟩ : BufTy).Contents (Elt F) → (⟨S16x2000000, .f32⟩ : BufTy).Contents (Elt F)),
    binary main_v144 main_v148 main_v149 (mulf : (⟨S16x2000000, .f32⟩ : BufTy).Contents (Elt F) → (⟨S16x2000000, .f32⟩ : BufTy).Contents (Elt F) → (⟨S16x2000000, .f32⟩ : BufTy).Contents (Elt F)),
    nullary main_c_41 (constantI S_ 32 0#32),
    unary main_c_41 main_v150 (broadcastInDim S2000000 ![] bcast_S_S2000000 : (⟨S_, .i32⟩ : BufTy).Contents (Elt F) → (⟨S2000000, .i32⟩ : BufTy).Contents (Elt F)),
    binary main_v135 main_v150 main_v151 (cmpi .slt : (⟨S2000000, .i32⟩ : BufTy).Contents (Elt F) → (⟨S2000000, .i32⟩ : BufTy).Contents (Elt F) → (⟨S2000000, .i1⟩ : BufTy).Contents (Elt F)),
    nullary main_c_42 (constantI S_ 32 300#32),
    unary main_c_42 main_v152 (broadcastInDim S2000000 ![] bcast_S_S2000000 : (⟨S_, .i32⟩ : BufTy).Contents (Elt F) → (⟨S2000000, .i32⟩ : BufTy).Contents (Elt F)),
    binary main_v135 main_v152 main_v153 (addi : (⟨S2000000, .i32⟩ : BufTy).Contents (Elt F) → (⟨S2000000, .i32⟩ : BufTy).Contents (Elt F) → (⟨S2000000, .i32⟩ : BufTy).Contents (Elt F)),
    ternary main_v151 main_v153 main_v135 main_v154 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v154 main_v155 (broadcastInDim S2000000x1 ![0] bcast_S2000000_S2000000x1_0 : (⟨S2000000, .i32⟩ : BufTy).Contents (Elt F) → (⟨S2000000x1, .i32⟩ : BufTy).Contents (Elt F)),
    binary main_v120 main_v155 main_v156 ((fun x i => Host.gather gather_S16x300_S2000000x1_S16x2000000_0_1_n_n_1_1_161 x i) : (⟨S16x300, .f32⟩ : BufTy).Contents (Elt F) → (⟨S2000000x1, .i32⟩ : BufTy).Contents (Elt F) → (⟨S16x2000000, .f32⟩ : BufTy).Contents (Elt F)),
    unary main_v137 main_v157 (broadcastInDim S1x2000000 ![1] bcast_S2000000_S1x2000000_1 : (⟨S2000000, .f32⟩ : BufTy).Contents (Elt F) → (⟨S1x2000000, .f32⟩ : BufTy).Contents (Elt F)),
    unary main_v157 main_v158 (broadcastInDim S16x2000000 ![0, 1] bcast_S1x2000000_S16x2000000_0_1 : (⟨S1x2000000, .f32⟩ : BufTy).Contents (Elt F) → (⟨S16x2000000, .f32⟩ : BufTy).Contents (Elt F)),
    binary main_v156 main_v158 main_v159 (mulf : (⟨S16x2000000, .f32⟩ : BufTy).Contents (Elt F) → (⟨S16x2000000, .f32⟩ : BufTy).Contents (Elt F) → (⟨S16x2000000, .f32⟩ : BufTy).Contents (Elt F)),
    binary main_v149 main_v159 main_v160 (addf : (⟨S16x2000000, .f32⟩ : BufTy).Contents (Elt F) → (⟨S16x2000000, .f32⟩ : BufTy).Contents (Elt F) → (⟨S16x2000000, .f32⟩ : BufTy).Contents (Elt F)),
    binary main_v118 main_v160 main_v161 (mulf : (⟨S16x2000000, .f32⟩ : BufTy).Contents (Elt F) → (⟨S16x2000000, .f32⟩ : BufTy).Contents (Elt F) → (⟨S16x2000000, .f32⟩ : BufTy).Contents (Elt F)),
    unary main_arg1 main_v162 ((extractStridedSlice S1x16x300x300 ![1, 0, 0, 0] · slices_S3x16x300x300_S1x16x300x300_1_0_0_0) : (⟨S3x16x300x300, .f32⟩ : BufTy).Contents (Elt F) → (⟨S1x16x300x300, .f32⟩ : BufTy).Contents (Elt F)),
    reshape main_v162 main_v163 rfl shapeCasts_S1x16x300x300_S16x300x300,
    unary main_arg0 main_v164 ((extractStridedSlice S2000000x1 ![0, 0] · slices_S2000000x3_S2000000x1_0_0) : (⟨S2000000x3, .f32⟩ : BufTy).Contents (Elt F) → (⟨S2000000x1, .f32⟩ : BufTy).Contents (Elt F)),
    reshape main_v164 main_v165 rfl shapeCasts_S2000000x1_S2000000,
    unary main_arg0 main_v166 ((extractStridedSlice S2000000x1 ![0, 2] · slices_S2000000x3_S2000000x1_0_2) : (⟨S2000000x3, .f32⟩ : BufTy).Contents (Elt F) → (⟨S2000000x1, .f32⟩ : BufTy).Contents (Elt F)),
    reshape main_v166 main_v167 rfl shapeCasts_S2000000x1_S2000000,
    nullary main_cst_43 (constant S_ .f32 0x3F800000#32),
    unary main_cst_43 main_v168 (broadcastInDim S2000000 ![] bcast_S_S2000000 : (⟨S_, .f32⟩ : BufTy).Contents (Elt F) → (⟨S2000000, .f32⟩ : BufTy).Contents (Elt F)),
    binary main_v165 main_v168 main_v169 (addf : (⟨S2000000, .f32⟩ : BufTy).Contents (Elt F) → (⟨S2000000, .f32⟩ : BufTy).Contents (Elt F) → (⟨S2000000, .f32⟩ : BufTy).Contents (Elt F)),
    nullary main_cst_44 (constant S_ .f32 0x3F000000#32),
    unary main_cst_44 main_v170 (broadcastInDim S2000000 ![] bcast_S_S2000000 : (⟨S_, .f32⟩ : BufTy).Contents (Elt F) → (⟨S2000000, .f32⟩ : BufTy).Contents (Elt F)),
    binary main_v169 main_v170 main_v171 (mulf : (⟨S2000000, .f32⟩ : BufTy).Contents (Elt F) → (⟨S2000000, .f32⟩ : BufTy).Contents (Elt F) → (⟨S2000000, .f32⟩ : BufTy).Contents (Elt F)),
    nullary main_cst_45 (constant S_ .f32 0x43958000#32),
    unary main_cst_45 main_v172 (broadcastInDim S2000000 ![] bcast_S_S2000000 : (⟨S_, .f32⟩ : BufTy).Contents (Elt F) → (⟨S2000000, .f32⟩ : BufTy).Contents (Elt F)),
    binary main_v171 main_v172 main_v173 (mulf : (⟨S2000000, .f32⟩ : BufTy).Contents (Elt F) → (⟨S2000000, .f32⟩ : BufTy).Contents (Elt F) → (⟨S2000000, .f32⟩ : BufTy).Contents (Elt F)),
    unary main_v173 main_v174 (Host.floor : (⟨S2000000, .f32⟩ : BufTy).Contents (Elt F) → (⟨S2000000, .f32⟩ : BufTy).Contents (Elt F)),
    nullary main_c_46 (constantI S_ 32 0#32),
    nullary main_c_47 (constantI S_ 32 299#32),
    TRef.unary (TRef.of (T := ⟨S_, .i32⟩) main_c_46) (TRef.of (T := ⟨S_, .f32⟩) main_call3_v0) (sitofp .f32),
    TRef.unary (TRef.of (T := ⟨S_, .f32⟩) main_call3_v0) (TRef.of (T := ⟨S2000000, .f32⟩) main_call3_v1) (broadcastInDim S2000000 ![] bcast_S_S2000000),
    TRef.binary (TRef.of (T := ⟨S2000000, .f32⟩) main_call3_v1) (TRef.of (T := ⟨S2000000, .f32⟩) main_v174) (TRef.of (T := ⟨S2000000, .f32⟩) main_call3_v2) maximumf,
    TRef.unary (TRef.of (T := ⟨S_, .i32⟩) main_c_47) (TRef.of (T := ⟨S_, .f32⟩) main_call3_v3) (sitofp .f32),
    TRef.unary (TRef.of (T := ⟨S_, .f32⟩) main_call3_v3) (TRef.of (T := ⟨S2000000, .f32⟩) main_call3_v4) (broadcastInDim S2000000 ![] bcast_S_S2000000),
    TRef.binary (TRef.of (T := ⟨S2000000, .f32⟩) main_call3_v4) (TRef.of (T := ⟨S2000000, .f32⟩) main_call3_v2) (TRef.of (T := ⟨S2000000, .f32⟩) main_v175) minimumf,
    unary main_v175 main_v176 (fptosi 32 : (⟨S2000000, .f32⟩ : BufTy).Contents (Elt F) → (⟨S2000000, .i32⟩ : BufTy).Contents (Elt F)),
    nullary main_c_48 (constantI S_ 32 1#32),
    unary main_c_48 main_v177 (broadcastInDim S2000000 ![] bcast_S_S2000000 : (⟨S_, .i32⟩ : BufTy).Contents (Elt F) → (⟨S2000000, .i32⟩ : BufTy).Contents (Elt F)),
    binary main_v176 main_v177 main_v178 (addi : (⟨S2000000, .i32⟩ : BufTy).Contents (Elt F) → (⟨S2000000, .i32⟩ : BufTy).Contents (Elt F) → (⟨S2000000, .i32⟩ : BufTy).Contents (Elt F)),
    nullary main_c_49 (constantI S_ 32 299#32),
    unary main_c_49 main_v179 (broadcastInDim S2000000 ![] bcast_S_S2000000 : (⟨S_, .i32⟩ : BufTy).Contents (Elt F) → (⟨S2000000, .i32⟩ : BufTy).Contents (Elt F)),
    binary main_v178 main_v179 main_v180 (minsi : (⟨S2000000, .i32⟩ : BufTy).Contents (Elt F) → (⟨S2000000, .i32⟩ : BufTy).Contents (Elt F) → (⟨S2000000, .i32⟩ : BufTy).Contents (Elt F)),
    unary main_v176 main_v181 (sitofp .f32 : (⟨S2000000, .i32⟩ : BufTy).Contents (Elt F) → (⟨S2000000, .f32⟩ : BufTy).Contents (Elt F)),
    binary main_v173 main_v181 main_v182 (subf : (⟨S2000000, .f32⟩ : BufTy).Contents (Elt F) → (⟨S2000000, .f32⟩ : BufTy).Contents (Elt F) → (⟨S2000000, .f32⟩ : BufTy).Contents (Elt F)),
    nullary main_cst_50 (constant S_ .f32 0x3F800000#32),
    unary main_cst_50 main_v183 (broadcastInDim S2000000 ![] bcast_S_S2000000 : (⟨S_, .f32⟩ : BufTy).Contents (Elt F) → (⟨S2000000, .f32⟩ : BufTy).Contents (Elt F)),
    binary main_v167 main_v183 main_v184 (addf : (⟨S2000000, .f32⟩ : BufTy).Contents (Elt F) → (⟨S2000000, .f32⟩ : BufTy).Contents (Elt F) → (⟨S2000000, .f32⟩ : BufTy).Contents (Elt F)),
    nullary main_cst_51 (constant S_ .f32 0x3F000000#32),
    unary main_cst_51 main_v185 (broadcastInDim S2000000 ![] bcast_S_S2000000 : (⟨S_, .f32⟩ : BufTy).Contents (Elt F) → (⟨S2000000, .f32⟩ : BufTy).Contents (Elt F)) ]
set_option maxRecDepth 16384 in
set_option maxHeartbeats 4000000 in
theorem part3_eq (c : Dev nD) : main_part3 (F := F) c = seq ops3 := rfl
set_option maxRecDepth 16384 in
theorem ops3_sub : (ops3 : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., binary_bufs_sub .., binary_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., nullary_bufs_sub .., unary_bufs_sub ..⟩
set_option maxRecDepth 16384 in
set_option maxHeartbeats 4000000 in
theorem ops3_fresh : (ops3 : List (HloOp τ sig (Elt F))).Forall fun op => op.fresh = ∅ := by
  simp only [List.Forall]; repeat' constructor

set_option maxRecDepth 16384 in
set_option maxHeartbeats 4000000 in
/-- The operations of statements 241 .. of @main, in order. -/
abbrev ops4 : List (HloOp τ sig (Elt F)) :=
  [ binary main_v184 main_v185 main_v186 (mulf : (⟨S2000000, .f32⟩ : BufTy).Contents (Elt F) → (⟨S2000000, .f32⟩ : BufTy).Contents (Elt F) → (⟨S2000000, .f32⟩ : BufTy).Contents (Elt F)),
    nullary main_cst_52 (constant S_ .f32 0x43958000#32),
    unary main_cst_52 main_v187 (broadcastInDim S2000000 ![] bcast_S_S2000000 : (⟨S_, .f32⟩ : BufTy).Contents (Elt F) → (⟨S2000000, .f32⟩ : BufTy).Contents (Elt F)),
    binary main_v186 main_v187 main_v188 (mulf : (⟨S2000000, .f32⟩ : BufTy).Contents (Elt F) → (⟨S2000000, .f32⟩ : BufTy).Contents (Elt F) → (⟨S2000000, .f32⟩ : BufTy).Contents (Elt F)),
    unary main_v188 main_v189 (Host.floor : (⟨S2000000, .f32⟩ : BufTy).Contents (Elt F) → (⟨S2000000, .f32⟩ : BufTy).Contents (Elt F)),
    nullary main_c_53 (constantI S_ 32 0#32),
    nullary main_c_54 (constantI S_ 32 299#32),
    TRef.unary (TRef.of (T := ⟨S_, .i32⟩) main_c_53) (TRef.of (T := ⟨S_, .f32⟩) main_call4_v0) (sitofp .f32),
    TRef.unary (TRef.of (T := ⟨S_, .f32⟩) main_call4_v0) (TRef.of (T := ⟨S2000000, .f32⟩) main_call4_v1) (broadcastInDim S2000000 ![] bcast_S_S2000000),
    TRef.binary (TRef.of (T := ⟨S2000000, .f32⟩) main_call4_v1) (TRef.of (T := ⟨S2000000, .f32⟩) main_v189) (TRef.of (T := ⟨S2000000, .f32⟩) main_call4_v2) maximumf,
    TRef.unary (TRef.of (T := ⟨S_, .i32⟩) main_c_54) (TRef.of (T := ⟨S_, .f32⟩) main_call4_v3) (sitofp .f32),
    TRef.unary (TRef.of (T := ⟨S_, .f32⟩) main_call4_v3) (TRef.of (T := ⟨S2000000, .f32⟩) main_call4_v4) (broadcastInDim S2000000 ![] bcast_S_S2000000),
    TRef.binary (TRef.of (T := ⟨S2000000, .f32⟩) main_call4_v4) (TRef.of (T := ⟨S2000000, .f32⟩) main_call4_v2) (TRef.of (T := ⟨S2000000, .f32⟩) main_v190) minimumf,
    unary main_v190 main_v191 (fptosi 32 : (⟨S2000000, .f32⟩ : BufTy).Contents (Elt F) → (⟨S2000000, .i32⟩ : BufTy).Contents (Elt F)),
    nullary main_c_55 (constantI S_ 32 1#32),
    unary main_c_55 main_v192 (broadcastInDim S2000000 ![] bcast_S_S2000000 : (⟨S_, .i32⟩ : BufTy).Contents (Elt F) → (⟨S2000000, .i32⟩ : BufTy).Contents (Elt F)),
    binary main_v191 main_v192 main_v193 (addi : (⟨S2000000, .i32⟩ : BufTy).Contents (Elt F) → (⟨S2000000, .i32⟩ : BufTy).Contents (Elt F) → (⟨S2000000, .i32⟩ : BufTy).Contents (Elt F)),
    nullary main_c_56 (constantI S_ 32 299#32),
    unary main_c_56 main_v194 (broadcastInDim S2000000 ![] bcast_S_S2000000 : (⟨S_, .i32⟩ : BufTy).Contents (Elt F) → (⟨S2000000, .i32⟩ : BufTy).Contents (Elt F)),
    binary main_v193 main_v194 main_v195 (minsi : (⟨S2000000, .i32⟩ : BufTy).Contents (Elt F) → (⟨S2000000, .i32⟩ : BufTy).Contents (Elt F) → (⟨S2000000, .i32⟩ : BufTy).Contents (Elt F)),
    unary main_v191 main_v196 (sitofp .f32 : (⟨S2000000, .i32⟩ : BufTy).Contents (Elt F) → (⟨S2000000, .f32⟩ : BufTy).Contents (Elt F)),
    binary main_v188 main_v196 main_v197 (subf : (⟨S2000000, .f32⟩ : BufTy).Contents (Elt F) → (⟨S2000000, .f32⟩ : BufTy).Contents (Elt F) → (⟨S2000000, .f32⟩ : BufTy).Contents (Elt F)),
    nullary main_c_57 (constantI S_ 32 0#32),
    unary main_c_57 main_v198 (broadcastInDim S2000000 ![] bcast_S_S2000000 : (⟨S_, .i32⟩ : BufTy).Contents (Elt F) → (⟨S2000000, .i32⟩ : BufTy).Contents (Elt F)),
    binary main_v191 main_v198 main_v199 (cmpi .slt : (⟨S2000000, .i32⟩ : BufTy).Contents (Elt F) → (⟨S2000000, .i32⟩ : BufTy).Contents (Elt F) → (⟨S2000000, .i1⟩ : BufTy).Contents (Elt F)),
    nullary main_c_58 (constantI S_ 32 300#32),
    unary main_c_58 main_v200 (broadcastInDim S2000000 ![] bcast_S_S2000000 : (⟨S_, .i32⟩ : BufTy).Contents (Elt F) → (⟨S2000000, .i32⟩ : BufTy).Contents (Elt F)),
    binary main_v191 main_v200 main_v201 (addi : (⟨S2000000, .i32⟩ : BufTy).Contents (Elt F) → (⟨S2000000, .i32⟩ : BufTy).Contents (Elt F) → (⟨S2000000, .i32⟩ : BufTy).Contents (Elt F)),
    ternary main_v199 main_v201 main_v191 main_v202 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_59 (constantI S_ 32 0#32),
    unary main_c_59 main_v203 (broadcastInDim S2000000 ![] bcast_S_S2000000 : (⟨S_, .i32⟩ : BufTy).Contents (Elt F) → (⟨S2000000, .i32⟩ : BufTy).Contents (Elt F)),
    binary main_v176 main_v203 main_v204 (cmpi .slt : (⟨S2000000, .i32⟩ : BufTy).Contents (Elt F) → (⟨S2000000, .i32⟩ : BufTy).Contents (Elt F) → (⟨S2000000, .i1⟩ : BufTy).Contents (Elt F)),
    nullary main_c_60 (constantI S_ 32 300#32),
    unary main_c_60 main_v205 (broadcastInDim S2000000 ![] bcast_S_S2000000 : (⟨S_, .i32⟩ : BufTy).Contents (Elt F) → (⟨S2000000, .i32⟩ : BufTy).Contents (Elt F)),
    binary main_v176 main_v205 main_v206 (addi : (⟨S2000000, .i32⟩ : BufTy).Contents (Elt F) → (⟨S2000000, .i32⟩ : BufTy).Contents (Elt F) → (⟨S2000000, .i32⟩ : BufTy).Contents (Elt F)),
    ternary main_v204 main_v206 main_v176 main_v207 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v202 main_v208 (broadcastInDim S2000000x1 ![0] bcast_S2000000_S2000000x1_0 : (⟨S2000000, .i32⟩ : BufTy).Contents (Elt F) → (⟨S2000000x1, .i32⟩ : BufTy).Contents (Elt F)),
    unary main_v207 main_v209 (broadcastInDim S2000000x1 ![0] bcast_S2000000_S2000000x1_0 : (⟨S2000000, .i32⟩ : BufTy).Contents (Elt F) → (⟨S2000000x1, .i32⟩ : BufTy).Contents (Elt F)),
    binary main_v208 main_v209 main_v210 ((fun a b => concatenate S2000000x2 1 [⟨S2000000x1, a⟩, ⟨S2000000x1, b⟩] concatenates_S2000000x1_S2000000x1_S2000000x2_d1) : (⟨S2000000x1, .i32⟩ : BufTy).Contents (Elt F) → (⟨S2000000x1, .i32⟩ : BufTy).Contents (Elt F) → (⟨S2000000x2, .i32⟩ : BufTy).Contents (Elt F)),
    binary main_v163 main_v210 main_v211 ((fun x i => Host.gather gather_S16x300x300_S2000000x2_S16x2000000_0_12_n_n_12_1_1611 x i) : (⟨S16x300x300, .f32⟩ : BufTy).Contents (Elt F) → (⟨S2000000x2, .i32⟩ : BufTy).Contents (Elt F) → (⟨S16x2000000, .f32⟩ : BufTy).Contents (Elt F)),
    nullary main_c_61 (constantI S_ 32 0#32),
    unary main_c_61 main_v212 (broadcastInDim S2000000 ![] bcast_S_S2000000 : (⟨S_, .i32⟩ : BufTy).Contents (Elt F) → (⟨S2000000, .i32⟩ : BufTy).Contents (Elt F)),
    binary main_v191 main_v212 main_v213 (cmpi .slt : (⟨S2000000, .i32⟩ : BufTy).Contents (Elt F) → (⟨S2000000, .i32⟩ : BufTy).Contents (Elt F) → (⟨S2000000, .i1⟩ : BufTy).Contents (Elt F)),
    nullary main_c_62 (constantI S_ 32 300#32),
    unary main_c_62 main_v214 (broadcastInDim S2000000 ![] bcast_S_S2000000 : (⟨S_, .i32⟩ : BufTy).Contents (Elt F) → (⟨S2000000, .i32⟩ : BufTy).Contents (Elt F)),
    binary main_v191 main_v214 main_v215 (addi : (⟨S2000000, .i32⟩ : BufTy).Contents (Elt F) → (⟨S2000000, .i32⟩ : BufTy).Contents (Elt F) → (⟨S2000000, .i32⟩ : BufTy).Contents (Elt F)),
    ternary main_v213 main_v215 main_v191 main_v216 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_63 (constantI S_ 32 0#32),
    unary main_c_63 main_v217 (broadcastInDim S2000000 ![] bcast_S_S2000000 : (⟨S_, .i32⟩ : BufTy).Contents (Elt F) → (⟨S2000000, .i32⟩ : BufTy).Contents (Elt F)),
    binary main_v180 main_v217 main_v218 (cmpi .slt : (⟨S2000000, .i32⟩ : BufTy).Contents (Elt F) → (⟨S2000000, .i32⟩ : BufTy).Contents (Elt F) → (⟨S2000000, .i1⟩ : BufTy).Contents (Elt F)),
    nullary main_c_64 (constantI S_ 32 300#32),
    unary main_c_64 main_v219 (broadcastInDim S2000000 ![] bcast_S_S2000000 : (⟨S_, .i32⟩ : BufTy).Contents (Elt F) → (⟨S2000000, .i32⟩ : BufTy).Contents (Elt F)),
    binary main_v180 main_v219 main_v220 (addi : (⟨S2000000, .i32⟩ : BufTy).Contents (Elt F) → (⟨S2000000, .i32⟩ : BufTy).Contents (Elt F) → (⟨S2000000, .i32⟩ : BufTy).Contents (Elt F)),
    ternary main_v218 main_v220 main_v180 main_v221 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v216 main_v222 (broadcastInDim S2000000x1 ![0] bcast_S2000000_S2000000x1_0 : (⟨S2000000, .i32⟩ : BufTy).Contents (Elt F) → (⟨S2000000x1, .i32⟩ : BufTy).Contents (Elt F)),
    unary main_v221 main_v223 (broadcastInDim S2000000x1 ![0] bcast_S2000000_S2000000x1_0 : (⟨S2000000, .i32⟩ : BufTy).Contents (Elt F) → (⟨S2000000x1, .i32⟩ : BufTy).Contents (Elt F)),
    binary main_v222 main_v223 main_v224 ((fun a b => concatenate S2000000x2 1 [⟨S2000000x1, a⟩, ⟨S2000000x1, b⟩] concatenates_S2000000x1_S2000000x1_S2000000x2_d1) : (⟨S2000000x1, .i32⟩ : BufTy).Contents (Elt F) → (⟨S2000000x1, .i32⟩ : BufTy).Contents (Elt F) → (⟨S2000000x2, .i32⟩ : BufTy).Contents (Elt F)),
    binary main_v163 main_v224 main_v225 ((fun x i => Host.gather gather_S16x300x300_S2000000x2_S16x2000000_0_12_n_n_12_1_1611 x i) : (⟨S16x300x300, .f32⟩ : BufTy).Contents (Elt F) → (⟨S2000000x2, .i32⟩ : BufTy).Contents (Elt F) → (⟨S16x2000000, .f32⟩ : BufTy).Contents (Elt F)),
    nullary main_c_65 (constantI S_ 32 0#32),
    unary main_c_65 main_v226 (broadcastInDim S2000000 ![] bcast_S_S2000000 : (⟨S_, .i32⟩ : BufTy).Contents (Elt F) → (⟨S2000000, .i32⟩ : BufTy).Contents (Elt F)),
    binary main_v195 main_v226 main_v227 (cmpi .slt : (⟨S2000000, .i32⟩ : BufTy).Contents (Elt F) → (⟨S2000000, .i32⟩ : BufTy).Contents (Elt F) → (⟨S2000000, .i1⟩ : BufTy).Contents (Elt F)),
    nullary main_c_66 (constantI S_ 32 300#32),
    unary main_c_66 main_v228 (broadcastInDim S2000000 ![] bcast_S_S2000000 : (⟨S_, .i32⟩ : BufTy).Contents (Elt F) → (⟨S2000000, .i32⟩ : BufTy).Contents (Elt F)),
    binary main_v195 main_v228 main_v229 (addi : (⟨S2000000, .i32⟩ : BufTy).Contents (Elt F) → (⟨S2000000, .i32⟩ : BufTy).Contents (Elt F) → (⟨S2000000, .i32⟩ : BufTy).Contents (Elt F)),
    ternary main_v227 main_v229 main_v195 main_v230 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)) ]
set_option maxRecDepth 16384 in
set_option maxHeartbeats 4000000 in
theorem part4_eq (c : Dev nD) : main_part4 (F := F) c = seq ops4 := rfl
set_option maxRecDepth 16384 in
theorem ops4_sub : (ops4 : List (HloOp τ sig (Elt F))).Forall fun op => op.bufs ⊆ tcRefs τ sig :=
  ⟨binary_bufs_sub .., nullary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub ..⟩
set_option maxRecDepth 16384 in
set_option maxHeartbeats 4000000 in
theorem ops4_fresh : (ops4 : List (HloOp τ sig (Elt F))).Forall fun op => op.fresh = ∅ := by
  simp only [List.Forall]; repeat' constructor

set_option maxRecDepth 16384 in
set_option maxHeartbeats 4000000 in
/-- The operations of statements 301 .. of @main, in order. -/
abbrev ops5 : List (HloOp τ sig (Elt F)) :=
  [ nullary main_c_67 (constantI S_ 32 0#32),
    unary main_c_67 main_v231 (broadcastInDim S2000000 ![] bcast_S_S2000000 : (⟨S_, .i32⟩ : BufTy).Contents (Elt F) → (⟨S2000000, .i32⟩ : BufTy).Contents (Elt F)),
    binary main_v176 main_v231 main_v232 (cmpi .slt : (⟨S2000000, .i32⟩ : BufTy).Contents (Elt F) → (⟨S2000000, .i32⟩ : BufTy).Contents (Elt F) → (⟨S2000000, .i1⟩ : BufTy).Contents (Elt F)),
    nullary main_c_68 (constantI S_ 32 300#32),
    unary main_c_68 main_v233 (broadcastInDim S2000000 ![] bcast_S_S2000000 : (⟨S_, .i32⟩ : BufTy).Contents (Elt F) → (⟨S2000000, .i32⟩ : BufTy).Contents (Elt F)),
    binary main_v176 main_v233 main_v234 (addi : (⟨S2000000, .i32⟩ : BufTy).Contents (Elt F) → (⟨S2000000, .i32⟩ : BufTy).Contents (Elt F) → (⟨S2000000, .i32⟩ : BufTy).Contents (Elt F)),
    ternary main_v232 main_v234 main_v176 main_v235 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v230 main_v236 (broadcastInDim S2000000x1 ![0] bcast_S2000000_S2000000x1_0 : (⟨S2000000, .i32⟩ : BufTy).Contents (Elt F) → (⟨S2000000x1, .i32⟩ : BufTy).Contents (Elt F)),
    unary main_v235 main_v237 (broadcastInDim S2000000x1 ![0] bcast_S2000000_S2000000x1_0 : (⟨S2000000, .i32⟩ : BufTy).Contents (Elt F) → (⟨S2000000x1, .i32⟩ : BufTy).Contents (Elt F)),
    binary main_v236 main_v237 main_v238 ((fun a b => concatenate S2000000x2 1 [⟨S2000000x1, a⟩, ⟨S2000000x1, b⟩] concatenates_S2000000x1_S2000000x1_S2000000x2_d1) : (⟨S2000000x1, .i32⟩ : BufTy).Contents (Elt F) → (⟨S2000000x1, .i32⟩ : BufTy).Contents (Elt F) → (⟨S2000000x2, .i32⟩ : BufTy).Contents (Elt F)),
    binary main_v163 main_v238 main_v239 ((fun x i => Host.gather gather_S16x300x300_S2000000x2_S16x2000000_0_12_n_n_12_1_1611 x i) : (⟨S16x300x300, .f32⟩ : BufTy).Contents (Elt F) → (⟨S2000000x2, .i32⟩ : BufTy).Contents (Elt F) → (⟨S16x2000000, .f32⟩ : BufTy).Contents (Elt F)),
    nullary main_c_69 (constantI S_ 32 0#32),
    unary main_c_69 main_v240 (broadcastInDim S2000000 ![] bcast_S_S2000000 : (⟨S_, .i32⟩ : BufTy).Contents (Elt F) → (⟨S2000000, .i32⟩ : BufTy).Contents (Elt F)),
    binary main_v195 main_v240 main_v241 (cmpi .slt : (⟨S2000000, .i32⟩ : BufTy).Contents (Elt F) → (⟨S2000000, .i32⟩ : BufTy).Contents (Elt F) → (⟨S2000000, .i1⟩ : BufTy).Contents (Elt F)),
    nullary main_c_70 (constantI S_ 32 300#32),
    unary main_c_70 main_v242 (broadcastInDim S2000000 ![] bcast_S_S2000000 : (⟨S_, .i32⟩ : BufTy).Contents (Elt F) → (⟨S2000000, .i32⟩ : BufTy).Contents (Elt F)),
    binary main_v195 main_v242 main_v243 (addi : (⟨S2000000, .i32⟩ : BufTy).Contents (Elt F) → (⟨S2000000, .i32⟩ : BufTy).Contents (Elt F) → (⟨S2000000, .i32⟩ : BufTy).Contents (Elt F)),
    ternary main_v241 main_v243 main_v195 main_v244 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_71 (constantI S_ 32 0#32),
    unary main_c_71 main_v245 (broadcastInDim S2000000 ![] bcast_S_S2000000 : (⟨S_, .i32⟩ : BufTy).Contents (Elt F) → (⟨S2000000, .i32⟩ : BufTy).Contents (Elt F)),
    binary main_v180 main_v245 main_v246 (cmpi .slt : (⟨S2000000, .i32⟩ : BufTy).Contents (Elt F) → (⟨S2000000, .i32⟩ : BufTy).Contents (Elt F) → (⟨S2000000, .i1⟩ : BufTy).Contents (Elt F)),
    nullary main_c_72 (constantI S_ 32 300#32),
    unary main_c_72 main_v247 (broadcastInDim S2000000 ![] bcast_S_S2000000 : (⟨S_, .i32⟩ : BufTy).Contents (Elt F) → (⟨S2000000, .i32⟩ : BufTy).Contents (Elt F)),
    binary main_v180 main_v247 main_v248 (addi : (⟨S2000000, .i32⟩ : BufTy).Contents (Elt F) → (⟨S2000000, .i32⟩ : BufTy).Contents (Elt F) → (⟨S2000000, .i32⟩ : BufTy).Contents (Elt F)),
    ternary main_v246 main_v248 main_v180 main_v249 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v244 main_v250 (broadcastInDim S2000000x1 ![0] bcast_S2000000_S2000000x1_0 : (⟨S2000000, .i32⟩ : BufTy).Contents (Elt F) → (⟨S2000000x1, .i32⟩ : BufTy).Contents (Elt F)),
    unary main_v249 main_v251 (broadcastInDim S2000000x1 ![0] bcast_S2000000_S2000000x1_0 : (⟨S2000000, .i32⟩ : BufTy).Contents (Elt F) → (⟨S2000000x1, .i32⟩ : BufTy).Contents (Elt F)),
    binary main_v250 main_v251 main_v252 ((fun a b => concatenate S2000000x2 1 [⟨S2000000x1, a⟩, ⟨S2000000x1, b⟩] concatenates_S2000000x1_S2000000x1_S2000000x2_d1) : (⟨S2000000x1, .i32⟩ : BufTy).Contents (Elt F) → (⟨S2000000x1, .i32⟩ : BufTy).Contents (Elt F) → (⟨S2000000x2, .i32⟩ : BufTy).Contents (Elt F)),
    binary main_v163 main_v252 main_v253 ((fun x i => Host.gather gather_S16x300x300_S2000000x2_S16x2000000_0_12_n_n_12_1_1611 x i) : (⟨S16x300x300, .f32⟩ : BufTy).Contents (Elt F) → (⟨S2000000x2, .i32⟩ : BufTy).Contents (Elt F) → (⟨S16x2000000, .f32⟩ : BufTy).Contents (Elt F)),
    nullary main_cst_73 (constant S_ .f32 0x3F800000#32),
    unary main_cst_73 main_v254 (broadcastInDim S2000000 ![] bcast_S_S2000000 : (⟨S_, .f32⟩ : BufTy).Contents (Elt F) → (⟨S2000000, .f32⟩ : BufTy).Contents (Elt F)),
    binary main_v254 main_v182 main_v255 (subf : (⟨S2000000, .f32⟩ : BufTy).Contents (Elt F) → (⟨S2000000, .f32⟩ : BufTy).Contents (Elt F) → (⟨S2000000, .f32⟩ : BufTy).Contents (Elt F)),
    unary main_v255 main_v256 (broadcastInDim S1x2000000 ![1] bcast_S2000000_S1x2000000_1 : (⟨S2000000, .f32⟩ : BufTy).Contents (Elt F) → (⟨S1x2000000, .f32⟩ : BufTy).Contents (Elt F)),
    unary main_v256 main_v257 (broadcastInDim S16x2000000 ![0, 1] bcast_S1x2000000_S16x2000000_0_1 : (⟨S1x2000000, .f32⟩ : BufTy).Contents (Elt F) → (⟨S16x2000000, .f32⟩ : BufTy).Contents (Elt F)),
    binary main_v211 main_v257 main_v258 (mulf : (⟨S16x2000000, .f32⟩ : BufTy).Contents (Elt F) → (⟨S16x2000000, .f32⟩ : BufTy).Contents (Elt F) → (⟨S16x2000000, .f32⟩ : BufTy).Contents (Elt F)),
    unary main_v182 main_v259 (broadcastInDim S1x2000000 ![1] bcast_S2000000_S1x2000000_1 : (⟨S2000000, .f32⟩ : BufTy).Contents (Elt F) → (⟨S1x2000000, .f32⟩ : BufTy).Contents (Elt F)),
    unary main_v259 main_v260 (broadcastInDim S16x2000000 ![0, 1] bcast_S1x2000000_S16x2000000_0_1 : (⟨S1x2000000, .f32⟩ : BufTy).Contents (Elt F) → (⟨S16x2000000, .f32⟩ : BufTy).Contents (Elt F)),
    binary main_v225 main_v260 main_v261 (mulf : (⟨S16x2000000, .f32⟩ : BufTy).Contents (Elt F) → (⟨S16x2000000, .f32⟩ : BufTy).Contents (Elt F) → (⟨S16x2000000, .f32⟩ : BufTy).Contents (Elt F)),
    binary main_v258 main_v261 main_v262 (addf : (⟨S16x2000000, .f32⟩ : BufTy).Contents (Elt F) → (⟨S16x2000000, .f32⟩ : BufTy).Contents (Elt F) → (⟨S16x2000000, .f32⟩ : BufTy).Contents (Elt F)),
    nullary main_cst_74 (constant S_ .f32 0x3F800000#32),
    unary main_cst_74 main_v263 (broadcastInDim S2000000 ![] bcast_S_S2000000 : (⟨S_, .f32⟩ : BufTy).Contents (Elt F) → (⟨S2000000, .f32⟩ : BufTy).Contents (Elt F)),
    binary main_v263 main_v197 main_v264 (subf : (⟨S2000000, .f32⟩ : BufTy).Contents (Elt F) → (⟨S2000000, .f32⟩ : BufTy).Contents (Elt F) → (⟨S2000000, .f32⟩ : BufTy).Contents (Elt F)),
    unary main_v264 main_v265 (broadcastInDim S1x2000000 ![1] bcast_S2000000_S1x2000000_1 : (⟨S2000000, .f32⟩ : BufTy).Contents (Elt F) → (⟨S1x2000000, .f32⟩ : BufTy).Contents (Elt F)),
    unary main_v265 main_v266 (broadcastInDim S16x2000000 ![0, 1] bcast_S1x2000000_S16x2000000_0_1 : (⟨S1x2000000, .f32⟩ : BufTy).Contents (Elt F) → (⟨S16x2000000, .f32⟩ : BufTy).Contents (Elt F)),
    binary main_v262 main_v266 main_v267 (mulf : (⟨S16x2000000, .f32⟩ : BufTy).Contents (Elt F) → (⟨S16x2000000, .f32⟩ : BufTy).Contents (Elt F) → (⟨S16x2000000, .f32⟩ : BufTy).Contents (Elt F)),
    nullary main_cst_75 (constant S_ .f32 0x3F800000#32),
    unary main_cst_75 main_v268 (broadcastInDim S2000000 ![] bcast_S_S2000000 : (⟨S_, .f32⟩ : BufTy).Contents (Elt F) → (⟨S2000000, .f32⟩ : BufTy).Contents (Elt F)),
    binary main_v268 main_v182 main_v269 (subf : (⟨S2000000, .f32⟩ : BufTy).Contents (Elt F) → (⟨S2000000, .f32⟩ : BufTy).Contents (Elt F) → (⟨S2000000, .f32⟩ : BufTy).Contents (Elt F)),
    unary main_v269 main_v270 (broadcastInDim S1x2000000 ![1] bcast_S2000000_S1x2000000_1 : (⟨S2000000, .f32⟩ : BufTy).Contents (Elt F) → (⟨S1x2000000, .f32⟩ : BufTy).Contents (Elt F)),
    unary main_v270 main_v271 (broadcastInDim S16x2000000 ![0, 1] bcast_S1x2000000_S16x2000000_0_1 : (⟨S1x2000000, .f32⟩ : BufTy).Contents (Elt F) → (⟨S16x2000000, .f32⟩ : BufTy).Contents (Elt F)),
    binary main_v239 main_v271 main_v272 (mulf : (⟨S16x2000000, .f32⟩ : BufTy).Contents (Elt F) → (⟨S16x2000000, .f32⟩ : BufTy).Contents (Elt F) → (⟨S16x2000000, .f32⟩ : BufTy).Contents (Elt F)),
    unary main_v182 main_v273 (broadcastInDim S1x2000000 ![1] bcast_S2000000_S1x2000000_1 : (⟨S2000000, .f32⟩ : BufTy).Contents (Elt F) → (⟨S1x2000000, .f32⟩ : BufTy).Contents (Elt F)),
    unary main_v273 main_v274 (broadcastInDim S16x2000000 ![0, 1] bcast_S1x2000000_S16x2000000_0_1 : (⟨S1x2000000, .f32⟩ : BufTy).Contents (Elt F) → (⟨S16x2000000, .f32⟩ : BufTy).Contents (Elt F)),
    binary main_v253 main_v274 main_v275 (mulf : (⟨S16x2000000, .f32⟩ : BufTy).Contents (Elt F) → (⟨S16x2000000, .f32⟩ : BufTy).Contents (Elt F) → (⟨S16x2000000, .f32⟩ : BufTy).Contents (Elt F)),
    binary main_v272 main_v275 main_v276 (addf : (⟨S16x2000000, .f32⟩ : BufTy).Contents (Elt F) → (⟨S16x2000000, .f32⟩ : BufTy).Contents (Elt F) → (⟨S16x2000000, .f32⟩ : BufTy).Contents (Elt F)),
    unary main_v197 main_v277 (broadcastInDim S1x2000000 ![1] bcast_S2000000_S1x2000000_1 : (⟨S2000000, .f32⟩ : BufTy).Contents (Elt F) → (⟨S1x2000000, .f32⟩ : BufTy).Contents (Elt F)),
    unary main_v277 main_v278 (broadcastInDim S16x2000000 ![0, 1] bcast_S1x2000000_S16x2000000_0_1 : (⟨S1x2000000, .f32⟩ : BufTy).Contents (Elt F) → (⟨S16x2000000, .f32⟩ : BufTy).Contents (Elt F)),
    binary main_v276 main_v278 main_v279 (mulf : (⟨S16x2000000, .f32⟩ : BufTy).Contents (Elt F) → (⟨S16x2000000, .f32⟩ : BufTy).Contents (Elt F) → (⟨S16x2000000, .f32⟩ : BufTy).Contents (Elt F)),
    binary main_v267 main_v279 main_v280 (addf : (⟨S16x2000000, .f32⟩ : BufTy).Contents (Elt F) → (⟨S16x2000000, .f32⟩ : BufTy).Contents (Elt F) → (⟨S16x2000000, .f32⟩ : BufTy).Contents (Elt F)),
    unary main_arg2 main_v281 ((extractStridedSlice S1x16x300 ![1, 0, 0] · slices_S3x16x300_S1x16x300_1_0_0) : (⟨S3x16x300, .f32⟩ : BufTy).Contents (Elt F) → (⟨S1x16x300, .f32⟩ : BufTy).Contents (Elt F)) ]
set_option maxRecDepth 16384 in
set_option maxHeartbeats 4000000 in
theorem part5_eq (c : Dev nD) : main_part5 (F := F) c = seq ops5 := rfl
set_option maxRecDepth 16384 in
theorem ops5_sub : (ops5 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., binary_bufs_sub .., unary_bufs_sub ..⟩
set_option maxRecDepth 16384 in
set_option maxHeartbeats 4000000 in
theorem ops5_fresh : (ops5 : List (HloOp τ sig (Elt F))).Forall fun op => op.fresh = ∅ := by
  simp only [List.Forall]; repeat' constructor

set_option maxRecDepth 16384 in
set_option maxHeartbeats 4000000 in
/-- The operations of statements 361 .. of @main, in order. -/
abbrev ops6 : List (HloOp τ sig (Elt F)) :=
  [ reshape main_v281 main_v282 rfl shapeCasts_S1x16x300_S16x300,
    unary main_arg0 main_v283 ((extractStridedSlice S2000000x1 ![0, 1] · slices_S2000000x3_S2000000x1_0_1) : (⟨S2000000x3, .f32⟩ : BufTy).Contents (Elt F) → (⟨S2000000x1, .f32⟩ : BufTy).Contents (Elt F)),
    reshape main_v283 main_v284 rfl shapeCasts_S2000000x1_S2000000,
    nullary main_cst_76 (constant S_ .f32 0x3F800000#32),
    unary main_cst_76 main_v285 (broadcastInDim S2000000 ![] bcast_S_S2000000 : (⟨S_, .f32⟩ : BufTy).Contents (Elt F) → (⟨S2000000, .f32⟩ : BufTy).Contents (Elt F)),
    binary main_v284 main_v285 main_v286 (addf : (⟨S2000000, .f32⟩ : BufTy).Contents (Elt F) → (⟨S2000000, .f32⟩ : BufTy).Contents (Elt F) → (⟨S2000000, .f32⟩ : BufTy).Contents (Elt F)),
    nullary main_cst_77 (constant S_ .f32 0x3F000000#32),
    unary main_cst_77 main_v287 (broadcastInDim S2000000 ![] bcast_S_S2000000 : (⟨S_, .f32⟩ : BufTy).Contents (Elt F) → (⟨S2000000, .f32⟩ : BufTy).Contents (Elt F)),
    binary main_v286 main_v287 main_v288 (mulf : (⟨S2000000, .f32⟩ : BufTy).Contents (Elt F) → (⟨S2000000, .f32⟩ : BufTy).Contents (Elt F) → (⟨S2000000, .f32⟩ : BufTy).Contents (Elt F)),
    nullary main_cst_78 (constant S_ .f32 0x43958000#32),
    unary main_cst_78 main_v289 (broadcastInDim S2000000 ![] bcast_S_S2000000 : (⟨S_, .f32⟩ : BufTy).Contents (Elt F) → (⟨S2000000, .f32⟩ : BufTy).Contents (Elt F)),
    binary main_v288 main_v289 main_v290 (mulf : (⟨S2000000, .f32⟩ : BufTy).Contents (Elt F) → (⟨S2000000, .f32⟩ : BufTy).Contents (Elt F) → (⟨S2000000, .f32⟩ : BufTy).Contents (Elt F)),
    unary main_v290 main_v291 (Host.floor : (⟨S2000000, .f32⟩ : BufTy).Contents (Elt F) → (⟨S2000000, .f32⟩ : BufTy).Contents (Elt F)),
    nullary main_c_79 (constantI S_ 32 0#32),
    nullary main_c_80 (constantI S_ 32 299#32),
    TRef.unary (TRef.of (T := ⟨S_, .i32⟩) main_c_79) (TRef.of (T := ⟨S_, .f32⟩) main_call5_v0) (sitofp .f32),
    TRef.unary (TRef.of (T := ⟨S_, .f32⟩) main_call5_v0) (TRef.of (T := ⟨S2000000, .f32⟩) main_call5_v1) (broadcastInDim S2000000 ![] bcast_S_S2000000),
    TRef.binary (TRef.of (T := ⟨S2000000, .f32⟩) main_call5_v1) (TRef.of (T := ⟨S2000000, .f32⟩) main_v291) (TRef.of (T := ⟨S2000000, .f32⟩) main_call5_v2) maximumf,
    TRef.unary (TRef.of (T := ⟨S_, .i32⟩) main_c_80) (TRef.of (T := ⟨S_, .f32⟩) main_call5_v3) (sitofp .f32),
    TRef.unary (TRef.of (T := ⟨S_, .f32⟩) main_call5_v3) (TRef.of (T := ⟨S2000000, .f32⟩) main_call5_v4) (broadcastInDim S2000000 ![] bcast_S_S2000000),
    TRef.binary (TRef.of (T := ⟨S2000000, .f32⟩) main_call5_v4) (TRef.of (T := ⟨S2000000, .f32⟩) main_call5_v2) (TRef.of (T := ⟨S2000000, .f32⟩) main_v292) minimumf,
    unary main_v292 main_v293 (fptosi 32 : (⟨S2000000, .f32⟩ : BufTy).Contents (Elt F) → (⟨S2000000, .i32⟩ : BufTy).Contents (Elt F)),
    nullary main_c_81 (constantI S_ 32 1#32),
    unary main_c_81 main_v294 (broadcastInDim S2000000 ![] bcast_S_S2000000 : (⟨S_, .i32⟩ : BufTy).Contents (Elt F) → (⟨S2000000, .i32⟩ : BufTy).Contents (Elt F)),
    binary main_v293 main_v294 main_v295 (addi : (⟨S2000000, .i32⟩ : BufTy).Contents (Elt F) → (⟨S2000000, .i32⟩ : BufTy).Contents (Elt F) → (⟨S2000000, .i32⟩ : BufTy).Contents (Elt F)),
    nullary main_c_82 (constantI S_ 32 299#32),
    unary main_c_82 main_v296 (broadcastInDim S2000000 ![] bcast_S_S2000000 : (⟨S_, .i32⟩ : BufTy).Contents (Elt F) → (⟨S2000000, .i32⟩ : BufTy).Contents (Elt F)),
    binary main_v295 main_v296 main_v297 (minsi : (⟨S2000000, .i32⟩ : BufTy).Contents (Elt F) → (⟨S2000000, .i32⟩ : BufTy).Contents (Elt F) → (⟨S2000000, .i32⟩ : BufTy).Contents (Elt F)),
    unary main_v293 main_v298 (sitofp .f32 : (⟨S2000000, .i32⟩ : BufTy).Contents (Elt F) → (⟨S2000000, .f32⟩ : BufTy).Contents (Elt F)),
    binary main_v290 main_v298 main_v299 (subf : (⟨S2000000, .f32⟩ : BufTy).Contents (Elt F) → (⟨S2000000, .f32⟩ : BufTy).Contents (Elt F) → (⟨S2000000, .f32⟩ : BufTy).Contents (Elt F)),
    nullary main_c_83 (constantI S_ 32 0#32),
    unary main_c_83 main_v300 (broadcastInDim S2000000 ![] bcast_S_S2000000 : (⟨S_, .i32⟩ : BufTy).Contents (Elt F) → (⟨S2000000, .i32⟩ : BufTy).Contents (Elt F)),
    binary main_v293 main_v300 main_v301 (cmpi .slt : (⟨S2000000, .i32⟩ : BufTy).Contents (Elt F) → (⟨S2000000, .i32⟩ : BufTy).Contents (Elt F) → (⟨S2000000, .i1⟩ : BufTy).Contents (Elt F)),
    nullary main_c_84 (constantI S_ 32 300#32),
    unary main_c_84 main_v302 (broadcastInDim S2000000 ![] bcast_S_S2000000 : (⟨S_, .i32⟩ : BufTy).Contents (Elt F) → (⟨S2000000, .i32⟩ : BufTy).Contents (Elt F)),
    binary main_v293 main_v302 main_v303 (addi : (⟨S2000000, .i32⟩ : BufTy).Contents (Elt F) → (⟨S2000000, .i32⟩ : BufTy).Contents (Elt F) → (⟨S2000000, .i32⟩ : BufTy).Contents (Elt F)),
    ternary main_v301 main_v303 main_v293 main_v304 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v304 main_v305 (broadcastInDim S2000000x1 ![0] bcast_S2000000_S2000000x1_0 : (⟨S2000000, .i32⟩ : BufTy).Contents (Elt F) → (⟨S2000000x1, .i32⟩ : BufTy).Contents (Elt F)),
    binary main_v282 main_v305 main_v306 ((fun x i => Host.gather gather_S16x300_S2000000x1_S16x2000000_0_1_n_n_1_1_161 x i) : (⟨S16x300, .f32⟩ : BufTy).Contents (Elt F) → (⟨S2000000x1, .i32⟩ : BufTy).Contents (Elt F) → (⟨S16x2000000, .f32⟩ : BufTy).Contents (Elt F)),
    nullary main_cst_85 (constant S_ .f32 0x3F800000#32),
    unary main_cst_85 main_v307 (broadcastInDim S2000000 ![] bcast_S_S2000000 : (⟨S_, .f32⟩ : BufTy).Contents (Elt F) → (⟨S2000000, .f32⟩ : BufTy).Contents (Elt F)),
    binary main_v307 main_v299 main_v308 (subf : (⟨S2000000, .f32⟩ : BufTy).Contents (Elt F) → (⟨S2000000, .f32⟩ : BufTy).Contents (Elt F) → (⟨S2000000, .f32⟩ : BufTy).Contents (Elt F)),
    unary main_v308 main_v309 (broadcastInDim S1x2000000 ![1] bcast_S2000000_S1x2000000_1 : (⟨S2000000, .f32⟩ : BufTy).Contents (Elt F) → (⟨S1x2000000, .f32⟩ : BufTy).Contents (Elt F)),
    unary main_v309 main_v310 (broadcastInDim S16x2000000 ![0, 1] bcast_S1x2000000_S16x2000000_0_1 : (⟨S1x2000000, .f32⟩ : BufTy).Contents (Elt F) → (⟨S16x2000000, .f32⟩ : BufTy).Contents (Elt F)),
    binary main_v306 main_v310 main_v311 (mulf : (⟨S16x2000000, .f32⟩ : BufTy).Contents (Elt F) → (⟨S16x2000000, .f32⟩ : BufTy).Contents (Elt F) → (⟨S16x2000000, .f32⟩ : BufTy).Contents (Elt F)),
    nullary main_c_86 (constantI S_ 32 0#32),
    unary main_c_86 main_v312 (broadcastInDim S2000000 ![] bcast_S_S2000000 : (⟨S_, .i32⟩ : BufTy).Contents (Elt F) → (⟨S2000000, .i32⟩ : BufTy).Contents (Elt F)),
    binary main_v297 main_v312 main_v313 (cmpi .slt : (⟨S2000000, .i32⟩ : BufTy).Contents (Elt F) → (⟨S2000000, .i32⟩ : BufTy).Contents (Elt F) → (⟨S2000000, .i1⟩ : BufTy).Contents (Elt F)),
    nullary main_c_87 (constantI S_ 32 300#32),
    unary main_c_87 main_v314 (broadcastInDim S2000000 ![] bcast_S_S2000000 : (⟨S_, .i32⟩ : BufTy).Contents (Elt F) → (⟨S2000000, .i32⟩ : BufTy).Contents (Elt F)),
    binary main_v297 main_v314 main_v315 (addi : (⟨S2000000, .i32⟩ : BufTy).Contents (Elt F) → (⟨S2000000, .i32⟩ : BufTy).Contents (Elt F) → (⟨S2000000, .i32⟩ : BufTy).Contents (Elt F)),
    ternary main_v313 main_v315 main_v297 main_v316 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v316 main_v317 (broadcastInDim S2000000x1 ![0] bcast_S2000000_S2000000x1_0 : (⟨S2000000, .i32⟩ : BufTy).Contents (Elt F) → (⟨S2000000x1, .i32⟩ : BufTy).Contents (Elt F)),
    binary main_v282 main_v317 main_v318 ((fun x i => Host.gather gather_S16x300_S2000000x1_S16x2000000_0_1_n_n_1_1_161 x i) : (⟨S16x300, .f32⟩ : BufTy).Contents (Elt F) → (⟨S2000000x1, .i32⟩ : BufTy).Contents (Elt F) → (⟨S16x2000000, .f32⟩ : BufTy).Contents (Elt F)),
    unary main_v299 main_v319 (broadcastInDim S1x2000000 ![1] bcast_S2000000_S1x2000000_1 : (⟨S2000000, .f32⟩ : BufTy).Contents (Elt F) → (⟨S1x2000000, .f32⟩ : BufTy).Contents (Elt F)),
    unary main_v319 main_v320 (broadcastInDim S16x2000000 ![0, 1] bcast_S1x2000000_S16x2000000_0_1 : (⟨S1x2000000, .f32⟩ : BufTy).Contents (Elt F) → (⟨S16x2000000, .f32⟩ : BufTy).Contents (Elt F)),
    binary main_v318 main_v320 main_v321 (mulf : (⟨S16x2000000, .f32⟩ : BufTy).Contents (Elt F) → (⟨S16x2000000, .f32⟩ : BufTy).Contents (Elt F) → (⟨S16x2000000, .f32⟩ : BufTy).Contents (Elt F)),
    binary main_v311 main_v321 main_v322 (addf : (⟨S16x2000000, .f32⟩ : BufTy).Contents (Elt F) → (⟨S16x2000000, .f32⟩ : BufTy).Contents (Elt F) → (⟨S16x2000000, .f32⟩ : BufTy).Contents (Elt F)),
    binary main_v280 main_v322 main_v323 (mulf : (⟨S16x2000000, .f32⟩ : BufTy).Contents (Elt F) → (⟨S16x2000000, .f32⟩ : BufTy).Contents (Elt F) → (⟨S16x2000000, .f32⟩ : BufTy).Contents (Elt F)),
    unary main_arg1 main_v324 ((extractStridedSlice S1x16x300x300 ![2, 0, 0, 0] · slices_S3x16x300x300_S1x16x300x300_2_0_0_0) : (⟨S3x16x300x300, .f32⟩ : BufTy).Contents (Elt F) → (⟨S1x16x300x300, .f32⟩ : BufTy).Contents (Elt F)),
    reshape main_v324 main_v325 rfl shapeCasts_S1x16x300x300_S16x300x300,
    unary main_arg0 main_v326 ((extractStridedSlice S2000000x1 ![0, 0] · slices_S2000000x3_S2000000x1_0_0) : (⟨S2000000x3, .f32⟩ : BufTy).Contents (Elt F) → (⟨S2000000x1, .f32⟩ : BufTy).Contents (Elt F)),
    reshape main_v326 main_v327 rfl shapeCasts_S2000000x1_S2000000,
    unary main_arg0 main_v328 ((extractStridedSlice S2000000x1 ![0, 1] · slices_S2000000x3_S2000000x1_0_1) : (⟨S2000000x3, .f32⟩ : BufTy).Contents (Elt F) → (⟨S2000000x1, .f32⟩ : BufTy).Contents (Elt F)),
    reshape main_v328 main_v329 rfl shapeCasts_S2000000x1_S2000000 ]
set_option maxRecDepth 16384 in
set_option maxHeartbeats 4000000 in
theorem part6_eq (c : Dev nD) : main_part6 (F := F) c = seq ops6 := rfl
set_option maxRecDepth 16384 in
theorem ops6_sub : (ops6 : List (HloOp τ sig (Elt F))).Forall fun op => op.bufs ⊆ tcRefs τ sig :=
  ⟨reshape_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., binary_bufs_sub .., binary_bufs_sub .., unary_bufs_sub .., reshape_bufs_sub .., unary_bufs_sub .., reshape_bufs_sub .., unary_bufs_sub .., reshape_bufs_sub ..⟩
set_option maxRecDepth 16384 in
set_option maxHeartbeats 4000000 in
theorem ops6_fresh : (ops6 : List (HloOp τ sig (Elt F))).Forall fun op => op.fresh = ∅ := by
  simp only [List.Forall]; repeat' constructor

set_option maxRecDepth 16384 in
set_option maxHeartbeats 4000000 in
/-- The operations of statements 421 .. of @main, in order. -/
abbrev ops7 : List (HloOp τ sig (Elt F)) :=
  [ nullary main_cst_88 (constant S_ .f32 0x3F800000#32),
    unary main_cst_88 main_v330 (broadcastInDim S2000000 ![] bcast_S_S2000000 : (⟨S_, .f32⟩ : BufTy).Contents (Elt F) → (⟨S2000000, .f32⟩ : BufTy).Contents (Elt F)),
    binary main_v327 main_v330 main_v331 (addf : (⟨S2000000, .f32⟩ : BufTy).Contents (Elt F) → (⟨S2000000, .f32⟩ : BufTy).Contents (Elt F) → (⟨S2000000, .f32⟩ : BufTy).Contents (Elt F)),
    nullary main_cst_89 (constant S_ .f32 0x3F000000#32),
    unary main_cst_89 main_v332 (broadcastInDim S2000000 ![] bcast_S_S2000000 : (⟨S_, .f32⟩ : BufTy).Contents (Elt F) → (⟨S2000000, .f32⟩ : BufTy).Contents (Elt F)),
    binary main_v331 main_v332 main_v333 (mulf : (⟨S2000000, .f32⟩ : BufTy).Contents (Elt F) → (⟨S2000000, .f32⟩ : BufTy).Contents (Elt F) → (⟨S2000000, .f32⟩ : BufTy).Contents (Elt F)),
    nullary main_cst_90 (constant S_ .f32 0x43958000#32),
    unary main_cst_90 main_v334 (broadcastInDim S2000000 ![] bcast_S_S2000000 : (⟨S_, .f32⟩ : BufTy).Contents (Elt F) → (⟨S2000000, .f32⟩ : BufTy).Contents (Elt F)),
    binary main_v333 main_v334 main_v335 (mulf : (⟨S2000000, .f32⟩ : BufTy).Contents (Elt F) → (⟨S2000000, .f32⟩ : BufTy).Contents (Elt F) → (⟨S2000000, .f32⟩ : BufTy).Contents (Elt F)),
    unary main_v335 main_v336 (Host.floor : (⟨S2000000, .f32⟩ : BufTy).Contents (Elt F) → (⟨S2000000, .f32⟩ : BufTy).Contents (Elt F)),
    nullary main_c_91 (constantI S_ 32 0#32),
    nullary main_c_92 (constantI S_ 32 299#32),
    TRef.unary (TRef.of (T := ⟨S_, .i32⟩) main_c_91) (TRef.of (T := ⟨S_, .f32⟩) main_call6_v0) (sitofp .f32),
    TRef.unary (TRef.of (T := ⟨S_, .f32⟩) main_call6_v0) (TRef.of (T := ⟨S2000000, .f32⟩) main_call6_v1) (broadcastInDim S2000000 ![] bcast_S_S2000000),
    TRef.binary (TRef.of (T := ⟨S2000000, .f32⟩) main_call6_v1) (TRef.of (T := ⟨S2000000, .f32⟩) main_v336) (TRef.of (T := ⟨S2000000, .f32⟩) main_call6_v2) maximumf,
    TRef.unary (TRef.of (T := ⟨S_, .i32⟩) main_c_92) (TRef.of (T := ⟨S_, .f32⟩) main_call6_v3) (sitofp .f32),
    TRef.unary (TRef.of (T := ⟨S_, .f32⟩) main_call6_v3) (TRef.of (T := ⟨S2000000, .f32⟩) main_call6_v4) (broadcastInDim S2000000 ![] bcast_S_S2000000),
    TRef.binary (TRef.of (T := ⟨S2000000, .f32⟩) main_call6_v4) (TRef.of (T := ⟨S2000000, .f32⟩) main_call6_v2) (TRef.of (T := ⟨S2000000, .f32⟩) main_v337) minimumf,
    unary main_v337 main_v338 (fptosi 32 : (⟨S2000000, .f32⟩ : BufTy).Contents (Elt F) → (⟨S2000000, .i32⟩ : BufTy).Contents (Elt F)),
    nullary main_c_93 (constantI S_ 32 1#32),
    unary main_c_93 main_v339 (broadcastInDim S2000000 ![] bcast_S_S2000000 : (⟨S_, .i32⟩ : BufTy).Contents (Elt F) → (⟨S2000000, .i32⟩ : BufTy).Contents (Elt F)),
    binary main_v338 main_v339 main_v340 (addi : (⟨S2000000, .i32⟩ : BufTy).Contents (Elt F) → (⟨S2000000, .i32⟩ : BufTy).Contents (Elt F) → (⟨S2000000, .i32⟩ : BufTy).Contents (Elt F)),
    nullary main_c_94 (constantI S_ 32 299#32),
    unary main_c_94 main_v341 (broadcastInDim S2000000 ![] bcast_S_S2000000 : (⟨S_, .i32⟩ : BufTy).Contents (Elt F) → (⟨S2000000, .i32⟩ : BufTy).Contents (Elt F)),
    binary main_v340 main_v341 main_v342 (minsi : (⟨S2000000, .i32⟩ : BufTy).Contents (Elt F) → (⟨S2000000, .i32⟩ : BufTy).Contents (Elt F) → (⟨S2000000, .i32⟩ : BufTy).Contents (Elt F)),
    unary main_v338 main_v343 (sitofp .f32 : (⟨S2000000, .i32⟩ : BufTy).Contents (Elt F) → (⟨S2000000, .f32⟩ : BufTy).Contents (Elt F)),
    binary main_v335 main_v343 main_v344 (subf : (⟨S2000000, .f32⟩ : BufTy).Contents (Elt F) → (⟨S2000000, .f32⟩ : BufTy).Contents (Elt F) → (⟨S2000000, .f32⟩ : BufTy).Contents (Elt F)),
    nullary main_cst_95 (constant S_ .f32 0x3F800000#32),
    unary main_cst_95 main_v345 (broadcastInDim S2000000 ![] bcast_S_S2000000 : (⟨S_, .f32⟩ : BufTy).Contents (Elt F) → (⟨S2000000, .f32⟩ : BufTy).Contents (Elt F)),
    binary main_v329 main_v345 main_v346 (addf : (⟨S2000000, .f32⟩ : BufTy).Contents (Elt F) → (⟨S2000000, .f32⟩ : BufTy).Contents (Elt F) → (⟨S2000000, .f32⟩ : BufTy).Contents (Elt F)),
    nullary main_cst_96 (constant S_ .f32 0x3F000000#32),
    unary main_cst_96 main_v347 (broadcastInDim S2000000 ![] bcast_S_S2000000 : (⟨S_, .f32⟩ : BufTy).Contents (Elt F) → (⟨S2000000, .f32⟩ : BufTy).Contents (Elt F)),
    binary main_v346 main_v347 main_v348 (mulf : (⟨S2000000, .f32⟩ : BufTy).Contents (Elt F) → (⟨S2000000, .f32⟩ : BufTy).Contents (Elt F) → (⟨S2000000, .f32⟩ : BufTy).Contents (Elt F)),
    nullary main_cst_97 (constant S_ .f32 0x43958000#32),
    unary main_cst_97 main_v349 (broadcastInDim S2000000 ![] bcast_S_S2000000 : (⟨S_, .f32⟩ : BufTy).Contents (Elt F) → (⟨S2000000, .f32⟩ : BufTy).Contents (Elt F)),
    binary main_v348 main_v349 main_v350 (mulf : (⟨S2000000, .f32⟩ : BufTy).Contents (Elt F) → (⟨S2000000, .f32⟩ : BufTy).Contents (Elt F) → (⟨S2000000, .f32⟩ : BufTy).Contents (Elt F)),
    unary main_v350 main_v351 (Host.floor : (⟨S2000000, .f32⟩ : BufTy).Contents (Elt F) → (⟨S2000000, .f32⟩ : BufTy).Contents (Elt F)),
    nullary main_c_98 (constantI S_ 32 0#32),
    nullary main_c_99 (constantI S_ 32 299#32),
    TRef.unary (TRef.of (T := ⟨S_, .i32⟩) main_c_98) (TRef.of (T := ⟨S_, .f32⟩) main_call7_v0) (sitofp .f32),
    TRef.unary (TRef.of (T := ⟨S_, .f32⟩) main_call7_v0) (TRef.of (T := ⟨S2000000, .f32⟩) main_call7_v1) (broadcastInDim S2000000 ![] bcast_S_S2000000),
    TRef.binary (TRef.of (T := ⟨S2000000, .f32⟩) main_call7_v1) (TRef.of (T := ⟨S2000000, .f32⟩) main_v351) (TRef.of (T := ⟨S2000000, .f32⟩) main_call7_v2) maximumf,
    TRef.unary (TRef.of (T := ⟨S_, .i32⟩) main_c_99) (TRef.of (T := ⟨S_, .f32⟩) main_call7_v3) (sitofp .f32),
    TRef.unary (TRef.of (T := ⟨S_, .f32⟩) main_call7_v3) (TRef.of (T := ⟨S2000000, .f32⟩) main_call7_v4) (broadcastInDim S2000000 ![] bcast_S_S2000000),
    TRef.binary (TRef.of (T := ⟨S2000000, .f32⟩) main_call7_v4) (TRef.of (T := ⟨S2000000, .f32⟩) main_call7_v2) (TRef.of (T := ⟨S2000000, .f32⟩) main_v352) minimumf,
    unary main_v352 main_v353 (fptosi 32 : (⟨S2000000, .f32⟩ : BufTy).Contents (Elt F) → (⟨S2000000, .i32⟩ : BufTy).Contents (Elt F)),
    nullary main_c_100 (constantI S_ 32 1#32),
    unary main_c_100 main_v354 (broadcastInDim S2000000 ![] bcast_S_S2000000 : (⟨S_, .i32⟩ : BufTy).Contents (Elt F) → (⟨S2000000, .i32⟩ : BufTy).Contents (Elt F)),
    binary main_v353 main_v354 main_v355 (addi : (⟨S2000000, .i32⟩ : BufTy).Contents (Elt F) → (⟨S2000000, .i32⟩ : BufTy).Contents (Elt F) → (⟨S2000000, .i32⟩ : BufTy).Contents (Elt F)),
    nullary main_c_101 (constantI S_ 32 299#32),
    unary main_c_101 main_v356 (broadcastInDim S2000000 ![] bcast_S_S2000000 : (⟨S_, .i32⟩ : BufTy).Contents (Elt F) → (⟨S2000000, .i32⟩ : BufTy).Contents (Elt F)),
    binary main_v355 main_v356 main_v357 (minsi : (⟨S2000000, .i32⟩ : BufTy).Contents (Elt F) → (⟨S2000000, .i32⟩ : BufTy).Contents (Elt F) → (⟨S2000000, .i32⟩ : BufTy).Contents (Elt F)),
    unary main_v353 main_v358 (sitofp .f32 : (⟨S2000000, .i32⟩ : BufTy).Contents (Elt F) → (⟨S2000000, .f32⟩ : BufTy).Contents (Elt F)),
    binary main_v350 main_v358 main_v359 (subf : (⟨S2000000, .f32⟩ : BufTy).Contents (Elt F) → (⟨S2000000, .f32⟩ : BufTy).Contents (Elt F) → (⟨S2000000, .f32⟩ : BufTy).Contents (Elt F)),
    nullary main_c_102 (constantI S_ 32 0#32),
    unary main_c_102 main_v360 (broadcastInDim S2000000 ![] bcast_S_S2000000 : (⟨S_, .i32⟩ : BufTy).Contents (Elt F) → (⟨S2000000, .i32⟩ : BufTy).Contents (Elt F)),
    binary main_v353 main_v360 main_v361 (cmpi .slt : (⟨S2000000, .i32⟩ : BufTy).Contents (Elt F) → (⟨S2000000, .i32⟩ : BufTy).Contents (Elt F) → (⟨S2000000, .i1⟩ : BufTy).Contents (Elt F)),
    nullary main_c_103 (constantI S_ 32 300#32),
    unary main_c_103 main_v362 (broadcastInDim S2000000 ![] bcast_S_S2000000 : (⟨S_, .i32⟩ : BufTy).Contents (Elt F) → (⟨S2000000, .i32⟩ : BufTy).Contents (Elt F)),
    binary main_v353 main_v362 main_v363 (addi : (⟨S2000000, .i32⟩ : BufTy).Contents (Elt F) → (⟨S2000000, .i32⟩ : BufTy).Contents (Elt F) → (⟨S2000000, .i32⟩ : BufTy).Contents (Elt F)),
    ternary main_v361 main_v363 main_v353 main_v364 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_104 (constantI S_ 32 0#32),
    unary main_c_104 main_v365 (broadcastInDim S2000000 ![] bcast_S_S2000000 : (⟨S_, .i32⟩ : BufTy).Contents (Elt F) → (⟨S2000000, .i32⟩ : BufTy).Contents (Elt F)),
    binary main_v338 main_v365 main_v366 (cmpi .slt : (⟨S2000000, .i32⟩ : BufTy).Contents (Elt F) → (⟨S2000000, .i32⟩ : BufTy).Contents (Elt F) → (⟨S2000000, .i1⟩ : BufTy).Contents (Elt F)),
    nullary main_c_105 (constantI S_ 32 300#32),
    unary main_c_105 main_v367 (broadcastInDim S2000000 ![] bcast_S_S2000000 : (⟨S_, .i32⟩ : BufTy).Contents (Elt F) → (⟨S2000000, .i32⟩ : BufTy).Contents (Elt F)),
    binary main_v338 main_v367 main_v368 (addi : (⟨S2000000, .i32⟩ : BufTy).Contents (Elt F) → (⟨S2000000, .i32⟩ : BufTy).Contents (Elt F) → (⟨S2000000, .i32⟩ : BufTy).Contents (Elt F)),
    ternary main_v366 main_v368 main_v338 main_v369 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v364 main_v370 (broadcastInDim S2000000x1 ![0] bcast_S2000000_S2000000x1_0 : (⟨S2000000, .i32⟩ : BufTy).Contents (Elt F) → (⟨S2000000x1, .i32⟩ : BufTy).Contents (Elt F)),
    unary main_v369 main_v371 (broadcastInDim S2000000x1 ![0] bcast_S2000000_S2000000x1_0 : (⟨S2000000, .i32⟩ : BufTy).Contents (Elt F) → (⟨S2000000x1, .i32⟩ : BufTy).Contents (Elt F)) ]
set_option maxRecDepth 16384 in
set_option maxHeartbeats 4000000 in
theorem part7_eq (c : Dev nD) : main_part7 (F := F) c = seq ops7 := rfl
set_option maxRecDepth 16384 in
theorem ops7_sub : (ops7 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub ..⟩
set_option maxRecDepth 16384 in
set_option maxHeartbeats 4000000 in
theorem ops7_fresh : (ops7 : List (HloOp τ sig (Elt F))).Forall fun op => op.fresh = ∅ := by
  simp only [List.Forall]; repeat' constructor

set_option maxRecDepth 16384 in
set_option maxHeartbeats 4000000 in
/-- The operations of statements 481 .. of @main, in order. -/
abbrev ops8 : List (HloOp τ sig (Elt F)) :=
  [ binary main_v370 main_v371 main_v372 ((fun a b => concatenate S2000000x2 1 [⟨S2000000x1, a⟩, ⟨S2000000x1, b⟩] concatenates_S2000000x1_S2000000x1_S2000000x2_d1) : (⟨S2000000x1, .i32⟩ : BufTy).Contents (Elt F) → (⟨S2000000x1, .i32⟩ : BufTy).Contents (Elt F) → (⟨S2000000x2, .i32⟩ : BufTy).Contents (Elt F)),
    binary main_v325 main_v372 main_v373 ((fun x i => Host.gather gather_S16x300x300_S2000000x2_S16x2000000_0_12_n_n_12_1_1611 x i) : (⟨S16x300x300, .f32⟩ : BufTy).Contents (Elt F) → (⟨S2000000x2, .i32⟩ : BufTy).Contents (Elt F) → (⟨S16x2000000, .f32⟩ : BufTy).Contents (Elt F)),
    nullary main_c_106 (constantI S_ 32 0#32),
    unary main_c_106 main_v374 (broadcastInDim S2000000 ![] bcast_S_S2000000 : (⟨S_, .i32⟩ : BufTy).Contents (Elt F) → (⟨S2000000, .i32⟩ : BufTy).Contents (Elt F)),
    binary main_v353 main_v374 main_v375 (cmpi .slt : (⟨S2000000, .i32⟩ : BufTy).Contents (Elt F) → (⟨S2000000, .i32⟩ : BufTy).Contents (Elt F) → (⟨S2000000, .i1⟩ : BufTy).Contents (Elt F)),
    nullary main_c_107 (constantI S_ 32 300#32),
    unary main_c_107 main_v376 (broadcastInDim S2000000 ![] bcast_S_S2000000 : (⟨S_, .i32⟩ : BufTy).Contents (Elt F) → (⟨S2000000, .i32⟩ : BufTy).Contents (Elt F)),
    binary main_v353 main_v376 main_v377 (addi : (⟨S2000000, .i32⟩ : BufTy).Contents (Elt F) → (⟨S2000000, .i32⟩ : BufTy).Contents (Elt F) → (⟨S2000000, .i32⟩ : BufTy).Contents (Elt F)),
    ternary main_v375 main_v377 main_v353 main_v378 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_108 (constantI S_ 32 0#32),
    unary main_c_108 main_v379 (broadcastInDim S2000000 ![] bcast_S_S2000000 : (⟨S_, .i32⟩ : BufTy).Contents (Elt F) → (⟨S2000000, .i32⟩ : BufTy).Contents (Elt F)),
    binary main_v342 main_v379 main_v380 (cmpi .slt : (⟨S2000000, .i32⟩ : BufTy).Contents (Elt F) → (⟨S2000000, .i32⟩ : BufTy).Contents (Elt F) → (⟨S2000000, .i1⟩ : BufTy).Contents (Elt F)),
    nullary main_c_109 (constantI S_ 32 300#32),
    unary main_c_109 main_v381 (broadcastInDim S2000000 ![] bcast_S_S2000000 : (⟨S_, .i32⟩ : BufTy).Contents (Elt F) → (⟨S2000000, .i32⟩ : BufTy).Contents (Elt F)),
    binary main_v342 main_v381 main_v382 (addi : (⟨S2000000, .i32⟩ : BufTy).Contents (Elt F) → (⟨S2000000, .i32⟩ : BufTy).Contents (Elt F) → (⟨S2000000, .i32⟩ : BufTy).Contents (Elt F)),
    ternary main_v380 main_v382 main_v342 main_v383 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v378 main_v384 (broadcastInDim S2000000x1 ![0] bcast_S2000000_S2000000x1_0 : (⟨S2000000, .i32⟩ : BufTy).Contents (Elt F) → (⟨S2000000x1, .i32⟩ : BufTy).Contents (Elt F)),
    unary main_v383 main_v385 (broadcastInDim S2000000x1 ![0] bcast_S2000000_S2000000x1_0 : (⟨S2000000, .i32⟩ : BufTy).Contents (Elt F) → (⟨S2000000x1, .i32⟩ : BufTy).Contents (Elt F)),
    binary main_v384 main_v385 main_v386 ((fun a b => concatenate S2000000x2 1 [⟨S2000000x1, a⟩, ⟨S2000000x1, b⟩] concatenates_S2000000x1_S2000000x1_S2000000x2_d1) : (⟨S2000000x1, .i32⟩ : BufTy).Contents (Elt F) → (⟨S2000000x1, .i32⟩ : BufTy).Contents (Elt F) → (⟨S2000000x2, .i32⟩ : BufTy).Contents (Elt F)),
    binary main_v325 main_v386 main_v387 ((fun x i => Host.gather gather_S16x300x300_S2000000x2_S16x2000000_0_12_n_n_12_1_1611 x i) : (⟨S16x300x300, .f32⟩ : BufTy).Contents (Elt F) → (⟨S2000000x2, .i32⟩ : BufTy).Contents (Elt F) → (⟨S16x2000000, .f32⟩ : BufTy).Contents (Elt F)),
    nullary main_c_110 (constantI S_ 32 0#32),
    unary main_c_110 main_v388 (broadcastInDim S2000000 ![] bcast_S_S2000000 : (⟨S_, .i32⟩ : BufTy).Contents (Elt F) → (⟨S2000000, .i32⟩ : BufTy).Contents (Elt F)),
    binary main_v357 main_v388 main_v389 (cmpi .slt : (⟨S2000000, .i32⟩ : BufTy).Contents (Elt F) → (⟨S2000000, .i32⟩ : BufTy).Contents (Elt F) → (⟨S2000000, .i1⟩ : BufTy).Contents (Elt F)),
    nullary main_c_111 (constantI S_ 32 300#32),
    unary main_c_111 main_v390 (broadcastInDim S2000000 ![] bcast_S_S2000000 : (⟨S_, .i32⟩ : BufTy).Contents (Elt F) → (⟨S2000000, .i32⟩ : BufTy).Contents (Elt F)),
    binary main_v357 main_v390 main_v391 (addi : (⟨S2000000, .i32⟩ : BufTy).Contents (Elt F) → (⟨S2000000, .i32⟩ : BufTy).Contents (Elt F) → (⟨S2000000, .i32⟩ : BufTy).Contents (Elt F)),
    ternary main_v389 main_v391 main_v357 main_v392 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_112 (constantI S_ 32 0#32),
    unary main_c_112 main_v393 (broadcastInDim S2000000 ![] bcast_S_S2000000 : (⟨S_, .i32⟩ : BufTy).Contents (Elt F) → (⟨S2000000, .i32⟩ : BufTy).Contents (Elt F)),
    binary main_v338 main_v393 main_v394 (cmpi .slt : (⟨S2000000, .i32⟩ : BufTy).Contents (Elt F) → (⟨S2000000, .i32⟩ : BufTy).Contents (Elt F) → (⟨S2000000, .i1⟩ : BufTy).Contents (Elt F)),
    nullary main_c_113 (constantI S_ 32 300#32),
    unary main_c_113 main_v395 (broadcastInDim S2000000 ![] bcast_S_S2000000 : (⟨S_, .i32⟩ : BufTy).Contents (Elt F) → (⟨S2000000, .i32⟩ : BufTy).Contents (Elt F)),
    binary main_v338 main_v395 main_v396 (addi : (⟨S2000000, .i32⟩ : BufTy).Contents (Elt F) → (⟨S2000000, .i32⟩ : BufTy).Contents (Elt F) → (⟨S2000000, .i32⟩ : BufTy).Contents (Elt F)),
    ternary main_v394 main_v396 main_v338 main_v397 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v392 main_v398 (broadcastInDim S2000000x1 ![0] bcast_S2000000_S2000000x1_0 : (⟨S2000000, .i32⟩ : BufTy).Contents (Elt F) → (⟨S2000000x1, .i32⟩ : BufTy).Contents (Elt F)),
    unary main_v397 main_v399 (broadcastInDim S2000000x1 ![0] bcast_S2000000_S2000000x1_0 : (⟨S2000000, .i32⟩ : BufTy).Contents (Elt F) → (⟨S2000000x1, .i32⟩ : BufTy).Contents (Elt F)),
    binary main_v398 main_v399 main_v400 ((fun a b => concatenate S2000000x2 1 [⟨S2000000x1, a⟩, ⟨S2000000x1, b⟩] concatenates_S2000000x1_S2000000x1_S2000000x2_d1) : (⟨S2000000x1, .i32⟩ : BufTy).Contents (Elt F) → (⟨S2000000x1, .i32⟩ : BufTy).Contents (Elt F) → (⟨S2000000x2, .i32⟩ : BufTy).Contents (Elt F)),
    binary main_v325 main_v400 main_v401 ((fun x i => Host.gather gather_S16x300x300_S2000000x2_S16x2000000_0_12_n_n_12_1_1611 x i) : (⟨S16x300x300, .f32⟩ : BufTy).Contents (Elt F) → (⟨S2000000x2, .i32⟩ : BufTy).Contents (Elt F) → (⟨S16x2000000, .f32⟩ : BufTy).Contents (Elt F)),
    nullary main_c_114 (constantI S_ 32 0#32),
    unary main_c_114 main_v402 (broadcastInDim S2000000 ![] bcast_S_S2000000 : (⟨S_, .i32⟩ : BufTy).Contents (Elt F) → (⟨S2000000, .i32⟩ : BufTy).Contents (Elt F)),
    binary main_v357 main_v402 main_v403 (cmpi .slt : (⟨S2000000, .i32⟩ : BufTy).Contents (Elt F) → (⟨S2000000, .i32⟩ : BufTy).Contents (Elt F) → (⟨S2000000, .i1⟩ : BufTy).Contents (Elt F)),
    nullary main_c_115 (constantI S_ 32 300#32),
    unary main_c_115 main_v404 (broadcastInDim S2000000 ![] bcast_S_S2000000 : (⟨S_, .i32⟩ : BufTy).Contents (Elt F) → (⟨S2000000, .i32⟩ : BufTy).Contents (Elt F)),
    binary main_v357 main_v404 main_v405 (addi : (⟨S2000000, .i32⟩ : BufTy).Contents (Elt F) → (⟨S2000000, .i32⟩ : BufTy).Contents (Elt F) → (⟨S2000000, .i32⟩ : BufTy).Contents (Elt F)),
    ternary main_v403 main_v405 main_v357 main_v406 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_116 (constantI S_ 32 0#32),
    unary main_c_116 main_v407 (broadcastInDim S2000000 ![] bcast_S_S2000000 : (⟨S_, .i32⟩ : BufTy).Contents (Elt F) → (⟨S2000000, .i32⟩ : BufTy).Contents (Elt F)),
    binary main_v342 main_v407 main_v408 (cmpi .slt : (⟨S2000000, .i32⟩ : BufTy).Contents (Elt F) → (⟨S2000000, .i32⟩ : BufTy).Contents (Elt F) → (⟨S2000000, .i1⟩ : BufTy).Contents (Elt F)),
    nullary main_c_117 (constantI S_ 32 300#32),
    unary main_c_117 main_v409 (broadcastInDim S2000000 ![] bcast_S_S2000000 : (⟨S_, .i32⟩ : BufTy).Contents (Elt F) → (⟨S2000000, .i32⟩ : BufTy).Contents (Elt F)),
    binary main_v342 main_v409 main_v410 (addi : (⟨S2000000, .i32⟩ : BufTy).Contents (Elt F) → (⟨S2000000, .i32⟩ : BufTy).Contents (Elt F) → (⟨S2000000, .i32⟩ : BufTy).Contents (Elt F)),
    ternary main_v408 main_v410 main_v342 main_v411 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v406 main_v412 (broadcastInDim S2000000x1 ![0] bcast_S2000000_S2000000x1_0 : (⟨S2000000, .i32⟩ : BufTy).Contents (Elt F) → (⟨S2000000x1, .i32⟩ : BufTy).Contents (Elt F)),
    unary main_v411 main_v413 (broadcastInDim S2000000x1 ![0] bcast_S2000000_S2000000x1_0 : (⟨S2000000, .i32⟩ : BufTy).Contents (Elt F) → (⟨S2000000x1, .i32⟩ : BufTy).Contents (Elt F)),
    binary main_v412 main_v413 main_v414 ((fun a b => concatenate S2000000x2 1 [⟨S2000000x1, a⟩, ⟨S2000000x1, b⟩] concatenates_S2000000x1_S2000000x1_S2000000x2_d1) : (⟨S2000000x1, .i32⟩ : BufTy).Contents (Elt F) → (⟨S2000000x1, .i32⟩ : BufTy).Contents (Elt F) → (⟨S2000000x2, .i32⟩ : BufTy).Contents (Elt F)),
    binary main_v325 main_v414 main_v415 ((fun x i => Host.gather gather_S16x300x300_S2000000x2_S16x2000000_0_12_n_n_12_1_1611 x i) : (⟨S16x300x300, .f32⟩ : BufTy).Contents (Elt F) → (⟨S2000000x2, .i32⟩ : BufTy).Contents (Elt F) → (⟨S16x2000000, .f32⟩ : BufTy).Contents (Elt F)),
    nullary main_cst_118 (constant S_ .f32 0x3F800000#32),
    unary main_cst_118 main_v416 (broadcastInDim S2000000 ![] bcast_S_S2000000 : (⟨S_, .f32⟩ : BufTy).Contents (Elt F) → (⟨S2000000, .f32⟩ : BufTy).Contents (Elt F)),
    binary main_v416 main_v344 main_v417 (subf : (⟨S2000000, .f32⟩ : BufTy).Contents (Elt F) → (⟨S2000000, .f32⟩ : BufTy).Contents (Elt F) → (⟨S2000000, .f32⟩ : BufTy).Contents (Elt F)),
    unary main_v417 main_v418 (broadcastInDim S1x2000000 ![1] bcast_S2000000_S1x2000000_1 : (⟨S2000000, .f32⟩ : BufTy).Contents (Elt F) → (⟨S1x2000000, .f32⟩ : BufTy).Contents (Elt F)) ]
set_option maxRecDepth 16384 in
set_option maxHeartbeats 4000000 in
theorem part8_eq (c : Dev nD) : main_part8 (F := F) c = seq ops8 := rfl
set_option maxRecDepth 16384 in
theorem ops8_sub : (ops8 : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., unary_bufs_sub ..⟩
set_option maxRecDepth 16384 in
set_option maxHeartbeats 4000000 in
theorem ops8_fresh : (ops8 : List (HloOp τ sig (Elt F))).Forall fun op => op.fresh = ∅ := by
  simp only [List.Forall]; repeat' constructor

set_option maxRecDepth 16384 in
set_option maxHeartbeats 4000000 in
/-- The operations of statements 541 .. of @main, in order. -/
abbrev ops9 : List (HloOp τ sig (Elt F)) :=
  [ unary main_v418 main_v419 (broadcastInDim S16x2000000 ![0, 1] bcast_S1x2000000_S16x2000000_0_1 : (⟨S1x2000000, .f32⟩ : BufTy).Contents (Elt F) → (⟨S16x2000000, .f32⟩ : BufTy).Contents (Elt F)),
    binary main_v373 main_v419 main_v420 (mulf : (⟨S16x2000000, .f32⟩ : BufTy).Contents (Elt F) → (⟨S16x2000000, .f32⟩ : BufTy).Contents (Elt F) → (⟨S16x2000000, .f32⟩ : BufTy).Contents (Elt F)),
    unary main_v344 main_v421 (broadcastInDim S1x2000000 ![1] bcast_S2000000_S1x2000000_1 : (⟨S2000000, .f32⟩ : BufTy).Contents (Elt F) → (⟨S1x2000000, .f32⟩ : BufTy).Contents (Elt F)),
    unary main_v421 main_v422 (broadcastInDim S16x2000000 ![0, 1] bcast_S1x2000000_S16x2000000_0_1 : (⟨S1x2000000, .f32⟩ : BufTy).Contents (Elt F) → (⟨S16x2000000, .f32⟩ : BufTy).Contents (Elt F)),
    binary main_v387 main_v422 main_v423 (mulf : (⟨S16x2000000, .f32⟩ : BufTy).Contents (Elt F) → (⟨S16x2000000, .f32⟩ : BufTy).Contents (Elt F) → (⟨S16x2000000, .f32⟩ : BufTy).Contents (Elt F)),
    binary main_v420 main_v423 main_v424 (addf : (⟨S16x2000000, .f32⟩ : BufTy).Contents (Elt F) → (⟨S16x2000000, .f32⟩ : BufTy).Contents (Elt F) → (⟨S16x2000000, .f32⟩ : BufTy).Contents (Elt F)),
    nullary main_cst_119 (constant S_ .f32 0x3F800000#32),
    unary main_cst_119 main_v425 (broadcastInDim S2000000 ![] bcast_S_S2000000 : (⟨S_, .f32⟩ : BufTy).Contents (Elt F) → (⟨S2000000, .f32⟩ : BufTy).Contents (Elt F)),
    binary main_v425 main_v359 main_v426 (subf : (⟨S2000000, .f32⟩ : BufTy).Contents (Elt F) → (⟨S2000000, .f32⟩ : BufTy).Contents (Elt F) → (⟨S2000000, .f32⟩ : BufTy).Contents (Elt F)),
    unary main_v426 main_v427 (broadcastInDim S1x2000000 ![1] bcast_S2000000_S1x2000000_1 : (⟨S2000000, .f32⟩ : BufTy).Contents (Elt F) → (⟨S1x2000000, .f32⟩ : BufTy).Contents (Elt F)),
    unary main_v427 main_v428 (broadcastInDim S16x2000000 ![0, 1] bcast_S1x2000000_S16x2000000_0_1 : (⟨S1x2000000, .f32⟩ : BufTy).Contents (Elt F) → (⟨S16x2000000, .f32⟩ : BufTy).Contents (Elt F)),
    binary main_v424 main_v428 main_v429 (mulf : (⟨S16x2000000, .f32⟩ : BufTy).Contents (Elt F) → (⟨S16x2000000, .f32⟩ : BufTy).Contents (Elt F) → (⟨S16x2000000, .f32⟩ : BufTy).Contents (Elt F)),
    nullary main_cst_120 (constant S_ .f32 0x3F800000#32),
    unary main_cst_120 main_v430 (broadcastInDim S2000000 ![] bcast_S_S2000000 : (⟨S_, .f32⟩ : BufTy).Contents (Elt F) → (⟨S2000000, .f32⟩ : BufTy).Contents (Elt F)),
    binary main_v430 main_v344 main_v431 (subf : (⟨S2000000, .f32⟩ : BufTy).Contents (Elt F) → (⟨S2000000, .f32⟩ : BufTy).Contents (Elt F) → (⟨S2000000, .f32⟩ : BufTy).Contents (Elt F)),
    unary main_v431 main_v432 (broadcastInDim S1x2000000 ![1] bcast_S2000000_S1x2000000_1 : (⟨S2000000, .f32⟩ : BufTy).Contents (Elt F) → (⟨S1x2000000, .f32⟩ : BufTy).Contents (Elt F)),
    unary main_v432 main_v433 (broadcastInDim S16x2000000 ![0, 1] bcast_S1x2000000_S16x2000000_0_1 : (⟨S1x2000000, .f32⟩ : BufTy).Contents (Elt F) → (⟨S16x2000000, .f32⟩ : BufTy).Contents (Elt F)),
    binary main_v401 main_v433 main_v434 (mulf : (⟨S16x2000000, .f32⟩ : BufTy).Contents (Elt F) → (⟨S16x2000000, .f32⟩ : BufTy).Contents (Elt F) → (⟨S16x2000000, .f32⟩ : BufTy).Contents (Elt F)),
    unary main_v344 main_v435 (broadcastInDim S1x2000000 ![1] bcast_S2000000_S1x2000000_1 : (⟨S2000000, .f32⟩ : BufTy).Contents (Elt F) → (⟨S1x2000000, .f32⟩ : BufTy).Contents (Elt F)),
    unary main_v435 main_v436 (broadcastInDim S16x2000000 ![0, 1] bcast_S1x2000000_S16x2000000_0_1 : (⟨S1x2000000, .f32⟩ : BufTy).Contents (Elt F) → (⟨S16x2000000, .f32⟩ : BufTy).Contents (Elt F)),
    binary main_v415 main_v436 main_v437 (mulf : (⟨S16x2000000, .f32⟩ : BufTy).Contents (Elt F) → (⟨S16x2000000, .f32⟩ : BufTy).Contents (Elt F) → (⟨S16x2000000, .f32⟩ : BufTy).Contents (Elt F)),
    binary main_v434 main_v437 main_v438 (addf : (⟨S16x2000000, .f32⟩ : BufTy).Contents (Elt F) → (⟨S16x2000000, .f32⟩ : BufTy).Contents (Elt F) → (⟨S16x2000000, .f32⟩ : BufTy).Contents (Elt F)),
    unary main_v359 main_v439 (broadcastInDim S1x2000000 ![1] bcast_S2000000_S1x2000000_1 : (⟨S2000000, .f32⟩ : BufTy).Contents (Elt F) → (⟨S1x2000000, .f32⟩ : BufTy).Contents (Elt F)),
    unary main_v439 main_v440 (broadcastInDim S16x2000000 ![0, 1] bcast_S1x2000000_S16x2000000_0_1 : (⟨S1x2000000, .f32⟩ : BufTy).Contents (Elt F) → (⟨S16x2000000, .f32⟩ : BufTy).Contents (Elt F)),
    binary main_v438 main_v440 main_v441 (mulf : (⟨S16x2000000, .f32⟩ : BufTy).Contents (Elt F) → (⟨S16x2000000, .f32⟩ : BufTy).Contents (Elt F) → (⟨S16x2000000, .f32⟩ : BufTy).Contents (Elt F)),
    binary main_v429 main_v441 main_v442 (addf : (⟨S16x2000000, .f32⟩ : BufTy).Contents (Elt F) → (⟨S16x2000000, .f32⟩ : BufTy).Contents (Elt F) → (⟨S16x2000000, .f32⟩ : BufTy).Contents (Elt F)),
    unary main_arg2 main_v443 ((extractStridedSlice S1x16x300 ![2, 0, 0] · slices_S3x16x300_S1x16x300_2_0_0) : (⟨S3x16x300, .f32⟩ : BufTy).Contents (Elt F) → (⟨S1x16x300, .f32⟩ : BufTy).Contents (Elt F)),
    reshape main_v443 main_v444 rfl shapeCasts_S1x16x300_S16x300,
    unary main_arg0 main_v445 ((extractStridedSlice S2000000x1 ![0, 2] · slices_S2000000x3_S2000000x1_0_2) : (⟨S2000000x3, .f32⟩ : BufTy).Contents (Elt F) → (⟨S2000000x1, .f32⟩ : BufTy).Contents (Elt F)),
    reshape main_v445 main_v446 rfl shapeCasts_S2000000x1_S2000000,
    nullary main_cst_121 (constant S_ .f32 0x3F800000#32),
    unary main_cst_121 main_v447 (broadcastInDim S2000000 ![] bcast_S_S2000000 : (⟨S_, .f32⟩ : BufTy).Contents (Elt F) → (⟨S2000000, .f32⟩ : BufTy).Contents (Elt F)),
    binary main_v446 main_v447 main_v448 (addf : (⟨S2000000, .f32⟩ : BufTy).Contents (Elt F) → (⟨S2000000, .f32⟩ : BufTy).Contents (Elt F) → (⟨S2000000, .f32⟩ : BufTy).Contents (Elt F)),
    nullary main_cst_122 (constant S_ .f32 0x3F000000#32),
    unary main_cst_122 main_v449 (broadcastInDim S2000000 ![] bcast_S_S2000000 : (⟨S_, .f32⟩ : BufTy).Contents (Elt F) → (⟨S2000000, .f32⟩ : BufTy).Contents (Elt F)),
    binary main_v448 main_v449 main_v450 (mulf : (⟨S2000000, .f32⟩ : BufTy).Contents (Elt F) → (⟨S2000000, .f32⟩ : BufTy).Contents (Elt F) → (⟨S2000000, .f32⟩ : BufTy).Contents (Elt F)),
    nullary main_cst_123 (constant S_ .f32 0x43958000#32),
    unary main_cst_123 main_v451 (broadcastInDim S2000000 ![] bcast_S_S2000000 : (⟨S_, .f32⟩ : BufTy).Contents (Elt F) → (⟨S2000000, .f32⟩ : BufTy).Contents (Elt F)),
    binary main_v450 main_v451 main_v452 (mulf : (⟨S2000000, .f32⟩ : BufTy).Contents (Elt F) → (⟨S2000000, .f32⟩ : BufTy).Contents (Elt F) → (⟨S2000000, .f32⟩ : BufTy).Contents (Elt F)),
    unary main_v452 main_v453 (Host.floor : (⟨S2000000, .f32⟩ : BufTy).Contents (Elt F) → (⟨S2000000, .f32⟩ : BufTy).Contents (Elt F)),
    nullary main_c_124 (constantI S_ 32 0#32),
    nullary main_c_125 (constantI S_ 32 299#32),
    TRef.unary (TRef.of (T := ⟨S_, .i32⟩) main_c_124) (TRef.of (T := ⟨S_, .f32⟩) main_call8_v0) (sitofp .f32),
    TRef.unary (TRef.of (T := ⟨S_, .f32⟩) main_call8_v0) (TRef.of (T := ⟨S2000000, .f32⟩) main_call8_v1) (broadcastInDim S2000000 ![] bcast_S_S2000000),
    TRef.binary (TRef.of (T := ⟨S2000000, .f32⟩) main_call8_v1) (TRef.of (T := ⟨S2000000, .f32⟩) main_v453) (TRef.of (T := ⟨S2000000, .f32⟩) main_call8_v2) maximumf,
    TRef.unary (TRef.of (T := ⟨S_, .i32⟩) main_c_125) (TRef.of (T := ⟨S_, .f32⟩) main_call8_v3) (sitofp .f32),
    TRef.unary (TRef.of (T := ⟨S_, .f32⟩) main_call8_v3) (TRef.of (T := ⟨S2000000, .f32⟩) main_call8_v4) (broadcastInDim S2000000 ![] bcast_S_S2000000),
    TRef.binary (TRef.of (T := ⟨S2000000, .f32⟩) main_call8_v4) (TRef.of (T := ⟨S2000000, .f32⟩) main_call8_v2) (TRef.of (T := ⟨S2000000, .f32⟩) main_v454) minimumf,
    unary main_v454 main_v455 (fptosi 32 : (⟨S2000000, .f32⟩ : BufTy).Contents (Elt F) → (⟨S2000000, .i32⟩ : BufTy).Contents (Elt F)),
    nullary main_c_126 (constantI S_ 32 1#32),
    unary main_c_126 main_v456 (broadcastInDim S2000000 ![] bcast_S_S2000000 : (⟨S_, .i32⟩ : BufTy).Contents (Elt F) → (⟨S2000000, .i32⟩ : BufTy).Contents (Elt F)),
    binary main_v455 main_v456 main_v457 (addi : (⟨S2000000, .i32⟩ : BufTy).Contents (Elt F) → (⟨S2000000, .i32⟩ : BufTy).Contents (Elt F) → (⟨S2000000, .i32⟩ : BufTy).Contents (Elt F)),
    nullary main_c_127 (constantI S_ 32 299#32),
    unary main_c_127 main_v458 (broadcastInDim S2000000 ![] bcast_S_S2000000 : (⟨S_, .i32⟩ : BufTy).Contents (Elt F) → (⟨S2000000, .i32⟩ : BufTy).Contents (Elt F)),
    binary main_v457 main_v458 main_v459 (minsi : (⟨S2000000, .i32⟩ : BufTy).Contents (Elt F) → (⟨S2000000, .i32⟩ : BufTy).Contents (Elt F) → (⟨S2000000, .i32⟩ : BufTy).Contents (Elt F)),
    unary main_v455 main_v460 (sitofp .f32 : (⟨S2000000, .i32⟩ : BufTy).Contents (Elt F) → (⟨S2000000, .f32⟩ : BufTy).Contents (Elt F)),
    binary main_v452 main_v460 main_v461 (subf : (⟨S2000000, .f32⟩ : BufTy).Contents (Elt F) → (⟨S2000000, .f32⟩ : BufTy).Contents (Elt F) → (⟨S2000000, .f32⟩ : BufTy).Contents (Elt F)),
    nullary main_c_128 (constantI S_ 32 0#32),
    unary main_c_128 main_v462 (broadcastInDim S2000000 ![] bcast_S_S2000000 : (⟨S_, .i32⟩ : BufTy).Contents (Elt F) → (⟨S2000000, .i32⟩ : BufTy).Contents (Elt F)),
    binary main_v455 main_v462 main_v463 (cmpi .slt : (⟨S2000000, .i32⟩ : BufTy).Contents (Elt F) → (⟨S2000000, .i32⟩ : BufTy).Contents (Elt F) → (⟨S2000000, .i1⟩ : BufTy).Contents (Elt F)),
    nullary main_c_129 (constantI S_ 32 300#32),
    unary main_c_129 main_v464 (broadcastInDim S2000000 ![] bcast_S_S2000000 : (⟨S_, .i32⟩ : BufTy).Contents (Elt F) → (⟨S2000000, .i32⟩ : BufTy).Contents (Elt F)),
    binary main_v455 main_v464 main_v465 (addi : (⟨S2000000, .i32⟩ : BufTy).Contents (Elt F) → (⟨S2000000, .i32⟩ : BufTy).Contents (Elt F) → (⟨S2000000, .i32⟩ : BufTy).Contents (Elt F)),
    ternary main_v463 main_v465 main_v455 main_v466 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v466 main_v467 (broadcastInDim S2000000x1 ![0] bcast_S2000000_S2000000x1_0 : (⟨S2000000, .i32⟩ : BufTy).Contents (Elt F) → (⟨S2000000x1, .i32⟩ : BufTy).Contents (Elt F)) ]
set_option maxRecDepth 16384 in
set_option maxHeartbeats 4000000 in
theorem part9_eq (c : Dev nD) : main_part9 (F := F) c = seq ops9 := rfl
set_option maxRecDepth 16384 in
theorem ops9_sub : (ops9 : List (HloOp τ sig (Elt F))).Forall fun op => op.bufs ⊆ tcRefs τ sig :=
  ⟨unary_bufs_sub .., binary_bufs_sub .., unary_bufs_sub .., unary_bufs_sub .., binary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub ..⟩
set_option maxRecDepth 16384 in
set_option maxHeartbeats 4000000 in
theorem ops9_fresh : (ops9 : List (HloOp τ sig (Elt F))).Forall fun op => op.fresh = ∅ := by
  simp only [List.Forall]; repeat' constructor

set_option maxRecDepth 16384 in
set_option maxHeartbeats 4000000 in
/-- The operations of statements 601 .. of @main, in order. -/
abbrev ops10 : List (HloOp τ sig (Elt F)) :=
  [ binary main_v444 main_v467 main_v468 ((fun x i => Host.gather gather_S16x300_S2000000x1_S16x2000000_0_1_n_n_1_1_161 x i) : (⟨S16x300, .f32⟩ : BufTy).Contents (Elt F) → (⟨S2000000x1, .i32⟩ : BufTy).Contents (Elt F) → (⟨S16x2000000, .f32⟩ : BufTy).Contents (Elt F)),
    nullary main_cst_130 (constant S_ .f32 0x3F800000#32),
    unary main_cst_130 main_v469 (broadcastInDim S2000000 ![] bcast_S_S2000000 : (⟨S_, .f32⟩ : BufTy).Contents (Elt F) → (⟨S2000000, .f32⟩ : BufTy).Contents (Elt F)),
    binary main_v469 main_v461 main_v470 (subf : (⟨S2000000, .f32⟩ : BufTy).Contents (Elt F) → (⟨S2000000, .f32⟩ : BufTy).Contents (Elt F) → (⟨S2000000, .f32⟩ : BufTy).Contents (Elt F)),
    unary main_v470 main_v471 (broadcastInDim S1x2000000 ![1] bcast_S2000000_S1x2000000_1 : (⟨S2000000, .f32⟩ : BufTy).Contents (Elt F) → (⟨S1x2000000, .f32⟩ : BufTy).Contents (Elt F)),
    unary main_v471 main_v472 (broadcastInDim S16x2000000 ![0, 1] bcast_S1x2000000_S16x2000000_0_1 : (⟨S1x2000000, .f32⟩ : BufTy).Contents (Elt F) → (⟨S16x2000000, .f32⟩ : BufTy).Contents (Elt F)),
    binary main_v468 main_v472 main_v473 (mulf : (⟨S16x2000000, .f32⟩ : BufTy).Contents (Elt F) → (⟨S16x2000000, .f32⟩ : BufTy).Contents (Elt F) → (⟨S16x2000000, .f32⟩ : BufTy).Contents (Elt F)),
    nullary main_c_131 (constantI S_ 32 0#32),
    unary main_c_131 main_v474 (broadcastInDim S2000000 ![] bcast_S_S2000000 : (⟨S_, .i32⟩ : BufTy).Contents (Elt F) → (⟨S2000000, .i32⟩ : BufTy).Contents (Elt F)),
    binary main_v459 main_v474 main_v475 (cmpi .slt : (⟨S2000000, .i32⟩ : BufTy).Contents (Elt F) → (⟨S2000000, .i32⟩ : BufTy).Contents (Elt F) → (⟨S2000000, .i1⟩ : BufTy).Contents (Elt F)),
    nullary main_c_132 (constantI S_ 32 300#32),
    unary main_c_132 main_v476 (broadcastInDim S2000000 ![] bcast_S_S2000000 : (⟨S_, .i32⟩ : BufTy).Contents (Elt F) → (⟨S2000000, .i32⟩ : BufTy).Contents (Elt F)),
    binary main_v459 main_v476 main_v477 (addi : (⟨S2000000, .i32⟩ : BufTy).Contents (Elt F) → (⟨S2000000, .i32⟩ : BufTy).Contents (Elt F) → (⟨S2000000, .i32⟩ : BufTy).Contents (Elt F)),
    ternary main_v475 main_v477 main_v459 main_v478 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v478 main_v479 (broadcastInDim S2000000x1 ![0] bcast_S2000000_S2000000x1_0 : (⟨S2000000, .i32⟩ : BufTy).Contents (Elt F) → (⟨S2000000x1, .i32⟩ : BufTy).Contents (Elt F)),
    binary main_v444 main_v479 main_v480 ((fun x i => Host.gather gather_S16x300_S2000000x1_S16x2000000_0_1_n_n_1_1_161 x i) : (⟨S16x300, .f32⟩ : BufTy).Contents (Elt F) → (⟨S2000000x1, .i32⟩ : BufTy).Contents (Elt F) → (⟨S16x2000000, .f32⟩ : BufTy).Contents (Elt F)),
    unary main_v461 main_v481 (broadcastInDim S1x2000000 ![1] bcast_S2000000_S1x2000000_1 : (⟨S2000000, .f32⟩ : BufTy).Contents (Elt F) → (⟨S1x2000000, .f32⟩ : BufTy).Contents (Elt F)),
    unary main_v481 main_v482 (broadcastInDim S16x2000000 ![0, 1] bcast_S1x2000000_S16x2000000_0_1 : (⟨S1x2000000, .f32⟩ : BufTy).Contents (Elt F) → (⟨S16x2000000, .f32⟩ : BufTy).Contents (Elt F)),
    binary main_v480 main_v482 main_v483 (mulf : (⟨S16x2000000, .f32⟩ : BufTy).Contents (Elt F) → (⟨S16x2000000, .f32⟩ : BufTy).Contents (Elt F) → (⟨S16x2000000, .f32⟩ : BufTy).Contents (Elt F)),
    binary main_v473 main_v483 main_v484 (addf : (⟨S16x2000000, .f32⟩ : BufTy).Contents (Elt F) → (⟨S16x2000000, .f32⟩ : BufTy).Contents (Elt F) → (⟨S16x2000000, .f32⟩ : BufTy).Contents (Elt F)),
    binary main_v442 main_v484 main_v485 (mulf : (⟨S16x2000000, .f32⟩ : BufTy).Contents (Elt F) → (⟨S16x2000000, .f32⟩ : BufTy).Contents (Elt F) → (⟨S16x2000000, .f32⟩ : BufTy).Contents (Elt F)),
    nary ![main_v161, main_v323, main_v485] main_v486 (fun u => concatenate S48x2000000 0 [⟨S16x2000000, u 0⟩, ⟨S16x2000000, u 1⟩, ⟨S16x2000000, u 2⟩] concatenates_S16x2000000_S16x2000000_S16x2000000_S48x2000000_d0) ]
set_option maxRecDepth 16384 in
set_option maxHeartbeats 4000000 in
theorem part10_eq (c : Dev nD) : main_part10 (F := F) c = seq ops10 := rfl
set_option maxRecDepth 16384 in
theorem ops10_sub : (ops10 : List (HloOp τ sig (Elt F))).Forall fun op => op.bufs ⊆ tcRefs τ sig :=
  ⟨binary_bufs_sub .., nullary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., binary_bufs_sub .., binary_bufs_sub .., nary_bufs_sub ..⟩
set_option maxRecDepth 16384 in
set_option maxHeartbeats 4000000 in
theorem ops10_fresh : (ops10 : List (HloOp τ sig (Elt F))).Forall fun op => op.fresh = ∅ := by
  simp only [List.Forall]; repeat' constructor

/-- @main's operations, in program order (the outlined clamp function's operations stand where it is called). -/
abbrev ops : List (HloOp τ sig (Elt F)) := ops0 ++ (ops1 ++ (ops2 ++ (ops3 ++ (ops4 ++ (ops5 ++ (ops6 ++ (ops7 ++ (ops8 ++ (ops9 ++ (ops10))))))))))

/-- @main is its operations in order. -/
theorem main_eq (c : Dev nD) : main (F := F) c = seq ops := by
  show (main_part0 (F := F) c >>= fun _ => main_part1 (F := F) c >>= fun _ => main_part2 (F := F) c >>= fun _ => main_part3 (F := F) c >>= fun _ => main_part4 (F := F) c >>= fun _ => main_part5 (F := F) c >>= fun _ => main_part6 (F := F) c >>= fun _ => main_part7 (F := F) c >>= fun _ => main_part8 (F := F) c >>= fun _ => main_part9 (F := F) c >>= fun _ => main_part10 (F := F) c) = _
  simp only [ops, seq_append, part0_eq, part1_eq, part2_eq, part3_eq, part4_eq, part5_eq, part6_eq, part7_eq, part8_eq, part9_eq, part10_eq]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h
    · exact List.forall_iff_forall_mem.mp ops0_sub op h
    · exact List.forall_iff_forall_mem.mp ops1_sub op h
    · exact List.forall_iff_forall_mem.mp ops2_sub op h
    · exact List.forall_iff_forall_mem.mp ops3_sub op h
    · exact List.forall_iff_forall_mem.mp ops4_sub op h
    · exact List.forall_iff_forall_mem.mp ops5_sub op h
    · exact List.forall_iff_forall_mem.mp ops6_sub op h
    · exact List.forall_iff_forall_mem.mp ops7_sub op h
    · exact List.forall_iff_forall_mem.mp ops8_sub op h
    · exact List.forall_iff_forall_mem.mp ops9_sub op h
    · exact List.forall_iff_forall_mem.mp ops10_sub op h

theorem ops_fresh : ∀ op ∈ (ops : List (HloOp τ sig (Elt F))), op.fresh = ∅ := fun op h => by
  simp only [ops, List.mem_append] at h
  rcases h with h | h | h | h | h | h | h | h | h | h | h
  · exact List.forall_iff_forall_mem.mp ops0_fresh op h
  · exact List.forall_iff_forall_mem.mp ops1_fresh op h
  · exact List.forall_iff_forall_mem.mp ops2_fresh op h
  · exact List.forall_iff_forall_mem.mp ops3_fresh op h
  · exact List.forall_iff_forall_mem.mp ops4_fresh op h
  · exact List.forall_iff_forall_mem.mp ops5_fresh op h
  · exact List.forall_iff_forall_mem.mp ops6_fresh op h
  · exact List.forall_iff_forall_mem.mp ops7_fresh op h
  · exact List.forall_iff_forall_mem.mp ops8_fresh op h
  · exact List.forall_iff_forall_mem.mp ops9_fresh op h
  · exact List.forall_iff_forall_mem.mp ops10_fresh op h

/-- Every weakly fair execution of the reference terminates with every buffer at the fold of the operations. -/
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after (ops (F := F)) (launchContents m d) (Proc.devRef .tc b) :=
  run_seq scopedRefs_eq scopedSems_eq defs main (fun _ => ops) main_eq (fun _ => ops_sub) m ρ (fun _ => ops_fresh)

end Cert.ReferenceIdeal.Hand

end
-- ==== Proof.RefValue.lean ====
/-
  The reference's result as one function of the three argument arrays: for each plane the bilinear sample of the
  plane table times the linear sample of the line table, channel-major, the three planes stacked.  It is the
  composition of the reference's operations, read off one after the other.
-/
import proofs.«171750_j84275848282428_2_alg».proof.Proof.RefRun
import proofs.«171750_j84275848282428_2_alg».proof.Proof.SamplePlanes
import proofs.«171750_j84275848282428_2_alg».proof.Proof.LibNary3

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 400000000 in
/-- After the reference's operations the result buffer holds the stacked products of the sampled planes and lines. -/
theorem result_eq (m : (ℓ : Loc nD τ sig) → Buf (Elt F) ℓ) (c : Dev nD) :
    after (ops (F := F)) (launchContents m c) (Proc.devRef .tc main_v486)
      = GS.refResult (m ((c : Thread nD τ).loc main_arg0)) (m ((c : Thread nD τ).loc main_arg1)) (m ((c : Thread nD τ).loc main_arg2)) := by
  have h1 : after (ops (F := F)) (launchContents m c) (Proc.devRef .tc main_v486) = (concatenate S48x2000000 0 [⟨S16x2000000, (mulf (addf (mulf (addf (mulf (Host.gather gather_S16x300x300_S2000000x2_S16x2000000_0_12_n_n_12_1_1611 (shapeCast _ (extractStridedSlice S1x16x300x300 ![0, 0, 0, 0] (m ((c : Thread nD τ).loc main_arg1)) slices_S3x16x300x300_S1x16x300x300_0_0_0_0) shapeCasts_S1x16x300x300_S16x300x300) (concatenate S2000000x2 1 [⟨S2000000x1, (broadcastInDim S2000000x1 ![0] bcast_S2000000_S2000000x1_0 (GS.wrap (GS.cell (GS.col2 (m ((c : Thread nD τ).loc main_arg0))))))⟩, ⟨S2000000x1, (broadcastInDim S2000000x1 ![0] bcast_S2000000_S2000000x1_0 (GS.wrap (GS.cell (GS.col1 (m ((c : Thread nD τ).loc main_arg0))))))⟩] concatenates_S2000000x1_S2000000x1_S2000000x2_d1)) (broadcastInDim S16x2000000 ![0, 1] bcast_S1x2000000_S16x2000000_0_1 (broadcastInDim S1x2000000 ![1] bcast_S2000000_S1x2000000_1 (subf (broadcastInDim S2000000 ![] bcast_S_S2000000 (constant S_ .f32 0x3F800000#32)) (GS.frac (GS.col1 (m ((c : Thread nD τ).loc main_arg0)))))))) (mulf (Host.gather gather_S16x300x300_S2000000x2_S16x2000000_0_12_n_n_12_1_1611 (shapeCast _ (extractStridedSlice S1x16x300x300 ![0, 0, 0, 0] (m ((c : Thread nD τ).loc main_arg1)) slices_S3x16x300x300_S1x16x300x300_0_0_0_0) shapeCasts_S1x16x300x300_S16x300x300) (concatenate S2000000x2 1 [⟨S2000000x1, (broadcastInDim S2000000x1 ![0] bcast_S2000000_S2000000x1_0 (GS.wrap (GS.cell (GS.col2 (m ((c : Thread nD τ).loc main_arg0))))))⟩, ⟨S2000000x1, (broadcastInDim S2000000x1 ![0] bcast_S2000000_S2000000x1_0 (GS.wrap (GS.next (GS.col1 (m ((c : Thread nD τ).loc main_arg0))))))⟩] concatenates_S2000000x1_S2000000x1_S2000000x2_d1)) (broadcastInDim S16x2000000 ![0, 1] bcast_S1x2000000_S16x2000000_0_1 (broadcastInDim S1x2000000 ![1] bcast_S2000000_S1x2000000_1 (GS.frac (GS.col1 (m ((c : Thread nD τ).loc main_arg0)))))))) (broadcastInDim S16x2000000 ![0, 1] bcast_S1x2000000_S16x2000000_0_1 (broadcastInDim S1x2000000 ![1] bcast_S2000000_S1x2000000_1 (subf (broadcastInDim S2000000 ![] bcast_S_S2000000 (constant S_ .f32 0x3F800000#32)) (GS.frac (GS.col2 (m ((c : Thread nD τ).loc main_arg0)))))))) (mulf (addf (mulf (Host.gather gather_S16x300x300_S2000000x2_S16x2000000_0_12_n_n_12_1_1611 (shapeCast _ (extractStridedSlice S1x16x300x300 ![0, 0, 0, 0] (m ((c : Thread nD τ).loc main_arg1)) slices_S3x16x300x300_S1x16x300x300_0_0_0_0) shapeCasts_S1x16x300x300_S16x300x300) (concatenate S2000000x2 1 [⟨S2000000x1, (broadcastInDim S2000000x1 ![0] bcast_S2000000_S2000000x1_0 (GS.wrap (GS.next (GS.col2 (m ((c : Thread nD τ).loc main_arg0))))))⟩, ⟨S2000000x1, (broadcastInDim S2000000x1 ![0] bcast_S2000000_S2000000x1_0 (GS.wrap (GS.cell (GS.col1 (m ((c : Thread nD τ).loc main_arg0))))))⟩] concatenates_S2000000x1_S2000000x1_S2000000x2_d1)) (broadcastInDim S16x2000000 ![0, 1] bcast_S1x2000000_S16x2000000_0_1 (broadcastInDim S1x2000000 ![1] bcast_S2000000_S1x2000000_1 (subf (broadcastInDim S2000000 ![] bcast_S_S2000000 (constant S_ .f32 0x3F800000#32)) (GS.frac (GS.col1 (m ((c : Thread nD τ).loc main_arg0)))))))) (mulf (Host.gather gather_S16x300x300_S2000000x2_S16x2000000_0_12_n_n_12_1_1611 (shapeCast _ (extractStridedSlice S1x16x300x300 ![0, 0, 0, 0] (m ((c : Thread nD τ).loc main_arg1)) slices_S3x16x300x300_S1x16x300x300_0_0_0_0) shapeCasts_S1x16x300x300_S16x300x300) (concatenate S2000000x2 1 [⟨S2000000x1, (broadcastInDim S2000000x1 ![0] bcast_S2000000_S2000000x1_0 (GS.wrap (GS.next (GS.col2 (m ((c : Thread nD τ).loc main_arg0))))))⟩, ⟨S2000000x1, (broadcastInDim S2000000x1 ![0] bcast_S2000000_S2000000x1_0 (GS.wrap (GS.next (GS.col1 (m ((c : Thread nD τ).loc main_arg0))))))⟩] concatenates_S2000000x1_S2000000x1_S2000000x2_d1)) (broadcastInDim S16x2000000 ![0, 1] bcast_S1x2000000_S16x2000000_0_1 (broadcastInDim S1x2000000 ![1] bcast_S2000000_S1x2000000_1 (GS.frac (GS.col1 (m ((c : Thread nD τ).loc main_arg0)))))))) (broadcastInDim S16x2000000 ![0, 1] bcast_S1x2000000_S16x2000000_0_1 (broadcastInDim S1x2000000 ![1] bcast_S2000000_S1x2000000_1 (GS.frac (GS.col2 (m ((c : Thread nD τ).loc main_arg0)))))))) (addf (mulf (Host.gather gather_S16x300_S2000000x1_S16x2000000_0_1_n_n_1_1_161 (shapeCast _ (extractStridedSlice S1x16x300 ![0, 0, 0] (m ((c : Thread nD τ).loc main_arg2)) slices_S3x16x300_S1x16x300_0_0_0) shapeCasts_S1x16x300_S16x300) (broadcastInDim S2000000x1 ![0] bcast_S2000000_S2000000x1_0 (GS.wrap (GS.cell (GS.col0 (m ((c : Thread nD τ).loc main_arg0))))))) (broadcastInDim S16x2000000 ![0, 1] bcast_S1x2000000_S16x2000000_0_1 (broadcastInDim S1x2000000 ![1] bcast_S2000000_S1x2000000_1 (subf (broadcastInDim S2000000 ![] bcast_S_S2000000 (constant S_ .f32 0x3F800000#32)) (GS.frac (GS.col0 (m ((c : Thread nD τ).loc main_arg0)))))))) (mulf (Host.gather gather_S16x300_S2000000x1_S16x2000000_0_1_n_n_1_1_161 (shapeCast _ (extractStridedSlice S1x16x300 ![0, 0, 0] (m ((c : Thread nD τ).loc main_arg2)) slices_S3x16x300_S1x16x300_0_0_0) shapeCasts_S1x16x300_S16x300) (broadcastInDim S2000000x1 ![0] bcast_S2000000_S2000000x1_0 (GS.wrap (GS.next (GS.col0 (m ((c : Thread nD τ).loc main_arg0))))))) (broadcastInDim S16x2000000 ![0, 1] bcast_S1x2000000_S16x2000000_0_1 (broadcastInDim S1x2000000 ![1] bcast_S2000000_S1x2000000_1 (GS.frac (GS.col0 (m ((c : Thread nD τ).loc main_arg0)))))))))⟩, ⟨S16x2000000, (mulf (addf (mulf (addf (mulf (Host.gather gather_S16x300x300_S2000000x2_S16x2000000_0_12_n_n_12_1_1611 (shapeCast _ (extractStridedSlice S1x16x300x300 ![1, 0, 0, 0] (m ((c : Thread nD τ).loc main_arg1)) slices_S3x16x300x300_S1x16x300x300_1_0_0_0) shapeCasts_S1x16x300x300_S16x300x300) (concatenate S2000000x2 1 [⟨S2000000x1, (broadcastInDim S2000000x1 ![0] bcast_S2000000_S2000000x1_0 (GS.wrap (GS.cell (GS.col2 (m ((c : Thread nD τ).loc main_arg0))))))⟩, ⟨S2000000x1, (broadcastInDim S2000000x1 ![0] bcast_S2000000_S2000000x1_0 (GS.wrap (GS.cell (GS.col0 (m ((c : Thread nD τ).loc main_arg0))))))⟩] concatenates_S2000000x1_S2000000x1_S2000000x2_d1)) (broadcastInDim S16x2000000 ![0, 1] bcast_S1x2000000_S16x2000000_0_1 (broadcastInDim S1x2000000 ![1] bcast_S2000000_S1x2000000_1 (subf (broadcastInDim S2000000 ![] bcast_S_S2000000 (constant S_ .f32 0x3F800000#32)) (GS.frac (GS.col0 (m ((c : Thread nD τ).loc main_arg0)))))))) (mulf (Host.gather gather_S16x300x300_S2000000x2_S16x2000000_0_12_n_n_12_1_1611 (shapeCast _ (extractStridedSlice S1x16x300x300 ![1, 0, 0, 0] (m ((c : Thread nD τ).loc main_arg1)) slices_S3x16x300x300_S1x16x300x300_1_0_0_0) shapeCasts_S1x16x300x300_S16x300x300) (concatenate S2000000x2 1 [⟨S2000000x1, (broadcastInDim S2000000x1 ![0] bcast_S2000000_S2000000x1_0 (GS.wrap (GS.cell (GS.col2 (m ((c : Thread nD τ).loc main_arg0))))))⟩, ⟨S2000000x1, (broadcastInDim S2000000x1 ![0] bcast_S2000000_S2000000x1_0 (GS.wrap (GS.next (GS.col0 (m ((c : Thread nD τ).loc main_arg0))))))⟩] concatenates_S2000000x1_S2000000x1_S2000000x2_d1)) (broadcastInDim S16x2000000 ![0, 1] bcast_S1x2000000_S16x2000000_0_1 (broadcastInDim S1x2000000 ![1] bcast_S2000000_S1x2000000_1 (GS.frac (GS.col0 (m ((c : Thread nD τ).loc main_arg0)))))))) (broadcastInDim S16x2000000 ![0, 1] bcast_S1x2000000_S16x2000000_0_1 (broadcastInDim S1x2000000 ![1] bcast_S2000000_S1x2000000_1 (subf (broadcastInDim S2000000 ![] bcast_S_S2000000 (constant S_ .f32 0x3F800000#32)) (GS.frac (GS.col2 (m ((c : Thread nD τ).loc main_arg0)))))))) (mulf (addf (mulf (Host.gather gather_S16x300x300_S2000000x2_S16x2000000_0_12_n_n_12_1_1611 (shapeCast _ (extractStridedSlice S1x16x300x300 ![1, 0, 0, 0] (m ((c : Thread nD τ).loc main_arg1)) slices_S3x16x300x300_S1x16x300x300_1_0_0_0) shapeCasts_S1x16x300x300_S16x300x300) (concatenate S2000000x2 1 [⟨S2000000x1, (broadcastInDim S2000000x1 ![0] bcast_S2000000_S2000000x1_0 (GS.wrap (GS.next (GS.col2 (m ((c : Thread nD τ).loc main_arg0))))))⟩, ⟨S2000000x1, (broadcastInDim S2000000x1 ![0] bcast_S2000000_S2000000x1_0 (GS.wrap (GS.cell (GS.col0 (m ((c : Thread nD τ).loc main_arg0))))))⟩] concatenates_S2000000x1_S2000000x1_S2000000x2_d1)) (broadcastInDim S16x2000000 ![0, 1] bcast_S1x2000000_S16x2000000_0_1 (broadcastInDim S1x2000000 ![1] bcast_S2000000_S1x2000000_1 (subf (broadcastInDim S2000000 ![] bcast_S_S2000000 (constant S_ .f32 0x3F800000#32)) (GS.frac (GS.col0 (m ((c : Thread nD τ).loc main_arg0)))))))) (mulf (Host.gather gather_S16x300x300_S2000000x2_S16x2000000_0_12_n_n_12_1_1611 (shapeCast _ (extractStridedSlice S1x16x300x300 ![1, 0, 0, 0] (m ((c : Thread nD τ).loc main_arg1)) slices_S3x16x300x300_S1x16x300x300_1_0_0_0) shapeCasts_S1x16x300x300_S16x300x300) (concatenate S2000000x2 1 [⟨S2000000x1, (broadcastInDim S2000000x1 ![0] bcast_S2000000_S2000000x1_0 (GS.wrap (GS.next (GS.col2 (m ((c : Thread nD τ).loc main_arg0))))))⟩, ⟨S2000000x1, (broadcastInDim S2000000x1 ![0] bcast_S2000000_S2000000x1_0 (GS.wrap (GS.next (GS.col0 (m ((c : Thread nD τ).loc main_arg0))))))⟩] concatenates_S2000000x1_S2000000x1_S2000000x2_d1)) (broadcastInDim S16x2000000 ![0, 1] bcast_S1x2000000_S16x2000000_0_1 (broadcastInDim S1x2000000 ![1] bcast_S2000000_S1x2000000_1 (GS.frac (GS.col0 (m ((c : Thread nD τ).loc main_arg0)))))))) (broadcastInDim S16x2000000 ![0, 1] bcast_S1x2000000_S16x2000000_0_1 (broadcastInDim S1x2000000 ![1] bcast_S2000000_S1x2000000_1 (GS.frac (GS.col2 (m ((c : Thread nD τ).loc main_arg0)))))))) (addf (mulf (Host.gather gather_S16x300_S2000000x1_S16x2000000_0_1_n_n_1_1_161 (shapeCast _ (extractStridedSlice S1x16x300 ![1, 0, 0] (m ((c : Thread nD τ).loc main_arg2)) slices_S3x16x300_S1x16x300_1_0_0) shapeCasts_S1x16x300_S16x300) (broadcastInDim S2000000x1 ![0] bcast_S2000000_S2000000x1_0 (GS.wrap (GS.cell (GS.col1 (m ((c : Thread nD τ).loc main_arg0))))))) (broadcastInDim S16x2000000 ![0, 1] bcast_S1x2000000_S16x2000000_0_1 (broadcastInDim S1x2000000 ![1] bcast_S2000000_S1x2000000_1 (subf (broadcastInDim S2000000 ![] bcast_S_S2000000 (constant S_ .f32 0x3F800000#32)) (GS.frac (GS.col1 (m ((c : Thread nD τ).loc main_arg0)))))))) (mulf (Host.gather gather_S16x300_S2000000x1_S16x2000000_0_1_n_n_1_1_161 (shapeCast _ (extractStridedSlice S1x16x300 ![1, 0, 0] (m ((c : Thread nD τ).loc main_arg2)) slices_S3x16x300_S1x16x300_1_0_0) shapeCasts_S1x16x300_S16x300) (broadcastInDim S2000000x1 ![0] bcast_S2000000_S2000000x1_0 (GS.wrap (GS.next (GS.col1 (m ((c : Thread nD τ).loc main_arg0))))))) (broadcastInDim S16x2000000 ![0, 1] bcast_S1x2000000_S16x2000000_0_1 (broadcastInDim S1x2000000 ![1] bcast_S2000000_S1x2000000_1 (GS.frac (GS.col1 (m ((c : Thread nD τ).loc main_arg0)))))))))⟩, ⟨S16x2000000, (mulf (addf (mulf (addf (mulf (Host.gather gather_S16x300x300_S2000000x2_S16x2000000_0_12_n_n_12_1_1611 (shapeCast _ (extractStridedSlice S1x16x300x300 ![2, 0, 0, 0] (m ((c : Thread nD τ).loc main_arg1)) slices_S3x16x300x300_S1x16x300x300_2_0_0_0) shapeCasts_S1x16x300x300_S16x300x300) (concatenate S2000000x2 1 [⟨S2000000x1, (broadcastInDim S2000000x1 ![0] bcast_S2000000_S2000000x1_0 (GS.wrap (GS.cell (GS.col1 (m ((c : Thread nD τ).loc main_arg0))))))⟩, ⟨S2000000x1, (broadcastInDim S2000000x1 ![0] bcast_S2000000_S2000000x1_0 (GS.wrap (GS.cell (GS.col0 (m ((c : Thread nD τ).loc main_arg0))))))⟩] concatenates_S2000000x1_S2000000x1_S2000000x2_d1)) (broadcastInDim S16x2000000 ![0, 1] bcast_S1x2000000_S16x2000000_0_1 (broadcastInDim S1x2000000 ![1] bcast_S2000000_S1x2000000_1 (subf (broadcastInDim S2000000 ![] bcast_S_S2000000 (constant S_ .f32 0x3F800000#32)) (GS.frac (GS.col0 (m ((c : Thread nD τ).loc main_arg0)))))))) (mulf (Host.gather gather_S16x300x300_S2000000x2_S16x2000000_0_12_n_n_12_1_1611 (shapeCast _ (extractStridedSlice S1x16x300x300 ![2, 0, 0, 0] (m ((c : Thread nD τ).loc main_arg1)) slices_S3x16x300x300_S1x16x300x300_2_0_0_0) shapeCasts_S1x16x300x300_S16x300x300) (concatenate S2000000x2 1 [⟨S2000000x1, (broadcastInDim S2000000x1 ![0] bcast_S2000000_S2000000x1_0 (GS.wrap (GS.cell (GS.col1 (m ((c : Thread nD τ).loc main_arg0))))))⟩, ⟨S2000000x1, (broadcastInDim S2000000x1 ![0] bcast_S2000000_S2000000x1_0 (GS.wrap (GS.next (GS.col0 (m ((c : Thread nD τ).loc main_arg0))))))⟩] concatenates_S2000000x1_S2000000x1_S2000000x2_d1)) (broadcastInDim S16x2000000 ![0, 1] bcast_S1x2000000_S16x2000000_0_1 (broadcastInDim S1x2000000 ![1] bcast_S2000000_S1x2000000_1 (GS.frac (GS.col0 (m ((c : Thread nD τ).loc main_arg0)))))))) (broadcastInDim S16x2000000 ![0, 1] bcast_S1x2000000_S16x2000000_0_1 (broadcastInDim S1x2000000 ![1] bcast_S2000000_S1x2000000_1 (subf (broadcastInDim S2000000 ![] bcast_S_S2000000 (constant S_ .f32 0x3F800000#32)) (GS.frac (GS.col1 (m ((c : Thread nD τ).loc main_arg0)))))))) (mulf (addf (mulf (Host.gather gather_S16x300x300_S2000000x2_S16x2000000_0_12_n_n_12_1_1611 (shapeCast _ (extractStridedSlice S1x16x300x300 ![2, 0, 0, 0] (m ((c : Thread nD τ).loc main_arg1)) slices_S3x16x300x300_S1x16x300x300_2_0_0_0) shapeCasts_S1x16x300x300_S16x300x300) (concatenate S2000000x2 1 [⟨S2000000x1, (broadcastInDim S2000000x1 ![0] bcast_S2000000_S2000000x1_0 (GS.wrap (GS.next (GS.col1 (m ((c : Thread nD τ).loc main_arg0))))))⟩, ⟨S2000000x1, (broadcastInDim S2000000x1 ![0] bcast_S2000000_S2000000x1_0 (GS.wrap (GS.cell (GS.col0 (m ((c : Thread nD τ).loc main_arg0))))))⟩] concatenates_S2000000x1_S2000000x1_S2000000x2_d1)) (broadcastInDim S16x2000000 ![0, 1] bcast_S1x2000000_S16x2000000_0_1 (broadcastInDim S1x2000000 ![1] bcast_S2000000_S1x2000000_1 (subf (broadcastInDim S2000000 ![] bcast_S_S2000000 (constant S_ .f32 0x3F800000#32)) (GS.frac (GS.col0 (m ((c : Thread nD τ).loc main_arg0)))))))) (mulf (Host.gather gather_S16x300x300_S2000000x2_S16x2000000_0_12_n_n_12_1_1611 (shapeCast _ (extractStridedSlice S1x16x300x300 ![2, 0, 0, 0] (m ((c : Thread nD τ).loc main_arg1)) slices_S3x16x300x300_S1x16x300x300_2_0_0_0) shapeCasts_S1x16x300x300_S16x300x300) (concatenate S2000000x2 1 [⟨S2000000x1, (broadcastInDim S2000000x1 ![0] bcast_S2000000_S2000000x1_0 (GS.wrap (GS.next (GS.col1 (m ((c : Thread nD τ).loc main_arg0))))))⟩, ⟨S2000000x1, (broadcastInDim S2000000x1 ![0] bcast_S2000000_S2000000x1_0 (GS.wrap (GS.next (GS.col0 (m ((c : Thread nD τ).loc main_arg0))))))⟩] concatenates_S2000000x1_S2000000x1_S2000000x2_d1)) (broadcastInDim S16x2000000 ![0, 1] bcast_S1x2000000_S16x2000000_0_1 (broadcastInDim S1x2000000 ![1] bcast_S2000000_S1x2000000_1 (GS.frac (GS.col0 (m ((c : Thread nD τ).loc main_arg0)))))))) (broadcastInDim S16x2000000 ![0, 1] bcast_S1x2000000_S16x2000000_0_1 (broadcastInDim S1x2000000 ![1] bcast_S2000000_S1x2000000_1 (GS.frac (GS.col1 (m ((c : Thread nD τ).loc main_arg0)))))))) (addf (mulf (Host.gather gather_S16x300_S2000000x1_S16x2000000_0_1_n_n_1_1_161 (shapeCast _ (extractStridedSlice S1x16x300 ![2, 0, 0] (m ((c : Thread nD τ).loc main_arg2)) slices_S3x16x300_S1x16x300_2_0_0) shapeCasts_S1x16x300_S16x300) (broadcastInDim S2000000x1 ![0] bcast_S2000000_S2000000x1_0 (GS.wrap (GS.cell (GS.col2 (m ((c : Thread nD τ).loc main_arg0))))))) (broadcastInDim S16x2000000 ![0, 1] bcast_S1x2000000_S16x2000000_0_1 (broadcastInDim S1x2000000 ![1] bcast_S2000000_S1x2000000_1 (subf (broadcastInDim S2000000 ![] bcast_S_S2000000 (constant S_ .f32 0x3F800000#32)) (GS.frac (GS.col2 (m ((c : Thread nD τ).loc main_arg0)))))))) (mulf (Host.gather gather_S16x300_S2000000x1_S16x2000000_0_1_n_n_1_1_161 (shapeCast _ (extractStridedSlice S1x16x300 ![2, 0, 0] (m ((c : Thread nD τ).loc main_arg2)) slices_S3x16x300_S1x16x300_2_0_0) shapeCasts_S1x16x300_S16x300) (broadcastInDim S2000000x1 ![0] bcast_S2000000_S2000000x1_0 (GS.wrap (GS.next (GS.col2 (m ((c : Thread nD τ).loc main_arg0))))))) (broadcastInDim S16x2000000 ![0, 1] bcast_S1x2000000_S16x2000000_0_1 (broadcastInDim S1x2000000 ![1] bcast_S2000000_S1x2000000_1 (GS.frac (GS.col2 (m ((c : Thread nD τ).loc main_arg0)))))))))⟩] concatenates_S16x2000000_S16x2000000_S16x2000000_S48x2000000_d0) := by
    simp only [ops, ops0, ops1, ops2, ops3, ops4, ops5, ops6, ops7, ops8, ops9, ops10, List.cons_append, List.nil_append, List.append_nil]
    after_results_three
    rfl
  exact h1.trans rfl

end Cert.ReferenceIdeal.Hand

end
-- ==== Proof.RefArgs.lean ====
/-
  The reference's run, read: no operation of the reference writes an argument array, so the three arguments end as
  they began, and the result buffer ends at the stacked products of the sampled planes and lines.
-/
import proofs.«171750_j84275848282428_2_alg».proof.Proof.RefValue

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 400000000 in
/-- No operation of the reference writes an argument array: the rewriting pass walks past every operation. -/
theorem arg0_kept (m : (ℓ : Loc nD τ sig) → Buf (Elt F) ℓ) (c : Dev nD) :
    after (ops (F := F)) (launchContents m c) (Proc.devRef .tc main_arg0) = m ((c : Thread nD τ).loc main_arg0) := by
  simp only [ops, ops0, ops1, ops2, ops3, ops4, ops5, ops6, ops7, ops8, ops9, ops10, List.cons_append, List.nil_append, List.append_nil]
  after_results_three
  try rfl
set_option maxHeartbeats 400000000 in
theorem arg1_kept (m : (ℓ : Loc nD τ sig) → Buf (Elt F) ℓ) (c : Dev nD) :
    after (ops (F := F)) (launchContents m c) (Proc.devRef .tc main_arg1) = m ((c : Thread nD τ).loc main_arg1) := by
  simp only [ops, ops0, ops1, ops2, ops3, ops4, ops5, ops6, ops7, ops8, ops9, ops10, List.cons_append, List.nil_append, List.append_nil]
  after_results_three
  try rfl
set_option maxHeartbeats 400000000 in
theorem arg2_kept (m : (ℓ : Loc nD τ sig) → Buf (Elt F) ℓ) (c : Dev nD) :
    after (ops (F := F)) (launchContents m c) (Proc.devRef .tc main_arg2) = m ((c : Thread nD τ).loc main_arg2) := by
  simp only [ops, ops0, ops1, ops2, ops3, ops4, ops5, ops6, ops7, ops8, ops9, ops10, List.cons_append, List.nil_append, List.append_nil]
  after_results_three
  try rfl

/-- THE REFERENCE'S RUN: every weakly fair execution terminates without a fault, the result buffer at the stacked
    products and the three arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v486)
        = GS.refResult (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v486).trans (result_eq m c),
      (h c main_arg0).trans (arg0_kept m c), (h c main_arg1).trans (arg1_kept m c), (h c main_arg2).trans (arg2_kept m c)⟩)
    (run_all m ρ)

end Cert.ReferenceIdeal.Hand

end
-- ==== Proof.lean ====
/-
  The certificate.  The kernel program (as printed, and read over the extended reals) and the reference both run to
  the end without a fault and leave their three argument arrays as they were; the idealization rewrote nothing, so
  there is nothing to preserve; and, read over the extended reals from memories that agree on the arguments, the
  kernel program's result array and the reference's are one array: the bilinear sample of each plane table times the
  linear sample of its line table, the three planes stacked.

  The kernel program is a long line of array operations (coordinate arithmetic, table look-ups, the x-interpolation)
  and one launch over 313 blocks of 6400 points, the last block overhanging the arrays by half; the frame is the
  library's frame theorem for such a launch, from the body's triple.  The value is read in three steps: the output
  array from the operand arrays the launch finds (block by block), those from the arguments (operation by operation),
  and both programs' arrays at one element against one sampled value.
-/
import proofs.«171750_j84275848282428_2_alg».proof.Defs
import proofs.«171750_j84275848282428_2_alg».proof.Proof.Gen.Kernel
import proofs.«171750_j84275848282428_2_alg».proof.Proof.Gen.KernelIdeal
import proofs.«171750_j84275848282428_2_alg».proof.Proof.Gen.ReferenceIdeal
import proofs.«171750_j84275848282428_2_alg».proof.Proof.Gen.Pre_finite_inputs
import proofs.«171750_j84275848282428_2_alg».proof.Proof.KBitsFrame
import proofs.«171750_j84275848282428_2_alg».proof.Proof.Bridge
import proofs.«171750_j84275848282428_2_alg».proof.Proof.RefArgs
import Idealize.ShloMosaic.Adequacy
import Idealize.ShloMosaic.Init

noncomputable section

namespace Cert.Proof

open Idealize.ShloMosaic Idealize.SL.Sem

/-- The kernel program as printed runs, faults nowhere and keeps its arguments. -/
theorem frame_p : Cert.frame_Kernel := fun m ρ _ => Cert.Kernel.Hand.frame m ρ

/-- So does the kernel program read over the extended reals. -/
theorem frame_pi : Cert.frame_KernelIdeal := fun m ρ _ => Cert.KernelIdeal.Hand.frame m ρ

/-- So does the reference. -/
theorem frame_ri : Cert.frame_ReferenceIdeal := fun m ρ _ =>
  (θ_run Cert.ReferenceIdeal.defs _ _).mono (fun _ h c => (h c).2) (Cert.ReferenceIdeal.Hand.run (F := Ideal) m ρ)

/-- The idealization rewrote no operation. -/
theorem preserves : Cert.preserves_Kernel_KernelIdeal := trivial

/-- Over the extended reals, from memories that agree on the arguments, both programs end with the same result
    array: the kernel program's is the reference's function of the arguments. -/
theorem algebraic : Cert.algebraic_KernelIdeal_ReferenceIdeal := by
  intro m ρ m' ρ' _ hagree
  refine ⟨fun c => (show Buf (Elt Ideal) ((c.tc : Thread Cert.KernelIdeal.nD Cert.KernelIdeal.τ).loc Cert.KernelIdeal.main_v446) from
      GS.refResult (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))), ?_, ?_⟩
  · exact (θ_run Cert.KernelIdeal.defs _ _).mono (fun _ h c => ⟨(h c).1.trans (Cert.Proof.Bridge.kernel_result m c), (h c).2⟩)
      (Cert.KernelIdeal.Hand.run_value (F := Ideal) m ρ)
  · refine (θ_run Cert.ReferenceIdeal.defs _ _).mono (fun _ h c => ⟨(h c).1.trans ?_, (h c).2⟩)
      (Cert.ReferenceIdeal.Hand.run (F := Ideal) m' ρ')
    rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
